-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S16384x20 : Shape := ⟨2, ![16384, 20]⟩
abbrev S12x64 : Shape := ⟨2, ![12, 64]⟩
abbrev S16x64 : Shape := ⟨2, ![16, 64]⟩
abbrev S_ : Shape := ⟨0, ![]⟩

class Facts : Prop where
  bcast_S_S12x64 : S_.BroadcastsInDim S12x64 (![] : Fin 0 → Fin S12x64.rank)
  reducesTo_S12x64_S_d0_1 : S12x64.ReducesTo [0, 1] S_
  h_S_ : 0 < S_.numel
  bcast_S_S16x64 : S_.BroadcastsInDim S16x64 (![] : Fin 0 → Fin S16x64.rank)
  reducesTo_S16x64_S_d0_1 : S16x64.ReducesTo [0, 1] S_
  bcast_S_S16384x20 : S_.BroadcastsInDim S16384x20 (![] : Fin 0 → Fin S16384x20.rank)
  reducesTo_S16384x20_S_d0_1 : S16384x20.ReducesTo [0, 1] S_

variable [Facts]

def fn_part1 {F : FTy → Type} [FloatOps F] (main_arg1 : IVec S16384x20 32) (main_v15 : IVec S_ 1) (main_c_5 : IVec S_ 32) : IVec S_ 1 :=
  let main_v16 : IVec S16384x20 32 := broadcastInDim S16384x20 ![] bcast_S_S16384x20 main_c_5
  let main_v17 : IVec S16384x20 1 := cmpi .sge main_arg1 main_v16
  let main_c_6 : IVec S_ 32 := constantI S_ 32 15#32
  let main_v18 : IVec S16384x20 32 := broadcastInDim S16384x20 ![] bcast_S_S16384x20 main_c_6
  let main_v19 : IVec S16384x20 1 := cmpi .sle main_arg1 main_v18
  let main_v20 : IVec S16384x20 1 := andi main_v17 main_v19
  let main_c_7 : IVec S_ 1 := constantI S_ 1 1#1
  let main_v21 : IVec S_ 1 := (fun x v => Host.reduce IntOp.andi x v reducesTo_S16384x20_S_d0_1 h_S_) main_v20 main_c_7
  let main_v22 : IVec S_ 1 := andi main_v15 main_v21
  main_v22

def fn {F : FTy → Type} [FloatOps F] (main_arg0 : IVec S16384x20 32) (main_arg1 : IVec S16384x20 32) (main_arg2 : FVec F S12x64 .f32) (main_arg3 : FVec F S16x64 .f32) : IVec S_ 1 :=
  let main_v0 : FVec F S12x64 .f32 := Host.absf main_arg2
  let main_cst : FVec F S_ .f32 := constant S_ .f32 0x7F800000#32
  let main_v1 : FVec F S12x64 .f32 := broadcastInDim S12x64 ![] bcast_S_S12x64 main_cst
  let main_v2 : IVec S12x64 1 := cmpf .olt main_v0 main_v1
  let main_c : IVec S_ 1 := constantI S_ 1 1#1
  let main_v3 : IVec S_ 1 := (fun x v => Host.reduce IntOp.andi x v reducesTo_S12x64_S_d0_1 h_S_) main_v2 main_c
  let main_v4 : FVec F S16x64 .f32 := Host.absf main_arg3
  let main_cst_0 : FVec F S_ .f32 := constant S_ .f32 0x7F800000#32
  let main_v5 : FVec F S16x64 .f32 := broadcastInDim S16x64 ![] bcast_S_S16x64 main_cst_0
  let main_v6 : IVec S16x64 1 := cmpf .olt main_v4 main_v5
  let main_c_1 : IVec S_ 1 := constantI S_ 1 1#1
  let main_v7 : IVec S_ 1 := (fun x v => Host.reduce IntOp.andi x v reducesTo_S16x64_S_d0_1 h_S_) main_v6 main_c_1
  let main_v8 : IVec S_ 1 := andi main_v3 main_v7
  let main_c_2 : IVec S_ 32 := constantI S_ 32 0#32
  let main_v9 : IVec S16384x20 32 := broadcastInDim S16384x20 ![] bcast_S_S16384x20 main_c_2
  let main_v10 : IVec S16384x20 1 := cmpi .sge main_arg0 main_v9
  let main_c_3 : IVec S_ 32 := constantI S_ 32 11#32
  let main_v11 : IVec S16384x20 32 := broadcastInDim S16384x20 ![] bcast_S_S16384x20 main_c_3
  let main_v12 : IVec S16384x20 1 := cmpi .sle main_arg0 main_v11
  let main_v13 : IVec S16384x20 1 := andi main_v10 main_v12
  let main_c_4 : IVec S_ 1 := constantI S_ 1 1#1
  let main_v14 : IVec S_ 1 := (fun x v => Host.reduce IntOp.andi x v reducesTo_S16384x20_S_d0_1 h_S_) main_v13 main_c_4
  let main_v15 : IVec S_ 1 := andi main_v8 main_v14
  let main_c_5 : IVec S_ 32 := constantI S_ 32 0#32
  fn_part1 (F := F) main_arg1 main_v15 main_c_5
-- ==== Kernel.lean ====
abbrev S16384x20 : Shape := ⟨2, ![16384, 20]⟩
abbrev S12x64 : Shape := ⟨2, ![12, 64]⟩
abbrev S16x64 : Shape := ⟨2, ![16, 64]⟩
abbrev S12x16x64 : Shape := ⟨3, ![12, 16, 64]⟩
abbrev S192x64 : Shape := ⟨2, ![192, 64]⟩
abbrev S1x16x1x64 : Shape := ⟨4, ![1, 16, 1, 64]⟩
abbrev S12x16x1x64 : Shape := ⟨4, ![12, 16, 1, 64]⟩
abbrev S192x128 : Shape := ⟨2, ![192, 128]⟩
abbrev S_ : Shape := ⟨0, ![]⟩
abbrev S327680 : Shape := ⟨1, ![327680]⟩
abbrev S16384x20x128 : Shape := ⟨3, ![16384, 20, 128]⟩
abbrev S10240 : Shape := ⟨1, ![10240]⟩
abbrev S2x1x80 : Shape := ⟨3, ![2, 1, 80]⟩
abbrev S2x80x128 : Shape := ⟨3, ![2, 80, 128]⟩
abbrev S16 : Shape := ⟨1, ![16]⟩
abbrev S1x1x80 : Shape := ⟨3, ![1, 1, 80]⟩
abbrev S1x80 : Shape := ⟨2, ![1, 80]⟩
abbrev S80 : Shape := ⟨1, ![80]⟩
abbrev S1x80x128 : Shape := ⟨3, ![1, 80, 128]⟩
abbrev S80x128 : Shape := ⟨2, ![80, 128]⟩
abbrev S20x128 : Shape := ⟨2, ![20, 128]⟩
abbrev S1x20x128 : Shape := ⟨3, ![1, 20, 128]⟩

abbrev nBuf : Table → Nat
  | .hbm => 16
  | .shared => 1
  | .local .scVector .vmem => 3
  | _ => 0

abbrev bufTy : (tb : Table) → Fin (nBuf tb) → BufTy
  | .hbm, ⟨0, _⟩ => ⟨S16384x20, .i32⟩
  | .hbm, ⟨1, _⟩ => ⟨S16384x20, .i32⟩
  | .hbm, ⟨2, _⟩ => ⟨S12x64, .f32⟩
  | .hbm, ⟨3, _⟩ => ⟨S16x64, .f32⟩
  | .hbm, ⟨4, _⟩ => ⟨S12x16x64, .f32⟩
  | .hbm, ⟨5, _⟩ => ⟨S192x64, .f32⟩
  | .hbm, ⟨6, _⟩ => ⟨S1x16x1x64, .f32⟩
  | .hbm, ⟨7, _⟩ => ⟨S12x16x1x64, .f32⟩
  | .hbm, ⟨8, _⟩ => ⟨S192x64, .f32⟩
  | .hbm, ⟨9, _⟩ => ⟨S192x128, .f32⟩
  | .hbm, ⟨10, _⟩ => ⟨S_, .i32⟩
  | .hbm, ⟨11, _⟩ => ⟨S16384x20, .i32⟩
  | .hbm, ⟨12, _⟩ => ⟨S16384x20, .i32⟩
  | .hbm, ⟨13, _⟩ => ⟨S16384x20, .i32⟩
  | .hbm, ⟨14, _⟩ => ⟨S327680, .i32⟩
  | .hbm, ⟨15, _⟩ => ⟨S16384x20x128, .f32⟩
  | .shared, ⟨0, _⟩ => ⟨S192x128, .f32⟩
  | .local .scVector .vmem, ⟨0, _⟩ => ⟨S10240, .i32⟩
  | .local .scVector .vmem, ⟨1, _⟩ => ⟨S2x1x80, .i32⟩
  | .local .scVector .vmem, ⟨2, _⟩ => ⟨S2x80x128, .f32⟩
  | _, _ => ⟨S16384x20, .i32⟩

abbrev bufScoped : (cs : CoreSpace) → Fin (nBuf (.local .tc cs)) → Bool
  | _, _ => false

abbrev semScoped : Fin 5 → Bool
  | ⟨0, _⟩ => false
  | ⟨1, _⟩ => false
  | ⟨2, _⟩ => false
  | ⟨3, _⟩ => false
  | ⟨4, _⟩ => false
  | _ => false

abbrev dmaSemScoped : Fin 6 → Bool
  | ⟨0, _⟩ => false
  | ⟨1, _⟩ => false
  | ⟨2, _⟩ => false
  | ⟨3, _⟩ => false
  | ⟨4, _⟩ => false
  | ⟨5, _⟩ => false
  | _ => false

abbrev sig : RefSig :=
  ofTables nBuf rfl bufTy 5 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v9_scv : Ref sig .scVector := ⟨.hbm, 14, rfl⟩
abbrev main_v5_scv : Ref sig .scVector := ⟨.hbm, 9, rfl⟩
abbrev main_v10_scv : Ref sig .scVector := ⟨.hbm, 15, rfl⟩
abbrev cc0_scratch3 : Ref sig .scVector := ⟨.shared, 0, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3
abbrev sc_bar0 : Sem sig := 4

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10240_i32 : BitVec 32 := 10240#32
  let v2 : BitVec 32 := Scalar.muli v1 c10240_i32
  ![v2.toNat]
def k0_off2 (i : grid0.Coords) (c0_i32_52 : BitVec 32) (c0_i32_53 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v3 : BitVec 32 := Scalar.muli v1 c512_i32
  let v66 : BitVec 32 := Scalar.addi v3 c0_i32_52
  let v67 : BitVec 32 := Scalar.addi v66 c0_i32_53
  let c0_i32_59 : BitVec 32 := 0#32
  let c0_i32_60 : BitVec 32 := 0#32
  ![v67.toNat, 0, 0]
@[reducible] def k0_t1_loop : Scf.Loop 32 :=
  let c1_i32_217 : BitVec 32 := 1#32
  let c63_i32 : BitVec 32 := 63#32
  let v221 : BitVec 32 := Scalar.addi c1_i32_217 c63_i32
  let c1_i32_218 : BitVec 32 := 1#32
  ⟨c1_i32_217, v221, c1_i32_218⟩
def k0_off3 (k0_t1 : Fin k0_t1_loop.trips) (c0_i32_325 : BitVec 32) (c0_i32_326 : BitVec 32) : Fin 1 → Nat :=
  let c2_i32_324 : BitVec 32 := 2#32
  let c1_i32_217 : BitVec 32 := 1#32
  let c1_i32_218 : BitVec 32 := 1#32
  let arg13 : BitVec 32 := Scf.iv c1_i32_217 c1_i32_218 k0_t1
  let v302 : BitVec 32 := Scalar.muli c2_i32_324 arg13
  let v303 : BitVec 32 := Scalar.addi v302 c0_i32_325
  let c80_i32 : BitVec 32 := 80#32
  let v304 : BitVec 32 := Scalar.muli v303 c80_i32
  let v305 : BitVec 32 := Scalar.addi v304 c0_i32_326
  let v306 : Index := Scalar.indexCast v305
  ![v306.toNat]
def k0_off4 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v3 : BitVec 32 := Scalar.muli v1 c512_i32
  let c0_i32_366 : BitVec 32 := 0#32
  let c0_i32_367 : BitVec 32 := 0#32
  ![v3.toNat, 0, 0]
def k0_off5 (i : grid0.Coords) (k0_t1 : Fin k0_t1_loop.trips) (c0_i32_325 : BitVec 32) (c0_i32_434 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v3 : BitVec 32 := Scalar.muli v1 c512_i32
  let c2_i32_324 : BitVec 32 := 2#32
  let c1_i32_217 : BitVec 32 := 1#32
  let c1_i32_218 : BitVec 32 := 1#32
  let arg13 : BitVec 32 := Scf.iv c1_i32_217 c1_i32_218 k0_t1
  let v302 : BitVec 32 := Scalar.muli c2_i32_324 arg13
  let v303 : BitVec 32 := Scalar.addi v302 c0_i32_325
  let c4_i32_433 : BitVec 32 := 4#32
  let v418 : BitVec 32 := Scalar.muli v303 c4_i32_433
  let v419 : BitVec 32 := Scalar.addi v3 v418
  let v420 : BitVec 32 := Scalar.addi v419 c0_i32_434
  let c0_i32_440 : BitVec 32 := 0#32
  let c0_i32_441 : BitVec 32 := 0#32
  ![v420.toNat, 0, 0]
def k0_off6 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v3 : BitVec 32 := Scalar.muli v1 c512_i32
  let c0_i32_225 : BitVec 32 := 0#32
  let c0_i32_226 : BitVec 32 := 0#32
  ![v3.toNat, 0, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  bcast_S12x64_S12x16x64_0_2 : S12x64.BroadcastsInDim S12x16x64 (![0, 2] : Fin 2 → Fin S12x16x64.rank)
  shapeCasts_S12x16x64_S192x64 : S12x16x64.ShapeCasts S192x64
  shapeCasts_S16x64_S1x16x1x64 : S16x64.ShapeCasts S1x16x1x64
  bcast_S1x16x1x64_S12x16x1x64_0_1_2_3 : S1x16x1x64.BroadcastsInDim S12x16x1x64 (![0, 1, 2, 3] : Fin 4 → Fin S12x16x1x64.rank)
  shapeCasts_S12x16x1x64_S192x64 : S12x16x1x64.ShapeCasts S192x64
  concatenates_S192x64_S192x64_S192x128_d1 : Shape.Concatenates [S192x64, S192x64] S192x128 1
  bcast_S_S16384x20 : S_.BroadcastsInDim S16384x20 (![] : Fin 0 → Fin S16384x20.rank)
  shapeCasts_S16384x20_S327680 : S16384x20.ShapeCasts S327680
  inb_S10240_S16_0 : ∀ a, (![0] : Fin 1 → Nat) a + S16.size a ≤ S10240.size a
  h_S16 : 0 < S16.numel
  shapeCasts_S16_S16 : S16.ShapeCasts S16
  inb_S2x1x80_S1x1x80_0_0_0 : ∀ a, (![0, 0, 0] : Fin 3 → Nat) a + S1x1x80.size a ≤ S2x1x80.size a
  squeezes_S1x1x80_S1x80 : S1x1x80.Squeezes S1x80
  inb_S1x80_S1x80_0_0 : ∀ a, (![0, 0] : Fin 2 → Nat) a + S1x80.size a ≤ S1x80.size a
  squeezes_S1x80_S80 : S1x80.Squeezes S80
  inb_S80_S16_0 : ∀ a, (![0] : Fin 1 → Nat) a + S16.size a ≤ S80.size a
  inb_S10240_S16_16 : ∀ a, (![16] : Fin 1 → Nat) a + S16.size a ≤ S10240.size a
  inb_S80_S16_16 : ∀ a, (![16] : Fin 1 → Nat) a + S16.size a ≤ S80.size a
  inb_S10240_S16_32 : ∀ a, (![32] : Fin 1 → Nat) a + S16.size a ≤ S10240.size a
  inb_S80_S16_32 : ∀ a, (![32] : Fin 1 → Nat) a + S16.size a ≤ S80.size a
  inb_S10240_S16_48 : ∀ a, (![48] : Fin 1 → Nat) a + S16.size a ≤ S10240.size a
  inb_S80_S16_48 : ∀ a, (![48] : Fin 1 → Nat) a + S16.size a ≤ S80.size a
  inb_S10240_S16_64 : ∀ a, (![64] : Fin 1 → Nat) a + S16.size a ≤ S10240.size a
  inb_S80_S16_64 : ∀ a, (![64] : Fin 1 → Nat) a + S16.size a ≤ S80.size a
  inb_S2x80x128_S1x80x128_0_0_0 : ∀ a, (![0, 0, 0] : Fin 3 → Nat) a + S1x80x128.size a ≤ S2x80x128.size a
  squeezes_S1x80x128_S80x128 : S1x80x128.Squeezes S80x128
  inb_S192x128_S192x128_0_0 : ∀ a, (![0, 0] : Fin 2 → Nat) a + S192x128.size a ≤ S192x128.size a
  gathers_S192x128_S80x128 : S192x128.Gathers 0 S80x128
  inb_S80x128_S20x128_0_0 : ∀ a, (![0, 0] : Fin 2 → Nat) a + S20x128.size a ≤ S80x128.size a
  squeezes_S1x20x128_S20x128 : S1x20x128.Squeezes S20x128
  inb_S80x128_S20x128_20_0 : ∀ a, (![20, 0] : Fin 2 → Nat) a + S20x128.size a ≤ S80x128.size a
  inb_S80x128_S20x128_40_0 : ∀ a, (![40, 0] : Fin 2 → Nat) a + S20x128.size a ≤ S80x128.size a
  inb_S80x128_S20x128_60_0 : ∀ a, (![60, 0] : Fin 2 → Nat) a + S20x128.size a ≤ S80x128.size a
  inb_S10240_S16_80 : ∀ a, (![80] : Fin 1 → Nat) a + S16.size a ≤ S10240.size a
  inb_S2x1x80_S1x1x80_1_0_0 : ∀ a, (![1, 0, 0] : Fin 3 → Nat) a + S1x1x80.size a ≤ S2x1x80.size a
  inb_S10240_S16_96 : ∀ a, (![96] : Fin 1 → Nat) a + S16.size a ≤ S10240.size a
  inb_S10240_S16_112 : ∀ a, (![112] : Fin 1 → Nat) a + S16.size a ≤ S10240.size a
  inb_S10240_S16_128 : ∀ a, (![128] : Fin 1 → Nat) a + S16.size a ≤ S10240.size a
  inb_S10240_S16_144 : ∀ a, (![144] : Fin 1 → Nat) a + S16.size a ≤ S10240.size a
  inb_S2x80x128_S1x80x128_1_0_0 : ∀ a, (![1, 0, 0] : Fin 3 → Nat) a + S1x80x128.size a ≤ S2x80x128.size a
  hcc0_scratch4 : 0 + S_.numel ≤ 6
  hcc0_scratch5 : 1 + S_.numel ≤ 6
  hcc0_scratch6 : 2 + S_.numel ≤ 6
  hcc0_scratch7 : 3 + S_.numel ≤ 6
  hcc0_scoped0 : 4 + S_.numel ≤ 6
  hcc0_scoped1 : 5 + S_.numel ≤ 6
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S10240.size a ≤ S327680.size a
  k0_off2_inb : ∀ i : grid0.Coords, ∀ (r₁ : Fin 2) (r₂ : Fin 4), ∀ a, (k0_off2 i (BitVec.ofNat 32 (4 * r₁.val)) (BitVec.ofNat 32 r₂.val)) a + S1x20x128.size a ≤ S16384x20x128.size a
  k0_t1_ok : k0_t1_loop.OK
  k0_off3_inb : ∀ k0_t1 : Fin k0_t1_loop.trips, ∀ (r₁ : Fin 2) (r₂ : Fin 5), ∀ a, (k0_off3 k0_t1 (BitVec.ofNat 32 r₁.val) (BitVec.ofNat 32 (16 * r₂.val))) a + S16.size a ≤ S10240.size a
  k0_off4_inb : ∀ i : grid0.Coords, ∀ a, (k0_off4 i) a + S1x20x128.size a ≤ S16384x20x128.size a
  k0_off5_inb : ∀ (i : grid0.Coords) (k0_t1 : Fin k0_t1_loop.trips), ∀ (r₁ : Fin 2) (r₂ : Fin 4), ∀ a, (k0_off5 i k0_t1 (BitVec.ofNat 32 r₁.val) (BitVec.ofNat 32 r₂.val)) a + S1x20x128.size a ≤ S16384x20x128.size a
  k0_off6_inb : ∀ i : grid0.Coords, ∀ a, (k0_off6 i) a + S1x20x128.size a ≤ S16384x20x128.size a

variable [Facts₀]

abbrev cc0_scratch4 : DmaSems sig S_ := SemArray.consecutive 0 S_ hcc0_scratch4
abbrev cc0_scratch5 : DmaSems sig S_ := SemArray.consecutive 1 S_ hcc0_scratch5
abbrev cc0_scratch6 : DmaSems sig S_ := SemArray.consecutive 2 S_ hcc0_scratch6
abbrev cc0_scratch7 : DmaSems sig S_ := SemArray.consecutive 3 S_ hcc0_scratch7
abbrev cc0_scoped0 : DmaSems sig S_ := SemArray.consecutive 4 S_ hcc0_scoped0
abbrev cc0_scoped1 : DmaSems sig S_ := SemArray.consecutive 5 S_ hcc0_scoped1

class Facts : Prop extends Facts₀ where

variable [Facts]
-- ==== ReferenceIdeal.lean ====
abbrev S16384x20 : Shape := ⟨2, ![16384, 20]⟩
abbrev S12x64 : Shape := ⟨2, ![12, 64]⟩
abbrev S16x64 : Shape := ⟨2, ![16, 64]⟩
abbrev S_ : Shape := ⟨0, ![]⟩
abbrev S16384x20x1 : Shape := ⟨3, ![16384, 20, 1]⟩
abbrev S1 : Shape := ⟨1, ![1]⟩
abbrev S1x1x1 : Shape := ⟨3, ![1, 1, 1]⟩
abbrev S16384x20x64 : Shape := ⟨3, ![16384, 20, 64]⟩
abbrev S16384x20x128 : Shape := ⟨3, ![16384, 20, 128]⟩

abbrev nBuf : Space → Nat
  | .hbm => 51
  | .vmem => 0
  | .smem => 0
  | _ => 0

abbrev bufTy : (tb : Table) → Fin (tcTables nBuf tb) → BufTy
  | .hbm, ⟨0, _⟩ => ⟨S16384x20, .i32⟩
  | .hbm, ⟨1, _⟩ => ⟨S16384x20, .i32⟩
  | .hbm, ⟨2, _⟩ => ⟨S12x64, .f32⟩
  | .hbm, ⟨3, _⟩ => ⟨S16x64, .f32⟩
  | .hbm, ⟨4, _⟩ => ⟨S_, .i32⟩
  | .hbm, ⟨5, _⟩ => ⟨S16384x20, .i32⟩
  | .hbm, ⟨6, _⟩ => ⟨S16384x20, .i1⟩
  | .hbm, ⟨7, _⟩ => ⟨S_, .i32⟩
  | .hbm, ⟨8, _⟩ => ⟨S16384x20, .i32⟩
  | .hbm, ⟨9, _⟩ => ⟨S16384x20, .i32⟩
  | .hbm, ⟨10, _⟩ => ⟨S16384x20, .i32⟩
  | .hbm, ⟨11, _⟩ => ⟨S16384x20x1, .i32⟩
  | .hbm, ⟨12, _⟩ => ⟨S1, .i32⟩
  | .hbm, ⟨13, _⟩ => ⟨S_, .i32⟩
  | .hbm, ⟨14, _⟩ => ⟨S16384x20x1, .i32⟩
  | .hbm, ⟨15, _⟩ => ⟨S16384x20x1, .i1⟩
  | .hbm, ⟨16, _⟩ => ⟨S1x1x1, .i32⟩
  | .hbm, ⟨17, _⟩ => ⟨S16384x20x1, .i32⟩
  | .hbm, ⟨18, _⟩ => ⟨S16384x20x1, .i1⟩
  | .hbm, ⟨19, _⟩ => ⟨S16384x20x1, .i1⟩
  | .hbm, ⟨20, _⟩ => ⟨S_, .i1⟩
  | .hbm, ⟨21, _⟩ => ⟨S16384x20, .i1⟩
  | .hbm, ⟨22, _⟩ => ⟨S16384x20x64, .f32⟩
  | .hbm, ⟨23, _⟩ => ⟨S16384x20x64, .i1⟩
  | .hbm, ⟨24, _⟩ => ⟨S_, .f32⟩
  | .hbm, ⟨25, _⟩ => ⟨S16384x20x64, .f32⟩
  | .hbm, ⟨26, _⟩ => ⟨S16384x20x64, .f32⟩
  | .hbm, ⟨27, _⟩ => ⟨S_, .i32⟩
  | .hbm, ⟨28, _⟩ => ⟨S16384x20, .i32⟩
  | .hbm, ⟨29, _⟩ => ⟨S16384x20, .i1⟩
  | .hbm, ⟨30, _⟩ => ⟨S_, .i32⟩
  | .hbm, ⟨31, _⟩ => ⟨S16384x20, .i32⟩
  | .hbm, ⟨32, _⟩ => ⟨S16384x20, .i32⟩
  | .hbm, ⟨33, _⟩ => ⟨S16384x20, .i32⟩
  | .hbm, ⟨34, _⟩ => ⟨S16384x20x1, .i32⟩
  | .hbm, ⟨35, _⟩ => ⟨S1, .i32⟩
  | .hbm, ⟨36, _⟩ => ⟨S_, .i32⟩
  | .hbm, ⟨37, _⟩ => ⟨S16384x20x1, .i32⟩
  | .hbm, ⟨38, _⟩ => ⟨S16384x20x1, .i1⟩
  | .hbm, ⟨39, _⟩ => ⟨S1x1x1, .i32⟩
  | .hbm, ⟨40, _⟩ => ⟨S16384x20x1, .i32⟩
  | .hbm, ⟨41, _⟩ => ⟨S16384x20x1, .i1⟩
  | .hbm, ⟨42, _⟩ => ⟨S16384x20x1, .i1⟩
  | .hbm, ⟨43, _⟩ => ⟨S_, .i1⟩
  | .hbm, ⟨44, _⟩ => ⟨S16384x20, .i1⟩
  | .hbm, ⟨45, _⟩ => ⟨S16384x20x64, .f32⟩
  | .hbm, ⟨46, _⟩ => ⟨S16384x20x64, .i1⟩
  | .hbm, ⟨47, _⟩ => ⟨S_, .f32⟩
  | .hbm, ⟨48, _⟩ => ⟨S16384x20x64, .f32⟩
  | .hbm, ⟨49, _⟩ => ⟨S16384x20x64, .f32⟩
  | .hbm, ⟨50, _⟩ => ⟨S16384x20x128, .f32⟩
  | _, _ => ⟨S16384x20, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v0 : Ref sig .tc := ⟨.hbm, 26, rfl⟩
abbrev main_call1_c : Ref sig .tc := ⟨.hbm, 27, rfl⟩
abbrev main_call1_v0 : Ref sig .tc := ⟨.hbm, 28, rfl⟩
abbrev main_call1_v1 : Ref sig .tc := ⟨.hbm, 29, rfl⟩
abbrev main_call1_c_0 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_c_1 : Ref sig .tc := ⟨.hbm, 35, rfl⟩
abbrev main_call1_c_2 : Ref sig .tc := ⟨.hbm, 36, rfl⟩
abbrev main_call1_v6 : Ref sig .tc := ⟨.hbm, 37, rfl⟩
abbrev main_call1_v7 : Ref sig .tc := ⟨.hbm, 38, rfl⟩
abbrev main_call1_v8 : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_c_3 : Ref sig .tc := ⟨.hbm, 43, rfl⟩
abbrev main_call1_v12 : Ref sig .tc := ⟨.hbm, 44, rfl⟩
abbrev main_call1_v13 : Ref sig .tc := ⟨.hbm, 45, rfl⟩
abbrev main_call1_v14 : Ref sig .tc := ⟨.hbm, 46, rfl⟩
abbrev main_call1_cst : Ref sig .tc := ⟨.hbm, 47, rfl⟩
abbrev main_call1_v15 : Ref sig .tc := ⟨.hbm, 48, rfl⟩
abbrev main_v1 : Ref sig .tc := ⟨.hbm, 49, rfl⟩
abbrev main_v2 : Ref sig .tc := ⟨.hbm, 50, rfl⟩

abbrev nD : Nat := 1
abbrev τ : Topo := Topo.v7x

variable {F : FTy → Type} [FloatOps F]

class Facts₀ : Prop where
  bcast_S_S16384x20 : S_.BroadcastsInDim S16384x20 (![] : Fin 0 → Fin S16384x20.rank)
  bcast_S16384x20_S16384x20x1_0_1 : S16384x20.BroadcastsInDim S16384x20x1 (![0, 1] : Fin 2 → Fin S16384x20x1.rank)
  bcast_S_S16384x20x1 : S_.BroadcastsInDim S16384x20x1 (![] : Fin 0 → Fin S16384x20x1.rank)
  bcast_S1_S1x1x1_2 : S1.BroadcastsInDim S1x1x1 (![2] : Fin 1 → Fin S1x1x1.rank)
  bcast_S1x1x1_S16384x20x1_0_1_2 : S1x1x1.BroadcastsInDim S16384x20x1 (![0, 1, 2] : Fin 3 → Fin S16384x20x1.rank)
  reducesTo_S16384x20x1_S16384x20_d2 : S16384x20x1.ReducesTo [2] S16384x20
  h_S_ : 0 < S_.numel
  bcast_S16384x20_S16384x20x64_0_1 : S16384x20.BroadcastsInDim S16384x20x64 (![0, 1] : Fin 2 → Fin S16384x20x64.rank)
  bcast_S_S16384x20x64 : S_.BroadcastsInDim S16384x20x64 (![] : Fin 0 → Fin S16384x20x64.rank)
  concatenates_S16384x20x64_S16384x20x64_S16384x20x128_d2 : Shape.Concatenates [S16384x20x64, S16384x20x64] S16384x20x128 2
  gather_S12x64_S16384x20x1_S16384x20x64_2_0_n_n_0_2_164_wf : GatherDims.WF S12x64 S16384x20x1 S16384x20x64 [2] [0] [] [0] [] 2 ![1, 64]
  gather_S16x64_S16384x20x1_S16384x20x64_2_0_n_n_0_2_164_wf : GatherDims.WF S16x64 S16384x20x1 S16384x20x64 [2] [0] [] [0] [] 2 ![1, 64]

variable [Facts₀]

def gather_S12x64_S16384x20x1_S16384x20x64_2_0_n_n_0_2_164 : GatherDims S12x64 S16384x20x1 S16384x20x64 where
  offsetDims := [2]
  collapsedSliceDims := [0]
  operandBatchingDims := []
  startIndicesBatchingDims := []
  startIndexMap := [0]
  indexVectorDim := 2
  sliceSizes := ![1, 64]
  wf := gather_S12x64_S16384x20x1_S16384x20x64_2_0_n_n_0_2_164_wf
def gather_S16x64_S16384x20x1_S16384x20x64_2_0_n_n_0_2_164 : GatherDims S16x64 S16384x20x1 S16384x20x64 where
  offsetDims := [2]
  collapsedSliceDims := [0]
  operandBatchingDims := []
  startIndicesBatchingDims := []
  startIndexMap := [0]
  indexVectorDim := 2
  sliceSizes := ![1, 64]
  wf := gather_S16x64_S16384x20x1_S16384x20x64_2_0_n_n_0_2_164_wf

class Facts : Prop extends Facts₀ where

variable [Facts]
-- ==== Proof.Spec.lean ====
/-
  The function both programs compute, stated once over literal shapes: entry (r, l, k) of the result is lane k of row e1[r, l] of the
  first table for k < 64, and lane k - 64 of row e2[r, l] of the second table for k ≥ 64 — the two looked-up rows side by side.
  Row numbers are reduced modulo the table's height so that the function is total; on indices in range the reduction is the identity.
-/
import Idealize.ShloMosaic.PureOps
import Idealize.ShloMosaic.Lib.ValueIdx

namespace Cert.Spec

open Idealize.ShloMosaic Idealize.ShloMosaic.ValueIdx

abbrev SIdx : Shape := ⟨2, ![16384, 20]⟩
abbrev STabA : Shape := ⟨2, ![12, 64]⟩
abbrev STabB : Shape := ⟨2, ![16, 64]⟩
abbrev SOut : Shape := ⟨3, ![16384, 20, 128]⟩

/-- The row of the first table an index word names. -/
def rowA (e : BitVec 32) : Fin 12 := ⟨e.toNat % 12, Nat.mod_lt _ (by decide)⟩
/-- The row of the second table an index word names. -/
def rowB (e : BitVec 32) : Fin 16 := ⟨e.toNat % 16, Nat.mod_lt _ (by decide)⟩
/-- The lane inside a half of the output row. -/
def lane (k : Fin 128) : Fin 64 := ⟨k.val % 64, Nat.mod_lt _ (by decide)⟩

/-- The concatenated lookup. -/
def G {F : FTy → Type} (e1 e2 : IVec SIdx 32) (ta : FVec F STabA .f32) (tb : FVec F STabB .f32) : FVec F SOut .f32 :=
  fun j => if (j 2).val < 64 then ta (ix2 (rowA (e1 (ix2 (j 0) (j 1)))) (lane (j 2)))
           else tb (ix2 (rowB (e2 (ix2 (j 0) (j 1)))) (lane (j 2)))

end Cert.Spec
-- ==== Proof.PreFacts.lean ====
/-
  The input-domain precondition read back: when the printed predicate evaluates to the one-bit word 1, every word of the two
  index arrays is nonnegative read signed, and at most 11 (first array) resp. 15 (second array) read unsigned. The predicate is a
  conjunction of four reductions by "and" over all axes; each reduction that is 1 had a 1 at every element, and an element is the
  conjunction of a signed "greater or equal 0" and a signed "less or equal n" comparison.
-/
import Idealize.ShloMosaic.Lib.ReduceAll
import Idealize.ShloMosaic.Lib.ValueIdx
import proofs.«206824_g72705206386957_cont_9to1_m_461_20_alg».proof.Pre_input_domain
import proofs.«206824_g72705206386957_cont_9to1_m_461_20_alg».proof.Proof.Gen.Pre_input_domain
import proofs.«206824_g72705206386957_cont_9to1_m_461_20_alg».proof.Proof.Spec

namespace Cert.PreFacts

open Idealize.ShloMosaic Idealize.ShloMosaic.ValueIdx

instance : Subsingleton Cert.Pre_input_domain.S_.Idx := ⟨fun a b => funext fun d => d.elim0⟩

/-- A word that is nonnegative and at most n read signed (n below 2^31) is at most n read unsigned. -/
theorem word_range (x : BitVec 32) (n : Nat) (hn : n < 2 ^ 31)
    (h0 : IntOp.cmpi .sge x (0#32) = 1#1) (h1 : IntOp.cmpi .sle x (BitVec.ofNat 32 n) = 1#1) :
    x.toInt ≥ 0 ∧ x.toNat ≤ n := by
  rw [IntOp.cmpi_sge] at h0
  rw [IntOp.cmpi_sle] at h1
  have hz : (0#32 : BitVec 32).toInt = 0 := by decide
  have hN : (BitVec.ofNat 32 n).toInt = (n : Int) := by
    rw [BitVec.toInt_ofNat']
    exact Int.bmod_eq_of_le (by omega) (by omega)
  rw [hz] at h0
  rw [hN] at h1
  refine ⟨h0, ?_⟩
  have h32 := x.isLt
  have hx : x.toInt = (x.toNat : Int) := by
    rw [BitVec.toInt_eq_toNat_cond]
    split
    · rfl
    · rename_i hc
      rw [BitVec.toInt_eq_toNat_cond, if_neg hc] at h0
      omega
  omega

theorem ranges {F : FTy → Type} [FloatOps F] (a0 a1 : IVec Cert.Spec.SIdx 32) (a2 : FVec F Cert.Spec.STabA .f32)
    (a3 : FVec F Cert.Spec.STabB .f32)
    (h : Cert.Pre_input_domain.fn (F := F) a0 a1 a2 a3 = fun _ => 1#1) :
    (∀ i, (a0 i).toInt ≥ 0 ∧ (a0 i).toNat ≤ 11) ∧ (∀ i, (a1 i).toInt ≥ 0 ∧ (a1 i).toNat ≤ 15) := by
  have e := congrFun h ix0
  dsimp only [Cert.Pre_input_domain.fn, Cert.Pre_input_domain.fn_part1] at e
  change IntOp.andi _ _ = 1#1 at e
  obtain ⟨e15, e21⟩ := IntOp.andi_eq_one.1 e
  change IntOp.andi _ _ = 1#1 at e15
  obtain ⟨-, e14⟩ := IntOp.andi_eq_one.1 e15
  refine ⟨fun i => ?_, fun i => ?_⟩
  · have hi := Host.reduce_andi_all _ _ _ _ _ e14 i
    change IntOp.andi (IntOp.cmpi .sge (a0 i) (0#32)) (IntOp.cmpi .sle (a0 i) (11#32)) = 1#1 at hi
    obtain ⟨g0, g1⟩ := IntOp.andi_eq_one.1 hi
    exact word_range (a0 i) 11 (by decide) g0 g1
  · have hi := Host.reduce_andi_all _ _ _ _ _ e21 i
    change IntOp.andi (IntOp.cmpi .sge (a1 i) (0#32)) (IntOp.cmpi .sle (a1 i) (15#32)) = 1#1 at hi
    obtain ⟨g0, g1⟩ := IntOp.andi_eq_one.1 hi
    exact word_range (a1 i) 15 (by decide) g0 g1

end Cert.PreFacts
-- ==== Proof.RefValue.lean ====
/-
  What the reference computes of its arguments, as one term — each lookup wraps a negative row number by the table's
  height, masks the row numbers outside the table, gathers the rows and fills the masked ones; the two results are laid
  side by side — and its value on row numbers in range: entry (r, l, k) is lane k of row e1[r, l] of the first table
  for k < 64 and lane k - 64 of row e2[r, l] of the second for k ≥ 64.
-/
import proofs.«206824_g72705206386957_cont_9to1_m_461_20_alg».proof.Proof.Gen.ReferenceIdeal
import proofs.«206824_g72705206386957_cont_9to1_m_461_20_alg».proof.Proof.Spec
import Idealize.ShloMosaic.Lib.ValueIdx
import Idealize.ShloMosaic.Lib.Pipeline.Value
import Idealize.ShloMosaic.Lib.ReduceAll

noncomputable section

namespace Cert.RefSide

open Cert.ReferenceIdeal Cert.ReferenceIdeal.Facts₀ Idealize.ShloMosaic Idealize.ShloMosaic.ValueIdx

variable {F : FTy → Type} [FloatOps F]

/-! ## The composed term -/

/-- A negative row number wrapped by the table's height `n`, as the lookup does before it reads. -/
def wrap (n : BitVec 32) (e : IVec S16384x20 32) : IVec S16384x20 32 :=
  select (cmpi .slt e (broadcastInDim S16384x20 ![] bcast_S_S16384x20 (constantI S_ 32 0#32)))
    (addi e (broadcastInDim S16384x20 ![] bcast_S_S16384x20 (constantI S_ 32 n))) e

/-- The wrapped row numbers with a trailing unit axis: the gather's start indices. -/
def idx3 (n : BitVec 32) (e : IVec S16384x20 32) : IVec S16384x20x1 32 :=
  broadcastInDim S16384x20x1 ![0, 1] bcast_S16384x20_S16384x20x1_0_1 (wrap n e)

/-- The lookup's range mask: the wrapped row number lies in `[0, hi]`, reduced over the unit axis. -/
def mask (n hi : BitVec 32) (e : IVec S16384x20 32) : IVec S16384x20 1 :=
  Host.reduce IntOp.andi
    (andi (cmpi .sge (idx3 n e) (broadcastInDim S16384x20x1 ![] bcast_S_S16384x20x1 (constantI S_ 32 0#32)))
      (cmpi .sle (idx3 n e) (broadcastInDim S16384x20x1 ![0, 1, 2] bcast_S1x1x1_S16384x20x1_0_1_2
        (broadcastInDim S1x1x1 ![2] bcast_S1_S1x1x1_2 (constantI S1 32 hi)))))
    (constantI S_ 1 1#1) reducesTo_S16384x20x1_S16384x20_d2 h_S_

/-- One table lookup: the gathered rows where the mask holds, the fill value elsewhere. -/
def take {T : Shape} (g : GatherDims T S16384x20x1 S16384x20x64) (n hi : BitVec 32) (t : FVec F T .f32)
    (e : IVec S16384x20 32) : FVec F S16384x20x64 .f32 :=
  select (broadcastInDim S16384x20x64 ![0, 1] bcast_S16384x20_S16384x20x64_0_1 (mask n hi e))
    (Host.gather g t (idx3 n e))
    (broadcastInDim S16384x20x64 ![] bcast_S_S16384x20x64 (constant S_ .f32 0x7FC00000#32))

/-- What @main computes of its arguments: the two lookups side by side along the last axis. -/
def out (e1 e2 : IVec S16384x20 32) (ta : FVec F S12x64 .f32) (tb : FVec F S16x64 .f32) : FVec F S16384x20x128 .f32 :=
  concatenate S16384x20x128 2
    [⟨S16384x20x64, take gather_S12x64_S16384x20x1_S16384x20x64_2_0_n_n_0_2_164 12#32 11#32 ta e1⟩,
     ⟨S16384x20x64, take gather_S16x64_S16384x20x1_S16384x20x64_2_0_n_n_0_2_164 16#32 15#32 tb e2⟩]
    concatenates_S16384x20x64_S16384x20x64_S16384x20x128_d2

/-! ## Words -/

/-- A left fold by `and` from 1 over words that are all 1 is 1. -/
theorem foldl_andi_ones {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self, show IntOp.andi 1#1 1#1 = 1#1 from by decide]
    exact foldl_andi_ones f l fun n hn => h n (List.mem_cons_of_mem _ hn)

/-- A 32-bit word below 16 read signed is itself. -/
theorem toInt_small (x : BitVec 32) (h : x.toNat ≤ 15) : x.toInt = x.toNat :=
  BitVec.toInt_eq_toNat_of_lt (by omega)

/-! ## The pieces at an index -/

/-- A row number that is not negative is not wrapped. -/
theorem wrap_apply (n : BitVec 32) (e : IVec S16384x20 32) (i : S16384x20.Idx) (h : (e i).toInt ≥ 0) : wrap n e i = e i := by
  show Scalar.select (IntOp.cmpi .slt (e i) 0#32) _ _ = _
  have h0 : IntOp.cmpi .slt (e i) 0#32 = 0#1 :=
    eq_zero_of_ne_one fun h1 => by
      have := IntOp.cmpi_slt.1 h1
      simp only [BitVec.toInt_zero] at this
      omega
  rw [h0, select_zero]

/-- The start indices at `(r, l, 0)` are the wrapped row number at `(r, l)`. -/
theorem idx3_apply (n : BitVec 32) (e : IVec S16384x20 32) (k : S16384x20x1.Idx) : idx3 n e k = wrap n e (ix2 (k 0) (k 1)) :=
  broadcastInDim_apply _ _ _ k (ix2 (k 0) (k 1)) fun a => match a with | ⟨0, _⟩ => rfl | ⟨1, _⟩ => rfl

/-- An index of the start indices reduces into the index of its first two coordinates. -/
theorem drop_eq (k : S16384x20x1.Idx) : reducesTo_S16384x20x1_S16384x20_d2.drop k = ix2 (k 0) (k 1) := by
  funext a; match a with | ⟨0, _⟩ => rfl | ⟨1, _⟩ => rfl

/-- On a row number in `[0, hi]` the range mask holds. -/
theorem mask_apply (n hi : BitVec 32) (e : IVec S16384x20 32) (i : S16384x20.Idx) (h0 : (e i).toInt ≥ 0)
    (h1 : (e i).toInt ≤ hi.toInt) : mask n hi e i = 1#1 := by
  unfold mask
  rw [Host.reduce_eq_foldl]
  refine foldl_andi_ones _ _ fun k hk => ?_
  have hd : ix2 (k 0) (k 1) = i := by
    rw [← drop_eq]; simpa using (List.mem_filter.1 hk).2
  have hv : idx3 n e k = e i := (idx3_apply n e k).trans ((congrArg (wrap n e) hd).trans (wrap_apply n e i h0))
  show IntOp.andi (IntOp.cmpi .sge (idx3 n e k) 0#32) (IntOp.cmpi .sle (idx3 n e k) hi) = 1#1
  rw [hv]
  exact IntOp.andi_eq_one.2 ⟨IntOp.cmpi_sge.2 (by simpa using h0), IntOp.cmpi_sle.2 h1⟩

/-! ## The gather of rows -/

/-- The lookup's dimension numbers for a table of `N` rows: start indices `[16384, 20, 1]` name the row, the
    result's last axis runs over the row's 64 lanes. -/
abbrev rowDims (N : Nat)
    (wf : GatherDims.WF ⟨2, ![N, 64]⟩ ⟨3, ![16384, 20, 1]⟩ ⟨3, ![16384, 20, 64]⟩ [2] [0] [] [0] [] 2 ![1, 64]) :
    GatherDims ⟨2, ![N, 64]⟩ ⟨3, ![16384, 20, 1]⟩ ⟨3, ![16384, 20, 64]⟩ where
  offsetDims := [2]
  collapsedSliceDims := [0]
  operandBatchingDims := []
  startIndicesBatchingDims := []
  startIndexMap := [0]
  indexVectorDim := 2
  sliceSizes := ![1, 64]
  wf := wf

/-- The gather read at `(r, l, k)`: lane `k` of the row the start index `idx[r, l, 0]` names, read signed and clamped
    into the table. -/
theorem gather_row_apply {α : Type} {N w : Nat} (hN : 0 < N)
    (wf : GatherDims.WF ⟨2, ![N, 64]⟩ ⟨3, ![16384, 20, 1]⟩ ⟨3, ![16384, 20, 64]⟩ [2] [0] [] [0] [] 2 ![1, 64])
    (x : (⟨2, ![N, 64]⟩ : Shape).Idx → α) (idx : IVec ⟨3, ![16384, 20, 1]⟩ w) (y : (⟨3, ![16384, 20, 64]⟩ : Shape).Idx) :
    Host.gather (rowDims N wf) x idx y
      = x (ix2 ⟨min (idx (ix3 (y 0) (y 1) 0)).toInt.toNat (N - 1), by omega⟩ (y 2)) := by
  unfold Host.gather
  congr 1
  funext a
  refine Fin.ext ?_
  show (rowDims N wf).start y idx a + (rowDims N wf).batchCoord y a + (rowDims N wf).offCoord y a = _
  have e0 : (rowDims N wf).start y idx (0 : Fin 2) + (rowDims N wf).batchCoord y (0 : Fin 2) + (rowDims N wf).offCoord y (0 : Fin 2)
      = min (idx (ix3 (y 0) (y 1) 0)).toInt.toNat (N - 1) := by
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N wf).startIndexMap from List.mem_singleton.mpr rfl)]
    have hsi : (rowDims N wf).siIdx y ⟨List.idxOf (0 : Fin 2) (rowDims N wf).startIndexMap,
        List.idxOf_lt_length_iff.2 (List.mem_singleton.mpr rfl)⟩ = ix3 (y 0) (y 1) 0 := by
      funext b; refine Fin.ext ?_
      match b with
      | ⟨0, _⟩ => rfl
      | ⟨1, _⟩ => rfl
      | ⟨2, _⟩ => rfl
    rw [hsi]
    rfl
  have e1 : (rowDims N wf).start y idx (1 : Fin 2) + (rowDims N wf).batchCoord y (1 : Fin 2) + (rowDims N wf).offCoord y (1 : Fin 2)
      = (y 2).val := by
    have hs : (rowDims N wf).start y idx (1 : Fin 2) = 0 := by
      unfold GatherDims.start
      rw [dif_neg (show (1 : Fin 2) ∉ [(0 : Fin 2)] by decide)]
    rw [hs, GatherDims.batchCoord_eq_zero _ _ _ List.not_mem_nil]
    simp only [Nat.zero_add, Nat.add_zero]
    unfold GatherDims.offCoord
    rw [dif_pos ((GatherDims.mem_sKept _ _).2 ⟨show (1 : Fin 2) ∉ [(0 : Fin 2)] by decide, List.not_mem_nil⟩)]
    rfl
  match a with
  | ⟨0, _⟩ => exact e0
  | ⟨1, _⟩ => exact e1

/-! ## One lookup, and the two side by side -/

/-- The program's two dimension records are `rowDims` at the tables' heights. -/
theorem gatherA_eq : gather_S12x64_S16384x20x1_S16384x20x64_2_0_n_n_0_2_164 = rowDims 12 gather_S12x64_S16384x20x1_S16384x20x64_2_0_n_n_0_2_164_wf := rfl
theorem gatherB_eq : gather_S16x64_S16384x20x1_S16384x20x64_2_0_n_n_0_2_164 = rowDims 16 gather_S16x64_S16384x20x1_S16384x20x64_2_0_n_n_0_2_164_wf := rfl

/-- One lookup read at `(r, l, k)`, the row number `e[r, l]` in `[0, hi]` and inside the table: lane `k` of that row. -/
theorem take_apply {N : Nat} (hN : 0 < N)
    (wf : GatherDims.WF ⟨2, ![N, 64]⟩ ⟨3, ![16384, 20, 1]⟩ ⟨3, ![16384, 20, 64]⟩ [2] [0] [] [0] [] 2 ![1, 64])
    (n hi : BitVec 32) (t : FVec F ⟨2, ![N, 64]⟩ .f32) (e : IVec S16384x20 32) (y : S16384x20x64.Idx)
    (h0 : (e (ix2 (y 0) (y 1))).toInt ≥ 0) (h1 : (e (ix2 (y 0) (y 1))).toInt ≤ hi.toInt)
    (hr : (e (ix2 (y 0) (y 1))).toNat < N) (hs : (e (ix2 (y 0) (y 1))).toInt = (e (ix2 (y 0) (y 1))).toNat) :
    take (rowDims N wf) n hi t e y = t (ix2 ⟨(e (ix2 (y 0) (y 1))).toNat, hr⟩ (y 2)) := by
  have hm : broadcastInDim S16384x20x64 ![0, 1] bcast_S16384x20_S16384x20x64_0_1 (mask n hi e) y = 1#1 :=
    (broadcastInDim_apply _ _ _ y (ix2 (y 0) (y 1)) fun a => match a with | ⟨0, _⟩ => rfl | ⟨1, _⟩ => rfl).trans
      (mask_apply n hi e _ h0 h1)
  have hv : idx3 n e (ix3 (y 0) (y 1) 0) = e (ix2 (y 0) (y 1)) := (idx3_apply n e _).trans (wrap_apply n e _ h0)
  unfold take
  rw [select_apply, hm, select_one, gather_row_apply hN]
  refine congrArg t (congrArg (fun r : Fin N => (ix2 r (y 2) : (⟨2, ![N, 64]⟩ : Shape).Idx)) (Fin.ext ?_))
  show min (idx3 n e (ix3 (y 0) (y 1) 0)).toInt.toNat (N - 1) = (e (ix2 (y 0) (y 1))).toNat
  rw [hv]
  omega

/-- ON ROW NUMBERS IN RANGE the reference's term is the concatenated lookup: entry `(r, l, k)` is lane `k` of row
    `e1[r, l]` of the first table for `k < 64`, lane `k - 64` of row `e2[r, l]` of the second for `k ≥ 64`. -/
theorem out_G (e1 e2 : IVec S16384x20 32) (ta : FVec F S12x64 .f32) (tb : FVec F S16x64 .f32)
    (r1 : ∀ i, (e1 i).toInt ≥ 0 ∧ (e1 i).toNat ≤ 11) (r2 : ∀ i, (e2 i).toInt ≥ 0 ∧ (e2 i).toNat ≤ 15) :
    out e1 e2 ta tb = Cert.Spec.G e1 e2 ta tb := by
  funext j
  show out e1 e2 ta tb j = if (j 2).val < 64 then ta (ix2 (Cert.Spec.rowA (e1 (ix2 (j 0) (j 1)))) (Cert.Spec.lane (j 2)))
    else tb (ix2 (Cert.Spec.rowB (e2 (ix2 (j 0) (j 1)))) (Cert.Spec.lane (j 2)))
  unfold out
  have hj128 : (j 2).val < 128 := (j 2).isLt
  have c11 : (11#32 : BitVec 32).toInt = 11 := by decide
  have c15 : (15#32 : BitVec 32).toInt = 15 := by decide
  by_cases hj : (j 2).val < 64
  · rw [if_pos hj]
    obtain ⟨hE0, hE1⟩ := r1 (ix2 (j 0) (j 1))
    have hs := toInt_small _ (by omega : (e1 (ix2 (j 0) (j 1))).toNat ≤ 15)
    have hr : (e1 (ix2 (j 0) (j 1))).toNat < 12 := by omega
    refine (concatenate_pair_apply_left (s₁ := S16384x20x64) (s₂ := S16384x20x64) 2 _ _ _ j rfl (ix3 (j 0) (j 1) (⟨(j 2).val, hj⟩ : Fin 64) : S16384x20x64.Idx)
      (fun b => match b with | ⟨0, _⟩ => rfl | ⟨1, _⟩ => rfl | ⟨2, _⟩ => rfl)).trans ?_
    rw [gatherA_eq]
    have h1 : (e1 (ix2 (j 0) (j 1))).toInt ≤ (11#32 : BitVec 32).toInt := by rw [c11, hs]; omega
    refine (take_apply (by decide) _ 12#32 11#32 ta e1 _ hE0 h1 hr hs).trans ?_
    have hrow : Cert.Spec.rowA (e1 (ix2 (j 0) (j 1))) = ⟨(e1 (ix2 (j 0) (j 1))).toNat, hr⟩ := Fin.ext (Nat.mod_eq_of_lt hr)
    have hl : Cert.Spec.lane (j 2) = ⟨(j 2).val, hj⟩ := Fin.ext (Nat.mod_eq_of_lt hj)
    rw [hrow, hl]
  · rw [if_neg hj]
    obtain ⟨hE0, hE1⟩ := r2 (ix2 (j 0) (j 1))
    have hs := toInt_small _ hE1
    have hr : (e2 (ix2 (j 0) (j 1))).toNat < 16 := by omega
    have hk : (j 2).val - 64 < 64 := by omega
    refine (concatenate_pair_apply_right (s₁ := S16384x20x64) (s₂ := S16384x20x64) 2 _ _ _ j rfl rfl (ix3 (j 0) (j 1) (⟨(j 2).val - 64, hk⟩ : Fin 64) : S16384x20x64.Idx)
      (fun b hb => match b, hb with | ⟨0, _⟩, _ => rfl | ⟨1, _⟩, _ => rfl | ⟨2, _⟩, hb => absurd rfl hb)
      (by show (j 2).val - 64 + 64 = (j 2).val; omega)).trans ?_
    rw [gatherB_eq]
    have h1 : (e2 (ix2 (j 0) (j 1))).toInt ≤ (15#32 : BitVec 32).toInt := by rw [c15, hs]; omega
    refine (take_apply (by decide) _ 16#32 15#32 tb e2 _ hE0 h1 hr hs).trans ?_
    have hrow : Cert.Spec.rowB (e2 (ix2 (j 0) (j 1))) = ⟨(e2 (ix2 (j 0) (j 1))).toNat, hr⟩ := Fin.ext (Nat.mod_eq_of_lt hr)
    have hl : Cert.Spec.lane (j 2) = ⟨(j 2).val - 64, hk⟩ := Fin.ext (by show (j 2).val % 64 = (j 2).val - 64; omega)
    rw [hrow, hl]

end Cert.RefSide

end
-- ==== Proof.RefRun.lean ====
/-
  The reference program as a straight line of its forty-seven host operations (the two table lookups' bodies
  listed at their call sites, the index wrap's select at its own), its run — every weakly fair execution
  terminates with each buffer at the fold of the operations over the launch contents — and the fold read back
  at the result and argument buffers.
-/
import proofs.«206824_g72705206386957_cont_9to1_m_461_20_alg».proof.Proof.RefValue
import proofs.«206824_g72705206386957_cont_9to1_m_461_20_alg».proof.Proof.PreFacts
import proofs.«206824_g72705206386957_cont_9to1_m_461_20_alg».proof.Defs
import Idealize.ShloMosaic.Lib.StableHlo.Run

noncomputable section

namespace Cert.RefSide

open Cert.ReferenceIdeal Cert.ReferenceIdeal.Facts₀ Idealize.ShloMosaic Idealize.ShloMosaic.TcCoe Idealize.SL.Sem Idealize.ShloMosaic.StableHlo

variable {F : FTy → Type} [FloatOps F]

/-- @main's forty-seven operations, in order: the first lookup's twenty-three (its index wrap's select the
    seventh), the second lookup's twenty-three, the concatenation. -/
abbrev ops : List (HloOp τ sig (Elt F)) :=
  [ nullary main_call0_c (constantI S_ 32 0#32 : (⟨S_, .i32⟩ : BufTy).Contents (Elt F)),
    unary main_call0_c main_call0_v0 (broadcastInDim S16384x20 ![] bcast_S_S16384x20 : (⟨S_, .i32⟩ : BufTy).Contents (Elt F) → (⟨S16384x20, .i32⟩ : BufTy).Contents (Elt F)),
    binary main_arg0 main_call0_v0 main_call0_v1 (cmpi .slt : (⟨S16384x20, .i32⟩ : BufTy).Contents (Elt F) → (⟨S16384x20, .i32⟩ : BufTy).Contents (Elt F) → (⟨S16384x20, .i1⟩ : BufTy).Contents (Elt F)),
    nullary main_call0_c_0 (constantI S_ 32 12#32 : (⟨S_, .i32⟩ : BufTy).Contents (Elt F)),
    unary main_call0_c_0 main_call0_v2 (broadcastInDim S16384x20 ![] bcast_S_S16384x20 : (⟨S_, .i32⟩ : BufTy).Contents (Elt F) → (⟨S16384x20, .i32⟩ : BufTy).Contents (Elt F)),
    binary main_arg0 main_call0_v2 main_call0_v3 (addi : (⟨S16384x20, .i32⟩ : BufTy).Contents (Elt F) → (⟨S16384x20, .i32⟩ : BufTy).Contents (Elt F) → (⟨S16384x20, .i32⟩ : BufTy).Contents (Elt F)),
    ternary main_call0_v1 main_call0_v3 main_arg0 main_call0_v4 (select : (⟨S16384x20, .i1⟩ : BufTy).Contents (Elt F) → (⟨S16384x20, .i32⟩ : BufTy).Contents (Elt F) → (⟨S16384x20, .i32⟩ : BufTy).Contents (Elt F) → (⟨S16384x20, .i32⟩ : BufTy).Contents (Elt F)),
    unary main_call0_v4 main_call0_v5 (broadcastInDim S16384x20x1 ![0, 1] bcast_S16384x20_S16384x20x1_0_1 : (⟨S16384x20, .i32⟩ : BufTy).Contents (Elt F) → (⟨S16384x20x1, .i32⟩ : BufTy).Contents (Elt F)),
    nullary main_call0_c_1 (constantI S1 32 11#32 : (⟨S1, .i32⟩ : BufTy).Contents (Elt F)),
    nullary main_call0_c_2 (constantI S_ 32 0#32 : (⟨S_, .i32⟩ : BufTy).Contents (Elt F)),
    unary main_call0_c_2 main_call0_v6 (broadcastInDim S16384x20x1 ![] bcast_S_S16384x20x1 : (⟨S_, .i32⟩ : BufTy).Contents (Elt F) → (⟨S16384x20x1, .i32⟩ : BufTy).Contents (Elt F)),
    binary main_call0_v5 main_call0_v6 main_call0_v7 (cmpi .sge : (⟨S16384x20x1, .i32⟩ : BufTy).Contents (Elt F) → (⟨S16384x20x1, .i32⟩ : BufTy).Contents (Elt F) → (⟨S16384x20x1, .i1⟩ : BufTy).Contents (Elt F)),
    unary main_call0_c_1 main_call0_v8 (broadcastInDim S1x1x1 ![2] bcast_S1_S1x1x1_2 : (⟨S1, .i32⟩ : BufTy).Contents (Elt F) → (⟨S1x1x1, .i32⟩ : BufTy).Contents (Elt F)),
    unary main_call0_v8 main_call0_v9 (broadcastInDim S16384x20x1 ![0, 1, 2] bcast_S1x1x1_S16384x20x1_0_1_2 : (⟨S1x1x1, .i32⟩ : BufTy).Contents (Elt F) → (⟨S16384x20x1, .i32⟩ : BufTy).Contents (Elt F)),
    binary main_call0_v5 main_call0_v9 main_call0_v10 (cmpi .sle : (⟨S16384x20x1, .i32⟩ : BufTy).Contents (Elt F) → (⟨S16384x20x1, .i32⟩ : BufTy).Contents (Elt F) → (⟨S16384x20x1, .i1⟩ : BufTy).Contents (Elt F)),
    binary main_call0_v7 main_call0_v10 main_call0_v11 (andi : (⟨S16384x20x1, .i1⟩ : BufTy).Contents (Elt F) → (⟨S16384x20x1, .i1⟩ : BufTy).Contents (Elt F) → (⟨S16384x20x1, .i1⟩ : BufTy).Contents (Elt F)),
    nullary main_call0_c_3 (constantI S_ 1 1#1 : (⟨S_, .i1⟩ : BufTy).Contents (Elt F)),
    binary main_call0_v11 main_call0_c_3 main_call0_v12 (fun x v => Host.reduce IntOp.andi x v reducesTo_S16384x20x1_S16384x20_d2 h_S_ : (⟨S16384x20x1, .i1⟩ : BufTy).Contents (Elt F) → (⟨S_, .i1⟩ : BufTy).Contents (Elt F) → (⟨S16384x20, .i1⟩ : BufTy).Contents (Elt F)),
    binary main_arg2 main_call0_v5 main_call0_v13 (fun x i => Host.gather gather_S12x64_S16384x20x1_S16384x20x64_2_0_n_n_0_2_164 x i : (⟨S12x64, .f32⟩ : BufTy).Contents (Elt F) → (⟨S16384x20x1, .i32⟩ : BufTy).Contents (Elt F) → (⟨S16384x20x64, .f32⟩ : BufTy).Contents (Elt F)),
    unary main_call0_v12 main_call0_v14 (broadcastInDim S16384x20x64 ![0, 1] bcast_S16384x20_S16384x20x64_0_1 : (⟨S16384x20, .i1⟩ : BufTy).Contents (Elt F) → (⟨S16384x20x64, .i1⟩ : BufTy).Contents (Elt F)),
    nullary main_call0_cst (constant S_ .f32 0x7FC00000#32 : (⟨S_, .f32⟩ : BufTy).Contents (Elt F)),
    unary main_call0_cst main_call0_v15 (broadcastInDim S16384x20x64 ![] bcast_S_S16384x20x64 : (⟨S_, .f32⟩ : BufTy).Contents (Elt F) → (⟨S16384x20x64, .f32⟩ : BufTy).Contents (Elt F)),
    ternary main_call0_v14 main_call0_v13 main_call0_v15 main_v0 (select : (⟨S16384x20x64, .i1⟩ : BufTy).Contents (Elt F) → (⟨S16384x20x64, .f32⟩ : BufTy).Contents (Elt F) → (⟨S16384x20x64, .f32⟩ : BufTy).Contents (Elt F) → (⟨S16384x20x64, .f32⟩ : BufTy).Contents (Elt F)),
    nullary main_call1_c (constantI S_ 32 0#32 : (⟨S_, .i32⟩ : BufTy).Contents (Elt F)),
    unary main_call1_c main_call1_v0 (broadcastInDim S16384x20 ![] bcast_S_S16384x20 : (⟨S_, .i32⟩ : BufTy).Contents (Elt F) → (⟨S16384x20, .i32⟩ : BufTy).Contents (Elt F)),
    binary main_arg1 main_call1_v0 main_call1_v1 (cmpi .slt : (⟨S16384x20, .i32⟩ : BufTy).Contents (Elt F) → (⟨S16384x20, .i32⟩ : BufTy).Contents (Elt F) → (⟨S16384x20, .i1⟩ : BufTy).Contents (Elt F)),
    nullary main_call1_c_0 (constantI S_ 32 16#32 : (⟨S_, .i32⟩ : BufTy).Contents (Elt F)),
    unary main_call1_c_0 main_call1_v2 (broadcastInDim S16384x20 ![] bcast_S_S16384x20 : (⟨S_, .i32⟩ : BufTy).Contents (Elt F) → (⟨S16384x20, .i32⟩ : BufTy).Contents (Elt F)),
    binary main_arg1 main_call1_v2 main_call1_v3 (addi : (⟨S16384x20, .i32⟩ : BufTy).Contents (Elt F) → (⟨S16384x20, .i32⟩ : BufTy).Contents (Elt F) → (⟨S16384x20, .i32⟩ : BufTy).Contents (Elt F)),
    ternary main_call1_v1 main_call1_v3 main_arg1 main_call1_v4 (select : (⟨S16384x20, .i1⟩ : BufTy).Contents (Elt F) → (⟨S16384x20, .i32⟩ : BufTy).Contents (Elt F) → (⟨S16384x20, .i32⟩ : BufTy).Contents (Elt F) → (⟨S16384x20, .i32⟩ : BufTy).Contents (Elt F)),
    unary main_call1_v4 main_call1_v5 (broadcastInDim S16384x20x1 ![0, 1] bcast_S16384x20_S16384x20x1_0_1 : (⟨S16384x20, .i32⟩ : BufTy).Contents (Elt F) → (⟨S16384x20x1, .i32⟩ : BufTy).Contents (Elt F)),
    nullary main_call1_c_1 (constantI S1 32 15#32 : (⟨S1, .i32⟩ : BufTy).Contents (Elt F)),
    nullary main_call1_c_2 (constantI S_ 32 0#32 : (⟨S_, .i32⟩ : BufTy).Contents (Elt F)),
    unary main_call1_c_2 main_call1_v6 (broadcastInDim S16384x20x1 ![] bcast_S_S16384x20x1 : (⟨S_, .i32⟩ : BufTy).Contents (Elt F) → (⟨S16384x20x1, .i32⟩ : BufTy).Contents (Elt F)),
    binary main_call1_v5 main_call1_v6 main_call1_v7 (cmpi .sge : (⟨S16384x20x1, .i32⟩ : BufTy).Contents (Elt F) → (⟨S16384x20x1, .i32⟩ : BufTy).Contents (Elt F) → (⟨S16384x20x1, .i1⟩ : BufTy).Contents (Elt F)),
    unary main_call1_c_1 main_call1_v8 (broadcastInDim S1x1x1 ![2] bcast_S1_S1x1x1_2 : (⟨S1, .i32⟩ : BufTy).Contents (Elt F) → (⟨S1x1x1, .i32⟩ : BufTy).Contents (Elt F)),
    unary main_call1_v8 main_call1_v9 (broadcastInDim S16384x20x1 ![0, 1, 2] bcast_S1x1x1_S16384x20x1_0_1_2 : (⟨S1x1x1, .i32⟩ : BufTy).Contents (Elt F) → (⟨S16384x20x1, .i32⟩ : BufTy).Contents (Elt F)),
    binary main_call1_v5 main_call1_v9 main_call1_v10 (cmpi .sle : (⟨S16384x20x1, .i32⟩ : BufTy).Contents (Elt F) → (⟨S16384x20x1, .i32⟩ : BufTy).Contents (Elt F) → (⟨S16384x20x1, .i1⟩ : BufTy).Contents (Elt F)),
    binary main_call1_v7 main_call1_v10 main_call1_v11 (andi : (⟨S16384x20x1, .i1⟩ : BufTy).Contents (Elt F) → (⟨S16384x20x1, .i1⟩ : BufTy).Contents (Elt F) → (⟨S16384x20x1, .i1⟩ : BufTy).Contents (Elt F)),
    nullary main_call1_c_3 (constantI S_ 1 1#1 : (⟨S_, .i1⟩ : BufTy).Contents (Elt F)),
    binary main_call1_v11 main_call1_c_3 main_call1_v12 (fun x v => Host.reduce IntOp.andi x v reducesTo_S16384x20x1_S16384x20_d2 h_S_ : (⟨S16384x20x1, .i1⟩ : BufTy).Contents (Elt F) → (⟨S_, .i1⟩ : BufTy).Contents (Elt F) → (⟨S16384x20, .i1⟩ : BufTy).Contents (Elt F)),
    binary main_arg3 main_call1_v5 main_call1_v13 (fun x i => Host.gather gather_S16x64_S16384x20x1_S16384x20x64_2_0_n_n_0_2_164 x i : (⟨S16x64, .f32⟩ : BufTy).Contents (Elt F) → (⟨S16384x20x1, .i32⟩ : BufTy).Contents (Elt F) → (⟨S16384x20x64, .f32⟩ : BufTy).Contents (Elt F)),
    unary main_call1_v12 main_call1_v14 (broadcastInDim S16384x20x64 ![0, 1] bcast_S16384x20_S16384x20x64_0_1 : (⟨S16384x20, .i1⟩ : BufTy).Contents (Elt F) → (⟨S16384x20x64, .i1⟩ : BufTy).Contents (Elt F)),
    nullary main_call1_cst (constant S_ .f32 0x7FC00000#32 : (⟨S_, .f32⟩ : BufTy).Contents (Elt F)),
    unary main_call1_cst main_call1_v15 (broadcastInDim S16384x20x64 ![] bcast_S_S16384x20x64 : (⟨S_, .f32⟩ : BufTy).Contents (Elt F) → (⟨S16384x20x64, .f32⟩ : BufTy).Contents (Elt F)),
    ternary main_call1_v14 main_call1_v13 main_call1_v15 main_v1 (select : (⟨S16384x20x64, .i1⟩ : BufTy).Contents (Elt F) → (⟨S16384x20x64, .f32⟩ : BufTy).Contents (Elt F) → (⟨S16384x20x64, .f32⟩ : BufTy).Contents (Elt F) → (⟨S16384x20x64, .f32⟩ : BufTy).Contents (Elt F)),
    binary main_v0 main_v1 main_v2 (fun a b => concatenate S16384x20x128 2 [⟨S16384x20x64, a⟩, ⟨S16384x20x64, b⟩] concatenates_S16384x20x64_S16384x20x64_S16384x20x128_d2 : (⟨S16384x20x64, .f32⟩ : BufTy).Contents (Elt F) → (⟨S16384x20x64, .f32⟩ : BufTy).Contents (Elt F) → (⟨S16384x20x128, .f32⟩ : BufTy).Contents (Elt F)) ]

/-- Two straight lines whose first operations are equal and whose rests are equal are equal. -/
theorem hlo_bind_congr {nD : Nat} {τ : Topo} {sig : RefSig} {Val : EltTy → Type} {Λ : Labels} {op op' : HloOp τ sig Val} (h : op = op')
    {r r' : Prog (TpuEff nD τ sig Val Λ .tc) PUnit} (hr : r = r') :
    ((hlo rfl op fun _ => .ret (⟨⟩ : PUnit)) >>= fun _ => r) = ((hlo rfl op' fun _ => .ret (⟨⟩ : PUnit)) >>= fun _ => r') := by
  subst h; subst hr; rfl

attribute [local irreducible] Host.reduce Host.gather concatenate in
set_option maxRecDepth 2048 in
/-- @main is that straight line: the functions unfolded at their calls, sequencing reassociated; operation by
    operation, a typed reference's operation at a literal reference is the plain one. -/
theorem main_eq (c : Dev nD) : main (F := F) c = seq ops := by
  simp only [main, fn_take.body, fn_take_0.body, fn_where.body, seq, bind_assoc, pure_bind]
  iterate 47 (refine hlo_bind_congr rfl ?_)
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., binary_bufs_sub ..⟩

/-- From any memory with zero counters every weakly fair execution of @main terminates, each buffer ending at the
    fold of the operations over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## The fold read back -/

/-- The fold of a concatenation is the folds in turn. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- The first lookup's twenty-three operations. -/
def opsA : List (HloOp τ sig (Elt F)) :=
  [ nullary main_call0_c (constantI S_ 32 0#32 : (⟨S_, .i32⟩ : BufTy).Contents (Elt F)),
    unary main_call0_c main_call0_v0 (broadcastInDim S16384x20 ![] bcast_S_S16384x20 : (⟨S_, .i32⟩ : BufTy).Contents (Elt F) → (⟨S16384x20, .i32⟩ : BufTy).Contents (Elt F)),
    binary main_arg0 main_call0_v0 main_call0_v1 (cmpi .slt : (⟨S16384x20, .i32⟩ : BufTy).Contents (Elt F) → (⟨S16384x20, .i32⟩ : BufTy).Contents (Elt F) → (⟨S16384x20, .i1⟩ : BufTy).Contents (Elt F)),
    nullary main_call0_c_0 (constantI S_ 32 12#32 : (⟨S_, .i32⟩ : BufTy).Contents (Elt F)),
    unary main_call0_c_0 main_call0_v2 (broadcastInDim S16384x20 ![] bcast_S_S16384x20 : (⟨S_, .i32⟩ : BufTy).Contents (Elt F) → (⟨S16384x20, .i32⟩ : BufTy).Contents (Elt F)),
    binary main_arg0 main_call0_v2 main_call0_v3 (addi : (⟨S16384x20, .i32⟩ : BufTy).Contents (Elt F) → (⟨S16384x20, .i32⟩ : BufTy).Contents (Elt F) → (⟨S16384x20, .i32⟩ : BufTy).Contents (Elt F)),
    ternary main_call0_v1 main_call0_v3 main_arg0 main_call0_v4 (select : (⟨S16384x20, .i1⟩ : BufTy).Contents (Elt F) → (⟨S16384x20, .i32⟩ : BufTy).Contents (Elt F) → (⟨S16384x20, .i32⟩ : BufTy).Contents (Elt F) → (⟨S16384x20, .i32⟩ : BufTy).Contents (Elt F)),
    unary main_call0_v4 main_call0_v5 (broadcastInDim S16384x20x1 ![0, 1] bcast_S16384x20_S16384x20x1_0_1 : (⟨S16384x20, .i32⟩ : BufTy).Contents (Elt F) → (⟨S16384x20x1, .i32⟩ : BufTy).Contents (Elt F)),
    nullary main_call0_c_1 (constantI S1 32 11#32 : (⟨S1, .i32⟩ : BufTy).Contents (Elt F)),
    nullary main_call0_c_2 (constantI S_ 32 0#32 : (⟨S_, .i32⟩ : BufTy).Contents (Elt F)),
    unary main_call0_c_2 main_call0_v6 (broadcastInDim S16384x20x1 ![] bcast_S_S16384x20x1 : (⟨S_, .i32⟩ : BufTy).Contents (Elt F) → (⟨S16384x20x1, .i32⟩ : BufTy).Contents (Elt F)),
    binary main_call0_v5 main_call0_v6 main_call0_v7 (cmpi .sge : (⟨S16384x20x1, .i32⟩ : BufTy).Contents (Elt F) → (⟨S16384x20x1, .i32⟩ : BufTy).Contents (Elt F) → (⟨S16384x20x1, .i1⟩ : BufTy).Contents (Elt F)),
    unary main_call0_c_1 main_call0_v8 (broadcastInDim S1x1x1 ![2] bcast_S1_S1x1x1_2 : (⟨S1, .i32⟩ : BufTy).Contents (Elt F) → (⟨S1x1x1, .i32⟩ : BufTy).Contents (Elt F)),
    unary main_call0_v8 main_call0_v9 (broadcastInDim S16384x20x1 ![0, 1, 2] bcast_S1x1x1_S16384x20x1_0_1_2 : (⟨S1x1x1, .i32⟩ : BufTy).Contents (Elt F) → (⟨S16384x20x1, .i32⟩ : BufTy).Contents (Elt F)),
    binary main_call0_v5 main_call0_v9 main_call0_v10 (cmpi .sle : (⟨S16384x20x1, .i32⟩ : BufTy).Contents (Elt F) → (⟨S16384x20x1, .i32⟩ : BufTy).Contents (Elt F) → (⟨S16384x20x1, .i1⟩ : BufTy).Contents (Elt F)),
    binary main_call0_v7 main_call0_v10 main_call0_v11 (andi : (⟨S16384x20x1, .i1⟩ : BufTy).Contents (Elt F) → (⟨S16384x20x1, .i1⟩ : BufTy).Contents (Elt F) → (⟨S16384x20x1, .i1⟩ : BufTy).Contents (Elt F)),
    nullary main_call0_c_3 (constantI S_ 1 1#1 : (⟨S_, .i1⟩ : BufTy).Contents (Elt F)),
    binary main_call0_v11 main_call0_c_3 main_call0_v12 (fun x v => Host.reduce IntOp.andi x v reducesTo_S16384x20x1_S16384x20_d2 h_S_ : (⟨S16384x20x1, .i1⟩ : BufTy).Contents (Elt F) → (⟨S_, .i1⟩ : BufTy).Contents (Elt F) → (⟨S16384x20, .i1⟩ : BufTy).Contents (Elt F)),
    binary main_arg2 main_call0_v5 main_call0_v13 (fun x i => Host.gather gather_S12x64_S16384x20x1_S16384x20x64_2_0_n_n_0_2_164 x i : (⟨S12x64, .f32⟩ : BufTy).Contents (Elt F) → (⟨S16384x20x1, .i32⟩ : BufTy).Contents (Elt F) → (⟨S16384x20x64, .f32⟩ : BufTy).Contents (Elt F)),
    unary main_call0_v12 main_call0_v14 (broadcastInDim S16384x20x64 ![0, 1] bcast_S16384x20_S16384x20x64_0_1 : (⟨S16384x20, .i1⟩ : BufTy).Contents (Elt F) → (⟨S16384x20x64, .i1⟩ : BufTy).Contents (Elt F)),
    nullary main_call0_cst (constant S_ .f32 0x7FC00000#32 : (⟨S_, .f32⟩ : BufTy).Contents (Elt F)),
    unary main_call0_cst main_call0_v15 (broadcastInDim S16384x20x64 ![] bcast_S_S16384x20x64 : (⟨S_, .f32⟩ : BufTy).Contents (Elt F) → (⟨S16384x20x64, .f32⟩ : BufTy).Contents (Elt F)),
    ternary main_call0_v14 main_call0_v13 main_call0_v15 main_v0 (select : (⟨S16384x20x64, .i1⟩ : BufTy).Contents (Elt F) → (⟨S16384x20x64, .f32⟩ : BufTy).Contents (Elt F) → (⟨S16384x20x64, .f32⟩ : BufTy).Contents (Elt F) → (⟨S16384x20x64, .f32⟩ : BufTy).Contents (Elt F)) ]

/-- The second lookup's twenty-three operations. -/
def opsB : List (HloOp τ sig (Elt F)) :=
  [ nullary main_call1_c (constantI S_ 32 0#32 : (⟨S_, .i32⟩ : BufTy).Contents (Elt F)),
    unary main_call1_c main_call1_v0 (broadcastInDim S16384x20 ![] bcast_S_S16384x20 : (⟨S_, .i32⟩ : BufTy).Contents (Elt F) → (⟨S16384x20, .i32⟩ : BufTy).Contents (Elt F)),
    binary main_arg1 main_call1_v0 main_call1_v1 (cmpi .slt : (⟨S16384x20, .i32⟩ : BufTy).Contents (Elt F) → (⟨S16384x20, .i32⟩ : BufTy).Contents (Elt F) → (⟨S16384x20, .i1⟩ : BufTy).Contents (Elt F)),
    nullary main_call1_c_0 (constantI S_ 32 16#32 : (⟨S_, .i32⟩ : BufTy).Contents (Elt F)),
    unary main_call1_c_0 main_call1_v2 (broadcastInDim S16384x20 ![] bcast_S_S16384x20 : (⟨S_, .i32⟩ : BufTy).Contents (Elt F) → (⟨S16384x20, .i32⟩ : BufTy).Contents (Elt F)),
    binary main_arg1 main_call1_v2 main_call1_v3 (addi : (⟨S16384x20, .i32⟩ : BufTy).Contents (Elt F) → (⟨S16384x20, .i32⟩ : BufTy).Contents (Elt F) → (⟨S16384x20, .i32⟩ : BufTy).Contents (Elt F)),
    ternary main_call1_v1 main_call1_v3 main_arg1 main_call1_v4 (select : (⟨S16384x20, .i1⟩ : BufTy).Contents (Elt F) → (⟨S16384x20, .i32⟩ : BufTy).Contents (Elt F) → (⟨S16384x20, .i32⟩ : BufTy).Contents (Elt F) → (⟨S16384x20, .i32⟩ : BufTy).Contents (Elt F)),
    unary main_call1_v4 main_call1_v5 (broadcastInDim S16384x20x1 ![0, 1] bcast_S16384x20_S16384x20x1_0_1 : (⟨S16384x20, .i32⟩ : BufTy).Contents (Elt F) → (⟨S16384x20x1, .i32⟩ : BufTy).Contents (Elt F)),
    nullary main_call1_c_1 (constantI S1 32 15#32 : (⟨S1, .i32⟩ : BufTy).Contents (Elt F)),
    nullary main_call1_c_2 (constantI S_ 32 0#32 : (⟨S_, .i32⟩ : BufTy).Contents (Elt F)),
    unary main_call1_c_2 main_call1_v6 (broadcastInDim S16384x20x1 ![] bcast_S_S16384x20x1 : (⟨S_, .i32⟩ : BufTy).Contents (Elt F) → (⟨S16384x20x1, .i32⟩ : BufTy).Contents (Elt F)),
    binary main_call1_v5 main_call1_v6 main_call1_v7 (cmpi .sge : (⟨S16384x20x1, .i32⟩ : BufTy).Contents (Elt F) → (⟨S16384x20x1, .i32⟩ : BufTy).Contents (Elt F) → (⟨S16384x20x1, .i1⟩ : BufTy).Contents (Elt F)),
    unary main_call1_c_1 main_call1_v8 (broadcastInDim S1x1x1 ![2] bcast_S1_S1x1x1_2 : (⟨S1, .i32⟩ : BufTy).Contents (Elt F) → (⟨S1x1x1, .i32⟩ : BufTy).Contents (Elt F)),
    unary main_call1_v8 main_call1_v9 (broadcastInDim S16384x20x1 ![0, 1, 2] bcast_S1x1x1_S16384x20x1_0_1_2 : (⟨S1x1x1, .i32⟩ : BufTy).Contents (Elt F) → (⟨S16384x20x1, .i32⟩ : BufTy).Contents (Elt F)),
    binary main_call1_v5 main_call1_v9 main_call1_v10 (cmpi .sle : (⟨S16384x20x1, .i32⟩ : BufTy).Contents (Elt F) → (⟨S16384x20x1, .i32⟩ : BufTy).Contents (Elt F) → (⟨S16384x20x1, .i1⟩ : BufTy).Contents (Elt F)),
    binary main_call1_v7 main_call1_v10 main_call1_v11 (andi : (⟨S16384x20x1, .i1⟩ : BufTy).Contents (Elt F) → (⟨S16384x20x1, .i1⟩ : BufTy).Contents (Elt F) → (⟨S16384x20x1, .i1⟩ : BufTy).Contents (Elt F)),
    nullary main_call1_c_3 (constantI S_ 1 1#1 : (⟨S_, .i1⟩ : BufTy).Contents (Elt F)),
    binary main_call1_v11 main_call1_c_3 main_call1_v12 (fun x v => Host.reduce IntOp.andi x v reducesTo_S16384x20x1_S16384x20_d2 h_S_ : (⟨S16384x20x1, .i1⟩ : BufTy).Contents (Elt F) → (⟨S_, .i1⟩ : BufTy).Contents (Elt F) → (⟨S16384x20, .i1⟩ : BufTy).Contents (Elt F)),
    binary main_arg3 main_call1_v5 main_call1_v13 (fun x i => Host.gather gather_S16x64_S16384x20x1_S16384x20x64_2_0_n_n_0_2_164 x i : (⟨S16x64, .f32⟩ : BufTy).Contents (Elt F) → (⟨S16384x20x1, .i32⟩ : BufTy).Contents (Elt F) → (⟨S16384x20x64, .f32⟩ : BufTy).Contents (Elt F)),
    unary main_call1_v12 main_call1_v14 (broadcastInDim S16384x20x64 ![0, 1] bcast_S16384x20_S16384x20x64_0_1 : (⟨S16384x20, .i1⟩ : BufTy).Contents (Elt F) → (⟨S16384x20x64, .i1⟩ : BufTy).Contents (Elt F)),
    nullary main_call1_cst (constant S_ .f32 0x7FC00000#32 : (⟨S_, .f32⟩ : BufTy).Contents (Elt F)),
    unary main_call1_cst main_call1_v15 (broadcastInDim S16384x20x64 ![] bcast_S_S16384x20x64 : (⟨S_, .f32⟩ : BufTy).Contents (Elt F) → (⟨S16384x20x64, .f32⟩ : BufTy).Contents (Elt F)),
    ternary main_call1_v14 main_call1_v13 main_call1_v15 main_v1 (select : (⟨S16384x20x64, .i1⟩ : BufTy).Contents (Elt F) → (⟨S16384x20x64, .f32⟩ : BufTy).Contents (Elt F) → (⟨S16384x20x64, .f32⟩ : BufTy).Contents (Elt F) → (⟨S16384x20x64, .f32⟩ : BufTy).Contents (Elt F)) ]

/-- The concatenation. -/
abbrev opC : HloOp τ sig (Elt F) :=
  binary main_v0 main_v1 main_v2 (fun a b => concatenate S16384x20x128 2 [⟨S16384x20x64, a⟩, ⟨S16384x20x64, b⟩] concatenates_S16384x20x64_S16384x20x64_S16384x20x128_d2 : (⟨S16384x20x64, .f32⟩ : BufTy).Contents (Elt F) → (⟨S16384x20x64, .f32⟩ : BufTy).Contents (Elt F) → (⟨S16384x20x128, .f32⟩ : BufTy).Contents (Elt F))

theorem ops_split : (ops : List (HloOp τ sig (Elt F))) = opsA ++ (opsB ++ [opC]) := rfl

/-- The first lookup's operations leave its result at the lookup's term of the first table and row numbers … -/
theorem A_v0 (V : Valuation τ sig (Elt F)) :
    after opsA V (main_v0 : DevRef τ sig)
      = take gather_S12x64_S16384x20x1_S16384x20x64_2_0_n_n_0_2_164 12#32 11#32 (V (main_arg2 : DevRef τ sig)) (V (main_arg0 : DevRef τ sig)) := by
  unfold take mask idx3 wrap opsA
  after_results

/-- … and the arguments as they were. -/
theorem A_arg0 (V : Valuation τ sig (Elt F)) : after opsA V (main_arg0 : DevRef τ sig) = V (main_arg0 : DevRef τ sig) := by
  unfold opsA
  after_results
theorem A_arg1 (V : Valuation τ sig (Elt F)) : after opsA V (main_arg1 : DevRef τ sig) = V (main_arg1 : DevRef τ sig) := by
  unfold opsA
  after_results
theorem A_arg2 (V : Valuation τ sig (Elt F)) : after opsA V (main_arg2 : DevRef τ sig) = V (main_arg2 : DevRef τ sig) := by
  unfold opsA
  after_results
theorem A_arg3 (V : Valuation τ sig (Elt F)) : after opsA V (main_arg3 : DevRef τ sig) = V (main_arg3 : DevRef τ sig) := by
  unfold opsA
  after_results

/-- The second lookup's operations leave its result at the lookup's term of the second table and row numbers … -/
theorem B_v1 (V : Valuation τ sig (Elt F)) :
    after opsB V (main_v1 : DevRef τ sig)
      = take gather_S16x64_S16384x20x1_S16384x20x64_2_0_n_n_0_2_164 16#32 15#32 (V (main_arg3 : DevRef τ sig)) (V (main_arg1 : DevRef τ sig)) := by
  unfold take mask idx3 wrap opsB
  after_results

/-- … and the first lookup's result and the arguments as they were. -/
theorem B_v0 (V : Valuation τ sig (Elt F)) : after opsB V (main_v0 : DevRef τ sig) = V (main_v0 : DevRef τ sig) := by
  unfold opsB
  after_results
theorem B_arg0 (V : Valuation τ sig (Elt F)) : after opsB V (main_arg0 : DevRef τ sig) = V (main_arg0 : DevRef τ sig) := by
  unfold opsB
  after_results
theorem B_arg1 (V : Valuation τ sig (Elt F)) : after opsB V (main_arg1 : DevRef τ sig) = V (main_arg1 : DevRef τ sig) := by
  unfold opsB
  after_results
theorem B_arg2 (V : Valuation τ sig (Elt F)) : after opsB V (main_arg2 : DevRef τ sig) = V (main_arg2 : DevRef τ sig) := by
  unfold opsB
  after_results
theorem B_arg3 (V : Valuation τ sig (Elt F)) : after opsB V (main_arg3 : DevRef τ sig) = V (main_arg3 : DevRef τ sig) := by
  unfold opsB
  after_results

/-- The fold at the result buffer is the composed term of the argument buffers' contents. -/
theorem out_eq (V : Valuation τ sig (Elt F)) :
    after ops V (main_v2 : DevRef τ sig)
      = out (V (main_arg0 : DevRef τ sig)) (V (main_arg1 : DevRef τ sig)) (V (main_arg2 : DevRef τ sig)) (V (main_arg3 : DevRef τ sig)) := by
  rw [ops_split, after_append, after_append, after_cons, after_nil, binary_result, B_v0, B_v1, A_v0, A_arg1, A_arg3]
  rfl

theorem arg0_eq (V : Valuation τ sig (Elt F)) : after ops V (main_arg0 : DevRef τ sig) = V (main_arg0 : DevRef τ sig) := by
  rw [ops_split, after_append, after_append, after_cons, after_nil, binary_result_ne _ _ _ _ _ _ _ _ (by decide), B_arg0, A_arg0]
theorem arg1_eq (V : Valuation τ sig (Elt F)) : after ops V (main_arg1 : DevRef τ sig) = V (main_arg1 : DevRef τ sig) := by
  rw [ops_split, after_append, after_append, after_cons, after_nil, binary_result_ne _ _ _ _ _ _ _ _ (by decide), B_arg1, A_arg1]
theorem arg2_eq (V : Valuation τ sig (Elt F)) : after ops V (main_arg2 : DevRef τ sig) = V (main_arg2 : DevRef τ sig) := by
  rw [ops_split, after_append, after_append, after_cons, after_nil, binary_result_ne _ _ _ _ _ _ _ _ (by decide), B_arg2, A_arg2]
theorem arg3_eq (V : Valuation τ sig (Elt F)) : after ops V (main_arg3 : DevRef τ sig) = V (main_arg3 : DevRef τ sig) := by
  rw [ops_split, after_append, after_append, after_cons, after_nil, binary_result_ne _ _ _ _ _ _ _ _ (by decide), B_arg3, A_arg3]

/-! ## The run, at the ideal instance, under the precondition -/

/-- THE REFERENCE'S RUN: from any memory of which the input-domain precondition holds, with zero counters, every weakly
    fair execution of @main terminates; the result buffer ends at the concatenated lookup of the argument buffers'
    launch contents and the four argument buffers end unchanged. -/
theorem run (m : (ℓ : Loc Cert.ReferenceIdeal.nD Cert.ReferenceIdeal.τ Cert.ReferenceIdeal.sig) → Buf (Elt Ideal) ℓ) (ρ : Dev Cert.ReferenceIdeal.nD → PrngReg)
    (hpre : Cert.Pre_ReferenceIdeal m) :
    θ_run (Cert.ReferenceIdeal.defs (F := Ideal)) (onTc (τ := Cert.ReferenceIdeal.τ) (Cert.ReferenceIdeal.main (F := Ideal))) ⟨m, fun _ => 0, ρ⟩
      (fun r => ∀ c : Dev Cert.ReferenceIdeal.nD,
        r.2.mem ((c.tc : Thread Cert.ReferenceIdeal.nD Cert.ReferenceIdeal.τ).loc Cert.ReferenceIdeal.main_v2)
            = Cert.Spec.G (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))
                (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)) :=
  (θ_run (Cert.ReferenceIdeal.defs (F := Ideal)) _ _).mono (fun _ h c => by
      obtain ⟨r1, r2⟩ := Cert.PreFacts.ranges _ _ _ _ (hpre c)
      exact ⟨(h c main_v2).trans ((out_eq _).trans (out_G _ _ _ _ r1 r2)), (h c main_arg0).trans (arg0_eq _),
        (h c main_arg1).trans (arg1_eq _), (h c main_arg2).trans (arg2_eq _), (h c main_arg3).trans (arg3_eq _)⟩)
    (run_main m ρ)

end Cert.RefSide

end
-- ==== Proof.KISetup.lean ====
/-
  The kernel's launch, stated for the library's launch theorem: the thirty-two tiles (two cores of sixteen) each copy their 10240 flat
  indices, meet at the core's barrier, and then, chunk by chunk of 80 indices, gather 80 rows of the 192-row combined table out of the core's
  shared memory and write them to 4 rows of the result. Tile 0 of each core fills the shared table before the barrier; its arrival at
  tile j's barrier cell hands tile j a read share of the table, so that what a tile gathers from after the barrier it holds, at known contents.
  This module fixes the ghost state (the handshakes' rounds, the barrier cells' rounds, the transfers' counters), the barrier's schedule and
  what the handshakes carry; everything is stated over the contents `fI` (flat indices) and `fC` (combined table) the two operand arrays
  hold when the call is made.
-/
import proofs.«206824_g72705206386957_cont_9to1_m_461_20_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import Idealize.ShloMosaic.Lib.Batch
import Idealize.ShloMosaic.Lib.ValueIdx
import proofs.«206824_g72705206386957_cont_9to1_m_461_20_alg».proof.Proof.Gen.KernelIdeal
import proofs.«206824_g72705206386957_cont_9to1_m_461_20_alg».proof.Proof.Gen.KernelIdeal.Skeleton

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev coreOf (c : Fin ((K (F := F)).nCore 0)) : Fin τ.nSC := (K (F := F)).core 0 c
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the barrier cells' rounds, the transfers' counters -/

abbrev UH : Type := URounds (GSem nD τ sig) ℕ
abbrev UB : Type := URounds (GSem nD τ sig) ℕ
abbrev UU : Type := UH × (UB × Counters)

local notation "𝕄" => MT nD τ sig (HIx 1) (Elt F) ℕ UU ℕ

abbrev EH : Emb UH (MT nD τ sig (HIx 1) (Elt F) ℕ UU ℕ) := embL
/-- The barrier cells' rounds: the left half of the right factor. -/
def EB : Emb UB (MT nD τ sig (HIx 1) (Elt F) ℕ UU ℕ) :=
  ((Emb.inl : Emb UB (UB × Counters)).trans (Emb.inr : Emb (UB × Counters) UU)).trans
    (uEmb (nD := nD) (sig := sig) (Ix := HIx 1) (Val := Elt F) (Name := ℕ) (U := UU) (Lvl := ℕ)).toEmb
instance EB_landsIn : (EB : Emb UB 𝕄).LandsIn (upEmb : UEmb _ 𝕄) := by unfold EB; infer_instance

/-! ## The arrays -/

abbrev idxLoc (d : Dev nD) : Loc nD τ sig := (SparseCore.T d).loc main_v9
abbrev combLoc (d : Dev nD) : Loc nD τ sig := (SparseCore.T d).loc main_v5
abbrev outLoc (d : Dev nD) : Loc nD τ sig := (SparseCore.T d).loc main_v10
/-- Core `c`'s shared table, as every tile of it addresses it. -/
abbrev shRef (c : Fin τ.nSC) : DevRef τ sig := ⟨.shared, ⟨0, by decide⟩, c⟩
abbrev shLoc (d : Dev nD) (c : Fin τ.nSC) : Loc nD τ sig := (d, shRef c)

local notation "iV" => (Memref.whole Cert.KernelIdeal.main_v9_scv : Memref Cert.KernelIdeal.sig Kind.scVector Space.hbm Cert.KernelIdeal.S327680 EltTy.i32)
local notation "tV" => (Memref.whole Cert.KernelIdeal.main_v5_scv : Memref Cert.KernelIdeal.sig Kind.scVector Space.hbm Cert.KernelIdeal.S192x128 EltTy.f32)
local notation "oV" => (Memref.whole Cert.KernelIdeal.main_v10_scv : Memref Cert.KernelIdeal.sig Kind.scVector Space.hbm Cert.KernelIdeal.S16384x20x128 EltTy.f32)
local notation "shV" => (Memref.whole Cert.KernelIdeal.cc0_scratch3 : Memref Cert.KernelIdeal.sig Kind.scVector Space.shared Cert.KernelIdeal.S192x128 EltTy.f32)

theorem nSub_eq : τ.nSub = 16 := rfl
theorem nSC_eq : τ.nSC = 2 := rfl

/-- The tile's number among the thirty-two: twice its number in the core plus the core's. -/
def wid (c : Fin 2) (s : Fin 16) : Fin 32 := ⟨2 * s.val + c.val, by omega⟩

/-- The flat indices tile `w` reads: positions `10240 w … 10240 w + 10239`. -/
def idxSet (w : Fin 32) : Finset S327680.Idx := Finset.univ.filter fun j => (j 0).val / 10240 = w.val
/-- The result's rows tile `w` writes: rows `512 w … 512 w + 511`. -/
def outSet (w : Fin 32) : Finset S16384x20x128.Idx := Finset.univ.filter fun j => (j 0).val / 512 = w.val

variable [FloatOps F]

/-! ## The barrier cells -/

abbrev bcell (d : Dev nD) (c : Fin τ.nSC) (j : Fin τ.nSub) : GSem nD τ sig := (V d c j, .reg sc_bar0)

omit [FloatOps F] in
theorem sc_bar0_ne_go : (sc_bar0 : Sem sig) ≠ sc_go := by decide

def isBar (g : GSem nD τ sig) : Bool :=
  match g with
  | ((_, .scVector _ _), sm) => decide (sm = .reg sc_bar0)
  | _ => false

omit [FloatOps F] in
@[simp] theorem isBar_bcell (d : Dev nD) (c : Fin τ.nSC) (j : Fin τ.nSub) : isBar (bcell d c j) = true := by simp [isBar]

-- the contents of the combined table when the call is made, per device
variable (fC : (d : Dev nD) → Buf (Elt F) (combLoc d))
-- the contents of the flat index array when the call is made, per device
variable (fI : (d : Dev nD) → Buf (Elt F) (idxLoc d))

/-- The shared table's contents once tile 0 has filled it: the combined table's. -/
abbrev shC (d : Dev nD) (c : Fin τ.nSC) : Buf (Elt F) (shLoc d c) := fC d

/-- Tile `j`'s read share of the shared table. -/
abbrev shTok (d : Dev nD) (c : Fin τ.nSC) (j : Fin 16) : sProp 𝕄 := shLoc d c ↦{Transfers.shareTok fullShare 16 j} shC fC d c
/-- What is left of the table's ownership once the sixteen read shares are dealt. -/
abbrev shRem (d : Dev nD) (c : Fin τ.nSC) : sProp 𝕄 := shLoc d c ↦{Transfers.shareDrop fullShare 16} shC fC d c

/-- What a duty in tile `j`'s round hands over: tile 0's, tile `j`'s read share of the filled table; the others', nothing. -/
def bPay (g : GSem nD τ sig) (n : ℕ) : sProp 𝕄 :=
  match g with
  | ((d, .scVector c j), _) => if n = 0 then shTok fC d c (Fin.cast nSub_eq j) else iprop(emp)
  | _ => iprop(emp)

/-- The barrier cells' schedule: one round on each, of one unit duty per tile of the core. -/
def bRd : Rounds.Schedule (GSem nD τ sig) ℕ 𝕄 where
  duties g r := if isBar g ∧ r = 0 then (Finset.univ : Finset (Fin τ.nSub)).image Fin.val else ∅
  amount _ _ _ := 1
  payload g _ n := bPay fC g n
  amount_pos _ _ _ _ := Nat.one_pos

instance bRd_payload_storable (g : GSem nD τ sig) (r n : ℕ) : BI.Storable (upEmb : UEmb _ 𝕄) ((bRd (F := F) fC).payload g r n) := by
  show BI.Storable upEmb (bPay fC g n)
  unfold bPay
  rcases g with ⟨⟨d, _ | c | ⟨c, i⟩⟩, sm⟩ <;> dsimp only <;> (repeat' split) <;> infer_instance

omit [FloatOps F] in
theorem bigSep_emp' {I : Type} (s : Finset I) : (bigSep s fun _ => iprop(emp)) = (iprop(emp) : sProp 𝕄) := bigSep_emp_const s

theorem bRd_duties₀ (d : Dev nD) (c : Fin τ.nSC) (j : Fin τ.nSub) : (bRd (F := F) fC).duties (bcell d c j) 0 = (Finset.univ : Finset (Fin τ.nSub)).image Fin.val := by
  simp [bRd, isBar]
theorem bRd_mem₀ (d : Dev nD) (c : Fin τ.nSC) (j i : Fin τ.nSub) : i.val ∈ (bRd (F := F) fC).duties (bcell d c j) 0 := by
  rw [bRd_duties₀]; exact Finset.mem_image_of_mem _ (Finset.mem_univ i)
theorem bRd_expect (d : Dev nD) (c : Fin τ.nSC) (j : Fin τ.nSub) : 0 + grid0.bound 1 = (bRd (F := F) fC).expect (bcell d c j) 0 := by
  unfold Rounds.Schedule.expect; rw [bRd_duties₀]
  show 0 + 16 = ∑ x ∈ (Finset.univ : Finset (Fin 16)).image Fin.val, 1
  rw [Finset.sum_const, Finset.card_image_of_injective _ Fin.val_injective]; rfl

/-- What the launch has a tile owe for the barrier: a unit on every tile's cell of its core, at the call's index. -/
def oxV (d : Dev nD) (c : Fin τ.nSC) : CellTallies nD τ sig (HIx 1) := ∑ j : Fin (grid0.bound 1), tallyAt (bcell d c (j.castLE hsub0)) (some 0) 1

omit [FloatOps F] in
theorem oxV_none (d : Dev nD) (c : Fin τ.nSC) (g : GSem nD τ sig) : oxV d c g none = 0 := by
  unfold oxV
  rw [Finset.sum_apply, Finsupp.finsetSum_apply]
  exact Finset.sum_eq_zero fun j _ => by rw [tallyAt_apply, if_neg (fun e => nomatch e.2)]

omit [FloatOps F] in
theorem oxV_apply_pos {d : Dev nD} {c : Fin τ.nSC} {g : GSem nD τ sig} {ι : HIx 1} (h : 0 < oxV d c g ι) : ∃ j : Fin (grid0.bound 1), g = bcell d c (j.castLE hsub0) ∧ ι = some 0 := by
  unfold oxV at h
  rw [Finset.sum_apply, Finsupp.finsetSum_apply] at h
  obtain ⟨j, -, hj⟩ := Finset.exists_ne_zero_of_sum_ne_zero (Nat.pos_iff_ne_zero.mp h)
  rw [tallyAt_apply] at hj
  split at hj
  · next e => exact ⟨j, e.1, e.2⟩
  · exact absurd rfl hj

/-- A tile's barrier kit: every cell's invariant of its core, its duty token in every tile's round, that each cell has reached
    round 0, its own position at the origin of round 0, and the credit for the sixteen units of its own round. -/
def bkit (d : Dev nD) (c : Fin τ.nSC) (i : Fin τ.nSub) : sProp 𝕄 :=
  iprop((∃ κ : GSem nD τ sig → ℕ, bigSep Finset.univ fun j : Fin (grid0.bound 1) =>
      cellInv EB (bRd (F := F) fC) (κ (bcell d c (j.castLE hsub0))) (bcell d c (j.castLE hsub0)))
    ∗ (bigSep Finset.univ fun j : Fin (grid0.bound 1) => dutyTok EB (bcell d c (j.castLE hsub0)) 0 i.val)
    ∗ (bigSep Finset.univ fun j : Fin (grid0.bound 1) => reached EB (bcell d c (j.castLE hsub0)) 0)
    ∗ atPos EB (bcell d c i) 0 ∅ 0
    ∗ cred (tallyAt (bcell d c i) (some 0) (grid0.bound 1)))

/-! ## What the handshakes carry -/

variable (m : (ℓ : Loc nD τ sig) → Buf (Elt F) ℓ)

omit [FloatOps F] in
theorem flat_lt (r : Fin 16384) (l : Fin 20) : r.val * 20 + l.val < 327680 := by omega

/-- The result array's contents once the call is over: entry (r, l, k) is lane k of the table row that the flat index at position
    20 r + l names (reduced modulo the table's height, so that the function is total). -/
def outF (d : Dev nD) : Buf (Elt F) (outLoc d) :=
  fun j : S16384x20x128.Idx => (fC d : FVec F S192x128 .f32) (ix2 (⟨((fI d : IVec S327680 32) (ix1 (⟨(j 0).val * 20 + (j 1).val, flat_lt (j 0) (j 1)⟩ : Fin 327680))).toNat % 192,
    Nat.mod_lt _ (by decide)⟩ : Fin 192) (j 2))

abbrev idxPts (d : Dev nD) (w : Fin 32) : sProp 𝕄 := idxLoc d ↦[idxSet w]{fullShare} fI d
abbrev outPts (d : Dev nD) (w : Fin 32) (f : Buf (Elt F) (outLoc d)) : sProp 𝕄 := outLoc d ↦[outSet w]{fullShare} f
/-- Core `c`'s read share of the combined table in HBM. -/
abbrev combTok (d : Dev nD) (c : Fin 2) : sProp 𝕄 := combLoc d ↦{Transfers.shareTok fullShare 2 c} fC d

abbrev cL (c : Fin ((K (F := F)).nCore 0)) : Fin 2 := Fin.cast nCore_zero c
abbrev sL (i : Fin ((K (F := F)).nSub 0)) : Fin 16 := Fin.cast nSub_zero i

/-- A call takes, per core, its sixteen tiles' index slices and result rows and a read share of the table; a task its slice and its rows,
    tile 0 also the table's share and the core's shared memory; a task brings back its slice, its rows at the result's final contents and its
    read share of the filled shared table, tile 0 also what remained of it. -/
def P : (K (F := F)).Pay (nD := nD) (Val := Elt F) (Name := ℕ) (U := UU) where
  st := fun q d c => match q with
    | 0 => iprop((bigSep Finset.univ fun s : Fin 16 => iprop(idxPts fI d (wid (cL c) s) ∗ outPts d (wid (cL c) s) (m (outLoc d)))) ∗ combTok fC d (cL c))
  dn := fun q d c => match q with
    | 0 => iprop((bigSep Finset.univ fun s : Fin 16 => iprop(idxPts fI d (wid (cL c) s) ∗ outPts d (wid (cL c) s) (outF fC fI d))) ∗ combTok fC d (cL c))
  go := fun q d c i => match q with
    | 0 => iprop(idxPts fI d (wid (cL c) (sL i)) ∗ outPts d (wid (cL c) (sL i)) (m (outLoc d))
        ∗ (if (sL i).val = 0 then iprop(combTok fC d (cL c) ∗ ∃ f, shLoc d (coreOf c) ↦{fullShare} f) else iprop(emp)))
  td := fun q d c i => match q with
    | 0 => iprop(idxPts fI d (wid (cL c) (sL i)) ∗ outPts d (wid (cL c) (sL i)) (outF fC fI d) ∗ shTok fC d (coreOf c) (sL i)
        ∗ (if (sL i).val = 0 then iprop(combTok fC d (cL c) ∗ shRem fC d (coreOf c)) else iprop(emp)))
  x := fun _ thr => match thr with
    | (d, .scVector c i) => if c.val < 2 then bkit fC d c i else iprop(emp)
    | _ => iprop(emp)
  ox := fun _ thr => match thr with
    | (d, .scVector c _) => if c.val < 2 then oxV d c else 0
    | _ => 0
  ox_band := by
    intro q thr g ι h
    obtain rfl : q = 0 := Subsingleton.elim _ _
    rcases thr with ⟨d, _ | c | ⟨c, i⟩⟩
    · exact absurd h (lt_irrefl 0)
    · exact absurd h (lt_irrefl 0)
    · dsimp only at h
      split at h
      · obtain ⟨j, rfl, rfl⟩ := oxV_apply_pos h
        rw [(K (F := F)).lev_V_reg d c (j.castLE hsub0) (show (sc_bar0 : Sem sig) ≠ (K (F := F)).go from sc_bar0_ne_go)]; exact ⟨le_rfl, by decide⟩
      · exact absurd h (lt_irrefl 0)
  ox_tc := fun _ _ => rfl
  ox_sc := fun _ _ _ h => absurd rfl h
  ox_vc := by
    intro q d c i h
    obtain rfl : q = 0 := Subsingleton.elim _ _
    dsimp only at h
    split at h
    · next hc => exact ⟨rfl, hc, i.isLt⟩
    · exact absurd rfl h

instance P_storable : (P (F := F) fC fI m).IsStorable where
  st q d c := match q with
    | 0 => by unfold P; dsimp only; infer_instance
  dn q d c := match q with
    | 0 => by unfold P; dsimp only; infer_instance
  go q d c i := match q with
    | 0 => by unfold P; dsimp only; split <;> infer_instance
  td q d c i := match q with
    | 0 => by unfold P; dsimp only; split <;> infer_instance

end Cert.Proof.KI

end
-- ==== Proof.HostGlue.lean ====
/-
  The host-side algebra of the kernel program: before its lookup kernel starts, the program builds a combined table of 192 rows of
  128 lanes — row 16 a + b holds row a of the first table in lanes 0..63 and row b of the second table in lanes 64..127 — and a flat
  vector of combined row numbers 16 e1 + e2. Both are defined here as the literal composition of the layout and integer operations the
  program applies, and read at an index. Looking up row (16 e1 + e2) of the combined table gives the two looked-up rows side by side,
  which is the specification's function, as soon as e1 is at most 11 and e2 at most 15.
-/
import Idealize.ShloMosaic.Lib.Pipeline.Value
import Idealize.ShloMosaic.Lib.ValueIdx
import Idealize.ShloMosaic.Lib.ValueLayout
import proofs.«206824_g72705206386957_cont_9to1_m_461_20_alg».proof.Proof.Spec

namespace Cert.Glue

open Idealize.ShloMosaic Idealize.ShloMosaic.ValueIdx

abbrev S12x16x64 : Shape := ⟨3, ![12, 16, 64]⟩
abbrev S192x64 : Shape := ⟨2, ![192, 64]⟩
abbrev S1x16x1x64 : Shape := ⟨4, ![1, 16, 1, 64]⟩
abbrev S12x16x1x64 : Shape := ⟨4, ![12, 16, 1, 64]⟩
abbrev S192x128 : Shape := ⟨2, ![192, 128]⟩
abbrev S_ : Shape := ⟨0, ![]⟩
abbrev S327680 : Shape := ⟨1, ![327680]⟩

/-! ## The shape relations the operations take -/

theorem hA1 : Spec.STabA.BroadcastsInDim S12x16x64 (![0, 2] : Fin 2 → Fin S12x16x64.rank) := by decide
theorem hA2 : S12x16x64.ShapeCasts S192x64 := by decide
theorem hB3 : Spec.STabB.ShapeCasts S1x16x1x64 := by decide
theorem hB4 : S1x16x1x64.BroadcastsInDim S12x16x1x64 (![0, 1, 2, 3] : Fin 4 → Fin S12x16x1x64.rank) := by decide
theorem hB5 : S12x16x1x64.ShapeCasts S192x64 := by decide
theorem hC6 : Shape.Concatenates [S192x64, S192x64] S192x128 1 := by decide
theorem hI7 : S_.BroadcastsInDim Spec.SIdx (![] : Fin 0 → Fin Spec.SIdx.rank) := by decide
theorem hI8 : Spec.SIdx.ShapeCasts S327680 := by decide

variable {F : FTy → Type}

/-- The combined table: the first table's rows each repeated 16 times, beside the second table's rows cycled 12 times. -/
def combT (ta : FVec F Spec.STabA .f32) (tb : FVec F Spec.STabB .f32) : FVec F S192x128 .f32 :=
  concatenate S192x128 1
    [⟨S192x64, shapeCast S192x64 (broadcastInDim S12x16x64 ![0, 2] hA1 ta) hA2⟩,
     ⟨S192x64, shapeCast S192x64 (broadcastInDim S12x16x1x64 ![0, 1, 2, 3] hB4 (shapeCast S1x16x1x64 tb hB3)) hB5⟩] hC6

/-- The flat vector of combined row numbers 16 e1 + e2. -/
def idxT (e1 e2 : IVec Spec.SIdx 32) : IVec S327680 32 :=
  shapeCast S327680 (addi (muli e1 (broadcastInDim Spec.SIdx ![] hI7 (constantI S_ 32 16#32))) e2) hI8

/-! ## Read at an index -/

theorem combT_apply (ta : FVec F Spec.STabA .f32) (tb : FVec F Spec.STabB .f32) (i : Fin 192) (k : Fin 128) :
    combT ta tb (ix2 i k)
      = if k.val < 64 then ta (ix2 (⟨i.val / 16, by omega⟩ : Fin 12) (Spec.lane k))
        else tb (ix2 (⟨i.val % 16, Nat.mod_lt _ (by decide)⟩ : Fin 16) (Spec.lane k)) := by
  have hi := i.isLt
  have hk := k.isLt
  unfold combT
  by_cases hlt : k.val < 64
  · rw [if_pos hlt]
    -- the first piece, at the same coordinates
    refine (concatenate_pair_apply_left (1 : Fin S192x128.rank) _ _ hC6 (ix2 i k) rfl
      (ix2 i (⟨k.val, hlt⟩ : Fin 64)) (fun b => by match b with | ⟨0, _⟩ => rfl | ⟨1, _⟩ => rfl)).trans ?_
    -- the reshape: row i of 192 is (i / 16, i % 16) of 12 x 16
    refine (shapeCast_apply _ hA2 (ix2 i (⟨k.val, hlt⟩ : Fin 64))
      (ix3 (⟨i.val / 16, by omega⟩ : Fin 12) (⟨i.val % 16, Nat.mod_lt _ (by decide)⟩ : Fin 16) (⟨k.val, hlt⟩ : Fin 64)) ?_).trans ?_
    · rw [Shape.rowMajor_val_three, Shape.rowMajor_val_two]
      show (i.val / 16 * 16 + i.val % 16) * 64 + k.val = i.val * 64 + k.val
      omega
    -- the broadcast: the middle coordinate is dropped
    refine (broadcastInDim_apply _ hA1 ta _ (ix2 (⟨i.val / 16, by omega⟩ : Fin 12) (⟨k.val, hlt⟩ : Fin 64))
      (fun a => by match a with | ⟨0, _⟩ => rfl | ⟨1, _⟩ => rfl)).trans ?_
    refine congrArg ta (congrArg (ix2 _) (Fin.ext ?_))
    show k.val = k.val % 64
    omega
  · rw [if_neg hlt]
    have hge : 64 ≤ k.val := Nat.le_of_not_lt hlt
    have hk' : k.val - 64 < 64 := by omega
    -- the second piece, its lane the first piece's extent less
    refine (concatenate_pair_apply_right (1 : Fin S192x128.rank) _ _ hC6 (ix2 i k) rfl rfl
      (ix2 i (⟨k.val - 64, hk'⟩ : Fin 64))
      (fun b hb => by
        match b with
        | ⟨0, _⟩ => rfl
        | ⟨1, _⟩ => exact absurd rfl hb)
      (by show k.val - 64 + 64 = k.val; omega)).trans ?_
    -- the reshape: row i of 192 is (i / 16, i % 16, 0) of 12 x 16 x 1
    refine (shapeCast_apply _ hB5 (ix2 i (⟨k.val - 64, hk'⟩ : Fin 64))
      (ix4 (⟨i.val / 16, by omega⟩ : Fin 12) (⟨i.val % 16, Nat.mod_lt _ (by decide)⟩ : Fin 16) (0 : Fin 1)
        (⟨k.val - 64, hk'⟩ : Fin 64)) ?_).trans ?_
    · rw [Shape.rowMajor_val_four, Shape.rowMajor_val_two]
      show ((i.val / 16 * 16 + i.val % 16) * 1 + 0) * 64 + (k.val - 64) = i.val * 64 + (k.val - 64)
      omega
    -- the broadcast along the leading axis
    refine (broadcastInDim_apply _ hB4 _ _
      (ix4 (0 : Fin 1) (⟨i.val % 16, Nat.mod_lt _ (by decide)⟩ : Fin 16) (0 : Fin 1) (⟨k.val - 64, hk'⟩ : Fin 64))
      (fun a => by match a with | ⟨0, _⟩ => rfl | ⟨1, _⟩ => rfl | ⟨2, _⟩ => rfl | ⟨3, _⟩ => rfl)).trans ?_
    -- the reshape of the second table to 1 x 16 x 1 x 64
    refine (shapeCast_apply tb hB3 _ (ix2 (⟨i.val % 16, Nat.mod_lt _ (by decide)⟩ : Fin 16) (⟨k.val - 64, hk'⟩ : Fin 64)) ?_).trans ?_
    · rw [Shape.rowMajor_val_four, Shape.rowMajor_val_two]
      show i.val % 16 * 64 + (k.val - 64) = ((0 * 16 + i.val % 16) * 1 + 0) * 64 + (k.val - 64)
      omega
    refine congrArg tb (congrArg (ix2 _) (Fin.ext ?_))
    show k.val - 64 = k.val % 64
    omega

theorem flat_lt (r : Fin 16384) (l : Fin 20) : r.val * 20 + l.val < 327680 := by
  have := r.isLt; have := l.isLt; omega

theorem idxT_apply (e1 e2 : IVec Spec.SIdx 32) (r : Fin 16384) (l : Fin 20) :
    idxT e1 e2 (ix1 (⟨r.val * 20 + l.val, flat_lt r l⟩ : Fin 327680)) = e1 (ix2 r l) * 16#32 + e2 (ix2 r l) := by
  unfold idxT
  refine (shapeCast_apply _ hI8 _ (ix2 r l) ?_).trans rfl
  rw [Shape.rowMajor_val_two, Shape.rowMajor_val_one]
  rfl

/-- No wrap: 16 a + b as words is 16 a + b as numbers when a is at most 11 and b at most 15. -/
theorem toNat_comb (a b : BitVec 32) (ha : a.toNat ≤ 11) (hb : b.toNat ≤ 15) :
    (a * 16#32 + b).toNat = a.toNat * 16 + b.toNat := by
  rw [BitVec.toNat_add, BitVec.toNat_mul]
  have h16 : (16#32 : BitVec 32).toNat = 16 := by decide
  rw [h16]
  have h1 : a.toNat * 16 % 2 ^ 32 = a.toNat * 16 := Nat.mod_eq_of_lt (by omega)
  rw [h1]
  exact Nat.mod_eq_of_lt (by omega)

theorem idxT_lt (e1 e2 : IVec Spec.SIdx 32) (h1 : ∀ i, (e1 i).toNat ≤ 11) (h2 : ∀ i, (e2 i).toNat ≤ 15) (n : Fin 327680) :
    (idxT e1 e2 (ix1 n)).toNat < 192 := by
  have hn := n.isLt
  have e : n = (⟨(⟨n.val / 20, by omega⟩ : Fin 16384).val * 20 + (⟨n.val % 20, Nat.mod_lt _ (by decide)⟩ : Fin 20).val,
      flat_lt _ _⟩ : Fin 327680) := Fin.ext (by show n.val = n.val / 20 * 20 + n.val % 20; omega)
  rw [e, idxT_apply, toNat_comb _ _ (h1 _) (h2 _)]
  have := h1 (ix2 (⟨n.val / 20, by omega⟩ : Fin 16384) (⟨n.val % 20, Nat.mod_lt _ (by decide)⟩ : Fin 20))
  have := h2 (ix2 (⟨n.val / 20, by omega⟩ : Fin 16384) (⟨n.val % 20, Nat.mod_lt _ (by decide)⟩ : Fin 20))
  omega

/-- What the lookup kernel computes from the host-built table and indices: row (flat index word mod 192) of the combined table. -/
def kernelG (e1 e2 : IVec Spec.SIdx 32) (ta : FVec F Spec.STabA .f32) (tb : FVec F Spec.STabB .f32) : FVec F Spec.SOut .f32 :=
  fun j => combT ta tb
    (ix2 (⟨(idxT e1 e2 (ix1 (⟨(j 0).val * 20 + (j 1).val, flat_lt (j 0) (j 1)⟩ : Fin 327680))).toNat % 192,
      Nat.mod_lt _ (by decide)⟩ : Fin 192) (j 2))

theorem kernelG_eq (e1 e2 : IVec Spec.SIdx 32) (ta : FVec F Spec.STabA .f32) (tb : FVec F Spec.STabB .f32)
    (h1 : ∀ i, (e1 i).toNat ≤ 11) (h2 : ∀ i, (e2 i).toNat ≤ 15) : kernelG e1 e2 ta tb = Spec.G e1 e2 ta tb := by
  funext j
  have g1 := h1 (ix2 (j 0) (j 1))
  have g2 := h2 (ix2 (j 0) (j 1))
  have hw : (idxT e1 e2 (ix1 (⟨(j 0).val * 20 + (j 1).val, flat_lt (j 0) (j 1)⟩ : Fin 327680))).toNat
      = (e1 (ix2 (j 0) (j 1))).toNat * 16 + (e2 (ix2 (j 0) (j 1))).toNat :=
    (congrArg BitVec.toNat (idxT_apply e1 e2 (j 0) (j 1))).trans (toNat_comb _ _ g1 g2)
  show combT ta tb
      (ix2 (⟨(idxT e1 e2 (ix1 (⟨(j 0).val * 20 + (j 1).val, flat_lt (j 0) (j 1)⟩ : Fin 327680))).toNat % 192,
        Nat.mod_lt _ (by decide)⟩ : Fin 192) (j 2))
    = if (j 2).val < 64 then ta (ix2 (Spec.rowA (e1 (ix2 (j 0) (j 1)))) (Spec.lane (j 2)))
      else tb (ix2 (Spec.rowB (e2 (ix2 (j 0) (j 1)))) (Spec.lane (j 2)))
  by_cases hlt : (j 2).val < 64
  · refine ((combT_apply ta tb _ (j 2)).trans (if_pos hlt)).trans (Eq.trans ?_ (if_pos hlt).symm)
    refine congrArg ta (congrArg (fun a => ix2 a (Spec.lane (j 2))) (Fin.ext ?_))
    show (idxT e1 e2 _).toNat % 192 / 16 = (e1 (ix2 (j 0) (j 1))).toNat % 12
    rw [hw]
    omega
  · refine ((combT_apply ta tb _ (j 2)).trans (if_neg hlt)).trans (Eq.trans ?_ (if_neg hlt).symm)
    refine congrArg tb (congrArg (fun a => ix2 a (Spec.lane (j 2))) (Fin.ext ?_))
    show (idxT e1 e2 _).toNat % 192 % 16 = (e2 (ix2 (j 0) (j 1))).toNat % 16
    rw [hw]
    omega

end Cert.Glue
-- ==== Proof.KILaunchA.lean ====
/-
  The launch side of the kernel's run, first part: how a core's operands for the call are dealt to its sixteen tiles and gathered back
  from them (tile 0 also takes the core's read share of the combined table and the core's shared memory, and brings back what remained
  of it once the sixteen read shares of the filled table are dealt), and the launch element of the ghost state: the barrier cells' rounds funded,
  their invariants allocated, and each tile handed its barrier kit.
-/
import proofs.«206824_g72705206386957_cont_9to1_m_461_20_alg».proof.Proof.KISetup
import proofs.«206824_g72705206386957_cont_9to1_m_461_20_alg».proof.Proof.HostGlue

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable [FloatOps F]

variable (fC : (d : Dev nD) → Buf (Elt F) (combLoc d))
variable (fI : (d : Dev nD) → Buf (Elt F) (idxLoc d))
variable (m : (ℓ : Loc nD τ sig) → Buf (Elt F) ℓ)

/-! ## A core's operands dealt to its tiles and gathered back -/

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

omit [FloatOps F] in
/-- What only tile 0 holds, over the sixteen tiles, is it. -/
theorem bigSep_if0 (X : sProp 𝕄) : (bigSep Finset.univ fun i : Fin 16 => if i.val = 0 then X else iprop(emp)) = X := by
  have h := bigSep_filter (M := 𝕄) Finset.univ (fun i : Fin 16 => i.val = 0) (fun _ => X)
  rw [show (Finset.univ.filter fun i : Fin 16 => i.val = 0) = {0} by decide, bigSep_singleton] at h
  exact h.symm

omit [FloatOps F] in
/-- The shared table is among the sequencer's own buffers: it is it, at some contents, and the rest. -/
theorem ownBufs_S (d : Dev nD) (c : Fin τ.nSC) :
    (ownBufs (S d c) : sProp 𝕄)
      = iprop((∃ f, shLoc d c ↦{fullShare} f) ∗ bigSep ((ownRefs (τ := τ) (.scScalar c)).erase (shRef c)) fun b => iprop(∃ f, ((d, b) : Loc nD τ sig) ↦{fullShare} f)) := by
  unfold SparseCore.Cfg.ownBufs
  have h : shRef c ∈ ownRefs (τ := τ) (sig := sig) (.scScalar c) := (mem_ownRefs (p := Proc.scScalar c) (b := shRef c)).mpr rfl
  exact SparseCore.bigSep_erase' h

theorem P_st (d : Dev nD) (c : Fin ((K (F := F)).nCore 0)) : (P fC fI m).st 0 d c
    = iprop((bigSep Finset.univ fun s : Fin 16 => iprop(idxPts fI d (wid (cL c) s) ∗ outPts d (wid (cL c) s) (m (outLoc d)))) ∗ combTok fC d (cL c)) := rfl
theorem P_dn (d : Dev nD) (c : Fin ((K (F := F)).nCore 0)) : (P fC fI m).dn 0 d c
    = iprop((bigSep Finset.univ fun s : Fin 16 => iprop(idxPts fI d (wid (cL c) s) ∗ outPts d (wid (cL c) s) (outF fC fI d))) ∗ combTok fC d (cL c)) := rfl
theorem P_go (d : Dev nD) (c : Fin ((K (F := F)).nCore 0)) (i : Fin ((K (F := F)).nSub 0)) : (P fC fI m).go 0 d c i
    = iprop(idxPts fI d (wid (cL c) (Fin.cast nSub_zero i)) ∗ outPts d (wid (cL c) (Fin.cast nSub_zero i)) (m (outLoc d))
        ∗ (if (Fin.cast nSub_zero i).val = 0 then iprop(combTok fC d (cL c) ∗ ∃ f, shLoc d (coreOf c) ↦{fullShare} f) else iprop(emp))) := rfl
theorem P_td (d : Dev nD) (c : Fin ((K (F := F)).nCore 0)) (i : Fin ((K (F := F)).nSub 0)) : (P fC fI m).td 0 d c i
    = iprop(idxPts fI d (wid (cL c) (Fin.cast nSub_zero i)) ∗ outPts d (wid (cL c) (Fin.cast nSub_zero i)) (outF fC fI d) ∗ shTok fC d (coreOf c) (Fin.cast nSub_zero i)
        ∗ (if (Fin.cast nSub_zero i).val = 0 then iprop(combTok fC d (cL c) ∗ shRem fC d (coreOf c)) else iprop(emp))) := rfl

theorem vecSplit : (K (F := F)).VecSplit (P fC fI m) 0 := by
  intro d c
  show iprop((P fC fI m).st 0 d c ∗ ownBufs (S d (coreOf c))) ⊢ |={Set.univ}=> iprop(
      (bigSep Finset.univ fun i : Fin ((K (F := F)).nSub 0) => (P fC fI m).go 0 d c i)
      ∗ ((bigSep Finset.univ fun i : Fin ((K (F := F)).nSub 0) => (P fC fI m).td 0 d c i)
          -∗ iprop((P fC fI m).dn 0 d c ∗ ownBufs (S d (coreOf c)))))
  rw [P_st, P_dn]
  simp only [P_go, P_td]
  rw [bigSep_tasks (F := F) (fun i => iprop(idxPts fI d (wid (cL c) i) ∗ outPts d (wid (cL c) i) (m (outLoc d))
        ∗ (if i.val = 0 then iprop(combTok fC d (cL c) ∗ ∃ f, shLoc d (coreOf c) ↦{fullShare} f) else iprop(emp)))),
    bigSep_tasks (F := F) (fun i => iprop(idxPts fI d (wid (cL c) i) ∗ outPts d (wid (cL c) i) (outF fC fI d) ∗ shTok fC d (coreOf c) i
        ∗ (if i.val = 0 then iprop(combTok fC d (cL c) ∗ shRem fC d (coreOf c)) else iprop(emp))))]
  simp only [bigSep_sep', bigSep_if0]
  rw [ownBufs_S]
  iintro ⟨⟨⟨Hi, Ho⟩, Hc⟩, Hsh, Hrest⟩; imodintro
  isplitl [Hi Ho Hc Hsh]
  · isplitl [Hi]; · iexact Hi
    isplitl [Ho]; · iexact Ho
    isplitl [Hc]; · iexact Hc
    iexact Hsh
  iintro ⟨Hi, Ho, Htok, Hc, Hrem⟩
  isplitl [Hi Ho Hc]
  · isplitl [Hi Ho]
    · isplitl [Hi]; · iexact Hi
      iexact Ho
    iexact Hc
  isplitl [Htok Hrem]
  · iexists (shC fC d (coreOf c))
    iapply (Transfers.pointsTo_toks_join (ℓ := shLoc d (coreOf c)) (S := Finset.univ) (f := shC fC d (coreOf c)) fullShare 16)
    isplitl [Hrem]; · iexact Hrem
    iexact Htok
  iexact Hrest

/-! ## The launch element of the ghost state, and what the launch hands over -/

abbrev DCI : Type := Dev nD × Fin τ.nSC × Fin τ.nSub
abbrev bcell₃ (x : DCI) : GSem nD τ sig := bcell x.1 x.2.1 x.2.2

def bCells : Finset (GSem nD τ sig) := Finset.univ.image bcell₃
/-- Tile `i`'s token in tile `j`'s cell, for every pair of tiles of a core. -/
def bToks : Finset (GSem nD τ sig × ℕ × ℕ) :=
  Finset.univ.image fun x : DCI × Fin (grid0.bound 1) => (bcell x.1.1 x.1.2.1 (x.2.castLE hsub0), 0, x.1.2.2.val)
def u₀ : UU := (initOf (K (F := F)).hsCells (K (F := F)).hsToks, (initOf bCells bToks, 1))

omit [FloatOps F] in
theorem bcell₃_injective : Function.Injective (bcell₃ : DCI → GSem nD τ sig) := fun a b e => by
  obtain ⟨h1, h2⟩ := Prod.mk.inj (Prod.mk.inj e).1; obtain ⟨h3, h4⟩ := Proc.scVector.inj h2
  exact Prod.ext h1 (Prod.ext h3 h4)

omit [FloatOps F] in
theorem ownU_split (a : UH) (b : UB) : (ownU ((a, (b, 1)) : UU) : sProp 𝕄) ⊢ iprop(BI.own (EH a) ∗ BI.own (EB b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, (1 : Counters)))))

/-- Every barrier semaphore at zero, out of the free semaphores the launch hands over. -/
theorem sems_b : ((K (F := F)).freeSems0 : sProp 𝕄) ⊢ bigSep bCells fun g => semVal g 0 := by
  unfold SparseCore.Cfg.freeSems0 bCells
  rw [SparseCore.bigSep_image_of_injOn (fun a _ b _ e => bcell₃_injective e)]
  refine sep_elim_right.trans (bigSep_mono fun dci _ => ?_)
  unfold SparseCore.Cfg.vcSems0
  exact bigSep_elim (Φ := fun sm : SemLoc sig => (semVal (V dci.1 dci.2.1 dci.2.2, sm) 0 : sProp 𝕄))
    (Finset.mem_erase.mpr ⟨fun h => sc_bar0_ne_go (SemLoc.reg.inj h), Finset.mem_filter.mpr ⟨Finset.mem_univ _, by decide⟩⟩)

/-- The barrier cells' invariants, allocated at once. -/
theorem invs_b : iprop((bigSep bCells fun g => (semVal g 0 : sProp 𝕄)) ∗ bigSep bCells fun g => roundState EB (bRd (F := F) fC) g 0)
    ⊢ |={Set.univ}=> iprop(∃ κ : GSem nD τ sig → ℕ, bigSep bCells fun g => cellInv EB (bRd (F := F) fC) (κ g) g) := by
  refine (Rounds.bodies_intro EB (bRd (F := F) fC) bCells).trans ((inv_alloc_family bCells (Rounds.body EB (bRd (F := F) fC)) ∅ (E := Set.univ)).trans ?_)
  iintro H
  imod H with ⟨%κ, -, Hinv⟩
  imodintro; iexists κ; iexact Hinv

omit [FloatOps F] in
theorem sum_tallyAt_one (g : GSem nD τ sig) (ι : HIx 1) : ∀ n : ℕ, ∑ _ : Fin n, tallyAt g ι 1 = (tallyAt g ι n : CellTallies nD τ sig (HIx 1))
  | 0 => by rw [Finset.sum_empty' Finset.univ_eq_empty, tallyAt_zero]
  | n + 1 => by rw [Fin.sum_univ_castSucc, sum_tallyAt_one g ι n, tallyAt_add]
where
  Finset.sum_empty' {α β : Type} [AddCommMonoid β] {s : Finset α} (h : s = ∅) {f : α → β} : ∑ x ∈ s, f x = 0 := by rw [h, Finset.sum_empty]

/-- The credit for the kernel's own debts, regrouped: each tile the sixteen units of its own cell. -/
theorem creds_b : ((P (F := F) fC fI m).oxCred : sProp 𝕄)
    ⊢ bigSep Finset.univ fun dci : DCI => if dci.2.1.val < 2 then cred (tallyAt (bcell₃ dci) (some 0) (grid0.bound 1)) else (BI.emp : sProp 𝕄) := by
  unfold SparseCore.Cfg.Pay.oxCred
  rw [SparseCore.Cfg.bigSep_threads (fun thr : Thread nD τ => (cred ((P (F := F) fC fI m).oxFrom 0 thr) : sProp 𝕄))]
  refine sep_elim_right.trans (sep_elim_right.trans ?_)
  rw [bigSep_univ_prod, bigSep_univ_prod (fun dci : DCI => if dci.2.1.val < 2 then (cred (tallyAt (bcell₃ dci) (some 0) (grid0.bound 1)) : sProp 𝕄) else BI.emp)]
  refine bigSep_mono fun d _ => ?_
  rw [bigSep_univ_prod, bigSep_univ_prod (fun ci : Fin τ.nSC × Fin τ.nSub => if ci.1.val < 2 then (cred (tallyAt (bcell₃ (d, ci)) (some 0) (grid0.bound 1)) : sProp 𝕄) else BI.emp)]
  refine bigSep_mono fun c _ => ?_
  dsimp only
  by_cases hc : c.val < 2
  · simp only [hc, ↓reduceIte]
    have hox : ∀ i, (P (F := F) fC fI m).oxFrom 0 (V d c i) = oxV d c := fun i => by
      rw [show (0 : ℕ) = (0 : Fin 1).val from rfl, (P fC fI m).oxFrom_step, (P fC fI m).oxFrom_end _ (n := (0 : Fin 1).val + 1) le_rfl, add_zero]; exact if_pos hc
    simp only [hox]
    unfold oxV
    rw [SparseCore.Cfg.cred_finsum, bigSep_univ_comm]
    refine bigSep_mono fun j _ => ?_
    rw [← SparseCore.Cfg.cred_finsum, sum_tallyAt_one]; rfl
  · simp only [hc, ↓reduceIte]
    exact bigSep_mono fun _ _ => fun _ _ => trivial

omit [FloatOps F] in
/-- A persistent resource beside a big separating conjunction goes to each conjunct. -/
theorem bigSep_mono_frame {I : Type} [DecidableEq I] {R : sProp 𝕄} [BI.Persistent R] {s : Finset I} {Φ Ψ : I → sProp 𝕄}
    (h : ∀ i ∈ s, iprop(R ∗ Φ i) ⊢ Ψ i) : iprop(R ∗ bigSep s Φ) ⊢ bigSep s Ψ := by
  induction s using Finset.induction_on with
  | empty => rw [bigSep_empty, bigSep_empty]; exact sep_elim_right
  | insert a s ha ih =>
    rw [SparseCore.bigSep_insert' ha, SparseCore.bigSep_insert' ha]
    iintro ⟨#HR, H1, H2⟩
    isplitl [H1]
    · iapply (h a (Finset.mem_insert_self _ _)); isplitr; · iexact HR
      iexact H1
    · iapply (ih fun i hi => h i (Finset.mem_insert_of_mem hi)); isplitr; · iexact HR
      iexact H2

omit [FloatOps F] in
theorem toks_eq : (bigSep bToks fun x => (dutyTok EB x.1 x.2.1 x.2.2 : sProp 𝕄))
    = bigSep Finset.univ fun dci : DCI => bigSep Finset.univ fun j : Fin (grid0.bound 1) => dutyTok EB (bcell dci.1 dci.2.1 (j.castLE hsub0)) 0 dci.2.2.val := by
  unfold bToks
  rw [SparseCore.bigSep_image_of_injOn, bigSep_univ_prod]
  rintro ⟨⟨d, c, i⟩, j⟩ - ⟨⟨d', c', i'⟩, j'⟩ - e
  have e1 := (Prod.mk.inj (Prod.mk.inj e).1).1
  have e2 : i.val = i'.val := (Prod.mk.inj (Prod.mk.inj e).2).2
  obtain ⟨rfl, h⟩ := Prod.mk.inj e1
  obtain ⟨rfl, hj⟩ := Proc.scVector.inj h
  have hj' : j = j' := Fin.ext (congrArg Fin.val hj)
  subst hj'
  have hi' : i = i' := Fin.ext e2
  subst hi'
  rfl

theorem Px_T (d : Dev nD) : (bigSep Finset.univ fun q : Fin 1 => (P (F := F) fC fI m).x q (SparseCore.T d)) = iprop(emp) :=
  bigSep_univ_of_subsingleton (0 : Fin 1)
theorem Px_S (d : Dev nD) (c : Fin τ.nSC) : (bigSep Finset.univ fun q : Fin 1 => (P (F := F) fC fI m).x q (S d c)) = iprop(emp) :=
  bigSep_univ_of_subsingleton (0 : Fin 1)
theorem Px_V (d : Dev nD) (c : Fin τ.nSC) (i : Fin τ.nSub) :
    (bigSep Finset.univ fun q : Fin 1 => (P (F := F) fC fI m).x q (V d c i)) = if c.val < 2 then bkit fC d c i else iprop(emp) :=
  bigSep_univ_of_subsingleton (0 : Fin 1)

omit [FloatOps F] in
theorem bCells_eq (Φ : GSem nD τ sig → sProp 𝕄) : bigSep bCells Φ = bigSep Finset.univ fun x : DCI => Φ (bcell₃ x) := by
  unfold bCells; exact SparseCore.bigSep_image_of_injOn (fun a _ b _ e => bcell₃_injective e) Φ

/-- What every tile is handed alike: every barrier cell's invariant, and that each has reached round 0. -/
abbrev shared : sProp 𝕄 :=
  iprop((∃ κ : GSem nD τ sig → ℕ, bigSep Finset.univ fun x : DCI => cellInv EB (bRd (F := F) fC) (κ (bcell₃ x)) (bcell₃ x))
    ∗ bigSep Finset.univ fun x : DCI => reached EB (bcell₃ x) 0)
/-- What each tile is handed of its own: its position, its tokens, its credit. -/
abbrev mine (dci : DCI) : sProp 𝕄 :=
  iprop(atPos EB (bcell₃ dci) 0 ∅ 0
    ∗ (bigSep Finset.univ fun j : Fin (grid0.bound 1) => dutyTok EB (bcell dci.1 dci.2.1 (j.castLE hsub0)) 0 dci.2.2.val)
    ∗ (if dci.2.1.val < 2 then cred (tallyAt (bcell₃ dci) (some 0) (grid0.bound 1)) else BI.emp))

/-- One tile's kit out of those. -/
theorem kit_intro (dci : DCI) : iprop(shared (F := F) fC ∗ mine (F := F) dci) ⊢ (if dci.2.1.val < 2 then bkit (F := F) fC dci.1 dci.2.1 dci.2.2 else iprop(emp) : sProp 𝕄) := by
  obtain ⟨d, c, i⟩ := dci
  iintro ⟨⟨#Hinv, #Hr⟩, Hat, Htok, Hcred⟩
  dsimp only
  split
  · unfold bkit
    isplitr
    · icases Hinv with ⟨%κ, Hinv⟩
      iexists κ
      iapply (SparseCore.ent (bigSep_mono_frame (s := (Finset.univ : Finset (Fin (grid0.bound 1)))) (Φ := fun _ => iprop(emp))
        (R := bigSep Finset.univ fun x : DCI => cellInv EB (bRd (F := F) fC) (κ (bcell₃ x)) (bcell₃ x)) fun j _ =>
          sep_elim_left.trans (bigSep_elim (Φ := fun x : DCI => (cellInv EB (bRd (F := F) fC) (κ (bcell₃ x)) (bcell₃ x) : sProp 𝕄))
            (i := (d, c, Fin.castLE hsub0 j)) (Finset.mem_univ _))))
      isplitl; · iexact Hinv
      rw [bigSep_emp']; iempintro
    isplitl [Htok]; · iexact Htok
    isplitr
    · iapply (SparseCore.ent (bigSep_mono_frame (s := (Finset.univ : Finset (Fin (grid0.bound 1)))) (Φ := fun _ => iprop(emp))
        (R := bigSep Finset.univ fun x : DCI => reached EB (bcell₃ x) 0) fun j _ =>
          sep_elim_left.trans (bigSep_elim (Φ := fun x : DCI => (reached EB (bcell₃ x) 0 : sProp 𝕄)) (i := (d, c, Fin.castLE hsub0 j)) (Finset.mem_univ _))))
      isplitl; · iexact Hr
      rw [bigSep_emp']; iempintro
    isplitl [Hat]; · iexact Hat
    iexact Hcred
  · iempintro

/-- Each tile its kit. -/
theorem kits_deal :
    iprop(shared (F := F) fC ∗ (bigSep Finset.univ fun x : DCI => atPos EB (bcell₃ x) 0 ∅ 0)
        ∗ (bigSep Finset.univ fun dci : DCI => bigSep Finset.univ fun j : Fin (grid0.bound 1) => dutyTok EB (bcell dci.1 dci.2.1 (j.castLE hsub0)) 0 dci.2.2.val)
        ∗ (bigSep Finset.univ fun dci : DCI => if dci.2.1.val < 2 then cred (tallyAt (bcell₃ dci) (some 0) (grid0.bound 1)) else BI.emp))
      ⊢ (bigSep Finset.univ fun thr : Thread nD τ => bigSep Finset.univ fun q : Fin 1 => (P (F := F) fC fI m).x q thr : sProp 𝕄) := by
  rw [SparseCore.Cfg.bigSep_threads (fun thr : Thread nD τ => bigSep Finset.univ fun q : Fin 1 => (P fC fI m).x q thr)]
  simp only [Px_T, Px_S, Px_V, bigSep_emp']
  iintro ⟨#Hsh, Hat, Htok, Hcred⟩
  isplitr; · iempintro
  isplitr; · iempintro
  iapply (bigSep_mono_frame (R := shared (F := F) fC) (Φ := mine (F := F)) fun dci _ => kit_intro (F := F) fC dci)
  isplitr; · iexact Hsh
  unfold mine
  rw [bigSep_sep', bigSep_sep']
  isplitl [Hat]; · iexact Hat
  isplitl [Htok]; · iexact Htok
  iexact Hcred

theorem hu₀ : iprop(ownU (u₀ (F := F)) ∗ (P (F := F) fC fI m).oxCred ∗ (K (F := F)).freeSems0)
    ⊢ |={Set.univ}=> iprop(BI.own (EH (initOf (K (F := F)).hsCells (K (F := F)).hsToks)) ∗ (bigSep Finset.univ fun _ : Dev nD => iprop(emp))
        ∗ (bigSep Finset.univ fun thr : Thread nD τ => bigSep Finset.univ fun q : Fin 1 => (P fC fI m).x q thr) : sProp 𝕄) := by
  unfold u₀
  iintro ⟨Hu, Hcred, Hfree⟩
  ihave H := (ownU_split _ _) $$ Hu
  icases H with ⟨HH, HB⟩
  imod (Rounds.fund EB (bRd (F := F) fC) bCells bToks) $$ HB with ⟨Hst, #Hr, Hat, Htok⟩
  ihave Hsems := (sems_b (F := F)) $$ Hfree
  imod (invs_b (F := F) fC) $$ [Hsems Hst] with ⟨%κ, #Hinv⟩
  · isplitl [Hsems] <;> iassumption
  ihave Hcred' := (creds_b fC fI m) $$ Hcred
  ihave Hinv' := (Entails.of_eq (bCells_eq (F := F) fun g => cellInv EB (bRd (F := F) fC) (κ g) g)) $$ Hinv
  ihave Hr' := (Entails.of_eq (bCells_eq (F := F) fun g => reached EB g 0)) $$ Hr
  ihave Hat' := (Entails.of_eq (bCells_eq (F := F) fun g => atPos EB g 0 ∅ 0)) $$ Hat
  ihave Htok' := (Entails.of_eq (toks_eq (F := F))) $$ Htok
  imodintro
  isplitl [HH]; · iexact HH
  isplitr; · rw [bigSep_emp']; iempintro
  iapply (kits_deal fC fI m)
  isplitr
  · isplitl; · iexists κ; iexact Hinv'
    iexact Hr'
  isplitl [Hat']; · iexact Hat'
  isplitl [Htok']; · iexact Htok'
  iexact Hcred'

end Cert.Proof.KI

end
-- ==== Proof.KILaunchB.lean ====
/-
  The launch side of the kernel's run, second part: the arrays as the thirty-two tiles share them. The flat index array and the result
  array are each the disjoint union of the tiles' slices, and the thirty-two tiles are two cores of sixteen; so what a call takes per core
  (the record's `st`) is the two arrays whole beside a read share of the combined table per core, and what it brings back (`dn`) is
  the same with the result at its final contents.
-/
import proofs.«206824_g72705206386957_cont_9to1_m_461_20_alg».proof.Proof.KILaunchA

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable [FloatOps F]

variable (fC : (d : Dev nD) → Buf (Elt F) (combLoc d))
variable (fI : (d : Dev nD) → Buf (Elt F) (idxLoc d))
variable (m : (ℓ : Loc nD τ sig) → Buf (Elt F) ℓ)

/-! ## The tiles' slices part the arrays -/

omit [FloatOps F] in
theorem idx_disjoint : ∀ w ∈ (Finset.univ : Finset (Fin 32)), ∀ w' ∈ (Finset.univ : Finset (Fin 32)), w ≠ w' → Disjoint (idxSet w) (idxSet w') := by
  intro w _ w' _ h
  rw [Finset.disjoint_left]
  intro j hj hj'
  have h1 := (Finset.mem_filter.mp hj).2
  have h2 := (Finset.mem_filter.mp hj').2
  exact h (Fin.ext (h1.symm.trans h2))
omit [FloatOps F] in
theorem idx_cover : (Finset.univ : Finset (Fin 32)).biUnion idxSet = Finset.univ := by
  ext j
  simp only [Finset.mem_biUnion, Finset.mem_univ, true_and, iff_true]
  have hj : (j 0).val < 327680 := (j 0).isLt
  exact ⟨⟨(j 0).val / 10240, by omega⟩, Finset.mem_filter.mpr ⟨Finset.mem_univ _, rfl⟩⟩
omit [FloatOps F] in
theorem out_disjoint : ∀ w ∈ (Finset.univ : Finset (Fin 32)), ∀ w' ∈ (Finset.univ : Finset (Fin 32)), w ≠ w' → Disjoint (outSet w) (outSet w') := by
  intro w _ w' _ h
  rw [Finset.disjoint_left]
  intro j hj hj'
  have h1 := (Finset.mem_filter.mp hj).2
  have h2 := (Finset.mem_filter.mp hj').2
  exact h (Fin.ext (h1.symm.trans h2))
omit [FloatOps F] in
theorem out_cover : (Finset.univ : Finset (Fin 32)).biUnion outSet = Finset.univ := by
  ext j
  simp only [Finset.mem_biUnion, Finset.mem_univ, true_and, iff_true]
  have hj : (j 0).val < 16384 := (j 0).isLt
  exact ⟨⟨(j 0).val / 512, by omega⟩, Finset.mem_filter.mpr ⟨Finset.mem_univ _, rfl⟩⟩

/-- The thirty-two tiles are two cores of sixteen. -/
def widEquiv : Fin 2 × Fin 16 ≃ Fin 32 where
  toFun p := wid p.1 p.2
  invFun w := (⟨w.val % 2, Nat.mod_lt _ (by decide)⟩, ⟨w.val / 2, by omega⟩)
  left_inv p := Prod.ext (Fin.ext (by show (2 * p.2.val + p.1.val) % 2 = p.1.val; omega))
    (Fin.ext (by show (2 * p.2.val + p.1.val) / 2 = p.2.val; omega))
  right_inv w := Fin.ext (by show 2 * (w.val / 2) + w.val % 2 = w.val; omega)

omit [FloatOps F] in
theorem bigSep_wid (Φ : Fin 32 → sProp 𝕄) :
    bigSep Finset.univ Φ = bigSep Finset.univ fun c : Fin 2 => bigSep Finset.univ fun s : Fin 16 => Φ (wid c s) :=
  (bigSep_univ_equiv widEquiv Φ).trans (bigSep_univ_prod fun p : Fin 2 × Fin 16 => Φ (widEquiv p))

omit [FloatOps F] in
theorem idxPts_tiles (d : Dev nD) (f : Buf (Elt F) (idxLoc d)) :
    (idxLoc d ↦{fullShare} f : sProp 𝕄)
      = bigSep Finset.univ fun c : Fin 2 => bigSep Finset.univ fun s : Fin 16 => idxLoc d ↦[idxSet (wid c s)]{fullShare} f := by
  rw [← bigSep_wid (F := F) (fun w => idxLoc d ↦[idxSet w]{fullShare} f),
    ← pointsTo_biUnion Finset.univ (ℓ := idxLoc d) idxSet idx_disjoint, idx_cover]; try rfl
omit [FloatOps F] in
theorem outPts_tiles (d : Dev nD) (f : Buf (Elt F) (outLoc d)) :
    (outLoc d ↦{fullShare} f : sProp 𝕄)
      = bigSep Finset.univ fun c : Fin 2 => bigSep Finset.univ fun s : Fin 16 => outLoc d ↦[outSet (wid c s)]{fullShare} f := by
  rw [← bigSep_wid (F := F) (fun w => outLoc d ↦[outSet w]{fullShare} f),
    ← pointsTo_biUnion Finset.univ (ℓ := outLoc d) outSet out_disjoint, out_cover]; try rfl

omit [FloatOps F] in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-- What the call takes: the two arrays whole and a read share of the combined table per core. -/
theorem st0_eq (d : Dev nD) : (bigSep Finset.univ fun c : Fin ((K (F := F)).nCore 0) => (P fC fI m).st 0 d c)
    = iprop(((idxLoc d ↦{fullShare} fI d) ∗ (outLoc d ↦{fullShare} m (outLoc d))) ∗ bigSep Finset.univ fun c : Fin 2 => combTok fC d c) := by
  simp only [P_st]
  rw [bigSep_cores (F := F) (fun c => iprop((bigSep Finset.univ fun s : Fin 16 => iprop(idxPts fI d (wid c s) ∗ outPts d (wid c s) (m (outLoc d)))) ∗ combTok fC d c))]
  simp only [bigSep_sep']
  rw [idxPts_tiles (F := F) d (fI d), outPts_tiles (F := F) d (m (outLoc d))]
/-- What it brings back: the same, the result at its final contents. -/
theorem dn0_eq (d : Dev nD) : (bigSep Finset.univ fun c : Fin ((K (F := F)).nCore 0) => (P fC fI m).dn 0 d c)
    = iprop(((idxLoc d ↦{fullShare} fI d) ∗ (outLoc d ↦{fullShare} outF fC fI d)) ∗ bigSep Finset.univ fun c : Fin 2 => combTok fC d c) := by
  simp only [P_dn]
  rw [bigSep_cores (F := F) (fun c => iprop((bigSep Finset.univ fun s : Fin 16 => iprop(idxPts fI d (wid c s) ∗ outPts d (wid c s) (outF fC fI d))) ∗ combTok fC d c))]
  simp only [bigSep_sep']
  rw [idxPts_tiles (F := F) d (fI d), outPts_tiles (F := F) d (outF fC fI d)]

end Cert.Proof.KI

end
-- ==== Proof.KILaunchC.lean ====
/-
  The launch side of the kernel's run, third part: @main on the TensorCore. Its eleven host operations build the combined table and the
  flat index vector (read off the buffers as the two pure functions of the arguments), the call then takes the two operand arrays and the
  result array — the table as one read share per core — and brings the result back at its final contents; the four arguments are never
  touched. With the tiles' obligation, the split of a core's operands and the launch element this is the program's run.
-/
import proofs.«206824_g72705206386957_cont_9to1_m_461_20_alg».proof.Proof.KILaunchB

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

open Idealize.ShloMosaic.StableHlo (held held_sub_split wp_seq seq after after_cons after_nil tcRefs devRef_mem_tcRefs)

variable [FloatOps F]

variable (m : (ℓ : Loc nD τ sig) → Buf (Elt F) ℓ) (ρ : Dev nD → PrngReg)

abbrev a0Loc (d : Dev nD) : Loc nD τ sig := (SparseCore.T d).loc main_arg0
abbrev a1Loc (d : Dev nD) : Loc nD τ sig := (SparseCore.T d).loc main_arg1
abbrev a2Loc (d : Dev nD) : Loc nD τ sig := (SparseCore.T d).loc main_arg2
abbrev a3Loc (d : Dev nD) : Loc nD τ sig := (SparseCore.T d).loc main_arg3

/-- The combined table the host operations build from the two tables. -/
def cT (d : Dev nD) : Buf (Elt F) (combLoc d) := Cert.Glue.combT (F := F) (m (a2Loc d)) (m (a3Loc d))
/-- The flat index vector the host operations build from the two index arrays. -/
def iT (d : Dev nD) : Buf (Elt F) (idxLoc d) := Cert.Glue.idxT (m (a0Loc d)) (m (a1Loc d))

/-! ## The host operations -/

abbrev a0' : DevRef τ sig := Proc.devRef .tc (main_arg0 : Ref sig .tc)
abbrev a1' : DevRef τ sig := Proc.devRef .tc (main_arg1 : Ref sig .tc)
abbrev a2' : DevRef τ sig := Proc.devRef .tc (main_arg2 : Ref sig .tc)
abbrev a3' : DevRef τ sig := Proc.devRef .tc (main_arg3 : Ref sig .tc)
abbrev v5' : DevRef τ sig := Proc.devRef .tc (main_v5 : Ref sig .tc)
abbrev v9' : DevRef τ sig := Proc.devRef .tc (main_v9 : Ref sig .tc)
abbrev v10' : DevRef τ sig := Proc.devRef .tc (main_v10 : Ref sig .tc)

/-- @main's operations before the call, in order. -/
def hostOps : List (HloOp τ sig (Elt F)) :=
  [ StableHlo.unary main_arg2 main_v0 (broadcastInDim S12x16x64 ![0, 2] Facts₀.bcast_S12x64_S12x16x64_0_2 : (⟨S12x64, .f32⟩ : BufTy).Contents (Elt F) → (⟨S12x16x64, .f32⟩ : BufTy).Contents (Elt F)),
    StableHlo.reshape main_v0 main_v1 rfl Facts₀.shapeCasts_S12x16x64_S192x64,
    StableHlo.reshape main_arg3 main_v2 rfl Facts₀.shapeCasts_S16x64_S1x16x1x64,
    StableHlo.unary main_v2 main_v3 (broadcastInDim S12x16x1x64 ![0, 1, 2, 3] Facts₀.bcast_S1x16x1x64_S12x16x1x64_0_1_2_3 : (⟨S1x16x1x64, .f32⟩ : BufTy).Contents (Elt F) → (⟨S12x16x1x64, .f32⟩ : BufTy).Contents (Elt F)),
    StableHlo.reshape main_v3 main_v4 rfl Facts₀.shapeCasts_S12x16x1x64_S192x64,
    StableHlo.binary main_v1 main_v4 main_v5 ((fun a b => concatenate S192x128 1 [⟨S192x64, a⟩, ⟨S192x64, b⟩] Facts₀.concatenates_S192x64_S192x64_S192x128_d1) : (⟨S192x64, .f32⟩ : BufTy).Contents (Elt F) → (⟨S192x64, .f32⟩ : BufTy).Contents (Elt F) → (⟨S192x128, .f32⟩ : BufTy).Contents (Elt F)),
    StableHlo.nullary main_c (constantI S_ 32 16#32),
    StableHlo.unary main_c main_v6 (broadcastInDim S16384x20 ![] Facts₀.bcast_S_S16384x20 : (⟨S_, .i32⟩ : BufTy).Contents (Elt F) → (⟨S16384x20, .i32⟩ : BufTy).Contents (Elt F)),
    StableHlo.binary main_arg0 main_v6 main_v7 (muli : (⟨S16384x20, .i32⟩ : BufTy).Contents (Elt F) → (⟨S16384x20, .i32⟩ : BufTy).Contents (Elt F) → (⟨S16384x20, .i32⟩ : BufTy).Contents (Elt F)),
    StableHlo.binary main_v7 main_arg1 main_v8 (addi : (⟨S16384x20, .i32⟩ : BufTy).Contents (Elt F) → (⟨S16384x20, .i32⟩ : BufTy).Contents (Elt F) → (⟨S16384x20, .i32⟩ : BufTy).Contents (Elt F)),
    StableHlo.reshape main_v8 main_v9 rfl Facts₀.shapeCasts_S16384x20_S327680 ]

theorem main_eq (d : Dev nD) : main (F := F) d = seq (hostOps (F := F)) >>= fun _ => ((K (F := F)).run d 0 >>= fun _ => pure ⟨⟩) := by
  simp only [main, hostOps, seq, bind_assoc, pure_bind]

theorem hostOps_sub : ∀ op ∈ (hostOps (F := F)), op.bufs ⊆ tcRefs τ sig :=
  List.forall_iff_forall_mem.1 (show (hostOps (F := F)).Forall fun op => op.bufs ⊆ tcRefs τ sig from
    ⟨StableHlo.unary_bufs_sub .., StableHlo.reshape_bufs_sub .., StableHlo.reshape_bufs_sub .., StableHlo.unary_bufs_sub .., StableHlo.reshape_bufs_sub ..,
      StableHlo.binary_bufs_sub .., StableHlo.nullary_bufs_sub .., StableHlo.unary_bufs_sub .., StableHlo.binary_bufs_sub .., StableHlo.binary_bufs_sub ..,
      StableHlo.reshape_bufs_sub ..⟩)

theorem hostOps_fresh : ∀ op ∈ (hostOps (F := F)), op.fresh = ∅ := by
  intro _ h; (repeat (cases h with | head => rfl | tail _ h => ?_)); exact nomatch h

/-- The device's buffers when @main starts. -/
abbrev V0 (d : Dev nD) : Valuation τ sig (Elt F) := fun b => m (d, b)

theorem after_a0 (V : Valuation τ sig (Elt F)) : after (hostOps (F := F)) V a0' = V a0' := by
  unfold hostOps; after_results
theorem after_a1 (V : Valuation τ sig (Elt F)) : after (hostOps (F := F)) V a1' = V a1' := by
  unfold hostOps; after_results
theorem after_a2 (V : Valuation τ sig (Elt F)) : after (hostOps (F := F)) V a2' = V a2' := by
  unfold hostOps; after_results
theorem after_a3 (V : Valuation τ sig (Elt F)) : after (hostOps (F := F)) V a3' = V a3' := by
  unfold hostOps; after_results
theorem after_v10 (V : Valuation τ sig (Elt F)) : after (hostOps (F := F)) V v10' = V v10' := by
  unfold hostOps; after_results
/-- After them the combined table's buffer holds the combined table, -/
theorem after_v5 (d : Dev nD) : after (hostOps (F := F)) (V0 m d) v5' = cT m d := by
  unfold hostOps; after_results; rfl
/-- and the flat index vector's buffer the flat index vector. -/
theorem after_v9 (d : Dev nD) : after (hostOps (F := F)) (V0 m d) v9' = iT m d := by
  unfold hostOps; after_results; rfl

/-! ## @main on the TensorCore -/

omit [FloatOps F] in
/-- The TensorCore's arrays at launch, none scoped, as the host operations' rule holds them. -/
theorem unscoped_held (d : Dev nD) :
    (unscopedBufs d (fun b => m ((SparseCore.T d).loc b)) : sProp 𝕄) = held (T d) (tcRefs τ sig) (V0 m d) := by
  unfold unscopedBufs held tcRefs
  rw [show (Finset.univ.filter fun b : Ref sig .tc => ¬ b.isScoped) = Finset.univ by decide, bigSep_map]
  rfl

/-- The seven arrays the call and the claim speak of. -/
abbrev S7 : Finset (DevRef τ sig) := {a0', a1', a2', a3', v5', v9', v10'}

omit [FloatOps F] in
theorem S7_sub : S7 ⊆ tcRefs τ sig := by
  intro b hb
  simp only [S7, Finset.mem_insert, Finset.mem_singleton] at hb
  rcases hb with rfl | rfl | rfl | rfl | rfl | rfl | rfl <;> exact devRef_mem_tcRefs _

omit [FloatOps F] in
theorem held_S7 (d : Dev nD) (W : Valuation τ sig (Elt F)) :
    (held (T d) S7 W : sProp 𝕄)
      = iprop((a0Loc d ↦{fullShare} W a0') ∗ (a1Loc d ↦{fullShare} W a1') ∗ (a2Loc d ↦{fullShare} W a2') ∗ (a3Loc d ↦{fullShare} W a3')
          ∗ (combLoc d ↦{fullShare} W v5') ∗ (idxLoc d ↦{fullShare} W v9') ∗ outLoc d ↦{fullShare} W v10') := by
  unfold held S7
  rw [SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- The arrays after the host operations: the arguments and the result's buffer as launched, the two operands built. -/
theorem held_after (d : Dev nD) :
    (held (T d) (tcRefs τ sig) (after (hostOps (F := F)) (V0 m d)) : sProp 𝕄)
      = iprop(((a0Loc d ↦{fullShare} m (a0Loc d)) ∗ (a1Loc d ↦{fullShare} m (a1Loc d)) ∗ (a2Loc d ↦{fullShare} m (a2Loc d)) ∗ (a3Loc d ↦{fullShare} m (a3Loc d))
          ∗ (combLoc d ↦{fullShare} cT m d) ∗ (idxLoc d ↦{fullShare} iT m d) ∗ outLoc d ↦{fullShare} m (outLoc d))
        ∗ held (T d) (tcRefs τ sig \ S7) (after (hostOps (F := F)) (V0 m d))) := by
  rw [held_sub_split (T d) S7_sub, held_S7, after_a0, after_a1, after_a2, after_a3, after_v5, after_v9, after_v10]

/-- What @main leaves the claim: the result at its final contents and the four arguments as launched. -/
abbrev FIN (d : Dev nD) : sProp 𝕄 :=
  iprop((outLoc d ↦{fullShare} outF (cT m) (iT m) d) ∗ (a0Loc d ↦{fullShare} m (a0Loc d)) ∗ (a1Loc d ↦{fullShare} m (a1Loc d))
    ∗ (a2Loc d ↦{fullShare} m (a2Loc d)) ∗ a3Loc d ↦{fullShare} m (a3Loc d))

set_option backward.isDefEq.respectTransparency.types false in
/-- @main on device `d`'s TensorCore: the host operations over all its arrays held whole, then the one call. -/
theorem hmain (κ : GSem nD τ sig → ℕ) (d : Dev nD) :
    iprop((K (F := F)).ctx EH (P (cT m) (iT m) m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held, main_eq]
  iintro ⟨#Hctx, Hst, ⟨Hb, Hheld, -, -⟩, -⟩
  iapply (wp_seq 𝒱 none Set.univ d (tcRefs τ sig) _ (hostOps (F := F)) hostOps_sub hostOps_fresh (V0 m d)) $$ [Hb Hheld]
  · isplitl [Hb] <;> iassumption
  iintro ⟨Hb, Hheld⟩
  ihave Hh := (Entails.of_eq (held_after (F := F) m d)) $$ Hheld
  icases Hh with ⟨⟨Ha0, Ha1, Ha2, Ha3, Hcomb, Hidx, Hout⟩, -⟩
  ihave Hc := (Transfers.pointsTo_toks_split (ℓ := combLoc d) (S := Finset.univ) (f := cT m d) fullShare 2) $$ Hcomb
  icases Hc with ⟨-, Hctok⟩
  simp only [wp_bind, wp_pure]
  iapply ((K (F := F)).wp_run (D (F := F)) 𝒱 (EH := EH) (P := P (cT m) (iT m) m) κ d 0) $$ [Hst Hidx Hout Hctok Ha0 Ha1 Ha2 Ha3]
  isplitr; · iexact Hctx
  isplitl [Hst]; · iexact Hst
  isplitl [Hidx Hout Hctok]
  · rw [st0_eq]
    isplitl [Hidx Hout]
    · isplitl [Hidx]; · iexact Hidx
      iexact Hout
    iexact Hctok
  iintro ⟨Hst, Hdn⟩
  ihave Hdn' := (Entails.of_eq (dn0_eq (cT m) (iT m) m d)) $$ Hdn
  icases Hdn' with ⟨⟨-, Hout⟩, -⟩
  imodintro
  isplitl [Hst]; · iexact Hst
  isplitl [Hout]; · iexact Hout
  isplitl [Ha0]; · iexact Ha0
  isplitl [Ha1]; · iexact Ha1
  isplitl [Ha2]; · iexact Ha2
  iexact Ha3

/-! ## The final memory reads the claim -/

def fq (d : Dev nD) (s' : Phys nD τ sig (Elt F)) : Prop :=
  s'.mem.mem (outLoc d) = outF (cT m) (iT m) d ∧ s'.mem.mem (a0Loc d) = m (a0Loc d) ∧ s'.mem.mem (a1Loc d) = m (a1Loc d)
    ∧ s'.mem.mem (a2Loc d) = m (a2Loc d) ∧ s'.mem.mem (a3Loc d) = m (a3Loc d)

theorem hfin (d : Dev nD) (s' : Phys nD τ sig (Elt F)) : iprop(FIN m d ∗ SI s') ⊢ (⌜fq m d s'⌝ : sProp 𝕄) := by
  iintro ⟨⟨Ho, H0, H1, H2, H3⟩, HSI⟩
  icombine HSI Ho gives %ho
  icombine HSI H0 gives %h0
  icombine HSI H1 gives %h1
  icombine HSI H2 gives %h2
  icombine HSI H3 gives %h3
  ipureintro
  exact ⟨funext fun i => ho i (Finset.mem_univ i), funext fun i => h0 i (Finset.mem_univ i), funext fun i => h1 i (Finset.mem_univ i),
    funext fun i => h2 i (Finset.mem_univ i), funext fun i => h3 i (Finset.mem_univ i)⟩

/-! ## The program's run -/

/-- Every weakly fair execution of the program's threads ends, with the result at the combined-table lookup of the flat indices and
    the four arguments unchanged — given the tiles' obligation. -/
theorem run_main [∀ e, Nonempty (Elt F e)] (htile : (K (F := F)).TileObl (D (F := F)) 𝒱 (P (cT m) (iT m) m) v₀ 0) :
    θ_run (Cert.KernelIdeal.defs (F := F)) (Cert.KernelIdeal.threads (F := F)) ⟨m, fun _ => 0, ρ⟩
      (fun r => ∀ c : Dev nD, r.2.mem (outLoc c) = outF (cT m) (iT m) c ∧ r.2.mem (a0Loc c) = m (a0Loc c) ∧ r.2.mem (a1Loc c) = m (a1Loc c)
        ∧ r.2.mem (a2Loc c) = m (a2Loc c) ∧ r.2.mem (a3Loc c) = m (a3Loc c)) :=
  SparseCore.Cfg.θ_run_sc (K := K (F := F)) (D := D (F := F)) (𝒱 := 𝒱) (EH := EH) (P := P (cT m) (iT m) m) facts v₀
    (fun q hq => match q with | 0 => nomatch hq)
    (fun q _ => match q with | 0 => htile)
    (fun q _ => match q with | 0 => vecSplit (cT m) (iT m) m)
    m ρ main (fun _ => iprop(emp)) (FIN m) (u₀ (F := F)) (hu₀ (cT m) (iT m) m) (hmain m ρ) (fq m) (hfin m)
    (fun r => ∀ c : Dev nD, r.2.mem (outLoc c) = outF (cT m) (iT m) c ∧ r.2.mem (a0Loc c) = m (a0Loc c) ∧ r.2.mem (a1Loc c) = m (a1Loc c)
        ∧ r.2.mem (a2Loc c) = m (a2Loc c) ∧ r.2.mem (a3Loc c) = m (a3Loc c)) (fun _ h => h)

end Cert.Proof.KI

end
-- ==== Proof.KILaunchD.lean ====
/-
  The launch side of the kernel's run, last part: the result's final contents as the run states them — the combined-table lookup of the
  flat indices, at the table and indices the host operations build — are the specification's function of the four arguments, as soon as the
  first index array's words are at most 11 and the second's at most 15 (read unsigned).
-/
import proofs.«206824_g72705206386957_cont_9to1_m_461_20_alg».proof.Proof.KILaunchC

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable [FloatOps F]

variable (m : (ℓ : Loc nD τ sig) → Buf (Elt F) ℓ)

/-- The run's result is the host-side algebra's lookup function (the two are the same term), -/
theorem outF_eq_kernelG (d : Dev nD) :
    outF (cT m) (iT m) d = Cert.Glue.kernelG (F := F) (m (a0Loc d)) (m (a1Loc d)) (m (a2Loc d)) (m (a3Loc d)) := rfl

/-- hence the specification's function on indices in range. -/
theorem outF_eq_G (d : Dev nD)
    (h1 : ∀ i, ((m (a0Loc d) : IVec Cert.Spec.SIdx 32) i).toNat ≤ 11) (h2 : ∀ i, ((m (a1Loc d) : IVec Cert.Spec.SIdx 32) i).toNat ≤ 15) :
    outF (cT m) (iT m) d = Cert.Spec.G (F := F) (m (a0Loc d)) (m (a1Loc d)) (m (a2Loc d)) (m (a3Loc d)) :=
  Cert.Glue.kernelG_eq (F := F) (m (a0Loc d)) (m (a1Loc d)) (m (a2Loc d)) (m (a3Loc d)) h1 h2

end Cert.Proof.KI

end
-- ==== Proof.KBSetup.lean ====
/-
  The kernel's launch, stated for the library's launch theorem: the thirty-two tiles (two cores of sixteen) each copy their 10240 flat
  indices, meet at the core's barrier, and then, chunk by chunk of 80 indices, gather 80 rows of the 192-row combined table out of the core's
  shared memory and write them to 4 rows of the result. Tile 0 of each core fills the shared table before the barrier; its arrival at
  tile j's barrier cell hands tile j a read share of the table, so that what a tile gathers from after the barrier it holds, at known contents.
  This module fixes the ghost state (the handshakes' rounds, the barrier cells' rounds, the transfers' counters), the barrier's schedule and
  what the handshakes carry; everything is stated over the contents `fI` (flat indices) and `fC` (combined table) the two operand arrays
  hold when the call is made.
-/
import proofs.«206824_g72705206386957_cont_9to1_m_461_20_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import Idealize.ShloMosaic.Lib.Batch
import Idealize.ShloMosaic.Lib.ValueIdx
import proofs.«206824_g72705206386957_cont_9to1_m_461_20_alg».proof.Proof.Gen.Kernel
import proofs.«206824_g72705206386957_cont_9to1_m_461_20_alg».proof.Proof.Gen.Kernel.Skeleton

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev coreOf (c : Fin ((K (F := F)).nCore 0)) : Fin τ.nSC := (K (F := F)).core 0 c
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the barrier cells' rounds, the transfers' counters -/

abbrev UH : Type := URounds (GSem nD τ sig) ℕ
abbrev UB : Type := URounds (GSem nD τ sig) ℕ
abbrev UU : Type := UH × (UB × Counters)

local notation "𝕄" => MT nD τ sig (HIx 1) (Elt F) ℕ UU ℕ

abbrev EH : Emb UH (MT nD τ sig (HIx 1) (Elt F) ℕ UU ℕ) := embL
/-- The barrier cells' rounds: the left half of the right factor. -/
def EB : Emb UB (MT nD τ sig (HIx 1) (Elt F) ℕ UU ℕ) :=
  ((Emb.inl : Emb UB (UB × Counters)).trans (Emb.inr : Emb (UB × Counters) UU)).trans
    (uEmb (nD := nD) (sig := sig) (Ix := HIx 1) (Val := Elt F) (Name := ℕ) (U := UU) (Lvl := ℕ)).toEmb
instance EB_landsIn : (EB : Emb UB 𝕄).LandsIn (upEmb : UEmb _ 𝕄) := by unfold EB; infer_instance

/-! ## The arrays -/

abbrev idxLoc (d : Dev nD) : Loc nD τ sig := (SparseCore.T d).loc main_v9
abbrev combLoc (d : Dev nD) : Loc nD τ sig := (SparseCore.T d).loc main_v5
abbrev outLoc (d : Dev nD) : Loc nD τ sig := (SparseCore.T d).loc main_v10
/-- Core `c`'s shared table, as every tile of it addresses it. -/
abbrev shRef (c : Fin τ.nSC) : DevRef τ sig := ⟨.shared, ⟨0, by decide⟩, c⟩
abbrev shLoc (d : Dev nD) (c : Fin τ.nSC) : Loc nD τ sig := (d, shRef c)

local notation "iV" => (Memref.whole Cert.Kernel.main_v9_scv : Memref Cert.Kernel.sig Kind.scVector Space.hbm Cert.Kernel.S327680 EltTy.i32)
local notation "tV" => (Memref.whole Cert.Kernel.main_v5_scv : Memref Cert.Kernel.sig Kind.scVector Space.hbm Cert.Kernel.S192x128 EltTy.f32)
local notation "oV" => (Memref.whole Cert.Kernel.main_v10_scv : Memref Cert.Kernel.sig Kind.scVector Space.hbm Cert.Kernel.S16384x20x128 EltTy.f32)
local notation "shV" => (Memref.whole Cert.Kernel.cc0_scratch3 : Memref Cert.Kernel.sig Kind.scVector Space.shared Cert.Kernel.S192x128 EltTy.f32)

theorem nSub_eq : τ.nSub = 16 := rfl
theorem nSC_eq : τ.nSC = 2 := rfl

/-- The tile's number among the thirty-two: twice its number in the core plus the core's. -/
def wid (c : Fin 2) (s : Fin 16) : Fin 32 := ⟨2 * s.val + c.val, by omega⟩

/-- The flat indices tile `w` reads: positions `10240 w … 10240 w + 10239`. -/
def idxSet (w : Fin 32) : Finset S327680.Idx := Finset.univ.filter fun j => (j 0).val / 10240 = w.val
/-- The result's rows tile `w` writes: rows `512 w … 512 w + 511`. -/
def outSet (w : Fin 32) : Finset S16384x20x128.Idx := Finset.univ.filter fun j => (j 0).val / 512 = w.val

variable [FloatOps F]

/-! ## The barrier cells -/

abbrev bcell (d : Dev nD) (c : Fin τ.nSC) (j : Fin τ.nSub) : GSem nD τ sig := (V d c j, .reg sc_bar0)

omit [FloatOps F] in
theorem sc_bar0_ne_go : (sc_bar0 : Sem sig) ≠ sc_go := by decide

def isBar (g : GSem nD τ sig) : Bool :=
  match g with
  | ((_, .scVector _ _), sm) => decide (sm = .reg sc_bar0)
  | _ => false

omit [FloatOps F] in
@[simp] theorem isBar_bcell (d : Dev nD) (c : Fin τ.nSC) (j : Fin τ.nSub) : isBar (bcell d c j) = true := by simp [isBar]

-- the contents of the combined table when the call is made, per device
variable (fC : (d : Dev nD) → Buf (Elt F) (combLoc d))
-- the contents of the flat index array when the call is made, per device
variable (fI : (d : Dev nD) → Buf (Elt F) (idxLoc d))

/-- The shared table's contents once tile 0 has filled it: the combined table's. -/
abbrev shC (d : Dev nD) (c : Fin τ.nSC) : Buf (Elt F) (shLoc d c) := fC d

/-- Tile `j`'s read share of the shared table. -/
abbrev shTok (d : Dev nD) (c : Fin τ.nSC) (j : Fin 16) : sProp 𝕄 := shLoc d c ↦{Transfers.shareTok fullShare 16 j} shC fC d c
/-- What is left of the table's ownership once the sixteen read shares are dealt. -/
abbrev shRem (d : Dev nD) (c : Fin τ.nSC) : sProp 𝕄 := shLoc d c ↦{Transfers.shareDrop fullShare 16} shC fC d c

/-- What a duty in tile `j`'s round hands over: tile 0's, tile `j`'s read share of the filled table; the others', nothing. -/
def bPay (g : GSem nD τ sig) (n : ℕ) : sProp 𝕄 :=
  match g with
  | ((d, .scVector c j), _) => if n = 0 then shTok fC d c (Fin.cast nSub_eq j) else iprop(emp)
  | _ => iprop(emp)

/-- The barrier cells' schedule: one round on each, of one unit duty per tile of the core. -/
def bRd : Rounds.Schedule (GSem nD τ sig) ℕ 𝕄 where
  duties g r := if isBar g ∧ r = 0 then (Finset.univ : Finset (Fin τ.nSub)).image Fin.val else ∅
  amount _ _ _ := 1
  payload g _ n := bPay fC g n
  amount_pos _ _ _ _ := Nat.one_pos

instance bRd_payload_storable (g : GSem nD τ sig) (r n : ℕ) : BI.Storable (upEmb : UEmb _ 𝕄) ((bRd (F := F) fC).payload g r n) := by
  show BI.Storable upEmb (bPay fC g n)
  unfold bPay
  rcases g with ⟨⟨d, _ | c | ⟨c, i⟩⟩, sm⟩ <;> dsimp only <;> (repeat' split) <;> infer_instance

omit [FloatOps F] in
theorem bigSep_emp' {I : Type} (s : Finset I) : (bigSep s fun _ => iprop(emp)) = (iprop(emp) : sProp 𝕄) := bigSep_emp_const s

theorem bRd_duties₀ (d : Dev nD) (c : Fin τ.nSC) (j : Fin τ.nSub) : (bRd (F := F) fC).duties (bcell d c j) 0 = (Finset.univ : Finset (Fin τ.nSub)).image Fin.val := by
  simp [bRd, isBar]
theorem bRd_mem₀ (d : Dev nD) (c : Fin τ.nSC) (j i : Fin τ.nSub) : i.val ∈ (bRd (F := F) fC).duties (bcell d c j) 0 := by
  rw [bRd_duties₀]; exact Finset.mem_image_of_mem _ (Finset.mem_univ i)
theorem bRd_expect (d : Dev nD) (c : Fin τ.nSC) (j : Fin τ.nSub) : 0 + grid0.bound 1 = (bRd (F := F) fC).expect (bcell d c j) 0 := by
  unfold Rounds.Schedule.expect; rw [bRd_duties₀]
  show 0 + 16 = ∑ x ∈ (Finset.univ : Finset (Fin 16)).image Fin.val, 1
  rw [Finset.sum_const, Finset.card_image_of_injective _ Fin.val_injective]; rfl

/-- What the launch has a tile owe for the barrier: a unit on every tile's cell of its core, at the call's index. -/
def oxV (d : Dev nD) (c : Fin τ.nSC) : CellTallies nD τ sig (HIx 1) := ∑ j : Fin (grid0.bound 1), tallyAt (bcell d c (j.castLE hsub0)) (some 0) 1

omit [FloatOps F] in
theorem oxV_none (d : Dev nD) (c : Fin τ.nSC) (g : GSem nD τ sig) : oxV d c g none = 0 := by
  unfold oxV
  rw [Finset.sum_apply, Finsupp.finsetSum_apply]
  exact Finset.sum_eq_zero fun j _ => by rw [tallyAt_apply, if_neg (fun e => nomatch e.2)]

omit [FloatOps F] in
theorem oxV_apply_pos {d : Dev nD} {c : Fin τ.nSC} {g : GSem nD τ sig} {ι : HIx 1} (h : 0 < oxV d c g ι) : ∃ j : Fin (grid0.bound 1), g = bcell d c (j.castLE hsub0) ∧ ι = some 0 := by
  unfold oxV at h
  rw [Finset.sum_apply, Finsupp.finsetSum_apply] at h
  obtain ⟨j, -, hj⟩ := Finset.exists_ne_zero_of_sum_ne_zero (Nat.pos_iff_ne_zero.mp h)
  rw [tallyAt_apply] at hj
  split at hj
  · next e => exact ⟨j, e.1, e.2⟩
  · exact absurd rfl hj

/-- A tile's barrier kit: every cell's invariant of its core, its duty token in every tile's round, that each cell has reached
    round 0, its own position at the origin of round 0, and the credit for the sixteen units of its own round. -/
def bkit (d : Dev nD) (c : Fin τ.nSC) (i : Fin τ.nSub) : sProp 𝕄 :=
  iprop((∃ κ : GSem nD τ sig → ℕ, bigSep Finset.univ fun j : Fin (grid0.bound 1) =>
      cellInv EB (bRd (F := F) fC) (κ (bcell d c (j.castLE hsub0))) (bcell d c (j.castLE hsub0)))
    ∗ (bigSep Finset.univ fun j : Fin (grid0.bound 1) => dutyTok EB (bcell d c (j.castLE hsub0)) 0 i.val)
    ∗ (bigSep Finset.univ fun j : Fin (grid0.bound 1) => reached EB (bcell d c (j.castLE hsub0)) 0)
    ∗ atPos EB (bcell d c i) 0 ∅ 0
    ∗ cred (tallyAt (bcell d c i) (some 0) (grid0.bound 1)))

/-! ## What the handshakes carry -/

variable (m : (ℓ : Loc nD τ sig) → Buf (Elt F) ℓ)

omit [FloatOps F] in
theorem flat_lt (r : Fin 16384) (l : Fin 20) : r.val * 20 + l.val < 327680 := by omega

/-- The result array's contents once the call is over: entry (r, l, k) is lane k of the table row that the flat index at position
    20 r + l names (reduced modulo the table's height, so that the function is total). -/
def outF (d : Dev nD) : Buf (Elt F) (outLoc d) :=
  fun j : S16384x20x128.Idx => (fC d : FVec F S192x128 .f32) (ix2 (⟨((fI d : IVec S327680 32) (ix1 (⟨(j 0).val * 20 + (j 1).val, flat_lt (j 0) (j 1)⟩ : Fin 327680))).toNat % 192,
    Nat.mod_lt _ (by decide)⟩ : Fin 192) (j 2))

abbrev idxPts (d : Dev nD) (w : Fin 32) : sProp 𝕄 := idxLoc d ↦[idxSet w]{fullShare} fI d
abbrev outPts (d : Dev nD) (w : Fin 32) (f : Buf (Elt F) (outLoc d)) : sProp 𝕄 := outLoc d ↦[outSet w]{fullShare} f
/-- Core `c`'s read share of the combined table in HBM. -/
abbrev combTok (d : Dev nD) (c : Fin 2) : sProp 𝕄 := combLoc d ↦{Transfers.shareTok fullShare 2 c} fC d

abbrev cL (c : Fin ((K (F := F)).nCore 0)) : Fin 2 := Fin.cast nCore_zero c
abbrev sL (i : Fin ((K (F := F)).nSub 0)) : Fin 16 := Fin.cast nSub_zero i

/-- A call takes, per core, its sixteen tiles' index slices and result rows and a read share of the table; a task its slice and its rows,
    tile 0 also the table's share and the core's shared memory; a task brings back its slice, its rows at the result's final contents and its
    read share of the filled shared table, tile 0 also what remained of it. -/
def P : (K (F := F)).Pay (nD := nD) (Val := Elt F) (Name := ℕ) (U := UU) where
  st := fun q d c => match q with
    | 0 => iprop((bigSep Finset.univ fun s : Fin 16 => iprop(idxPts fI d (wid (cL c) s) ∗ outPts d (wid (cL c) s) (m (outLoc d)))) ∗ combTok fC d (cL c))
  dn := fun q d c => match q with
    | 0 => iprop((bigSep Finset.univ fun s : Fin 16 => iprop(idxPts fI d (wid (cL c) s) ∗ outPts d (wid (cL c) s) (outF fC fI d))) ∗ combTok fC d (cL c))
  go := fun q d c i => match q with
    | 0 => iprop(idxPts fI d (wid (cL c) (sL i)) ∗ outPts d (wid (cL c) (sL i)) (m (outLoc d))
        ∗ (if (sL i).val = 0 then iprop(combTok fC d (cL c) ∗ ∃ f, shLoc d (coreOf c) ↦{fullShare} f) else iprop(emp)))
  td := fun q d c i => match q with
    | 0 => iprop(idxPts fI d (wid (cL c) (sL i)) ∗ outPts d (wid (cL c) (sL i)) (outF fC fI d) ∗ shTok fC d (coreOf c) (sL i)
        ∗ (if (sL i).val = 0 then iprop(combTok fC d (cL c) ∗ shRem fC d (coreOf c)) else iprop(emp)))
  x := fun _ thr => match thr with
    | (d, .scVector c i) => if c.val < 2 then bkit fC d c i else iprop(emp)
    | _ => iprop(emp)
  ox := fun _ thr => match thr with
    | (d, .scVector c _) => if c.val < 2 then oxV d c else 0
    | _ => 0
  ox_band := by
    intro q thr g ι h
    obtain rfl : q = 0 := Subsingleton.elim _ _
    rcases thr with ⟨d, _ | c | ⟨c, i⟩⟩
    · exact absurd h (lt_irrefl 0)
    · exact absurd h (lt_irrefl 0)
    · dsimp only at h
      split at h
      · obtain ⟨j, rfl, rfl⟩ := oxV_apply_pos h
        rw [(K (F := F)).lev_V_reg d c (j.castLE hsub0) (show (sc_bar0 : Sem sig) ≠ (K (F := F)).go from sc_bar0_ne_go)]; exact ⟨le_rfl, by decide⟩
      · exact absurd h (lt_irrefl 0)
  ox_tc := fun _ _ => rfl
  ox_sc := fun _ _ _ h => absurd rfl h
  ox_vc := by
    intro q d c i h
    obtain rfl : q = 0 := Subsingleton.elim _ _
    dsimp only at h
    split at h
    · next hc => exact ⟨rfl, hc, i.isLt⟩
    · exact absurd rfl h

instance P_storable : (P (F := F) fC fI m).IsStorable where
  st q d c := match q with
    | 0 => by unfold P; dsimp only; infer_instance
  dn q d c := match q with
    | 0 => by unfold P; dsimp only; infer_instance
  go q d c i := match q with
    | 0 => by unfold P; dsimp only; split <;> infer_instance
  td q d c i := match q with
    | 0 => by unfold P; dsimp only; split <;> infer_instance

end Cert.Proof.KB

end
-- ==== Proof.KBLaunchA.lean ====
/-
  The launch side of the kernel's run, first part: how a core's operands for the call are dealt to its sixteen tiles and gathered back
  from them (tile 0 also takes the core's read share of the combined table and the core's shared memory, and brings back what remained
  of it once the sixteen read shares of the filled table are dealt), and the launch element of the ghost state: the barrier cells' rounds funded,
  their invariants allocated, and each tile handed its barrier kit.
-/
import proofs.«206824_g72705206386957_cont_9to1_m_461_20_alg».proof.Proof.KBSetup
import proofs.«206824_g72705206386957_cont_9to1_m_461_20_alg».proof.Proof.HostGlue

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable [FloatOps F]

variable (fC : (d : Dev nD) → Buf (Elt F) (combLoc d))
variable (fI : (d : Dev nD) → Buf (Elt F) (idxLoc d))
variable (m : (ℓ : Loc nD τ sig) → Buf (Elt F) ℓ)

/-! ## A core's operands dealt to its tiles and gathered back -/

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

omit [FloatOps F] in
/-- What only tile 0 holds, over the sixteen tiles, is it. -/
theorem bigSep_if0 (X : sProp 𝕄) : (bigSep Finset.univ fun i : Fin 16 => if i.val = 0 then X else iprop(emp)) = X := by
  have h := bigSep_filter (M := 𝕄) Finset.univ (fun i : Fin 16 => i.val = 0) (fun _ => X)
  rw [show (Finset.univ.filter fun i : Fin 16 => i.val = 0) = {0} by decide, bigSep_singleton] at h
  exact h.symm

omit [FloatOps F] in
/-- The shared table is among the sequencer's own buffers: it is it, at some contents, and the rest. -/
theorem ownBufs_S (d : Dev nD) (c : Fin τ.nSC) :
    (ownBufs (S d c) : sProp 𝕄)
      = iprop((∃ f, shLoc d c ↦{fullShare} f) ∗ bigSep ((ownRefs (τ := τ) (.scScalar c)).erase (shRef c)) fun b => iprop(∃ f, ((d, b) : Loc nD τ sig) ↦{fullShare} f)) := by
  unfold SparseCore.Cfg.ownBufs
  have h : shRef c ∈ ownRefs (τ := τ) (sig := sig) (.scScalar c) := (mem_ownRefs (p := Proc.scScalar c) (b := shRef c)).mpr rfl
  exact SparseCore.bigSep_erase' h

theorem P_st (d : Dev nD) (c : Fin ((K (F := F)).nCore 0)) : (P fC fI m).st 0 d c
    = iprop((bigSep Finset.univ fun s : Fin 16 => iprop(idxPts fI d (wid (cL c) s) ∗ outPts d (wid (cL c) s) (m (outLoc d)))) ∗ combTok fC d (cL c)) := rfl
theorem P_dn (d : Dev nD) (c : Fin ((K (F := F)).nCore 0)) : (P fC fI m).dn 0 d c
    = iprop((bigSep Finset.univ fun s : Fin 16 => iprop(idxPts fI d (wid (cL c) s) ∗ outPts d (wid (cL c) s) (outF fC fI d))) ∗ combTok fC d (cL c)) := rfl
theorem P_go (d : Dev nD) (c : Fin ((K (F := F)).nCore 0)) (i : Fin ((K (F := F)).nSub 0)) : (P fC fI m).go 0 d c i
    = iprop(idxPts fI d (wid (cL c) (Fin.cast nSub_zero i)) ∗ outPts d (wid (cL c) (Fin.cast nSub_zero i)) (m (outLoc d))
        ∗ (if (Fin.cast nSub_zero i).val = 0 then iprop(combTok fC d (cL c) ∗ ∃ f, shLoc d (coreOf c) ↦{fullShare} f) else iprop(emp))) := rfl
theorem P_td (d : Dev nD) (c : Fin ((K (F := F)).nCore 0)) (i : Fin ((K (F := F)).nSub 0)) : (P fC fI m).td 0 d c i
    = iprop(idxPts fI d (wid (cL c) (Fin.cast nSub_zero i)) ∗ outPts d (wid (cL c) (Fin.cast nSub_zero i)) (outF fC fI d) ∗ shTok fC d (coreOf c) (Fin.cast nSub_zero i)
        ∗ (if (Fin.cast nSub_zero i).val = 0 then iprop(combTok fC d (cL c) ∗ shRem fC d (coreOf c)) else iprop(emp))) := rfl

theorem vecSplit : (K (F := F)).VecSplit (P fC fI m) 0 := by
  intro d c
  show iprop((P fC fI m).st 0 d c ∗ ownBufs (S d (coreOf c))) ⊢ |={Set.univ}=> iprop(
      (bigSep Finset.univ fun i : Fin ((K (F := F)).nSub 0) => (P fC fI m).go 0 d c i)
      ∗ ((bigSep Finset.univ fun i : Fin ((K (F := F)).nSub 0) => (P fC fI m).td 0 d c i)
          -∗ iprop((P fC fI m).dn 0 d c ∗ ownBufs (S d (coreOf c)))))
  rw [P_st, P_dn]
  simp only [P_go, P_td]
  rw [bigSep_tasks (F := F) (fun i => iprop(idxPts fI d (wid (cL c) i) ∗ outPts d (wid (cL c) i) (m (outLoc d))
        ∗ (if i.val = 0 then iprop(combTok fC d (cL c) ∗ ∃ f, shLoc d (coreOf c) ↦{fullShare} f) else iprop(emp)))),
    bigSep_tasks (F := F) (fun i => iprop(idxPts fI d (wid (cL c) i) ∗ outPts d (wid (cL c) i) (outF fC fI d) ∗ shTok fC d (coreOf c) i
        ∗ (if i.val = 0 then iprop(combTok fC d (cL c) ∗ shRem fC d (coreOf c)) else iprop(emp))))]
  simp only [bigSep_sep', bigSep_if0]
  rw [ownBufs_S]
  iintro ⟨⟨⟨Hi, Ho⟩, Hc⟩, Hsh, Hrest⟩; imodintro
  isplitl [Hi Ho Hc Hsh]
  · isplitl [Hi]; · iexact Hi
    isplitl [Ho]; · iexact Ho
    isplitl [Hc]; · iexact Hc
    iexact Hsh
  iintro ⟨Hi, Ho, Htok, Hc, Hrem⟩
  isplitl [Hi Ho Hc]
  · isplitl [Hi Ho]
    · isplitl [Hi]; · iexact Hi
      iexact Ho
    iexact Hc
  isplitl [Htok Hrem]
  · iexists (shC fC d (coreOf c))
    iapply (Transfers.pointsTo_toks_join (ℓ := shLoc d (coreOf c)) (S := Finset.univ) (f := shC fC d (coreOf c)) fullShare 16)
    isplitl [Hrem]; · iexact Hrem
    iexact Htok
  iexact Hrest

/-! ## The launch element of the ghost state, and what the launch hands over -/

abbrev DCI : Type := Dev nD × Fin τ.nSC × Fin τ.nSub
abbrev bcell₃ (x : DCI) : GSem nD τ sig := bcell x.1 x.2.1 x.2.2

def bCells : Finset (GSem nD τ sig) := Finset.univ.image bcell₃
/-- Tile `i`'s token in tile `j`'s cell, for every pair of tiles of a core. -/
def bToks : Finset (GSem nD τ sig × ℕ × ℕ) :=
  Finset.univ.image fun x : DCI × Fin (grid0.bound 1) => (bcell x.1.1 x.1.2.1 (x.2.castLE hsub0), 0, x.1.2.2.val)
def u₀ : UU := (initOf (K (F := F)).hsCells (K (F := F)).hsToks, (initOf bCells bToks, 1))

omit [FloatOps F] in
theorem bcell₃_injective : Function.Injective (bcell₃ : DCI → GSem nD τ sig) := fun a b e => by
  obtain ⟨h1, h2⟩ := Prod.mk.inj (Prod.mk.inj e).1; obtain ⟨h3, h4⟩ := Proc.scVector.inj h2
  exact Prod.ext h1 (Prod.ext h3 h4)

omit [FloatOps F] in
theorem ownU_split (a : UH) (b : UB) : (ownU ((a, (b, 1)) : UU) : sProp 𝕄) ⊢ iprop(BI.own (EH a) ∗ BI.own (EB b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, (1 : Counters)))))

/-- Every barrier semaphore at zero, out of the free semaphores the launch hands over. -/
theorem sems_b : ((K (F := F)).freeSems0 : sProp 𝕄) ⊢ bigSep bCells fun g => semVal g 0 := by
  unfold SparseCore.Cfg.freeSems0 bCells
  rw [SparseCore.bigSep_image_of_injOn (fun a _ b _ e => bcell₃_injective e)]
  refine sep_elim_right.trans (bigSep_mono fun dci _ => ?_)
  unfold SparseCore.Cfg.vcSems0
  exact bigSep_elim (Φ := fun sm : SemLoc sig => (semVal (V dci.1 dci.2.1 dci.2.2, sm) 0 : sProp 𝕄))
    (Finset.mem_erase.mpr ⟨fun h => sc_bar0_ne_go (SemLoc.reg.inj h), Finset.mem_filter.mpr ⟨Finset.mem_univ _, by decide⟩⟩)

/-- The barrier cells' invariants, allocated at once. -/
theorem invs_b : iprop((bigSep bCells fun g => (semVal g 0 : sProp 𝕄)) ∗ bigSep bCells fun g => roundState EB (bRd (F := F) fC) g 0)
    ⊢ |={Set.univ}=> iprop(∃ κ : GSem nD τ sig → ℕ, bigSep bCells fun g => cellInv EB (bRd (F := F) fC) (κ g) g) := by
  refine (Rounds.bodies_intro EB (bRd (F := F) fC) bCells).trans ((inv_alloc_family bCells (Rounds.body EB (bRd (F := F) fC)) ∅ (E := Set.univ)).trans ?_)
  iintro H
  imod H with ⟨%κ, -, Hinv⟩
  imodintro; iexists κ; iexact Hinv

omit [FloatOps F] in
theorem sum_tallyAt_one (g : GSem nD τ sig) (ι : HIx 1) : ∀ n : ℕ, ∑ _ : Fin n, tallyAt g ι 1 = (tallyAt g ι n : CellTallies nD τ sig (HIx 1))
  | 0 => by rw [Finset.sum_empty' Finset.univ_eq_empty, tallyAt_zero]
  | n + 1 => by rw [Fin.sum_univ_castSucc, sum_tallyAt_one g ι n, tallyAt_add]
where
  Finset.sum_empty' {α β : Type} [AddCommMonoid β] {s : Finset α} (h : s = ∅) {f : α → β} : ∑ x ∈ s, f x = 0 := by rw [h, Finset.sum_empty]

/-- The credit for the kernel's own debts, regrouped: each tile the sixteen units of its own cell. -/
theorem creds_b : ((P (F := F) fC fI m).oxCred : sProp 𝕄)
    ⊢ bigSep Finset.univ fun dci : DCI => if dci.2.1.val < 2 then cred (tallyAt (bcell₃ dci) (some 0) (grid0.bound 1)) else (BI.emp : sProp 𝕄) := by
  unfold SparseCore.Cfg.Pay.oxCred
  rw [SparseCore.Cfg.bigSep_threads (fun thr : Thread nD τ => (cred ((P (F := F) fC fI m).oxFrom 0 thr) : sProp 𝕄))]
  refine sep_elim_right.trans (sep_elim_right.trans ?_)
  rw [bigSep_univ_prod, bigSep_univ_prod (fun dci : DCI => if dci.2.1.val < 2 then (cred (tallyAt (bcell₃ dci) (some 0) (grid0.bound 1)) : sProp 𝕄) else BI.emp)]
  refine bigSep_mono fun d _ => ?_
  rw [bigSep_univ_prod, bigSep_univ_prod (fun ci : Fin τ.nSC × Fin τ.nSub => if ci.1.val < 2 then (cred (tallyAt (bcell₃ (d, ci)) (some 0) (grid0.bound 1)) : sProp 𝕄) else BI.emp)]
  refine bigSep_mono fun c _ => ?_
  dsimp only
  by_cases hc : c.val < 2
  · simp only [hc, ↓reduceIte]
    have hox : ∀ i, (P (F := F) fC fI m).oxFrom 0 (V d c i) = oxV d c := fun i => by
      rw [show (0 : ℕ) = (0 : Fin 1).val from rfl, (P fC fI m).oxFrom_step, (P fC fI m).oxFrom_end _ (n := (0 : Fin 1).val + 1) le_rfl, add_zero]; exact if_pos hc
    simp only [hox]
    unfold oxV
    rw [SparseCore.Cfg.cred_finsum, bigSep_univ_comm]
    refine bigSep_mono fun j _ => ?_
    rw [← SparseCore.Cfg.cred_finsum, sum_tallyAt_one]; rfl
  · simp only [hc, ↓reduceIte]
    exact bigSep_mono fun _ _ => fun _ _ => trivial

omit [FloatOps F] in
/-- A persistent resource beside a big separating conjunction goes to each conjunct. -/
theorem bigSep_mono_frame {I : Type} [DecidableEq I] {R : sProp 𝕄} [BI.Persistent R] {s : Finset I} {Φ Ψ : I → sProp 𝕄}
    (h : ∀ i ∈ s, iprop(R ∗ Φ i) ⊢ Ψ i) : iprop(R ∗ bigSep s Φ) ⊢ bigSep s Ψ := by
  induction s using Finset.induction_on with
  | empty => rw [bigSep_empty, bigSep_empty]; exact sep_elim_right
  | insert a s ha ih =>
    rw [SparseCore.bigSep_insert' ha, SparseCore.bigSep_insert' ha]
    iintro ⟨#HR, H1, H2⟩
    isplitl [H1]
    · iapply (h a (Finset.mem_insert_self _ _)); isplitr; · iexact HR
      iexact H1
    · iapply (ih fun i hi => h i (Finset.mem_insert_of_mem hi)); isplitr; · iexact HR
      iexact H2

omit [FloatOps F] in
theorem toks_eq : (bigSep bToks fun x => (dutyTok EB x.1 x.2.1 x.2.2 : sProp 𝕄))
    = bigSep Finset.univ fun dci : DCI => bigSep Finset.univ fun j : Fin (grid0.bound 1) => dutyTok EB (bcell dci.1 dci.2.1 (j.castLE hsub0)) 0 dci.2.2.val := by
  unfold bToks
  rw [SparseCore.bigSep_image_of_injOn, bigSep_univ_prod]
  rintro ⟨⟨d, c, i⟩, j⟩ - ⟨⟨d', c', i'⟩, j'⟩ - e
  have e1 := (Prod.mk.inj (Prod.mk.inj e).1).1
  have e2 : i.val = i'.val := (Prod.mk.inj (Prod.mk.inj e).2).2
  obtain ⟨rfl, h⟩ := Prod.mk.inj e1
  obtain ⟨rfl, hj⟩ := Proc.scVector.inj h
  have hj' : j = j' := Fin.ext (congrArg Fin.val hj)
  subst hj'
  have hi' : i = i' := Fin.ext e2
  subst hi'
  rfl

theorem Px_T (d : Dev nD) : (bigSep Finset.univ fun q : Fin 1 => (P (F := F) fC fI m).x q (SparseCore.T d)) = iprop(emp) :=
  bigSep_univ_of_subsingleton (0 : Fin 1)
theorem Px_S (d : Dev nD) (c : Fin τ.nSC) : (bigSep Finset.univ fun q : Fin 1 => (P (F := F) fC fI m).x q (S d c)) = iprop(emp) :=
  bigSep_univ_of_subsingleton (0 : Fin 1)
theorem Px_V (d : Dev nD) (c : Fin τ.nSC) (i : Fin τ.nSub) :
    (bigSep Finset.univ fun q : Fin 1 => (P (F := F) fC fI m).x q (V d c i)) = if c.val < 2 then bkit fC d c i else iprop(emp) :=
  bigSep_univ_of_subsingleton (0 : Fin 1)

omit [FloatOps F] in
theorem bCells_eq (Φ : GSem nD τ sig → sProp 𝕄) : bigSep bCells Φ = bigSep Finset.univ fun x : DCI => Φ (bcell₃ x) := by
  unfold bCells; exact SparseCore.bigSep_image_of_injOn (fun a _ b _ e => bcell₃_injective e) Φ

/-- What every tile is handed alike: every barrier cell's invariant, and that each has reached round 0. -/
abbrev shared : sProp 𝕄 :=
  iprop((∃ κ : GSem nD τ sig → ℕ, bigSep Finset.univ fun x : DCI => cellInv EB (bRd (F := F) fC) (κ (bcell₃ x)) (bcell₃ x))
    ∗ bigSep Finset.univ fun x : DCI => reached EB (bcell₃ x) 0)
/-- What each tile is handed of its own: its position, its tokens, its credit. -/
abbrev mine (dci : DCI) : sProp 𝕄 :=
  iprop(atPos EB (bcell₃ dci) 0 ∅ 0
    ∗ (bigSep Finset.univ fun j : Fin (grid0.bound 1) => dutyTok EB (bcell dci.1 dci.2.1 (j.castLE hsub0)) 0 dci.2.2.val)
    ∗ (if dci.2.1.val < 2 then cred (tallyAt (bcell₃ dci) (some 0) (grid0.bound 1)) else BI.emp))

/-- One tile's kit out of those. -/
theorem kit_intro (dci : DCI) : iprop(shared (F := F) fC ∗ mine (F := F) dci) ⊢ (if dci.2.1.val < 2 then bkit (F := F) fC dci.1 dci.2.1 dci.2.2 else iprop(emp) : sProp 𝕄) := by
  obtain ⟨d, c, i⟩ := dci
  iintro ⟨⟨#Hinv, #Hr⟩, Hat, Htok, Hcred⟩
  dsimp only
  split
  · unfold bkit
    isplitr
    · icases Hinv with ⟨%κ, Hinv⟩
      iexists κ
      iapply (SparseCore.ent (bigSep_mono_frame (s := (Finset.univ : Finset (Fin (grid0.bound 1)))) (Φ := fun _ => iprop(emp))
        (R := bigSep Finset.univ fun x : DCI => cellInv EB (bRd (F := F) fC) (κ (bcell₃ x)) (bcell₃ x)) fun j _ =>
          sep_elim_left.trans (bigSep_elim (Φ := fun x : DCI => (cellInv EB (bRd (F := F) fC) (κ (bcell₃ x)) (bcell₃ x) : sProp 𝕄))
            (i := (d, c, Fin.castLE hsub0 j)) (Finset.mem_univ _))))
      isplitl; · iexact Hinv
      rw [bigSep_emp']; iempintro
    isplitl [Htok]; · iexact Htok
    isplitr
    · iapply (SparseCore.ent (bigSep_mono_frame (s := (Finset.univ : Finset (Fin (grid0.bound 1)))) (Φ := fun _ => iprop(emp))
        (R := bigSep Finset.univ fun x : DCI => reached EB (bcell₃ x) 0) fun j _ =>
          sep_elim_left.trans (bigSep_elim (Φ := fun x : DCI => (reached EB (bcell₃ x) 0 : sProp 𝕄)) (i := (d, c, Fin.castLE hsub0 j)) (Finset.mem_univ _))))
      isplitl; · iexact Hr
      rw [bigSep_emp']; iempintro
    isplitl [Hat]; · iexact Hat
    iexact Hcred
  · iempintro

/-- Each tile its kit. -/
theorem kits_deal :
    iprop(shared (F := F) fC ∗ (bigSep Finset.univ fun x : DCI => atPos EB (bcell₃ x) 0 ∅ 0)
        ∗ (bigSep Finset.univ fun dci : DCI => bigSep Finset.univ fun j : Fin (grid0.bound 1) => dutyTok EB (bcell dci.1 dci.2.1 (j.castLE hsub0)) 0 dci.2.2.val)
        ∗ (bigSep Finset.univ fun dci : DCI => if dci.2.1.val < 2 then cred (tallyAt (bcell₃ dci) (some 0) (grid0.bound 1)) else BI.emp))
      ⊢ (bigSep Finset.univ fun thr : Thread nD τ => bigSep Finset.univ fun q : Fin 1 => (P (F := F) fC fI m).x q thr : sProp 𝕄) := by
  rw [SparseCore.Cfg.bigSep_threads (fun thr : Thread nD τ => bigSep Finset.univ fun q : Fin 1 => (P fC fI m).x q thr)]
  simp only [Px_T, Px_S, Px_V, bigSep_emp']
  iintro ⟨#Hsh, Hat, Htok, Hcred⟩
  isplitr; · iempintro
  isplitr; · iempintro
  iapply (bigSep_mono_frame (R := shared (F := F) fC) (Φ := mine (F := F)) fun dci _ => kit_intro (F := F) fC dci)
  isplitr; · iexact Hsh
  unfold mine
  rw [bigSep_sep', bigSep_sep']
  isplitl [Hat]; · iexact Hat
  isplitl [Htok]; · iexact Htok
  iexact Hcred

theorem hu₀ : iprop(ownU (u₀ (F := F)) ∗ (P (F := F) fC fI m).oxCred ∗ (K (F := F)).freeSems0)
    ⊢ |={Set.univ}=> iprop(BI.own (EH (initOf (K (F := F)).hsCells (K (F := F)).hsToks)) ∗ (bigSep Finset.univ fun _ : Dev nD => iprop(emp))
        ∗ (bigSep Finset.univ fun thr : Thread nD τ => bigSep Finset.univ fun q : Fin 1 => (P fC fI m).x q thr) : sProp 𝕄) := by
  unfold u₀
  iintro ⟨Hu, Hcred, Hfree⟩
  ihave H := (ownU_split _ _) $$ Hu
  icases H with ⟨HH, HB⟩
  imod (Rounds.fund EB (bRd (F := F) fC) bCells bToks) $$ HB with ⟨Hst, #Hr, Hat, Htok⟩
  ihave Hsems := (sems_b (F := F)) $$ Hfree
  imod (invs_b (F := F) fC) $$ [Hsems Hst] with ⟨%κ, #Hinv⟩
  · isplitl [Hsems] <;> iassumption
  ihave Hcred' := (creds_b fC fI m) $$ Hcred
  ihave Hinv' := (Entails.of_eq (bCells_eq (F := F) fun g => cellInv EB (bRd (F := F) fC) (κ g) g)) $$ Hinv
  ihave Hr' := (Entails.of_eq (bCells_eq (F := F) fun g => reached EB g 0)) $$ Hr
  ihave Hat' := (Entails.of_eq (bCells_eq (F := F) fun g => atPos EB g 0 ∅ 0)) $$ Hat
  ihave Htok' := (Entails.of_eq (toks_eq (F := F))) $$ Htok
  imodintro
  isplitl [HH]; · iexact HH
  isplitr; · rw [bigSep_emp']; iempintro
  iapply (kits_deal fC fI m)
  isplitr
  · isplitl; · iexists κ; iexact Hinv'
    iexact Hr'
  isplitl [Hat']; · iexact Hat'
  isplitl [Htok']; · iexact Htok'
  iexact Hcred'

end Cert.Proof.KB

end
-- ==== Proof.KBLaunchB.lean ====
/-
  The launch side of the kernel's run, second part: the arrays as the thirty-two tiles share them. The flat index array and the result
  array are each the disjoint union of the tiles' slices, and the thirty-two tiles are two cores of sixteen; so what a call takes per core
  (the record's `st`) is the two arrays whole beside a read share of the combined table per core, and what it brings back (`dn`) is
  the same with the result at its final contents.
-/
import proofs.«206824_g72705206386957_cont_9to1_m_461_20_alg».proof.Proof.KBLaunchA

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable [FloatOps F]

variable (fC : (d : Dev nD) → Buf (Elt F) (combLoc d))
variable (fI : (d : Dev nD) → Buf (Elt F) (idxLoc d))
variable (m : (ℓ : Loc nD τ sig) → Buf (Elt F) ℓ)

/-! ## The tiles' slices part the arrays -/

omit [FloatOps F] in
theorem idx_disjoint : ∀ w ∈ (Finset.univ : Finset (Fin 32)), ∀ w' ∈ (Finset.univ : Finset (Fin 32)), w ≠ w' → Disjoint (idxSet w) (idxSet w') := by
  intro w _ w' _ h
  rw [Finset.disjoint_left]
  intro j hj hj'
  have h1 := (Finset.mem_filter.mp hj).2
  have h2 := (Finset.mem_filter.mp hj').2
  exact h (Fin.ext (h1.symm.trans h2))
omit [FloatOps F] in
theorem idx_cover : (Finset.univ : Finset (Fin 32)).biUnion idxSet = Finset.univ := by
  ext j
  simp only [Finset.mem_biUnion, Finset.mem_univ, true_and, iff_true]
  have hj : (j 0).val < 327680 := (j 0).isLt
  exact ⟨⟨(j 0).val / 10240, by omega⟩, Finset.mem_filter.mpr ⟨Finset.mem_univ _, rfl⟩⟩
omit [FloatOps F] in
theorem out_disjoint : ∀ w ∈ (Finset.univ : Finset (Fin 32)), ∀ w' ∈ (Finset.univ : Finset (Fin 32)), w ≠ w' → Disjoint (outSet w) (outSet w') := by
  intro w _ w' _ h
  rw [Finset.disjoint_left]
  intro j hj hj'
  have h1 := (Finset.mem_filter.mp hj).2
  have h2 := (Finset.mem_filter.mp hj').2
  exact h (Fin.ext (h1.symm.trans h2))
omit [FloatOps F] in
theorem out_cover : (Finset.univ : Finset (Fin 32)).biUnion outSet = Finset.univ := by
  ext j
  simp only [Finset.mem_biUnion, Finset.mem_univ, true_and, iff_true]
  have hj : (j 0).val < 16384 := (j 0).isLt
  exact ⟨⟨(j 0).val / 512, by omega⟩, Finset.mem_filter.mpr ⟨Finset.mem_univ _, rfl⟩⟩

/-- The thirty-two tiles are two cores of sixteen. -/
def widEquiv : Fin 2 × Fin 16 ≃ Fin 32 where
  toFun p := wid p.1 p.2
  invFun w := (⟨w.val % 2, Nat.mod_lt _ (by decide)⟩, ⟨w.val / 2, by omega⟩)
  left_inv p := Prod.ext (Fin.ext (by show (2 * p.2.val + p.1.val) % 2 = p.1.val; omega))
    (Fin.ext (by show (2 * p.2.val + p.1.val) / 2 = p.2.val; omega))
  right_inv w := Fin.ext (by show 2 * (w.val / 2) + w.val % 2 = w.val; omega)

omit [FloatOps F] in
theorem bigSep_wid (Φ : Fin 32 → sProp 𝕄) :
    bigSep Finset.univ Φ = bigSep Finset.univ fun c : Fin 2 => bigSep Finset.univ fun s : Fin 16 => Φ (wid c s) :=
  (bigSep_univ_equiv widEquiv Φ).trans (bigSep_univ_prod fun p : Fin 2 × Fin 16 => Φ (widEquiv p))

omit [FloatOps F] in
theorem idxPts_tiles (d : Dev nD) (f : Buf (Elt F) (idxLoc d)) :
    (idxLoc d ↦{fullShare} f : sProp 𝕄)
      = bigSep Finset.univ fun c : Fin 2 => bigSep Finset.univ fun s : Fin 16 => idxLoc d ↦[idxSet (wid c s)]{fullShare} f := by
  rw [← bigSep_wid (F := F) (fun w => idxLoc d ↦[idxSet w]{fullShare} f),
    ← pointsTo_biUnion Finset.univ (ℓ := idxLoc d) idxSet idx_disjoint, idx_cover]; try rfl
omit [FloatOps F] in
theorem outPts_tiles (d : Dev nD) (f : Buf (Elt F) (outLoc d)) :
    (outLoc d ↦{fullShare} f : sProp 𝕄)
      = bigSep Finset.univ fun c : Fin 2 => bigSep Finset.univ fun s : Fin 16 => outLoc d ↦[outSet (wid c s)]{fullShare} f := by
  rw [← bigSep_wid (F := F) (fun w => outLoc d ↦[outSet w]{fullShare} f),
    ← pointsTo_biUnion Finset.univ (ℓ := outLoc d) outSet out_disjoint, out_cover]; try rfl

omit [FloatOps F] in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-- What the call takes: the two arrays whole and a read share of the combined table per core. -/
theorem st0_eq (d : Dev nD) : (bigSep Finset.univ fun c : Fin ((K (F := F)).nCore 0) => (P fC fI m).st 0 d c)
    = iprop(((idxLoc d ↦{fullShare} fI d) ∗ (outLoc d ↦{fullShare} m (outLoc d))) ∗ bigSep Finset.univ fun c : Fin 2 => combTok fC d c) := by
  simp only [P_st]
  rw [bigSep_cores (F := F) (fun c => iprop((bigSep Finset.univ fun s : Fin 16 => iprop(idxPts fI d (wid c s) ∗ outPts d (wid c s) (m (outLoc d)))) ∗ combTok fC d c))]
  simp only [bigSep_sep']
  rw [idxPts_tiles (F := F) d (fI d), outPts_tiles (F := F) d (m (outLoc d))]
/-- What it brings back: the same, the result at its final contents. -/
theorem dn0_eq (d : Dev nD) : (bigSep Finset.univ fun c : Fin ((K (F := F)).nCore 0) => (P fC fI m).dn 0 d c)
    = iprop(((idxLoc d ↦{fullShare} fI d) ∗ (outLoc d ↦{fullShare} outF fC fI d)) ∗ bigSep Finset.univ fun c : Fin 2 => combTok fC d c) := by
  simp only [P_dn]
  rw [bigSep_cores (F := F) (fun c => iprop((bigSep Finset.univ fun s : Fin 16 => iprop(idxPts fI d (wid c s) ∗ outPts d (wid c s) (outF fC fI d))) ∗ combTok fC d c))]
  simp only [bigSep_sep']
  rw [idxPts_tiles (F := F) d (fI d), outPts_tiles (F := F) d (outF fC fI d)]

end Cert.Proof.KB

end
-- ==== Proof.KBLaunchC.lean ====
/-
  The launch side of the kernel's run, third part: @main on the TensorCore. Its eleven host operations build the combined table and the
  flat index vector (read off the buffers as the two pure functions of the arguments), the call then takes the two operand arrays and the
  result array — the table as one read share per core — and brings the result back at its final contents; the four arguments are never
  touched. With the tiles' obligation, the split of a core's operands and the launch element this is the program's run.
-/
import proofs.«206824_g72705206386957_cont_9to1_m_461_20_alg».proof.Proof.KBLaunchB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

open Idealize.ShloMosaic.StableHlo (held held_sub_split wp_seq seq after after_cons after_nil tcRefs devRef_mem_tcRefs)

variable [FloatOps F]

variable (m : (ℓ : Loc nD τ sig) → Buf (Elt F) ℓ) (ρ : Dev nD → PrngReg)

abbrev a0Loc (d : Dev nD) : Loc nD τ sig := (SparseCore.T d).loc main_arg0
abbrev a1Loc (d : Dev nD) : Loc nD τ sig := (SparseCore.T d).loc main_arg1
abbrev a2Loc (d : Dev nD) : Loc nD τ sig := (SparseCore.T d).loc main_arg2
abbrev a3Loc (d : Dev nD) : Loc nD τ sig := (SparseCore.T d).loc main_arg3

/-- The combined table the host operations build from the two tables. -/
def cT (d : Dev nD) : Buf (Elt F) (combLoc d) := Cert.Glue.combT (F := F) (m (a2Loc d)) (m (a3Loc d))
/-- The flat index vector the host operations build from the two index arrays. -/
def iT (d : Dev nD) : Buf (Elt F) (idxLoc d) := Cert.Glue.idxT (m (a0Loc d)) (m (a1Loc d))

/-! ## The host operations -/

abbrev a0' : DevRef τ sig := Proc.devRef .tc (main_arg0 : Ref sig .tc)
abbrev a1' : DevRef τ sig := Proc.devRef .tc (main_arg1 : Ref sig .tc)
abbrev a2' : DevRef τ sig := Proc.devRef .tc (main_arg2 : Ref sig .tc)
abbrev a3' : DevRef τ sig := Proc.devRef .tc (main_arg3 : Ref sig .tc)
abbrev v5' : DevRef τ sig := Proc.devRef .tc (main_v5 : Ref sig .tc)
abbrev v9' : DevRef τ sig := Proc.devRef .tc (main_v9 : Ref sig .tc)
abbrev v10' : DevRef τ sig := Proc.devRef .tc (main_v10 : Ref sig .tc)

/-- @main's operations before the call, in order. -/
def hostOps : List (HloOp τ sig (Elt F)) :=
  [ StableHlo.unary main_arg2 main_v0 (broadcastInDim S12x16x64 ![0, 2] Facts₀.bcast_S12x64_S12x16x64_0_2 : (⟨S12x64, .f32⟩ : BufTy).Contents (Elt F) → (⟨S12x16x64, .f32⟩ : BufTy).Contents (Elt F)),
    StableHlo.reshape main_v0 main_v1 rfl Facts₀.shapeCasts_S12x16x64_S192x64,
    StableHlo.reshape main_arg3 main_v2 rfl Facts₀.shapeCasts_S16x64_S1x16x1x64,
    StableHlo.unary main_v2 main_v3 (broadcastInDim S12x16x1x64 ![0, 1, 2, 3] Facts₀.bcast_S1x16x1x64_S12x16x1x64_0_1_2_3 : (⟨S1x16x1x64, .f32⟩ : BufTy).Contents (Elt F) → (⟨S12x16x1x64, .f32⟩ : BufTy).Contents (Elt F)),
    StableHlo.reshape main_v3 main_v4 rfl Facts₀.shapeCasts_S12x16x1x64_S192x64,
    StableHlo.binary main_v1 main_v4 main_v5 ((fun a b => concatenate S192x128 1 [⟨S192x64, a⟩, ⟨S192x64, b⟩] Facts₀.concatenates_S192x64_S192x64_S192x128_d1) : (⟨S192x64, .f32⟩ : BufTy).Contents (Elt F) → (⟨S192x64, .f32⟩ : BufTy).Contents (Elt F) → (⟨S192x128, .f32⟩ : BufTy).Contents (Elt F)),
    StableHlo.nullary main_c (constantI S_ 32 16#32),
    StableHlo.unary main_c main_v6 (broadcastInDim S16384x20 ![] Facts₀.bcast_S_S16384x20 : (⟨S_, .i32⟩ : BufTy).Contents (Elt F) → (⟨S16384x20, .i32⟩ : BufTy).Contents (Elt F)),
    StableHlo.binary main_arg0 main_v6 main_v7 (muli : (⟨S16384x20, .i32⟩ : BufTy).Contents (Elt F) → (⟨S16384x20, .i32⟩ : BufTy).Contents (Elt F) → (⟨S16384x20, .i32⟩ : BufTy).Contents (Elt F)),
    StableHlo.binary main_v7 main_arg1 main_v8 (addi : (⟨S16384x20, .i32⟩ : BufTy).Contents (Elt F) → (⟨S16384x20, .i32⟩ : BufTy).Contents (Elt F) → (⟨S16384x20, .i32⟩ : BufTy).Contents (Elt F)),
    StableHlo.reshape main_v8 main_v9 rfl Facts₀.shapeCasts_S16384x20_S327680 ]

theorem main_eq (d : Dev nD) : main (F := F) d = seq (hostOps (F := F)) >>= fun _ => ((K (F := F)).run d 0 >>= fun _ => pure ⟨⟩) := by
  simp only [main, hostOps, seq, bind_assoc, pure_bind]

theorem hostOps_sub : ∀ op ∈ (hostOps (F := F)), op.bufs ⊆ tcRefs τ sig :=
  List.forall_iff_forall_mem.1 (show (hostOps (F := F)).Forall fun op => op.bufs ⊆ tcRefs τ sig from
    ⟨StableHlo.unary_bufs_sub .., StableHlo.reshape_bufs_sub .., StableHlo.reshape_bufs_sub .., StableHlo.unary_bufs_sub .., StableHlo.reshape_bufs_sub ..,
      StableHlo.binary_bufs_sub .., StableHlo.nullary_bufs_sub .., StableHlo.unary_bufs_sub .., StableHlo.binary_bufs_sub .., StableHlo.binary_bufs_sub ..,
      StableHlo.reshape_bufs_sub ..⟩)

theorem hostOps_fresh : ∀ op ∈ (hostOps (F := F)), op.fresh = ∅ := by
  intro _ h; (repeat (cases h with | head => rfl | tail _ h => ?_)); exact nomatch h

/-- The device's buffers when @main starts. -/
abbrev V0 (d : Dev nD) : Valuation τ sig (Elt F) := fun b => m (d, b)

theorem after_a0 (V : Valuation τ sig (Elt F)) : after (hostOps (F := F)) V a0' = V a0' := by
  unfold hostOps; after_results
theorem after_a1 (V : Valuation τ sig (Elt F)) : after (hostOps (F := F)) V a1' = V a1' := by
  unfold hostOps; after_results
theorem after_a2 (V : Valuation τ sig (Elt F)) : after (hostOps (F := F)) V a2' = V a2' := by
  unfold hostOps; after_results
theorem after_a3 (V : Valuation τ sig (Elt F)) : after (hostOps (F := F)) V a3' = V a3' := by
  unfold hostOps; after_results
theorem after_v10 (V : Valuation τ sig (Elt F)) : after (hostOps (F := F)) V v10' = V v10' := by
  unfold hostOps; after_results
/-- After them the combined table's buffer holds the combined table, -/
theorem after_v5 (d : Dev nD) : after (hostOps (F := F)) (V0 m d) v5' = cT m d := by
  unfold hostOps; after_results; rfl
/-- and the flat index vector's buffer the flat index vector. -/
theorem after_v9 (d : Dev nD) : after (hostOps (F := F)) (V0 m d) v9' = iT m d := by
  unfold hostOps; after_results; rfl

/-! ## @main on the TensorCore -/

omit [FloatOps F] in
/-- The TensorCore's arrays at launch, none scoped, as the host operations' rule holds them. -/
theorem unscoped_held (d : Dev nD) :
    (unscopedBufs d (fun b => m ((SparseCore.T d).loc b)) : sProp 𝕄) = held (T d) (tcRefs τ sig) (V0 m d) := by
  unfold unscopedBufs held tcRefs
  rw [show (Finset.univ.filter fun b : Ref sig .tc => ¬ b.isScoped) = Finset.univ by decide, bigSep_map]
  rfl

/-- The seven arrays the call and the claim speak of. -/
abbrev S7 : Finset (DevRef τ sig) := {a0', a1', a2', a3', v5', v9', v10'}

omit [FloatOps F] in
theorem S7_sub : S7 ⊆ tcRefs τ sig := by
  intro b hb
  simp only [S7, Finset.mem_insert, Finset.mem_singleton] at hb
  rcases hb with rfl | rfl | rfl | rfl | rfl | rfl | rfl <;> exact devRef_mem_tcRefs _

omit [FloatOps F] in
theorem held_S7 (d : Dev nD) (W : Valuation τ sig (Elt F)) :
    (held (T d) S7 W : sProp 𝕄)
      = iprop((a0Loc d ↦{fullShare} W a0') ∗ (a1Loc d ↦{fullShare} W a1') ∗ (a2Loc d ↦{fullShare} W a2') ∗ (a3Loc d ↦{fullShare} W a3')
          ∗ (combLoc d ↦{fullShare} W v5') ∗ (idxLoc d ↦{fullShare} W v9') ∗ outLoc d ↦{fullShare} W v10') := by
  unfold held S7
  rw [SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- The arrays after the host operations: the arguments and the result's buffer as launched, the two operands built. -/
theorem held_after (d : Dev nD) :
    (held (T d) (tcRefs τ sig) (after (hostOps (F := F)) (V0 m d)) : sProp 𝕄)
      = iprop(((a0Loc d ↦{fullShare} m (a0Loc d)) ∗ (a1Loc d ↦{fullShare} m (a1Loc d)) ∗ (a2Loc d ↦{fullShare} m (a2Loc d)) ∗ (a3Loc d ↦{fullShare} m (a3Loc d))
          ∗ (combLoc d ↦{fullShare} cT m d) ∗ (idxLoc d ↦{fullShare} iT m d) ∗ outLoc d ↦{fullShare} m (outLoc d))
        ∗ held (T d) (tcRefs τ sig \ S7) (after (hostOps (F := F)) (V0 m d))) := by
  rw [held_sub_split (T d) S7_sub, held_S7, after_a0, after_a1, after_a2, after_a3, after_v5, after_v9, after_v10]

/-- What @main leaves the claim: the result at its final contents and the four arguments as launched. -/
abbrev FIN (d : Dev nD) : sProp 𝕄 :=
  iprop((outLoc d ↦{fullShare} outF (cT m) (iT m) d) ∗ (a0Loc d ↦{fullShare} m (a0Loc d)) ∗ (a1Loc d ↦{fullShare} m (a1Loc d))
    ∗ (a2Loc d ↦{fullShare} m (a2Loc d)) ∗ a3Loc d ↦{fullShare} m (a3Loc d))

set_option backward.isDefEq.respectTransparency.types false in
/-- @main on device `d`'s TensorCore: the host operations over all its arrays held whole, then the one call. -/
theorem hmain (κ : GSem nD τ sig → ℕ) (d : Dev nD) :
    iprop((K (F := F)).ctx EH (P (cT m) (iT m) m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held, main_eq]
  iintro ⟨#Hctx, Hst, ⟨Hb, Hheld, -, -⟩, -⟩
  iapply (wp_seq 𝒱 none Set.univ d (tcRefs τ sig) _ (hostOps (F := F)) hostOps_sub hostOps_fresh (V0 m d)) $$ [Hb Hheld]
  · isplitl [Hb] <;> iassumption
  iintro ⟨Hb, Hheld⟩
  ihave Hh := (Entails.of_eq (held_after (F := F) m d)) $$ Hheld
  icases Hh with ⟨⟨Ha0, Ha1, Ha2, Ha3, Hcomb, Hidx, Hout⟩, -⟩
  ihave Hc := (Transfers.pointsTo_toks_split (ℓ := combLoc d) (S := Finset.univ) (f := cT m d) fullShare 2) $$ Hcomb
  icases Hc with ⟨-, Hctok⟩
  simp only [wp_bind, wp_pure]
  iapply ((K (F := F)).wp_run (D (F := F)) 𝒱 (EH := EH) (P := P (cT m) (iT m) m) κ d 0) $$ [Hst Hidx Hout Hctok Ha0 Ha1 Ha2 Ha3]
  isplitr; · iexact Hctx
  isplitl [Hst]; · iexact Hst
  isplitl [Hidx Hout Hctok]
  · rw [st0_eq]
    isplitl [Hidx Hout]
    · isplitl [Hidx]; · iexact Hidx
      iexact Hout
    iexact Hctok
  iintro ⟨Hst, Hdn⟩
  ihave Hdn' := (Entails.of_eq (dn0_eq (cT m) (iT m) m d)) $$ Hdn
  icases Hdn' with ⟨⟨-, Hout⟩, -⟩
  imodintro
  isplitl [Hst]; · iexact Hst
  isplitl [Hout]; · iexact Hout
  isplitl [Ha0]; · iexact Ha0
  isplitl [Ha1]; · iexact Ha1
  isplitl [Ha2]; · iexact Ha2
  iexact Ha3

/-! ## The final memory reads the claim -/

def fq (d : Dev nD) (s' : Phys nD τ sig (Elt F)) : Prop :=
  s'.mem.mem (outLoc d) = outF (cT m) (iT m) d ∧ s'.mem.mem (a0Loc d) = m (a0Loc d) ∧ s'.mem.mem (a1Loc d) = m (a1Loc d)
    ∧ s'.mem.mem (a2Loc d) = m (a2Loc d) ∧ s'.mem.mem (a3Loc d) = m (a3Loc d)

theorem hfin (d : Dev nD) (s' : Phys nD τ sig (Elt F)) : iprop(FIN m d ∗ SI s') ⊢ (⌜fq m d s'⌝ : sProp 𝕄) := by
  iintro ⟨⟨Ho, H0, H1, H2, H3⟩, HSI⟩
  icombine HSI Ho gives %ho
  icombine HSI H0 gives %h0
  icombine HSI H1 gives %h1
  icombine HSI H2 gives %h2
  icombine HSI H3 gives %h3
  ipureintro
  exact ⟨funext fun i => ho i (Finset.mem_univ i), funext fun i => h0 i (Finset.mem_univ i), funext fun i => h1 i (Finset.mem_univ i),
    funext fun i => h2 i (Finset.mem_univ i), funext fun i => h3 i (Finset.mem_univ i)⟩

/-! ## The program's run -/

/-- Every weakly fair execution of the program's threads ends, with the result at the combined-table lookup of the flat indices and
    the four arguments unchanged — given the tiles' obligation. -/
theorem run_main [∀ e, Nonempty (Elt F e)] (htile : (K (F := F)).TileObl (D (F := F)) 𝒱 (P (cT m) (iT m) m) v₀ 0) :
    θ_run (Cert.Kernel.defs (F := F)) (Cert.Kernel.threads (F := F)) ⟨m, fun _ => 0, ρ⟩
      (fun r => ∀ c : Dev nD, r.2.mem (outLoc c) = outF (cT m) (iT m) c ∧ r.2.mem (a0Loc c) = m (a0Loc c) ∧ r.2.mem (a1Loc c) = m (a1Loc c)
        ∧ r.2.mem (a2Loc c) = m (a2Loc c) ∧ r.2.mem (a3Loc c) = m (a3Loc c)) :=
  SparseCore.Cfg.θ_run_sc (K := K (F := F)) (D := D (F := F)) (𝒱 := 𝒱) (EH := EH) (P := P (cT m) (iT m) m) facts v₀
    (fun q hq => match q with | 0 => nomatch hq)
    (fun q _ => match q with | 0 => htile)
    (fun q _ => match q with | 0 => vecSplit (cT m) (iT m) m)
    m ρ main (fun _ => iprop(emp)) (FIN m) (u₀ (F := F)) (hu₀ (cT m) (iT m) m) (hmain m ρ) (fq m) (hfin m)
    (fun r => ∀ c : Dev nD, r.2.mem (outLoc c) = outF (cT m) (iT m) c ∧ r.2.mem (a0Loc c) = m (a0Loc c) ∧ r.2.mem (a1Loc c) = m (a1Loc c)
        ∧ r.2.mem (a2Loc c) = m (a2Loc c) ∧ r.2.mem (a3Loc c) = m (a3Loc c)) (fun _ h => h)

end Cert.Proof.KB

end
-- ==== Proof.KBLaunchD.lean ====
/-
  The launch side of the kernel's run, last part: the result's final contents as the run states them — the combined-table lookup of the
  flat indices, at the table and indices the host operations build — are the specification's function of the four arguments, as soon as the
  first index array's words are at most 11 and the second's at most 15 (read unsigned).
-/
import proofs.«206824_g72705206386957_cont_9to1_m_461_20_alg».proof.Proof.KBLaunchC

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable [FloatOps F]

variable (m : (ℓ : Loc nD τ sig) → Buf (Elt F) ℓ)

/-- The run's result is the host-side algebra's lookup function (the two are the same term), -/
theorem outF_eq_kernelG (d : Dev nD) :
    outF (cT m) (iT m) d = Cert.Glue.kernelG (F := F) (m (a0Loc d)) (m (a1Loc d)) (m (a2Loc d)) (m (a3Loc d)) := rfl

/-- hence the specification's function on indices in range. -/
theorem outF_eq_G (d : Dev nD)
    (h1 : ∀ i, ((m (a0Loc d) : IVec Cert.Spec.SIdx 32) i).toNat ≤ 11) (h2 : ∀ i, ((m (a1Loc d) : IVec Cert.Spec.SIdx 32) i).toNat ≤ 15) :
    outF (cT m) (iT m) d = Cert.Spec.G (F := F) (m (a0Loc d)) (m (a1Loc d)) (m (a2Loc d)) (m (a3Loc d)) :=
  Cert.Glue.kernelG_eq (F := F) (m (a0Loc d)) (m (a1Loc d)) (m (a2Loc d)) (m (a3Loc d)) h1 h2

end Cert.Proof.KB

end
-- ==== Proof.KIMem.lean ====
import proofs.«206824_g72705206386957_cont_9to1_m_461_20_alg».proof.Proof.KISetup

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

local notation "iV" => (Memref.whole Cert.KernelIdeal.main_v9_scv : Memref Cert.KernelIdeal.sig Kind.scVector Space.hbm Cert.KernelIdeal.S327680 EltTy.i32)
local notation "tV" => (Memref.whole Cert.KernelIdeal.main_v5_scv : Memref Cert.KernelIdeal.sig Kind.scVector Space.hbm Cert.KernelIdeal.S192x128 EltTy.f32)
local notation "oV" => (Memref.whole Cert.KernelIdeal.main_v10_scv : Memref Cert.KernelIdeal.sig Kind.scVector Space.hbm Cert.KernelIdeal.S16384x20x128 EltTy.f32)
local notation "shV" => (Memref.whole Cert.KernelIdeal.cc0_scratch3 : Memref Cert.KernelIdeal.sig Kind.scVector Space.shared Cert.KernelIdeal.S192x128 EltTy.f32)
local notation "a5" => (Memref.whole Cert.KernelIdeal.cc0_scratch0 : Memref Cert.KernelIdeal.sig Kind.scVector Space.vmem Cert.KernelIdeal.S10240 EltTy.i32)
local notation "a6" => (Memref.whole Cert.KernelIdeal.cc0_scratch1 : Memref Cert.KernelIdeal.sig Kind.scVector Space.vmem Cert.KernelIdeal.S2x1x80 EltTy.i32)
local notation "a7" => (Memref.whole Cert.KernelIdeal.cc0_scratch2 : Memref Cert.KernelIdeal.sig Kind.scVector Space.vmem Cert.KernelIdeal.S2x80x128 EltTy.f32)

variable [FloatOps F]
variable (fC : (d : Dev nD) → Buf (Elt F) (combLoc d)) (fI : (d : Dev nD) → Buf (Elt F) (idxLoc d))
variable (m : (ℓ : Loc nD τ sig) → Buf (Elt F) ℓ)

section Tile

variable (d : Dev nD) (L : grid0.Coords)

abbrev cV (L : grid0.Coords) : Fin τ.nSC := (L 0).castLE hcore0
abbrev jV (L : grid0.Coords) : Fin τ.nSub := (L 1).castLE hsub0
omit [FloatOps F] in
theorem bound_zero : grid0.bound 0 = 2 := rfl
omit [FloatOps F] in
theorem bound_one : grid0.bound 1 = 16 := rfl
abbrev cF (L : grid0.Coords) : Fin 2 := Fin.cast bound_zero (L 0)
abbrev jF (L : grid0.Coords) : Fin 16 := Fin.cast bound_one (L 1)
abbrev wL (L : grid0.Coords) : Fin 32 := wid (cF L) (jF L)

/-- The tile's slice of the flat indices, as the task addresses it. -/
abbrev iSl (L : grid0.Coords) : Memref sig .scVector .hbm S10240 .i32 := (iV).slice (Rect.unit (s := S327680) (k0_off1 L) S10240.size (k0_off1_inb L)) (fun _ => rfl)
abbrev c4 (d : Dev nD) (c : Fin τ.nSC) (i : Fin τ.nSub) : GSem nD τ sig := (V d c i, .dma cc0_scratch4.sem)
abbrev c5 (d : Dev nD) (c : Fin τ.nSC) (i : Fin τ.nSub) : GSem nD τ sig := (V d c i, .dma cc0_scratch5.sem)
abbrev c6 (d : Dev nD) (c : Fin τ.nSC) (i : Fin τ.nSub) : GSem nD τ sig := (V d c i, .dma cc0_scratch6.sem)
abbrev c7 (d : Dev nD) (c : Fin τ.nSC) (i : Fin τ.nSub) : GSem nD τ sig := (V d c i, .dma cc0_scratch7.sem)
abbrev cA (d : Dev nD) (c : Fin τ.nSC) (i : Fin τ.nSub) : GSem nD τ sig := (V d c i, .dma cc0_scoped0.sem)
abbrev cB (d : Dev nD) (c : Fin τ.nSC) (i : Fin τ.nSub) : GSem nD τ sig := (V d c i, .dma cc0_scoped1.sem)

omit [FloatOps F] in
theorem cell_ne (x y : DmaSem sig) (h : x ≠ y) : ((V d (cV L) (jV L), SemLoc.dma x) : GSem nD τ sig) ≠ (V d (cV L) (jV L), SemLoc.dma y) :=
  fun e => h (SemLoc.dma.inj (Prod.mk.inj e).2)

omit [FloatOps F] in
theorem ownSems0_V :
    (ownSems0 (V d (cV L) (jV L)) : sProp 𝕄)
      = iprop(semVal (c4 d (cV L) (jV L)) 0 ∗ semVal (c5 d (cV L) (jV L)) 0 ∗ semVal (c6 d (cV L) (jV L)) 0 ∗ semVal (c7 d (cV L) (jV L)) 0 ∗ semVal (cA d (cV L) (jV L)) 0 ∗ semVal (cB d (cV L) (jV L)) 0
          ∗ bigSep (((((((ownCells (V d (cV L) (jV L))).erase (c4 d (cV L) (jV L))).erase (c5 d (cV L) (jV L))).erase (c6 d (cV L) (jV L))).erase (c7 d (cV L) (jV L))).erase (cA d (cV L) (jV L))).erase (cB d (cV L) (jV L))) fun g => semVal g 0) := by
  unfold SparseCore.Cfg.ownSems0
  rw [SparseCore.bigSep_erase' ((mem_ownCells (g := (c4 d (cV L) (jV L)))).mpr ⟨rfl, by show (SemLoc.dma cc0_scratch4.sem : SemLoc sig).isScoped .scVector = true; decide⟩),
    SparseCore.bigSep_erase' (Finset.mem_erase.mpr ⟨cell_ne d L cc0_scratch5.sem cc0_scratch4.sem (by decide), (mem_ownCells (g := (c5 d (cV L) (jV L)))).mpr ⟨rfl, by show (SemLoc.dma cc0_scratch5.sem : SemLoc sig).isScoped .scVector = true; decide⟩⟩),
    SparseCore.bigSep_erase' (Finset.mem_erase.mpr ⟨cell_ne d L cc0_scratch6.sem cc0_scratch5.sem (by decide), Finset.mem_erase.mpr ⟨cell_ne d L cc0_scratch6.sem cc0_scratch4.sem (by decide), (mem_ownCells (g := (c6 d (cV L) (jV L)))).mpr ⟨rfl, by show (SemLoc.dma cc0_scratch6.sem : SemLoc sig).isScoped .scVector = true; decide⟩⟩⟩),
    SparseCore.bigSep_erase' (Finset.mem_erase.mpr ⟨cell_ne d L cc0_scratch7.sem cc0_scratch6.sem (by decide), Finset.mem_erase.mpr ⟨cell_ne d L cc0_scratch7.sem cc0_scratch5.sem (by decide), Finset.mem_erase.mpr ⟨cell_ne d L cc0_scratch7.sem cc0_scratch4.sem (by decide), (mem_ownCells (g := (c7 d (cV L) (jV L)))).mpr ⟨rfl, by show (SemLoc.dma cc0_scratch7.sem : SemLoc sig).isScoped .scVector = true; decide⟩⟩⟩⟩),
    SparseCore.bigSep_erase' (Finset.mem_erase.mpr ⟨cell_ne d L cc0_scoped0.sem cc0_scratch7.sem (by decide), Finset.mem_erase.mpr ⟨cell_ne d L cc0_scoped0.sem cc0_scratch6.sem (by decide), Finset.mem_erase.mpr ⟨cell_ne d L cc0_scoped0.sem cc0_scratch5.sem (by decide), Finset.mem_erase.mpr ⟨cell_ne d L cc0_scoped0.sem cc0_scratch4.sem (by decide), (mem_ownCells (g := (cA d (cV L) (jV L)))).mpr ⟨rfl, by show (SemLoc.dma cc0_scoped0.sem : SemLoc sig).isScoped .scVector = true; decide⟩⟩⟩⟩⟩),
    SparseCore.bigSep_erase' (Finset.mem_erase.mpr ⟨cell_ne d L cc0_scoped1.sem cc0_scoped0.sem (by decide), Finset.mem_erase.mpr ⟨cell_ne d L cc0_scoped1.sem cc0_scratch7.sem (by decide), Finset.mem_erase.mpr ⟨cell_ne d L cc0_scoped1.sem cc0_scratch6.sem (by decide), Finset.mem_erase.mpr ⟨cell_ne d L cc0_scoped1.sem cc0_scratch5.sem (by decide), Finset.mem_erase.mpr ⟨cell_ne d L cc0_scoped1.sem cc0_scratch4.sem (by decide), (mem_ownCells (g := (cB d (cV L) (jV L)))).mpr ⟨rfl, by show (SemLoc.dma cc0_scoped1.sem : SemLoc sig).isScoped .scVector = true; decide⟩⟩⟩⟩⟩⟩)]

abbrev r0 (L : grid0.Coords) : DevRef τ sig := (Proc.scVector (cV L) (jV L)).devRef cc0_scratch0
abbrev r1 (L : grid0.Coords) : DevRef τ sig := (Proc.scVector (cV L) (jV L)).devRef cc0_scratch1
abbrev r2 (L : grid0.Coords) : DevRef τ sig := (Proc.scVector (cV L) (jV L)).devRef cc0_scratch2

omit [FloatOps F] in
/-- The tile's three scratch buffers are among its own: each at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f)
          ∗ bigSep ((((ownRefs (τ := τ) (.scVector (cV L) (jV L))).erase (r0 L)).erase (r1 L)).erase (r2 L))
              fun b => iprop(∃ f, ((d, b) : Loc nD τ sig) ↦{fullShare} f)) := by
  unfold SparseCore.Cfg.ownBufs
  rw [SparseCore.bigSep_erase' (SparseCore.Cfg.mem_ownRefs_of_owner (p := Proc.scVector (cV L) (jV L)) (b := r0 L) rfl),
    SparseCore.bigSep_erase' (Finset.mem_erase.mpr ⟨(by intro h; cases h), SparseCore.Cfg.mem_ownRefs_of_owner (p := Proc.scVector (cV L) (jV L)) (b := r1 L) rfl⟩),
    SparseCore.bigSep_erase' (Finset.mem_erase.mpr ⟨(by intro h; cases h), Finset.mem_erase.mpr ⟨(by intro h; cases h),
      SparseCore.Cfg.mem_ownRefs_of_owner (p := Proc.scVector (cV L) (jV L)) (b := r2 L) rfl⟩⟩)]

omit [FloatOps F] in
theorem set_iSl : (iSl L).view.set = idxSet (wL L) := by
  show ((View.whole (main_v9_scv : Ref sig .scVector)).slice (Rect.unit (s := S327680) (k0_off1 L) S10240.size (k0_off1_inb L))).set = _
  rw [View.set_slice_whole]
  ext j
  rw [Rect.mem_set_unit]
  simp only [idxSet, Finset.mem_filter, Finset.mem_univ, true_and]
  rw [k0_off1_eq]
  have h1 : (L 1).val < 16 := (L 1).isLt
  have h0 : (L 0).val < 2 := (L 0).isLt
  constructor
  · intro h
    have := h 0
    simp only [Matrix.cons_val_zero] at this
    show (j 0).val / 10240 = 2 * (L 1).val + (L 0).val
    omega
  · intro h a
    have h' : (j 0).val / 10240 = 2 * (L 1).val + (L 0).val := h
    match a with
    | 0 =>
      simp only [Matrix.cons_val_zero]
      have hj : (j 0).val < 327680 := (j 0).isLt
      omega

omit [FloatOps F] in
theorem pts_iSl (f : Buf (Elt F) (idxLoc d)) :
    ((iSl L).view.loc (V d (cV L) (jV L)) ↦[(iSl L).view.set]{fullShare} f : sProp 𝕄) = idxLoc d ↦[idxSet (wL L)]{fullShare} f := by
  rw [set_iSl]
omit [FloatOps F] in
theorem pts_tV (q : PosShare TreeShare) (f : Buf (Elt F) (combLoc d)) :
    ((tV).view.loc (V d (cV L) (jV L)) ↦{q} f : sProp 𝕄) = combLoc d ↦{q} f := rfl
omit [FloatOps F] in
theorem pts_shV (q : PosShare TreeShare) (f : Buf (Elt F) (shLoc d (cV L))) :
    ((shV).view.loc (V d (cV L) (jV L)) ↦{q} f : sProp 𝕄) = shLoc d (cV L) ↦{q} f := rfl
omit [FloatOps F] in
theorem pts_a5 (f : Buf (Elt F) ((V d (cV L) (jV L)).loc cc0_scratch0)) :
    ((a5).view.loc (V d (cV L) (jV L)) ↦{fullShare} f : sProp 𝕄) = (V d (cV L) (jV L)).loc cc0_scratch0 ↦{fullShare} f := rfl
omit [FloatOps F] in
theorem pts_a6 (f : Buf (Elt F) ((V d (cV L) (jV L)).loc cc0_scratch1)) :
    ((a6).view.loc (V d (cV L) (jV L)) ↦{fullShare} f : sProp 𝕄) = (V d (cV L) (jV L)).loc cc0_scratch1 ↦{fullShare} f := rfl
omit [FloatOps F] in
theorem pts_a7 (f : Buf (Elt F) ((V d (cV L) (jV L)).loc cc0_scratch2)) :
    ((a7).view.loc (V d (cV L) (jV L)) ↦{fullShare} f : sProp 𝕄) = (V d (cV L) (jV L)).loc cc0_scratch2 ↦{fullShare} f := rfl

/-- The index list of slot 0 and of slot 1, and the row buffer's two slots, as the task addresses them. -/
abbrev lst0 : Memref sig .scVector .vmem S80 .i32 :=
  ((((a6).slice (Rect.unit (s := S2x1x80) ![0, 0, 0] S1x1x80.size inb_S2x1x80_S1x1x80_0_0_0) (fun _ => rfl)).squeeze S1x80 squeezes_S1x1x80_S1x80).slice
    (Rect.unit (s := S1x80) ![0, 0] S1x80.size inb_S1x80_S1x80_0_0) (fun _ => rfl)).squeeze S80 squeezes_S1x80_S80
abbrev lst1 : Memref sig .scVector .vmem S80 .i32 :=
  ((((a6).slice (Rect.unit (s := S2x1x80) ![1, 0, 0] S1x1x80.size inb_S2x1x80_S1x1x80_1_0_0) (fun _ => rfl)).squeeze S1x80 squeezes_S1x1x80_S1x80).slice
    (Rect.unit (s := S1x80) ![0, 0] S1x80.size inb_S1x80_S1x80_0_0) (fun _ => rfl)).squeeze S80 squeezes_S1x80_S80
abbrev rows0 : Memref sig .scVector .vmem S80x128 .f32 :=
  ((a7).slice (Rect.unit (s := S2x80x128) ![0, 0, 0] S1x80x128.size inb_S2x80x128_S1x80x128_0_0_0) (fun _ => rfl)).squeeze S80x128 squeezes_S1x80x128_S80x128
abbrev rows1 : Memref sig .scVector .vmem S80x128 .f32 :=
  ((a7).slice (Rect.unit (s := S2x80x128) ![1, 0, 0] S1x80x128.size inb_S2x80x128_S1x80x128_1_0_0) (fun _ => rfl)).squeeze S80x128 squeezes_S1x80x128_S80x128

omit [FloatOps F] in
theorem inb_src (t : Fin 4) : ∀ a, (![20 * t.val, 0] : Fin 2 → Nat) a + S20x128.size a ≤ S80x128.size a := by
  revert t; decide

/-- Window `t` (twenty rows) of a slot of the row buffer: the source of the slot's `t`-th write-back. -/
abbrev srcW0 (t : Fin 4) : Memref sig .scVector .vmem S20x128 .f32 := (rows0).slice (Rect.unit (s := S80x128) ![20 * t.val, 0] S20x128.size (inb_src t)) (fun _ => rfl)
abbrev srcW1 (t : Fin 4) : Memref sig .scVector .vmem S20x128 .f32 := (rows1).slice (Rect.unit (s := S80x128) ![20 * t.val, 0] S20x128.size (inb_src t)) (fun _ => rfl)

/-- The result's row that write-back `r₂` of the prologue's chunk `r₁` lands in, as the task addresses it. -/
abbrev dstP (L : grid0.Coords) (r₁ : Fin 2) (r₂ : Fin 4) : Memref sig .scVector .hbm S20x128 .f32 :=
  ((oV).slice (Rect.unit (s := S16384x20x128) (k0_off2 L (BitVec.ofNat 32 (4 * r₁.val)) (BitVec.ofNat 32 r₂.val)) S1x20x128.size (k0_off2_inb L r₁ r₂)) (fun _ => rfl)).squeeze S20x128 squeezes_S1x20x128_S20x128
/-- The result's row that write-back `r₂` of slot `r₁` lands in at the loop's trip `t`. -/
abbrev dstT (L : grid0.Coords) (t : Fin k0_t1_loop.trips) (r₁ : Fin 2) (r₂ : Fin 4) : Memref sig .scVector .hbm S20x128 .f32 :=
  ((oV).slice (Rect.unit (s := S16384x20x128) (k0_off5 L t (BitVec.ofNat 32 r₁.val) (BitVec.ofNat 32 r₂.val)) S1x20x128.size (k0_off5_inb L t r₁ r₂)) (fun _ => rfl)).squeeze S20x128 squeezes_S1x20x128_S20x128

/-- Row `r` of the result: its twenty by 128 entries. -/
def orow (r : Fin 16384) : Finset S16384x20x128.Idx := Finset.univ.filter fun j => (j 0).val = r.val

end Tile

end Cert.Proof.KI

end
-- ==== Proof.KIGeom.lean ====
/-
  The geometry of a tile's memory accesses: which elements of the result, of the row buffer, of the index lists and of the flat index
  array each of the task's views covers, and where each of a view's indices sits in its array. Finite sets and index embeddings only;
  nothing here speaks of the program's steps.
-/
import proofs.«206824_g72705206386957_cont_9to1_m_461_20_alg».proof.Proof.KIMem
import Idealize.ShloMosaic.Lib.Exec.Geometry

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

local notation "iV" => (Memref.whole Cert.KernelIdeal.main_v9_scv : Memref Cert.KernelIdeal.sig Kind.scVector Space.hbm Cert.KernelIdeal.S327680 EltTy.i32)
local notation "tV" => (Memref.whole Cert.KernelIdeal.main_v5_scv : Memref Cert.KernelIdeal.sig Kind.scVector Space.hbm Cert.KernelIdeal.S192x128 EltTy.f32)
local notation "oV" => (Memref.whole Cert.KernelIdeal.main_v10_scv : Memref Cert.KernelIdeal.sig Kind.scVector Space.hbm Cert.KernelIdeal.S16384x20x128 EltTy.f32)
local notation "shV" => (Memref.whole Cert.KernelIdeal.cc0_scratch3 : Memref Cert.KernelIdeal.sig Kind.scVector Space.shared Cert.KernelIdeal.S192x128 EltTy.f32)
local notation "a5" => (Memref.whole Cert.KernelIdeal.cc0_scratch0 : Memref Cert.KernelIdeal.sig Kind.scVector Space.vmem Cert.KernelIdeal.S10240 EltTy.i32)
local notation "a6" => (Memref.whole Cert.KernelIdeal.cc0_scratch1 : Memref Cert.KernelIdeal.sig Kind.scVector Space.vmem Cert.KernelIdeal.S2x1x80 EltTy.i32)
local notation "a7" => (Memref.whole Cert.KernelIdeal.cc0_scratch2 : Memref Cert.KernelIdeal.sig Kind.scVector Space.vmem Cert.KernelIdeal.S2x80x128 EltTy.f32)

variable [FloatOps F]
variable (fC : (d : Dev nD) → Buf (Elt F) (combLoc d)) (fI : (d : Dev nD) → Buf (Elt F) (idxLoc d))
variable (m : (ℓ : Loc nD τ sig) → Buf (Elt F) ℓ)

section Tile

variable (d : Dev nD) (L : grid0.Coords)

/-! ## Where a squeezed view's indices sit -/

omit [FloatOps F] in
/-- Dropping a leading unit axis: index (a, b) of the squeezed shape is index (0, a, b). -/
theorem squeeze3_idx {n1 n2 : Nat} (h : (⟨2, ![n1, n2]⟩ : Shape).numel = (⟨3, ![1, n1, n2]⟩ : Shape).numel)
    (i : (⟨2, ![n1, n2]⟩ : Shape).Idx) :
    Shape.reshapeEquiv h i = (ix3 (0 : Fin 1) (i 0) (i 1) : (⟨3, ![1, n1, n2]⟩ : Shape).Idx) :=
  Shape.reshapeEquiv_eq_of_rowMajor h (by
    rw [Shape.rowMajor_val_three, Shape.rowMajor_val_two]
    show (0 * n1 + (i 0).val) * n2 + (i 1).val = (i 0).val * n2 + (i 1).val
    rw [Nat.zero_mul, Nat.zero_add])

omit [FloatOps F] in
/-- Dropping the leading unit axis of a rank-2 shape: index a is index (0, a). -/
theorem squeeze2_idx {n1 : Nat} (h : (⟨1, ![n1]⟩ : Shape).numel = (⟨2, ![1, n1]⟩ : Shape).numel)
    (i : (⟨1, ![n1]⟩ : Shape).Idx) :
    Shape.reshapeEquiv h i = (ix2 (0 : Fin 1) (i 0) : (⟨2, ![1, n1]⟩ : Shape).Idx) :=
  Shape.reshapeEquiv_eq_of_rowMajor h (by
    rw [Shape.rowMajor_val_two, Shape.rowMajor_val_one]
    show 0 * n1 + (i 0).val = (i 0).val
    rw [Nat.zero_mul, Nat.zero_add])

omit [FloatOps F] in
theorem wL_val : (wL L).val = 2 * (L 1).val + (L 0).val := rfl

omit [FloatOps F] in
theorem rowP_lt (r₁ : Fin 2) (r₂ : Fin 4) : 512 * (wL L).val + 4 * r₁.val + r₂.val < 16384 := by
  have := (wL L).isLt; have := r₁.isLt; have := r₂.isLt; omega
omit [FloatOps F] in
theorem rowT_lt (t : Fin k0_t1_loop.trips) (r₁ : Fin 2) (r₂ : Fin 4) : 512 * (wL L).val + 8 * t.val + 4 * r₁.val + r₂.val + 8 < 16384 := by
  have := (wL L).isLt; have := r₁.isLt; have := r₂.isLt; have := t.isLt; have := k0_t1_abs.2.1; omega

/-! ## A row of the result, in one spelling -/

omit [FloatOps F] in
theorem inb_row (r : ℕ) (hr : r < 16384) : ∀ a, (![r, 0, 0] : Fin 3 → Nat) a + S1x20x128.size a ≤ S16384x20x128.size a := by
  intro a; match a with
  | 0 => show r + 1 ≤ 16384; omega
  | 1 => show 0 + 20 ≤ 20; omega
  | 2 => show 0 + 128 ≤ 128; omega

/-- Row `r` of the result as a memref, in the one spelling the loop's invariant uses. -/
abbrev dstRow (r : ℕ) (hr : r < 16384) : Memref sig .scVector .hbm S20x128 .f32 :=
  ((oV).slice (Rect.unit (s := S16384x20x128) ![r, 0, 0] S1x20x128.size (inb_row r hr)) (fun _ => rfl)).squeeze S20x128 squeezes_S1x20x128_S20x128

/-- A row sliced at any offsets that equal `![r, 0, 0]` is that row. -/
abbrev dstO (off : Fin 3 → ℕ) (h : ∀ a, off a + S1x20x128.size a ≤ S16384x20x128.size a) : Memref sig .scVector .hbm S20x128 .f32 :=
  ((oV).slice (Rect.unit (s := S16384x20x128) off S1x20x128.size h) (fun _ => rfl)).squeeze S20x128 squeezes_S1x20x128_S20x128

omit [FloatOps F] in
theorem dstO_eq (off : Fin 3 → ℕ) (h) (r : ℕ) (hr : r < 16384) (e : off = ![r, 0, 0]) : dstO off h = dstRow r hr := by
  subst e; rfl

omit [FloatOps F] in
theorem emb_dstRow (r : ℕ) (hr : r < 16384) (i : S20x128.Idx) :
    (dstRow r hr).view.emb i = (ix3 (⟨r, hr⟩ : Fin 16384) (i 0) (i 1) : S16384x20x128.Idx) := by
  have e : (dstRow r hr).view.emb i
      = (Rect.unit (s := S16384x20x128) ![r, 0, 0] S1x20x128.size (inb_row r hr)).emb
          (Shape.reshapeEquiv (squeezes_S1x20x128_S20x128).numel_eq i) := rfl
  rw [e, squeeze3_idx]
  funext a
  apply Fin.ext
  rw [Rect.emb_apply, Rect.off_unit, Rect.stride_unit]
  match a with
  | ⟨0, _⟩ => show r + 1 * 0 = r; omega
  | ⟨1, _⟩ => show 0 + 1 * (i 0).val = (i 0).val; omega
  | ⟨2, _⟩ => show 0 + 1 * (i 1).val = (i 1).val; omega

omit [FloatOps F] in
theorem set_dstRow (r : ℕ) (hr : r < 16384) : (dstRow r hr).view.set = orow ⟨r, hr⟩ := by
  ext j
  simp only [View.set, Finset.mem_map, Finset.mem_univ, true_and, orow, Finset.mem_filter]
  constructor
  · rintro ⟨i, rfl⟩
    exact congrArg (fun k : S16384x20x128.Idx => (k 0).val) (emb_dstRow r hr i)
  · intro h
    refine ⟨(ix2 (n0 := 20) (n1 := 128) (j 1) (j 2) : S20x128.Idx), ?_⟩
    refine (emb_dstRow r hr _).trans ?_
    funext a
    match a with
    | ⟨0, _⟩ => exact Fin.ext h.symm
    | ⟨1, _⟩ => rfl
    | ⟨2, _⟩ => rfl

omit [FloatOps F] in
/-- The prologue's write-back offsets name the tile's row 4 r₁ + r₂, -/
theorem off2_row (r₁ : Fin 2) (r₂ : Fin 4) :
    k0_off2 L (BitVec.ofNat 32 (4 * r₁.val)) (BitVec.ofNat 32 r₂.val) = ![512 * (wL L).val + 4 * r₁.val + r₂.val, 0, 0] := by
  rw [k0_off2_eq]
  have e : 1024 * (L 1).val + 512 * (L 0).val + 4 * r₁.val + r₂.val = 512 * (wL L).val + 4 * r₁.val + r₂.val := by
    show _ = 512 * (2 * (L 1).val + (L 0).val) + 4 * r₁.val + r₂.val; omega
  rw [e]
omit [FloatOps F] in
/-- and the loop's, at trip t, its row 8 t + 4 r₁ + r₂ + 8. -/
theorem off5_row (t : Fin k0_t1_loop.trips) (r₁ : Fin 2) (r₂ : Fin 4) :
    k0_off5 L t (BitVec.ofNat 32 r₁.val) (BitVec.ofNat 32 r₂.val) = ![512 * (wL L).val + 8 * t.val + 4 * r₁.val + r₂.val + 8, 0, 0] := by
  rw [k0_off5_eq]
  have e : 1024 * (L 1).val + 512 * (L 0).val + 8 * t.val + 4 * r₁.val + r₂.val + 8 = 512 * (wL L).val + 8 * t.val + 4 * r₁.val + r₂.val + 8 := by
    show _ = 512 * (2 * (L 1).val + (L 0).val) + 8 * t.val + 4 * r₁.val + r₂.val + 8; omega
  rw [e]

/-! ## Rows of the result numbered by a natural number -/

/-- Row `r` of the result (empty past the last row). -/
def orowN (r : ℕ) : Finset S16384x20x128.Idx := Finset.univ.filter fun j => (j 0).val = r

omit [FloatOps F] in
theorem inb_rowN (r : ℕ) : ∀ a, (![r % 16384, 0, 0] : Fin 3 → Nat) a + S1x20x128.size a ≤ S16384x20x128.size a := by
  intro a
  have h : r % 16384 < 16384 := Nat.mod_lt _ (by decide)
  match a with
  | 0 => show r % 16384 + 1 ≤ 16384; omega
  | 1 => show 0 + 20 ≤ 20; omega
  | 2 => show 0 + 128 ≤ 128; omega

/-- Row `r` of the result as a memref, for any natural number (reduced modulo the row count, so that the memref always exists). -/
abbrev dRow (r : ℕ) : Memref sig .scVector .hbm S20x128 .f32 :=
  ((oV).slice (Rect.unit (s := S16384x20x128) ![r % 16384, 0, 0] S1x20x128.size (inb_rowN r)) (fun _ => rfl)).squeeze S20x128 squeezes_S1x20x128_S20x128

omit [FloatOps F] in
theorem dstO_congr (off off' : Fin 3 → ℕ) (h) (h') (e : off = off') : dstO off h = dstO off' h' := by
  subst e; rfl

omit [FloatOps F] in
/-- A row sliced at offsets that equal `![r, 0, 0]`, r in range, is row r. -/
theorem dstO_dRow (off : Fin 3 → ℕ) (h) (r : ℕ) (hr : r < 16384) (e : off = ![r, 0, 0]) : dstO off h = dRow r :=
  dstO_congr off ![r % 16384, 0, 0] h (inb_rowN r) (by rw [e, Nat.mod_eq_of_lt hr])

omit [FloatOps F] in
theorem dRow_eq (r : ℕ) (hr : r < 16384) : dRow r = dstRow r hr :=
  dstO_congr ![r % 16384, 0, 0] ![r, 0, 0] (inb_rowN r) (inb_row r hr) (by rw [Nat.mod_eq_of_lt hr])

omit [FloatOps F] in
theorem orowN_eq (r : ℕ) (hr : r < 16384) : orowN r = orow ⟨r, hr⟩ := rfl

omit [FloatOps F] in
theorem emb_dRow (r : ℕ) (hr : r < 16384) (i : S20x128.Idx) :
    (dRow r).view.emb i = (ix3 (⟨r, hr⟩ : Fin 16384) (i 0) (i 1) : S16384x20x128.Idx) := by
  have e : (dRow r).view.emb i
      = (Rect.unit (s := S16384x20x128) ![r % 16384, 0, 0] S1x20x128.size (inb_rowN r)).emb
          (Shape.reshapeEquiv (squeezes_S1x20x128_S20x128).numel_eq i) := rfl
  rw [e, squeeze3_idx]
  funext a
  apply Fin.ext
  rw [Rect.emb_apply, Rect.off_unit, Rect.stride_unit]
  have hm : r % 16384 = r := Nat.mod_eq_of_lt hr
  match a with
  | ⟨0, _⟩ => show r % 16384 + 1 * 0 = r; omega
  | ⟨1, _⟩ => show 0 + 1 * (i 0).val = (i 0).val; omega
  | ⟨2, _⟩ => show 0 + 1 * (i 1).val = (i 1).val; omega
omit [FloatOps F] in
theorem set_dRow (r : ℕ) (hr : r < 16384) : (dRow r).view.set = orowN r := by
  ext j
  simp only [View.set, Finset.mem_map, Finset.mem_univ, true_and, orowN, Finset.mem_filter]
  constructor
  · rintro ⟨i, rfl⟩
    exact congrArg (fun k : S16384x20x128.Idx => (k 0).val) (emb_dRow r hr i)
  · intro h
    refine ⟨(ix2 (n0 := 20) (n1 := 128) (j 1) (j 2) : S20x128.Idx), ?_⟩
    refine (emb_dRow r hr _).trans ?_
    funext a
    match a with
    | ⟨0, _⟩ => exact Fin.ext h.symm
    | ⟨1, _⟩ => rfl
    | ⟨2, _⟩ => rfl
omit [FloatOps F] in
theorem pts_dRow (r : ℕ) (hr : r < 16384) (f : Buf (Elt F) (outLoc d)) :
    ((dRow r).view.loc (V d (cV L) (jV L)) ↦[(dRow r).view.set]{fullShare} f : sProp 𝕄) = outLoc d ↦[orowN r]{fullShare} f := by
  rw [set_dRow r hr]

omit [FloatOps F] in
theorem trips_eq : k0_t1_loop.trips = 63 := by decide

omit [FloatOps F] in
theorem offP (r₁ : Fin 2) (r₂ : Fin 4) :
    k0_off2 L (BitVec.ofNat 32 (4 * r₁.val)) (BitVec.ofNat 32 r₂.val) = ![512 * (wL L).val + 4 * r₁.val + r₂.val, 0, 0] := off2_row L r₁ r₂
omit [FloatOps F] in
theorem offT (t : Fin k0_t1_loop.trips) (r₁ : Fin 2) (r₂ : Fin 4) :
    k0_off5 L t (BitVec.ofNat 32 r₁.val) (BitVec.ofNat 32 r₂.val) = ![512 * (wL L).val + 8 * t.val + 8 + 4 * r₁.val + r₂.val, 0, 0] := by
  rw [off5_row]
  have e : 512 * (wL L).val + 8 * t.val + 4 * r₁.val + r₂.val + 8 = 512 * (wL L).val + 8 * t.val + 8 + 4 * r₁.val + r₂.val := by omega
  rw [e]
omit [FloatOps F] in
theorem rowT_lt' (t : Fin k0_t1_loop.trips) (r₁ : Fin 2) (r₂ : Fin 4) : 512 * (wL L).val + 8 * t.val + 8 + 4 * r₁.val + r₂.val < 16384 := by
  have := rowT_lt L t r₁ r₂; omega

/-! ## The result's rows, as the program spells them -/

omit [FloatOps F] in
theorem emb_dstP (r₁ : Fin 2) (r₂ : Fin 4) (i : S20x128.Idx) :
    (dstP L r₁ r₂).view.emb i
      = (ix3 (⟨512 * (wL L).val + 4 * r₁.val + r₂.val, rowP_lt L r₁ r₂⟩ : Fin 16384) (i 0) (i 1) : S16384x20x128.Idx) := by
  have e : (dstP L r₁ r₂).view.emb i
      = (Rect.unit (s := S16384x20x128) (k0_off2 L (BitVec.ofNat 32 (4 * r₁.val)) (BitVec.ofNat 32 r₂.val)) S1x20x128.size (k0_off2_inb L r₁ r₂)).emb
          (Shape.reshapeEquiv (squeezes_S1x20x128_S20x128).numel_eq i) := rfl
  rw [e, squeeze3_idx]
  funext a
  apply Fin.ext
  rw [Rect.emb_apply, Rect.off_unit, Rect.stride_unit]
  have ho := k0_off2_eq L r₁ r₂
  match a with
  | ⟨0, h0⟩ =>
    have h' : k0_off2 L (BitVec.ofNat 32 (4 * r₁.val)) (BitVec.ofNat 32 r₂.val) ⟨0, h0⟩ = 1024 * (L 1).val + 512 * (L 0).val + 4 * r₁.val + r₂.val := congrFun ho _
    show k0_off2 L (BitVec.ofNat 32 (4 * r₁.val)) (BitVec.ofNat 32 r₂.val) ⟨0, h0⟩ + 1 * 0 = 512 * (2 * (L 1).val + (L 0).val) + 4 * r₁.val + r₂.val
    omega
  | ⟨1, h1⟩ =>
    have h' : k0_off2 L (BitVec.ofNat 32 (4 * r₁.val)) (BitVec.ofNat 32 r₂.val) ⟨1, h1⟩ = 0 := congrFun ho _
    show k0_off2 L (BitVec.ofNat 32 (4 * r₁.val)) (BitVec.ofNat 32 r₂.val) ⟨1, h1⟩ + 1 * (i 0).val = (i 0).val
    omega
  | ⟨2, h2⟩ =>
    have h' : k0_off2 L (BitVec.ofNat 32 (4 * r₁.val)) (BitVec.ofNat 32 r₂.val) ⟨2, h2⟩ = 0 := congrFun ho _
    show k0_off2 L (BitVec.ofNat 32 (4 * r₁.val)) (BitVec.ofNat 32 r₂.val) ⟨2, h2⟩ + 1 * (i 1).val = (i 1).val
    omega

omit [FloatOps F] in
theorem emb_dstT (t : Fin k0_t1_loop.trips) (r₁ : Fin 2) (r₂ : Fin 4) (i : S20x128.Idx) :
    (dstT L t r₁ r₂).view.emb i
      = (ix3 (⟨512 * (wL L).val + 8 * t.val + 4 * r₁.val + r₂.val + 8, rowT_lt L t r₁ r₂⟩ : Fin 16384) (i 0) (i 1) : S16384x20x128.Idx) := by
  have e : (dstT L t r₁ r₂).view.emb i
      = (Rect.unit (s := S16384x20x128) (k0_off5 L t (BitVec.ofNat 32 r₁.val) (BitVec.ofNat 32 r₂.val)) S1x20x128.size (k0_off5_inb L t r₁ r₂)).emb
          (Shape.reshapeEquiv (squeezes_S1x20x128_S20x128).numel_eq i) := rfl
  rw [e, squeeze3_idx]
  funext a
  apply Fin.ext
  rw [Rect.emb_apply, Rect.off_unit, Rect.stride_unit]
  have ho := k0_off5_eq L t r₁ r₂
  match a with
  | ⟨0, h0⟩ =>
    have h' : k0_off5 L t (BitVec.ofNat 32 r₁.val) (BitVec.ofNat 32 r₂.val) ⟨0, h0⟩ = 1024 * (L 1).val + 512 * (L 0).val + 8 * t.val + 4 * r₁.val + r₂.val + 8 := congrFun ho _
    show k0_off5 L t (BitVec.ofNat 32 r₁.val) (BitVec.ofNat 32 r₂.val) ⟨0, h0⟩ + 1 * 0 = 512 * (2 * (L 1).val + (L 0).val) + 8 * t.val + 4 * r₁.val + r₂.val + 8
    omega
  | ⟨1, h1⟩ =>
    have h' : k0_off5 L t (BitVec.ofNat 32 r₁.val) (BitVec.ofNat 32 r₂.val) ⟨1, h1⟩ = 0 := congrFun ho _
    show k0_off5 L t (BitVec.ofNat 32 r₁.val) (BitVec.ofNat 32 r₂.val) ⟨1, h1⟩ + 1 * (i 0).val = (i 0).val
    omega
  | ⟨2, h2⟩ =>
    have h' : k0_off5 L t (BitVec.ofNat 32 r₁.val) (BitVec.ofNat 32 r₂.val) ⟨2, h2⟩ = 0 := congrFun ho _
    show k0_off5 L t (BitVec.ofNat 32 r₁.val) (BitVec.ofNat 32 r₂.val) ⟨2, h2⟩ + 1 * (i 1).val = (i 1).val
    omega

omit [FloatOps F] in
theorem set_dstP (r₁ : Fin 2) (r₂ : Fin 4) :
    (dstP L r₁ r₂).view.set = orow ⟨512 * (wL L).val + 4 * r₁.val + r₂.val, rowP_lt L r₁ r₂⟩ := by
  ext j
  simp only [View.set, Finset.mem_map, Finset.mem_univ, true_and, orow, Finset.mem_filter]
  constructor
  · rintro ⟨i, rfl⟩
    rw [emb_dstP]
  · intro h
    refine ⟨(ix2 (n0 := 20) (n1 := 128) (j 1) (j 2) : S20x128.Idx), ?_⟩
    rw [emb_dstP]
    funext a
    match a with
    | ⟨0, _⟩ => exact Fin.ext h.symm
    | ⟨1, _⟩ => rfl
    | ⟨2, _⟩ => rfl

omit [FloatOps F] in
theorem set_dstT (t : Fin k0_t1_loop.trips) (r₁ : Fin 2) (r₂ : Fin 4) :
    (dstT L t r₁ r₂).view.set = orow ⟨512 * (wL L).val + 8 * t.val + 4 * r₁.val + r₂.val + 8, rowT_lt L t r₁ r₂⟩ := by
  ext j
  simp only [View.set, Finset.mem_map, Finset.mem_univ, true_and, orow, Finset.mem_filter]
  constructor
  · rintro ⟨i, rfl⟩
    rw [emb_dstT]
  · intro h
    refine ⟨(ix2 (n0 := 20) (n1 := 128) (j 1) (j 2) : S20x128.Idx), ?_⟩
    rw [emb_dstT]
    funext a
    match a with
    | ⟨0, _⟩ => exact Fin.ext h.symm
    | ⟨1, _⟩ => rfl
    | ⟨2, _⟩ => rfl

/-! ## The row buffer's slots and their windows -/

omit [FloatOps F] in
theorem emb_rows0 (i : S80x128.Idx) : (rows0).view.emb i = (ix3 (0 : Fin 2) (i 0) (i 1) : S2x80x128.Idx) := by
  have e : (rows0).view.emb i
      = (Rect.unit (s := S2x80x128) ![0, 0, 0] S1x80x128.size inb_S2x80x128_S1x80x128_0_0_0).emb
          (Shape.reshapeEquiv (squeezes_S1x80x128_S80x128).numel_eq i) := rfl
  rw [e, squeeze3_idx]
  funext a
  apply Fin.ext
  rw [Rect.emb_apply, Rect.off_unit, Rect.stride_unit]
  match a with
  | ⟨0, _⟩ => show 0 + 1 * 0 = 0; omega
  | ⟨1, _⟩ => show 0 + 1 * (i 0).val = (i 0).val; omega
  | ⟨2, _⟩ => show 0 + 1 * (i 1).val = (i 1).val; omega
omit [FloatOps F] in
theorem emb_rows1 (i : S80x128.Idx) : (rows1).view.emb i = (ix3 (1 : Fin 2) (i 0) (i 1) : S2x80x128.Idx) := by
  have e : (rows1).view.emb i
      = (Rect.unit (s := S2x80x128) ![1, 0, 0] S1x80x128.size inb_S2x80x128_S1x80x128_1_0_0).emb
          (Shape.reshapeEquiv (squeezes_S1x80x128_S80x128).numel_eq i) := rfl
  rw [e, squeeze3_idx]
  funext a
  apply Fin.ext
  rw [Rect.emb_apply, Rect.off_unit, Rect.stride_unit]
  match a with
  | ⟨0, _⟩ => show 1 + 1 * 0 = 1; omega
  | ⟨1, _⟩ => show 0 + 1 * (i 0).val = (i 0).val; omega
  | ⟨2, _⟩ => show 0 + 1 * (i 1).val = (i 1).val; omega

omit [FloatOps F] in
theorem srcRow_lt (t : Fin 4) (i : S20x128.Idx) : 20 * t.val + (i 0).val < 80 := by
  have := t.isLt; have h : (i 0).val < 20 := (i 0).isLt; omega

omit [FloatOps F] in
/-- Where window `t`'s indices sit in its slot. -/
theorem emb_win (t : Fin 4) (i : S20x128.Idx) :
    (Rect.unit (s := S80x128) ![20 * t.val, 0] S20x128.size (inb_src t)).emb i
      = (ix2 (⟨20 * t.val + (i 0).val, srcRow_lt t i⟩ : Fin 80) (i 1) : S80x128.Idx) := by
  funext a
  apply Fin.ext
  rw [Rect.emb_apply, Rect.off_unit, Rect.stride_unit]
  match a with
  | ⟨0, _⟩ => show 20 * t.val + 1 * (i 0).val = 20 * t.val + (i 0).val; omega
  | ⟨1, _⟩ => show 0 + 1 * (i 1).val = (i 1).val; omega

omit [FloatOps F] in
theorem emb_srcW0 (t : Fin 4) (i : S20x128.Idx) :
    (srcW0 t).view.emb i = (ix3 (0 : Fin 2) (⟨20 * t.val + (i 0).val, srcRow_lt t i⟩ : Fin 80) (i 1) : S2x80x128.Idx) := by
  have e : (srcW0 t).view.emb i = (rows0).view.emb ((Rect.unit (s := S80x128) ![20 * t.val, 0] S20x128.size (inb_src t)).emb i) := rfl
  rw [e, emb_win, emb_rows0]
omit [FloatOps F] in
theorem emb_srcW1 (t : Fin 4) (i : S20x128.Idx) :
    (srcW1 t).view.emb i = (ix3 (1 : Fin 2) (⟨20 * t.val + (i 0).val, srcRow_lt t i⟩ : Fin 80) (i 1) : S2x80x128.Idx) := by
  have e : (srcW1 t).view.emb i = (rows1).view.emb ((Rect.unit (s := S80x128) ![20 * t.val, 0] S20x128.size (inb_src t)).emb i) := rfl
  rw [e, emb_win, emb_rows1]

/-! ## The index lists and the tile's slice of the flat indices -/

omit [FloatOps F] in
theorem emb_lst0 (x : S80.Idx) : (lst0).view.emb x = (ix3 (0 : Fin 2) (0 : Fin 1) (x 0) : S2x1x80.Idx) := by
  have e : (lst0).view.emb x
      = (Rect.unit (s := S2x1x80) ![0, 0, 0] S1x1x80.size inb_S2x1x80_S1x1x80_0_0_0).emb
          (Shape.reshapeEquiv (squeezes_S1x1x80_S1x80).numel_eq
            ((Rect.unit (s := S1x80) ![0, 0] S1x80.size inb_S1x80_S1x80_0_0).emb (Shape.reshapeEquiv (squeezes_S1x80_S80).numel_eq x))) := rfl
  rw [e, squeeze2_idx, squeeze3_idx]
  funext a
  apply Fin.ext
  rw [Rect.emb_apply, Rect.off_unit, Rect.stride_unit]
  match a with
  | ⟨0, _⟩ => show 0 + 1 * 0 = 0; omega
  | ⟨1, _⟩ => show 0 + 1 * (0 + 1 * 0) = 0; omega
  | ⟨2, _⟩ => show 0 + 1 * (0 + 1 * (x 0).val) = (x 0).val; omega
omit [FloatOps F] in
theorem emb_lst1 (x : S80.Idx) : (lst1).view.emb x = (ix3 (1 : Fin 2) (0 : Fin 1) (x 0) : S2x1x80.Idx) := by
  have e : (lst1).view.emb x
      = (Rect.unit (s := S2x1x80) ![1, 0, 0] S1x1x80.size inb_S2x1x80_S1x1x80_1_0_0).emb
          (Shape.reshapeEquiv (squeezes_S1x1x80_S1x80).numel_eq
            ((Rect.unit (s := S1x80) ![0, 0] S1x80.size inb_S1x80_S1x80_0_0).emb (Shape.reshapeEquiv (squeezes_S1x80_S80).numel_eq x))) := rfl
  rw [e, squeeze2_idx, squeeze3_idx]
  funext a
  apply Fin.ext
  rw [Rect.emb_apply, Rect.off_unit, Rect.stride_unit]
  match a with
  | ⟨0, _⟩ => show 1 + 1 * 0 = 1; omega
  | ⟨1, _⟩ => show 0 + 1 * (0 + 1 * 0) = 0; omega
  | ⟨2, _⟩ => show 0 + 1 * (0 + 1 * (x 0).val) = (x 0).val; omega

omit [FloatOps F] in
theorem flatPos_lt (y : S10240.Idx) : 10240 * (wL L).val + (y 0).val < 327680 := by
  have := (wL L).isLt; have h : (y 0).val < 10240 := (y 0).isLt; omega

omit [FloatOps F] in
theorem emb_iSl (y : S10240.Idx) :
    (iSl L).view.emb y = (ix1 (⟨10240 * (wL L).val + (y 0).val, flatPos_lt L y⟩ : Fin 327680) : S327680.Idx) := by
  have e : (iSl L).view.emb y = (Rect.unit (s := S327680) (k0_off1 L) S10240.size (k0_off1_inb L)).emb y := rfl
  rw [e]
  funext a
  apply Fin.ext
  rw [Rect.emb_apply, Rect.off_unit, Rect.stride_unit]
  have ho := k0_off1_eq L
  match a with
  | ⟨0, h0⟩ =>
    have h' : k0_off1 L ⟨0, h0⟩ = 20480 * (L 1).val + 10240 * (L 0).val := congrFun ho _
    show k0_off1 L ⟨0, h0⟩ + 1 * (y 0).val = 10240 * (2 * (L 1).val + (L 0).val) + (y 0).val
    omega

/-! ## A slot is its four windows; the two slots, and the two lists, part their buffers -/

omit [FloatOps F] in
theorem mem_rows0 (j : S2x80x128.Idx) : j ∈ (rows0).view.set ↔ (j 0).val = 0 := by
  simp only [View.set, Finset.mem_map, Finset.mem_univ, true_and]
  constructor
  · rintro ⟨i, rfl⟩
    rw [emb_rows0]
    rfl
  · intro h
    refine ⟨(ix2 (n0 := 80) (n1 := 128) (j 1) (j 2) : S80x128.Idx), ?_⟩
    rw [emb_rows0]
    funext a
    match a with
    | ⟨0, _⟩ => exact Fin.ext h.symm
    | ⟨1, _⟩ => rfl
    | ⟨2, _⟩ => rfl
omit [FloatOps F] in
theorem mem_rows1 (j : S2x80x128.Idx) : j ∈ (rows1).view.set ↔ (j 0).val = 1 := by
  simp only [View.set, Finset.mem_map, Finset.mem_univ, true_and]
  constructor
  · rintro ⟨i, rfl⟩
    rw [emb_rows1]
    rfl
  · intro h
    refine ⟨(ix2 (n0 := 80) (n1 := 128) (j 1) (j 2) : S80x128.Idx), ?_⟩
    rw [emb_rows1]
    funext a
    match a with
    | ⟨0, _⟩ => exact Fin.ext h.symm
    | ⟨1, _⟩ => rfl
    | ⟨2, _⟩ => rfl

omit [FloatOps F] in
theorem mem_srcW0 (t : Fin 4) (j : S2x80x128.Idx) :
    j ∈ (srcW0 t).view.set ↔ (j 0).val = 0 ∧ 20 * t.val ≤ (j 1).val ∧ (j 1).val < 20 * t.val + 20 := by
  simp only [View.set, Finset.mem_map, Finset.mem_univ, true_and]
  constructor
  · rintro ⟨i, rfl⟩
    rw [emb_srcW0]
    have h : (i 0).val < 20 := (i 0).isLt
    exact ⟨rfl, by show 20 * t.val ≤ 20 * t.val + (i 0).val; omega, by show 20 * t.val + (i 0).val < 20 * t.val + 20; omega⟩
  · rintro ⟨h0, h1, h2⟩
    refine ⟨(ix2 (n0 := 20) (n1 := 128) (⟨(j 1).val - 20 * t.val, by omega⟩ : Fin 20) (j 2) : S20x128.Idx), ?_⟩
    rw [emb_srcW0]
    funext a
    match a with
    | ⟨0, _⟩ => exact Fin.ext h0.symm
    | ⟨1, _⟩ => exact Fin.ext (by show 20 * t.val + ((j 1).val - 20 * t.val) = (j 1).val; omega)
    | ⟨2, _⟩ => rfl
omit [FloatOps F] in
theorem mem_srcW1 (t : Fin 4) (j : S2x80x128.Idx) :
    j ∈ (srcW1 t).view.set ↔ (j 0).val = 1 ∧ 20 * t.val ≤ (j 1).val ∧ (j 1).val < 20 * t.val + 20 := by
  simp only [View.set, Finset.mem_map, Finset.mem_univ, true_and]
  constructor
  · rintro ⟨i, rfl⟩
    rw [emb_srcW1]
    have h : (i 0).val < 20 := (i 0).isLt
    exact ⟨rfl, by show 20 * t.val ≤ 20 * t.val + (i 0).val; omega, by show 20 * t.val + (i 0).val < 20 * t.val + 20; omega⟩
  · rintro ⟨h0, h1, h2⟩
    refine ⟨(ix2 (n0 := 20) (n1 := 128) (⟨(j 1).val - 20 * t.val, by omega⟩ : Fin 20) (j 2) : S20x128.Idx), ?_⟩
    rw [emb_srcW1]
    funext a
    match a with
    | ⟨0, _⟩ => exact Fin.ext h0.symm
    | ⟨1, _⟩ => exact Fin.ext (by show 20 * t.val + ((j 1).val - 20 * t.val) = (j 1).val; omega)
    | ⟨2, _⟩ => rfl

omit [FloatOps F] in
theorem rows0_windows : (rows0).view.set = Finset.univ.biUnion fun t : Fin 4 => (srcW0 t).view.set := by
  ext j
  simp only [Finset.mem_biUnion, Finset.mem_univ, true_and]
  rw [mem_rows0]
  have hj : (j 1).val < 80 := (j 1).isLt
  constructor
  · intro h
    have ht : (j 1).val / 20 < 4 := by omega
    refine ⟨(⟨(j 1).val / 20, ht⟩ : Fin 4), ?_⟩
    refine (mem_srcW0 (⟨(j 1).val / 20, ht⟩ : Fin 4) j).mpr ⟨h, ?_, ?_⟩
    · show 20 * ((j 1).val / 20) ≤ (j 1).val; omega
    · show (j 1).val < 20 * ((j 1).val / 20) + 20; omega
  · rintro ⟨t, ht⟩
    exact ((mem_srcW0 t j).mp ht).1
omit [FloatOps F] in
theorem rows1_windows : (rows1).view.set = Finset.univ.biUnion fun t : Fin 4 => (srcW1 t).view.set := by
  ext j
  simp only [Finset.mem_biUnion, Finset.mem_univ, true_and]
  rw [mem_rows1]
  have hj : (j 1).val < 80 := (j 1).isLt
  constructor
  · intro h
    have ht : (j 1).val / 20 < 4 := by omega
    refine ⟨(⟨(j 1).val / 20, ht⟩ : Fin 4), ?_⟩
    refine (mem_srcW1 (⟨(j 1).val / 20, ht⟩ : Fin 4) j).mpr ⟨h, ?_, ?_⟩
    · show 20 * ((j 1).val / 20) ≤ (j 1).val; omega
    · show (j 1).val < 20 * ((j 1).val / 20) + 20; omega
  · rintro ⟨t, ht⟩
    exact ((mem_srcW1 t j).mp ht).1

omit [FloatOps F] in
theorem windows0_disjoint : ∀ t ∈ (Finset.univ : Finset (Fin 4)), ∀ t' ∈ (Finset.univ : Finset (Fin 4)), t ≠ t' →
    Disjoint (srcW0 t).view.set (srcW0 t').view.set := by
  intro t _ t' _ h
  rw [Finset.disjoint_left]
  intro j hj hj'
  have h1 := (mem_srcW0 t j).mp hj
  have h2 := (mem_srcW0 t' j).mp hj'
  exact h (Fin.ext (by omega))
omit [FloatOps F] in
theorem windows1_disjoint : ∀ t ∈ (Finset.univ : Finset (Fin 4)), ∀ t' ∈ (Finset.univ : Finset (Fin 4)), t ≠ t' →
    Disjoint (srcW1 t).view.set (srcW1 t').view.set := by
  intro t _ t' _ h
  rw [Finset.disjoint_left]
  intro j hj hj'
  have h1 := (mem_srcW1 t j).mp hj
  have h2 := (mem_srcW1 t' j).mp hj'
  exact h (Fin.ext (by omega))

omit [FloatOps F] in
theorem rows_disjoint : Disjoint (rows0).view.set (rows1).view.set := by
  rw [Finset.disjoint_left]
  intro j hj hj'
  have h1 := (mem_rows0 j).mp hj
  have h2 := (mem_rows1 j).mp hj'
  omega
omit [FloatOps F] in
theorem rows_union : (rows0).view.set ∪ (rows1).view.set = Finset.univ := by
  ext j
  simp only [Finset.mem_union, Finset.mem_univ, iff_true]
  have hj : (j 0).val < 2 := (j 0).isLt
  rcases Nat.lt_or_ge (j 0).val 1 with h | h
  · exact Or.inl ((mem_rows0 j).mpr (by omega))
  · exact Or.inr ((mem_rows1 j).mpr (by omega))

omit [FloatOps F] in
theorem mem_lst0 (j : S2x1x80.Idx) : j ∈ (lst0).view.set ↔ (j 0).val = 0 := by
  simp only [View.set, Finset.mem_map, Finset.mem_univ, true_and]
  constructor
  · rintro ⟨x, rfl⟩
    rw [emb_lst0]
    rfl
  · intro h
    refine ⟨(ix1 (n := 80) (j 2) : S80.Idx), ?_⟩
    rw [emb_lst0]
    funext a
    match a with
    | ⟨0, _⟩ => exact Fin.ext h.symm
    | ⟨1, _⟩ => exact Fin.ext (by have : (j 1).val < 1 := (j 1).isLt; show 0 = (j 1).val; omega)
    | ⟨2, _⟩ => rfl
omit [FloatOps F] in
theorem mem_lst1 (j : S2x1x80.Idx) : j ∈ (lst1).view.set ↔ (j 0).val = 1 := by
  simp only [View.set, Finset.mem_map, Finset.mem_univ, true_and]
  constructor
  · rintro ⟨x, rfl⟩
    rw [emb_lst1]
    rfl
  · intro h
    refine ⟨(ix1 (n := 80) (j 2) : S80.Idx), ?_⟩
    rw [emb_lst1]
    funext a
    match a with
    | ⟨0, _⟩ => exact Fin.ext h.symm
    | ⟨1, _⟩ => exact Fin.ext (by have : (j 1).val < 1 := (j 1).isLt; show 0 = (j 1).val; omega)
    | ⟨2, _⟩ => rfl
omit [FloatOps F] in
theorem lsts_disjoint : Disjoint (lst0).view.set (lst1).view.set := by
  rw [Finset.disjoint_left]
  intro j hj hj'
  have h1 := (mem_lst0 j).mp hj
  have h2 := (mem_lst1 j).mp hj'
  omega
omit [FloatOps F] in
theorem lsts_union : (lst0).view.set ∪ (lst1).view.set = Finset.univ := by
  ext j
  simp only [Finset.mem_union, Finset.mem_univ, iff_true]
  have hj : (j 0).val < 2 := (j 0).isLt
  rcases Nat.lt_or_ge (j 0).val 1 with h | h
  · exact Or.inl ((mem_lst0 j).mpr (by omega))
  · exact Or.inr ((mem_lst1 j).mpr (by omega))

/-! ## The tile's rows of the result -/

omit [FloatOps F] in
theorem tileRow_lt (ρ : Fin 512) : 512 * (wL L).val + ρ.val < 16384 := by
  have := (wL L).isLt; have := ρ.isLt; omega

omit [FloatOps F] in
theorem mem_orow (r : Fin 16384) (j : S16384x20x128.Idx) : j ∈ orow r ↔ (j 0).val = r.val := by
  simp only [orow, Finset.mem_filter, Finset.mem_univ, true_and]

omit [FloatOps F] in
theorem outSet_rows : outSet (wL L) = Finset.univ.biUnion fun ρ : Fin 512 => orow ⟨512 * (wL L).val + ρ.val, tileRow_lt L ρ⟩ := by
  ext j
  simp only [Finset.mem_biUnion, Finset.mem_univ, true_and, mem_orow, outSet, Finset.mem_filter]
  constructor
  · intro h
    exact ⟨⟨(j 0).val % 512, Nat.mod_lt _ (by decide)⟩, by show (j 0).val = 512 * (wL L).val + (j 0).val % 512; omega⟩
  · rintro ⟨ρ, h⟩
    have hρ := ρ.isLt
    have h' : (j 0).val = 512 * (wL L).val + ρ.val := h
    omega

omit [FloatOps F] in
theorem orows_disjoint : ∀ ρ ∈ (Finset.univ : Finset (Fin 512)), ∀ ρ' ∈ (Finset.univ : Finset (Fin 512)), ρ ≠ ρ' →
    Disjoint (orow ⟨512 * (wL L).val + ρ.val, tileRow_lt L ρ⟩) (orow ⟨512 * (wL L).val + ρ'.val, tileRow_lt L ρ'⟩) := by
  intro ρ _ ρ' _ h
  rw [Finset.disjoint_left]
  intro j hj hj'
  have h1 : (j 0).val = 512 * (wL L).val + ρ.val := (mem_orow _ j).mp hj
  have h2 : (j 0).val = 512 * (wL L).val + ρ'.val := (mem_orow _ j).mp hj'
  exact h (Fin.ext (by omega))

omit [FloatOps F] in
/-- The tile's share of the result is its 512 rows. -/
theorem outPts_rows (f : Buf (Elt F) (outLoc d)) :
    (outLoc d ↦[outSet (wL L)]{fullShare} f : sProp 𝕄)
      = bigSep Finset.univ fun ρ : Fin 512 => outLoc d ↦[orow ⟨512 * (wL L).val + ρ.val, tileRow_lt L ρ⟩]{fullShare} f := by
  rw [outSet_rows, pointsTo_biUnion Finset.univ (ℓ := outLoc d) (fun ρ : Fin 512 => orow ⟨512 * (wL L).val + ρ.val, tileRow_lt L ρ⟩) (orows_disjoint L)]

/-! ## Stepping through a family of rows -/

omit [FloatOps F] in
/-- The rows still to do, one taken off the front. -/
theorem todo_step (Φ : Fin 512 → sProp 𝕄) (a : ℕ) (ha : a < 512) :
    bigSep (Finset.univ.filter fun ρ : Fin 512 => a ≤ ρ.val) Φ
      = iprop(Φ ⟨a, ha⟩ ∗ bigSep (Finset.univ.filter fun ρ : Fin 512 => a + 1 ≤ ρ.val) Φ) := by
  have e : (Finset.univ.filter fun ρ : Fin 512 => a ≤ ρ.val) = insert (⟨a, ha⟩ : Fin 512) (Finset.univ.filter fun ρ : Fin 512 => a + 1 ≤ ρ.val) := by
    ext ρ
    simp only [Finset.mem_filter, Finset.mem_univ, true_and, Finset.mem_insert]
    constructor
    · intro h
      by_cases e : ρ.val = a
      · exact Or.inl (Fin.ext e)
      · exact Or.inr (by omega)
    · rintro (rfl | h)
      · exact le_rfl
      · omega
  rw [e, SparseCore.bigSep_insert' (by simp only [Finset.mem_filter, Finset.mem_univ, true_and]; omega)]
omit [FloatOps F] in
/-- The rows done, one more put on the end. -/
theorem done_step (Φ : Fin 512 → sProp 𝕄) (a : ℕ) (ha : a < 512) :
    bigSep (Finset.univ.filter fun ρ : Fin 512 => ρ.val < a + 1) Φ
      = iprop(Φ ⟨a, ha⟩ ∗ bigSep (Finset.univ.filter fun ρ : Fin 512 => ρ.val < a) Φ) := by
  have e : (Finset.univ.filter fun ρ : Fin 512 => ρ.val < a + 1) = insert (⟨a, ha⟩ : Fin 512) (Finset.univ.filter fun ρ : Fin 512 => ρ.val < a) := by
    ext ρ
    simp only [Finset.mem_filter, Finset.mem_univ, true_and, Finset.mem_insert]
    constructor
    · intro h
      by_cases e : ρ.val = a
      · exact Or.inl (Fin.ext e)
      · exact Or.inr (by omega)
    · rintro (rfl | h)
      · exact Nat.lt_succ_self _
      · omega
  rw [e, SparseCore.bigSep_insert' (by simp only [Finset.mem_filter, Finset.mem_univ, true_and]; omega)]

omit [FloatOps F] in
theorem todo_all (Φ : Fin 512 → sProp 𝕄) : bigSep (Finset.univ.filter fun ρ : Fin 512 => 0 ≤ ρ.val) Φ = bigSep Finset.univ Φ := by
  rw [Finset.filter_true_of_mem fun ρ _ => Nat.zero_le _]
omit [FloatOps F] in
theorem todo_none (Φ : Fin 512 → sProp 𝕄) : bigSep (Finset.univ.filter fun ρ : Fin 512 => 512 ≤ ρ.val) Φ = iprop(emp) := by
  rw [Finset.filter_false_of_mem fun ρ _ => by have := ρ.isLt; omega, bigSep_empty]; rfl
omit [FloatOps F] in
theorem done_none (Φ : Fin 512 → sProp 𝕄) : bigSep (Finset.univ.filter fun ρ : Fin 512 => ρ.val < 0) Φ = iprop(emp) := by
  rw [Finset.filter_false_of_mem fun ρ _ => Nat.not_lt_zero _, bigSep_empty]; rfl
omit [FloatOps F] in
theorem done_all (Φ : Fin 512 → sProp 𝕄) : bigSep (Finset.univ.filter fun ρ : Fin 512 => ρ.val < 512) Φ = bigSep Finset.univ Φ := by
  rw [Finset.filter_true_of_mem fun ρ _ => ρ.isLt]

/-! ## The tile's rows as an interval of natural numbers -/

omit [FloatOps F] in
theorem mem_orowN (r : ℕ) (j : S16384x20x128.Idx) : j ∈ orowN r ↔ (j 0).val = r := by
  simp only [orowN, Finset.mem_filter, Finset.mem_univ, true_and]

omit [FloatOps F] in
theorem outSet_rowsN : outSet (wL L) = (Finset.Ico 0 512).biUnion fun ρ : ℕ => orowN (512 * (wL L).val + ρ) := by
  ext j
  simp only [Finset.mem_biUnion, Finset.mem_Ico, mem_orowN, outSet, Finset.mem_filter, Finset.mem_univ, true_and]
  constructor
  · intro h
    exact ⟨(j 0).val % 512, ⟨Nat.zero_le _, Nat.mod_lt _ (by decide)⟩, by omega⟩
  · rintro ⟨ρ, ⟨-, hρ⟩, h⟩
    omega

omit [FloatOps F] in
theorem orowsN_disjoint : ∀ ρ ∈ Finset.Ico 0 512, ∀ ρ' ∈ Finset.Ico 0 512, ρ ≠ ρ' →
    Disjoint (orowN (512 * (wL L).val + ρ)) (orowN (512 * (wL L).val + ρ')) := by
  intro ρ _ ρ' _ h
  rw [Finset.disjoint_left]
  intro j hj hj'
  have h1 := (mem_orowN _ j).mp hj
  have h2 := (mem_orowN _ j).mp hj'
  exact h (by omega)

omit [FloatOps F] in
/-- The tile's share of the result is its 512 rows. -/
theorem out_rowsN (f : Buf (Elt F) (outLoc d)) :
    (outLoc d ↦[outSet (wL L)]{fullShare} f : sProp 𝕄)
      = bigSep (Finset.Ico 0 512) fun ρ => outLoc d ↦[orowN (512 * (wL L).val + ρ)]{fullShare} f := by
  rw [outSet_rowsN, pointsTo_biUnion (Finset.Ico 0 512) (ℓ := outLoc d) (fun ρ : ℕ => orowN (512 * (wL L).val + ρ)) (orowsN_disjoint L)]

omit [FloatOps F] in
/-- Eight taken off the front of an interval. -/
theorem Ico_take8 (Φ : ℕ → sProp 𝕄) (a b : ℕ) (h : a + 8 ≤ b) :
    bigSep (Finset.Ico a b) Φ
      = iprop(Φ a ∗ Φ (a + 1) ∗ Φ (a + 2) ∗ Φ (a + 3) ∗ Φ (a + 4) ∗ Φ (a + 5) ∗ Φ (a + 6) ∗ Φ (a + 7) ∗ bigSep (Finset.Ico (a + 8) b) Φ) := by
  have e : Finset.Ico a b = insert a (insert (a + 1) (insert (a + 2) (insert (a + 3) (insert (a + 4) (insert (a + 5) (insert (a + 6)
      (insert (a + 7) (Finset.Ico (a + 8) b)))))))) := by
    ext x
    simp only [Finset.mem_Ico, Finset.mem_insert]
    omega
  rw [e, SparseCore.bigSep_insert' (by simp only [Finset.mem_insert, Finset.mem_Ico]; omega),
    SparseCore.bigSep_insert' (by simp only [Finset.mem_insert, Finset.mem_Ico]; omega),
    SparseCore.bigSep_insert' (by simp only [Finset.mem_insert, Finset.mem_Ico]; omega),
    SparseCore.bigSep_insert' (by simp only [Finset.mem_insert, Finset.mem_Ico]; omega),
    SparseCore.bigSep_insert' (by simp only [Finset.mem_insert, Finset.mem_Ico]; omega),
    SparseCore.bigSep_insert' (by simp only [Finset.mem_insert, Finset.mem_Ico]; omega),
    SparseCore.bigSep_insert' (by simp only [Finset.mem_insert, Finset.mem_Ico]; omega),
    SparseCore.bigSep_insert' (by simp only [Finset.mem_Ico]; omega)]

omit [FloatOps F] in
/-- Four put on the end of an interval, the new ones first. -/
theorem Ico_put4_eq (Φ : ℕ → sProp 𝕄) (a b : ℕ) (h : a ≤ b) :
    bigSep (Finset.Ico a (b + 4)) Φ = iprop(Φ b ∗ Φ (b + 1) ∗ Φ (b + 2) ∗ Φ (b + 3) ∗ bigSep (Finset.Ico a b) Φ) := by
  have e : Finset.Ico a (b + 4) = insert b (insert (b + 1) (insert (b + 2) (insert (b + 3) (Finset.Ico a b)))) := by
    ext x
    simp only [Finset.mem_Ico, Finset.mem_insert]
    omega
  rw [e, SparseCore.bigSep_insert' (by simp only [Finset.mem_insert, Finset.mem_Ico]; omega),
    SparseCore.bigSep_insert' (by simp only [Finset.mem_insert, Finset.mem_Ico]; omega),
    SparseCore.bigSep_insert' (by simp only [Finset.mem_insert, Finset.mem_Ico]; omega),
    SparseCore.bigSep_insert' (by simp only [Finset.mem_Ico]; omega)]

omit [FloatOps F] in
/-- The same, the interval first. -/
theorem Ico_put4 (Φ : ℕ → sProp 𝕄) (a b : ℕ) (h : a ≤ b) :
    iprop(bigSep (Finset.Ico a b) Φ ∗ Φ b ∗ Φ (b + 1) ∗ Φ (b + 2) ∗ Φ (b + 3)) ⊢ bigSep (Finset.Ico a (b + 4)) Φ := by
  rw [Ico_put4_eq Φ a b h]
  iintro ⟨H, H0, H1, H2, H3⟩
  isplitl [H0]; · iexact H0
  isplitl [H1]; · iexact H1
  isplitl [H2]; · iexact H2
  isplitl [H3]; · iexact H3
  iexact H

omit [FloatOps F] in
theorem Ico_self (Φ : ℕ → sProp 𝕄) (a : ℕ) : bigSep (Finset.Ico a a) Φ = iprop(emp) := by
  rw [Finset.Ico_self, bigSep_empty]; rfl

/-! ## The row buffer as its slots, a slot as its windows, as points-to equations -/

omit [FloatOps F] in
theorem a7_slots (f : Buf (Elt F) ((V d (cV L) (jV L)).loc cc0_scratch2)) :
    ((a7).view.loc (V d (cV L) (jV L)) ↦{fullShare} f : sProp 𝕄)
      = iprop(((rows0).view.loc (V d (cV L) (jV L)) ↦[(rows0).view.set]{fullShare} f) ∗ ((rows1).view.loc (V d (cV L) (jV L)) ↦[(rows1).view.set]{fullShare} f)) := by
  have hu : ((V d (cV L) (jV L)).loc cc0_scratch2 ↦[(rows0).view.set ∪ (rows1).view.set]{fullShare} f : sProp 𝕄)
      ⊣⊢ iprop(((V d (cV L) (jV L)).loc cc0_scratch2 ↦[(rows0).view.set]{fullShare} f) ∗ ((V d (cV L) (jV L)).loc cc0_scratch2 ↦[(rows1).view.set]{fullShare} f)) :=
    pointsTo_union rows_disjoint
  have hq := BI.equiv_iff.mp ⟨hu.1, hu.2⟩
  rw [rows_union] at hq
  exact hq

omit [FloatOps F] in
theorem bigSep_fin4 (Φ : Fin 4 → sProp 𝕄) : bigSep Finset.univ Φ = iprop(Φ 0 ∗ Φ 1 ∗ Φ 2 ∗ Φ 3) := by
  rw [show (Finset.univ : Finset (Fin 4)) = {0, 1, 2, 3} by decide, SparseCore.bigSep_insert' (by decide), SparseCore.bigSep_insert' (by decide),
    SparseCore.bigSep_insert' (by decide), bigSep_singleton]

omit [FloatOps F] in
theorem slot0_windows (f : Buf (Elt F) ((V d (cV L) (jV L)).loc cc0_scratch2)) :
    ((rows0).view.loc (V d (cV L) (jV L)) ↦[(rows0).view.set]{fullShare} f : sProp 𝕄)
      = iprop(((srcW0 0).view.loc (V d (cV L) (jV L)) ↦[(srcW0 0).view.set]{fullShare} f) ∗ ((srcW0 1).view.loc (V d (cV L) (jV L)) ↦[(srcW0 1).view.set]{fullShare} f)
          ∗ ((srcW0 2).view.loc (V d (cV L) (jV L)) ↦[(srcW0 2).view.set]{fullShare} f) ∗ ((srcW0 3).view.loc (V d (cV L) (jV L)) ↦[(srcW0 3).view.set]{fullShare} f)) := by
  rw [rows0_windows, pointsTo_biUnion Finset.univ (ℓ := (V d (cV L) (jV L)).loc cc0_scratch2) (fun t : Fin 4 => (srcW0 t).view.set) windows0_disjoint,
    bigSep_fin4]
omit [FloatOps F] in
theorem slot1_windows (f : Buf (Elt F) ((V d (cV L) (jV L)).loc cc0_scratch2)) :
    ((rows1).view.loc (V d (cV L) (jV L)) ↦[(rows1).view.set]{fullShare} f : sProp 𝕄)
      = iprop(((srcW1 0).view.loc (V d (cV L) (jV L)) ↦[(srcW1 0).view.set]{fullShare} f) ∗ ((srcW1 1).view.loc (V d (cV L) (jV L)) ↦[(srcW1 1).view.set]{fullShare} f)
          ∗ ((srcW1 2).view.loc (V d (cV L) (jV L)) ↦[(srcW1 2).view.set]{fullShare} f) ∗ ((srcW1 3).view.loc (V d (cV L) (jV L)) ↦[(srcW1 3).view.set]{fullShare} f)) := by
  rw [rows1_windows, pointsTo_biUnion Finset.univ (ℓ := (V d (cV L) (jV L)).loc cc0_scratch2) (fun t : Fin 4 => (srcW1 t).view.set) windows1_disjoint,
    bigSep_fin4]

end Tile

end Cert.Proof.KI

end
-- ==== Proof.KIInv.lean ====
import proofs.«206824_g72705206386957_cont_9to1_m_461_20_alg».proof.Proof.KIGeom

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

local notation "iV" => (Memref.whole Cert.KernelIdeal.main_v9_scv : Memref Cert.KernelIdeal.sig Kind.scVector Space.hbm Cert.KernelIdeal.S327680 EltTy.i32)
local notation "tV" => (Memref.whole Cert.KernelIdeal.main_v5_scv : Memref Cert.KernelIdeal.sig Kind.scVector Space.hbm Cert.KernelIdeal.S192x128 EltTy.f32)
local notation "oV" => (Memref.whole Cert.KernelIdeal.main_v10_scv : Memref Cert.KernelIdeal.sig Kind.scVector Space.hbm Cert.KernelIdeal.S16384x20x128 EltTy.f32)
local notation "shV" => (Memref.whole Cert.KernelIdeal.cc0_scratch3 : Memref Cert.KernelIdeal.sig Kind.scVector Space.shared Cert.KernelIdeal.S192x128 EltTy.f32)
local notation "a5" => (Memref.whole Cert.KernelIdeal.cc0_scratch0 : Memref Cert.KernelIdeal.sig Kind.scVector Space.vmem Cert.KernelIdeal.S10240 EltTy.i32)
local notation "a6" => (Memref.whole Cert.KernelIdeal.cc0_scratch1 : Memref Cert.KernelIdeal.sig Kind.scVector Space.vmem Cert.KernelIdeal.S2x1x80 EltTy.i32)
local notation "a7" => (Memref.whole Cert.KernelIdeal.cc0_scratch2 : Memref Cert.KernelIdeal.sig Kind.scVector Space.vmem Cert.KernelIdeal.S2x80x128 EltTy.f32)

variable [FloatOps F]
variable (fC : (d : Dev nD) → Buf (Elt F) (combLoc d)) (fI : (d : Dev nD) → Buf (Elt F) (idxLoc d))
variable (m : (ℓ : Loc nD τ sig) → Buf (Elt F) ℓ)

section Tile

variable (d : Dev nD) (L : grid0.Coords)

/-- One write-back's credit. -/
abbrev NW (L : grid0.Coords) : ℕ := (dstP L 0 0).view.amount (SemLoc.dma (sig := sig) cc0_scratch6.sem)

/-- A result row landed: the slot's window `t`, as it stood at the issue, written over the row's earlier contents. -/
abbrev land0 (dst : Memref sig .scVector .hbm S20x128 .f32) (FS : Buf (Elt F) ((a7).view.loc (V d (cV L) (jV L)))) (t : Fin 4) :
    Buf (Elt F) (dst.view.loc (V d (cV L) (jV L))) :=
  dst.view.writes (Elt F) (m (dst.view.loc (V d (cV L) (jV L)))) [⟨Rect.whole S20x128, ReadAs.same.apply ((srcW0 t).view.read (Elt F) FS)⟩]
abbrev land1 (dst : Memref sig .scVector .hbm S20x128 .f32) (FS : Buf (Elt F) ((a7).view.loc (V d (cV L) (jV L)))) (t : Fin 4) :
    Buf (Elt F) (dst.view.loc (V d (cV L) (jV L))) :=
  dst.view.writes (Elt F) (m (dst.view.loc (V d (cV L) (jV L)))) [⟨Rect.whole S20x128, ReadAs.same.apply ((srcW1 t).view.read (Elt F) FS)⟩]

/-- The deliveries of a slot's four write-backs into the rows `dst t`: row `t` of the chunk landed in its row of the result, the slot's
    window `t` back. -/
abbrev DW0 (dst : Fin 4 → Memref sig .scVector .hbm S20x128 .f32) (FS : Buf (Elt F) ((a7).view.loc (V d (cV L) (jV L)))) (t : Fin 4) : sProp 𝕄 :=
  iprop(((dst t).view.loc (V d (cV L) (jV L)) ↦[(dst t).view.set]{fullShare} land0 m d L (dst t) FS t)
     ∗ ((srcW0 t).view.loc (V d (cV L) (jV L)) ↦[(srcW0 t).view.set]{fullShare} FS))
abbrev DW1 (dst : Fin 4 → Memref sig .scVector .hbm S20x128 .f32) (FS : Buf (Elt F) ((a7).view.loc (V d (cV L) (jV L)))) (t : Fin 4) : sProp 𝕄 :=
  iprop(((dst t).view.loc (V d (cV L) (jV L)) ↦[(dst t).view.set]{fullShare} land1 m d L (dst t) FS t)
     ∗ ((srcW1 t).view.loc (V d (cV L) (jV L)) ↦[(srcW1 t).view.set]{fullShare} FS))

/-- Row ρ of the tile's part of the result, before and after its write-back. -/
abbrev rowTodo (ρ : ℕ) : sProp 𝕄 := outLoc d ↦[orowN (512 * (wL L).val + ρ)]{fullShare} m (outLoc d)
abbrev rowDone (ρ : ℕ) : sProp 𝕄 := outLoc d ↦[orowN (512 * (wL L).val + ρ)]{fullShare} outF fC fI d

/-- What a slot of the row buffer holds after chunk `c`'s gather: entry (x, k) is lane k of the table row the chunk's x-th index names. -/
def tabN (c : ℕ) : S80x128.Idx → F .f32 := fun i =>
  (fC d : FVec F S192x128 .f32) (ix2 (⟨((fI d : IVec S327680 32) (ix1 (⟨(10240 * (wL L).val + 80 * c + (i 0).val) % 327680, Nat.mod_lt _ (by decide)⟩ : Fin 327680))).toNat % 192,
    Nat.mod_lt _ (by decide)⟩ : Fin 192) (i 1))
def good0 (c : ℕ) (FS : Buf (Elt F) ((a7).view.loc (V d (cV L) (jV L)))) : Prop := ∀ i : S80x128.Idx, FS ((rows0).view.emb i) = tabN fC fI d L c i
def good1 (c : ℕ) (FS : Buf (Elt F) ((a7).view.loc (V d (cV L) (jV L)))) : Prop := ∀ i : S80x128.Idx, FS ((rows1).view.emb i) = tabN fC fI d L c i

/-- Slot 0's (slot 1's) four write-backs of chunk `2 k` (`2 k + 1`) in flight: issued, none waited for. -/
abbrev flight0 (k : ℕ) : sProp 𝕄 :=
  iprop(∃ FS, ⌜good0 fC fI d L (2 * k) FS⌝ ∗ Transfers.Batch (countersEmb : UEmb Counters 𝕄) (V d (cV L) (jV L)) (SemLoc.dma cc0_scratch6.sem) (default : HIx 1) (NW L)
    (DW0 m d L (fun t => dRow (512 * (wL L).val + 8 * k + t.val)) FS) 4 0)
abbrev flight1 (k : ℕ) : sProp 𝕄 :=
  iprop(∃ FS, ⌜good1 fC fI d L (2 * k + 1) FS⌝ ∗ Transfers.Batch (countersEmb : UEmb Counters 𝕄) (V d (cV L) (jV L)) (SemLoc.dma cc0_scratch7.sem) (default : HIx 1) (NW L)
    (DW1 m d L (fun t => dRow (512 * (wL L).val + 8 * k + 4 + t.val)) FS) 4 0)

/-- The loop's invariant before trip `k` (chunks `2 k + 2` and `2 k + 3`): the index scratch and the table share held, the two gather cells at zero,
    chunks `2 k` and `2 k + 1` in flight, the rows of the chunks before them done, those of the chunks after them untouched. -/
def inv (A5 : Buf (Elt F) ((a5).view.loc (V d (cV L) (jV L)))) (O : CellTallies nD τ sig (HIx 1)) (W : Waits sig (HIx 1)) (k : ℕ) (_ : PUnit) : sProp 𝕄 :=
  iprop(Transfers.MayWaits (V d (cV L) (jV L)) (default : HIx 1) O
    ∗ ((a5).view.loc (V d (cV L) (jV L)) ↦{fullShare} A5)
    ∗ (∃ W6, (a6).view.loc (V d (cV L) (jV L)) ↦{fullShare} W6)
    ∗ ((shV).view.loc (V d (cV L) (jV L)) ↦{Transfers.shareTok fullShare 16 (jF L)} fC d)
    ∗ semVal (c4 d (cV L) (jV L)) 0 ∗ semVal (c5 d (cV L) (jV L)) 0
    ∗ flight0 fC fI m d L k ∗ flight1 fC fI m d L k
    ∗ bigSep (Finset.Ico 0 (8 * k)) (rowDone fC fI d L) ∗ bigSep (Finset.Ico (8 * k + 8) 512) (rowTodo m d L)
    ∗ ∃ W', ⌜∀ p ∈ W', p ∈ W ∨ p.2 = none ∨ p.2 = some (0 : Fin 1)⌝ ∗ owes (V d (cV L) (jV L)) O W')

end Tile

end Cert.Proof.KI

end
-- ==== Proof.KIInvL.lean ====
/-
  The loop invariant's rows and batches in their canonical spelling: a row of the tile's part of the result, held at any contents, is the
  points-to of the view the program writes that row through (the prologue's and the loop's, whose printed offsets name the same row), and a
  batch of four write-backs stated over the program's views is the batch over the rows numbered by natural numbers. Also: intervals with
  equal ends, and the row buffer's two slots, each at contents of its own, joined to the buffer at some contents.
-/
import proofs.«206824_g72705206386957_cont_9to1_m_461_20_alg».proof.Proof.KIInv

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

local notation "iV" => (Memref.whole Cert.KernelIdeal.main_v9_scv : Memref Cert.KernelIdeal.sig Kind.scVector Space.hbm Cert.KernelIdeal.S327680 EltTy.i32)
local notation "tV" => (Memref.whole Cert.KernelIdeal.main_v5_scv : Memref Cert.KernelIdeal.sig Kind.scVector Space.hbm Cert.KernelIdeal.S192x128 EltTy.f32)
local notation "oV" => (Memref.whole Cert.KernelIdeal.main_v10_scv : Memref Cert.KernelIdeal.sig Kind.scVector Space.hbm Cert.KernelIdeal.S16384x20x128 EltTy.f32)
local notation "shV" => (Memref.whole Cert.KernelIdeal.cc0_scratch3 : Memref Cert.KernelIdeal.sig Kind.scVector Space.shared Cert.KernelIdeal.S192x128 EltTy.f32)
local notation "a5" => (Memref.whole Cert.KernelIdeal.cc0_scratch0 : Memref Cert.KernelIdeal.sig Kind.scVector Space.vmem Cert.KernelIdeal.S10240 EltTy.i32)
local notation "a6" => (Memref.whole Cert.KernelIdeal.cc0_scratch1 : Memref Cert.KernelIdeal.sig Kind.scVector Space.vmem Cert.KernelIdeal.S2x1x80 EltTy.i32)
local notation "a7" => (Memref.whole Cert.KernelIdeal.cc0_scratch2 : Memref Cert.KernelIdeal.sig Kind.scVector Space.vmem Cert.KernelIdeal.S2x80x128 EltTy.f32)

variable [FloatOps F]
variable (fC : (d : Dev nD) → Buf (Elt F) (combLoc d)) (fI : (d : Dev nD) → Buf (Elt F) (idxLoc d))
variable (m : (ℓ : Loc nD τ sig) → Buf (Elt F) ℓ)

section Tile

variable (d : Dev nD) (L : grid0.Coords)

/-! ## The program's row views are the numbered rows -/

omit [FloatOps F] in
theorem dstP_dRow (r₁ : Fin 2) (t : Fin 4) (ρ : ℕ) (hρ : ρ = 512 * (wL L).val + 4 * r₁.val + t.val) : dstP L r₁ t = dRow ρ := by
  subst hρ
  exact dstO_dRow _ (k0_off2_inb L r₁ t) _ (rowP_lt L r₁ t) (offP L r₁ t)
omit [FloatOps F] in
theorem dstT_dRow (tr : Fin k0_t1_loop.trips) (r₁ : Fin 2) (t : Fin 4) (ρ : ℕ) (hρ : ρ = 512 * (wL L).val + 8 * tr.val + 8 + 4 * r₁.val + t.val) :
    dstT L tr r₁ t = dRow ρ := by
  subst hρ
  exact dstO_dRow _ (k0_off5_inb L tr r₁ t) _ (rowT_lt' L tr r₁ t) (offT L tr r₁ t)

omit [FloatOps F] in
/-- Row ρ = 4 r₁ + t of the tile's part, at any contents, is what the prologue's write-back t of chunk r₁ writes through. -/
theorem rowP_own (r₁ : Fin 2) (t : Fin 4) (ρ : ℕ) (hρ : ρ = 4 * r₁.val + t.val) (f : Buf (Elt F) (outLoc d)) :
    (outLoc d ↦[orowN (512 * (wL L).val + ρ)]{fullShare} f : sProp 𝕄)
      = ((dstP L r₁ t).view.loc (V d (cV L) (jV L)) ↦[(dstP L r₁ t).view.set]{fullShare} f) := by
  subst hρ
  have e : 512 * (wL L).val + (4 * r₁.val + t.val) = 512 * (wL L).val + 4 * r₁.val + t.val := by omega
  rw [set_dstP L r₁ t, e]
  rfl
omit [FloatOps F] in
/-- Row ρ = 8 tr + 8 + 4 r₁ + t of the tile's part is what the loop's write-back t of slot r₁ writes through at trip tr. -/
theorem rowT_own (tr : Fin k0_t1_loop.trips) (r₁ : Fin 2) (t : Fin 4) (ρ : ℕ) (hρ : ρ = 8 * tr.val + 8 + 4 * r₁.val + t.val) (f : Buf (Elt F) (outLoc d)) :
    (outLoc d ↦[orowN (512 * (wL L).val + ρ)]{fullShare} f : sProp 𝕄)
      = ((dstT L tr r₁ t).view.loc (V d (cV L) (jV L)) ↦[(dstT L tr r₁ t).view.set]{fullShare} f) := by
  subst hρ
  have e : 512 * (wL L).val + (8 * tr.val + 8 + 4 * r₁.val + t.val) = 512 * (wL L).val + 8 * tr.val + 4 * r₁.val + t.val + 8 := by omega
  rw [set_dstT L tr r₁ t, e]
  rfl

/-! ## The batches over the numbered rows -/

omit [FloatOps F] in
theorem famP0 : (fun t : Fin 4 => dstP L 0 t) = fun t : Fin 4 => dRow (512 * (wL L).val + 8 * 0 + t.val) :=
  funext fun t => dstP_dRow L 0 t _ (by show 512 * (wL L).val + 8 * 0 + t.val = 512 * (wL L).val + 4 * 0 + t.val; omega)
omit [FloatOps F] in
theorem famP1 : (fun t : Fin 4 => dstP L 1 t) = fun t : Fin 4 => dRow (512 * (wL L).val + 8 * 0 + 4 + t.val) :=
  funext fun t => dstP_dRow L 1 t _ (by show 512 * (wL L).val + 8 * 0 + 4 + t.val = 512 * (wL L).val + 4 * 1 + t.val; omega)
omit [FloatOps F] in
theorem famT0 (tr : Fin k0_t1_loop.trips) : (fun t : Fin 4 => dstT L tr 0 t) = fun t : Fin 4 => dRow (512 * (wL L).val + 8 * (tr.val + 1) + t.val) :=
  funext fun t => dstT_dRow L tr 0 t _ (by show 512 * (wL L).val + 8 * (tr.val + 1) + t.val = 512 * (wL L).val + 8 * tr.val + 8 + 4 * 0 + t.val; omega)
omit [FloatOps F] in
theorem famT1 (tr : Fin k0_t1_loop.trips) : (fun t : Fin 4 => dstT L tr 1 t) = fun t : Fin 4 => dRow (512 * (wL L).val + 8 * (tr.val + 1) + 4 + t.val) :=
  funext fun t => dstT_dRow L tr 1 t _ (by show 512 * (wL L).val + 8 * (tr.val + 1) + 4 + t.val = 512 * (wL L).val + 8 * tr.val + 8 + 4 * 1 + t.val; omega)

theorem canonP0 (FS : Buf (Elt F) ((a7).view.loc (V d (cV L) (jV L)))) :
    (Transfers.Batch (countersEmb : UEmb Counters 𝕄) (V d (cV L) (jV L)) (SemLoc.dma cc0_scratch6.sem) (default : HIx 1) (NW L)
        (DW0 m d L (fun t => dstP L 0 t) FS) 4 0 : sProp 𝕄)
      = Transfers.Batch (countersEmb : UEmb Counters 𝕄) (V d (cV L) (jV L)) (SemLoc.dma cc0_scratch6.sem) (default : HIx 1) (NW L)
        (DW0 m d L (fun t => dRow (512 * (wL L).val + 8 * 0 + t.val)) FS) 4 0 :=
  congrArg (fun dst : Fin 4 → Memref sig .scVector .hbm S20x128 .f32 =>
    (Transfers.Batch (countersEmb : UEmb Counters 𝕄) (V d (cV L) (jV L)) (SemLoc.dma cc0_scratch6.sem) (default : HIx 1) (NW L) (DW0 m d L dst FS) 4 0 : sProp 𝕄)) (famP0 L)
theorem canonP1 (FS : Buf (Elt F) ((a7).view.loc (V d (cV L) (jV L)))) :
    (Transfers.Batch (countersEmb : UEmb Counters 𝕄) (V d (cV L) (jV L)) (SemLoc.dma cc0_scratch7.sem) (default : HIx 1) (NW L)
        (DW1 m d L (fun t => dstP L 1 t) FS) 4 0 : sProp 𝕄)
      = Transfers.Batch (countersEmb : UEmb Counters 𝕄) (V d (cV L) (jV L)) (SemLoc.dma cc0_scratch7.sem) (default : HIx 1) (NW L)
        (DW1 m d L (fun t => dRow (512 * (wL L).val + 8 * 0 + 4 + t.val)) FS) 4 0 :=
  congrArg (fun dst : Fin 4 → Memref sig .scVector .hbm S20x128 .f32 =>
    (Transfers.Batch (countersEmb : UEmb Counters 𝕄) (V d (cV L) (jV L)) (SemLoc.dma cc0_scratch7.sem) (default : HIx 1) (NW L) (DW1 m d L dst FS) 4 0 : sProp 𝕄)) (famP1 L)
theorem canonT0 (tr : Fin k0_t1_loop.trips) (FS : Buf (Elt F) ((a7).view.loc (V d (cV L) (jV L)))) :
    (Transfers.Batch (countersEmb : UEmb Counters 𝕄) (V d (cV L) (jV L)) (SemLoc.dma cc0_scratch6.sem) (default : HIx 1) (NW L)
        (DW0 m d L (fun t => dstT L tr 0 t) FS) 4 0 : sProp 𝕄)
      = Transfers.Batch (countersEmb : UEmb Counters 𝕄) (V d (cV L) (jV L)) (SemLoc.dma cc0_scratch6.sem) (default : HIx 1) (NW L)
        (DW0 m d L (fun t => dRow (512 * (wL L).val + 8 * (tr.val + 1) + t.val)) FS) 4 0 :=
  congrArg (fun dst : Fin 4 → Memref sig .scVector .hbm S20x128 .f32 =>
    (Transfers.Batch (countersEmb : UEmb Counters 𝕄) (V d (cV L) (jV L)) (SemLoc.dma cc0_scratch6.sem) (default : HIx 1) (NW L) (DW0 m d L dst FS) 4 0 : sProp 𝕄)) (famT0 L tr)
theorem canonT1 (tr : Fin k0_t1_loop.trips) (FS : Buf (Elt F) ((a7).view.loc (V d (cV L) (jV L)))) :
    (Transfers.Batch (countersEmb : UEmb Counters 𝕄) (V d (cV L) (jV L)) (SemLoc.dma cc0_scratch7.sem) (default : HIx 1) (NW L)
        (DW1 m d L (fun t => dstT L tr 1 t) FS) 4 0 : sProp 𝕄)
      = Transfers.Batch (countersEmb : UEmb Counters 𝕄) (V d (cV L) (jV L)) (SemLoc.dma cc0_scratch7.sem) (default : HIx 1) (NW L)
        (DW1 m d L (fun t => dRow (512 * (wL L).val + 8 * (tr.val + 1) + 4 + t.val)) FS) 4 0 :=
  congrArg (fun dst : Fin 4 → Memref sig .scVector .hbm S20x128 .f32 =>
    (Transfers.Batch (countersEmb : UEmb Counters 𝕄) (V d (cV L) (jV L)) (SemLoc.dma cc0_scratch7.sem) (default : HIx 1) (NW L) (DW1 m d L dst FS) 4 0 : sProp 𝕄)) (famT1 L tr)

/-! ## Intervals with equal ends; the row buffer's slots joined -/

omit [FloatOps F] in
theorem Ico_congr (Φ : ℕ → sProp 𝕄) {a a' b b' : ℕ} (ha : a = a') (hb : b = b') : bigSep (Finset.Ico a b) Φ = bigSep (Finset.Ico a' b') Φ := by
  subst ha; subst hb; rfl

omit [FloatOps F] in
/-- The two slots, each at contents of its own, are the row buffer at some contents. -/
theorem a7_join (f g : Buf (Elt F) ((V d (cV L) (jV L)).loc cc0_scratch2)) :
    iprop(((rows0).view.loc (V d (cV L) (jV L)) ↦[(rows0).view.set]{fullShare} f) ∗ ((rows1).view.loc (V d (cV L) (jV L)) ↦[(rows1).view.set]{fullShare} g))
      ⊢ (iprop(∃ h, (a7).view.loc (V d (cV L) (jV L)) ↦{fullShare} h) : sProp 𝕄) := by
  classical
  let h : Buf (Elt F) ((V d (cV L) (jV L)).loc cc0_scratch2) := fun i => if i ∈ (rows0).view.set then f i else g i
  have e0 : ((rows0).view.loc (V d (cV L) (jV L)) ↦[(rows0).view.set]{fullShare} f : sProp 𝕄)
      = ((rows0).view.loc (V d (cV L) (jV L)) ↦[(rows0).view.set]{fullShare} h) :=
    pointsTo_congr fun i hi => by show f i = if i ∈ (rows0).view.set then f i else g i; rw [if_pos hi]
  have e1 : ((rows1).view.loc (V d (cV L) (jV L)) ↦[(rows1).view.set]{fullShare} g : sProp 𝕄)
      = ((rows1).view.loc (V d (cV L) (jV L)) ↦[(rows1).view.set]{fullShare} h) :=
    pointsTo_congr fun i hi => by
      have hn : i ∉ (rows0).view.set := fun h0 => Finset.disjoint_left.mp rows_disjoint h0 hi
      show g i = if i ∈ (rows0).view.set then f i else g i
      rw [if_neg hn]
  rw [e0, e1, ← a7_slots d L h]
  iintro H
  iexists h
  iexact H

end Tile

end Cert.Proof.KI

end
-- ==== Proof.KIVal.lean ====
/-
  What the tile's buffers hold, read at an index: the index scratch once the tile's slice of the flat indices has landed, a sixteen-lane
  load from it, an index list after the five sixteen-lane stores that fill it, the rows a gather brings from the shared table, and a
  result row once a window of the row buffer has been written to it. Equalities between contents functions only; nothing here speaks of
  the program's steps.
-/
import proofs.«206824_g72705206386957_cont_9to1_m_461_20_alg».proof.Proof.KIGeom
import Idealize.ShloMosaic.Lib.Writes

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

local notation "iV" => (Memref.whole Cert.KernelIdeal.main_v9_scv : Memref Cert.KernelIdeal.sig Kind.scVector Space.hbm Cert.KernelIdeal.S327680 EltTy.i32)
local notation "tV" => (Memref.whole Cert.KernelIdeal.main_v5_scv : Memref Cert.KernelIdeal.sig Kind.scVector Space.hbm Cert.KernelIdeal.S192x128 EltTy.f32)
local notation "oV" => (Memref.whole Cert.KernelIdeal.main_v10_scv : Memref Cert.KernelIdeal.sig Kind.scVector Space.hbm Cert.KernelIdeal.S16384x20x128 EltTy.f32)
local notation "shV" => (Memref.whole Cert.KernelIdeal.cc0_scratch3 : Memref Cert.KernelIdeal.sig Kind.scVector Space.shared Cert.KernelIdeal.S192x128 EltTy.f32)
local notation "a5" => (Memref.whole Cert.KernelIdeal.cc0_scratch0 : Memref Cert.KernelIdeal.sig Kind.scVector Space.vmem Cert.KernelIdeal.S10240 EltTy.i32)
local notation "a6" => (Memref.whole Cert.KernelIdeal.cc0_scratch1 : Memref Cert.KernelIdeal.sig Kind.scVector Space.vmem Cert.KernelIdeal.S2x1x80 EltTy.i32)
local notation "a7" => (Memref.whole Cert.KernelIdeal.cc0_scratch2 : Memref Cert.KernelIdeal.sig Kind.scVector Space.vmem Cert.KernelIdeal.S2x80x128 EltTy.f32)

variable (fC : (d : Dev nD) → Buf (Elt F) (combLoc d)) (fI : (d : Dev nD) → Buf (Elt F) (idxLoc d))

section Tile

variable (d : Dev nD) (L : grid0.Coords)

/-! ## The index scratch -/

/-- The tile's index scratch once its slice of the flat indices has landed: entry y is the flat index at position 10240 w + y. -/
def idx5 : Buf (Elt F) ((V d (cV L) (jV L)).loc cc0_scratch0) :=
  fun y : S10240.Idx => (fI d : IVec S327680 32) (ix1 (⟨10240 * (wL L).val + (y 0).val, flatPos_lt L y⟩ : Fin 327680))

theorem idx5_apply (y : S10240.Idx) :
    idx5 fI d L y = (fI d : IVec S327680 32) (ix1 (⟨10240 * (wL L).val + (y 0).val, flatPos_lt L y⟩ : Fin 327680)) := rfl

/-- The slice's copy into the scratch leaves it at `idx5`, whatever it held before. -/
theorem a5_landed (f5 : Buf (Elt F) ((V d (cV L) (jV L)).loc cc0_scratch0)) :
    View.write (Elt F) (a5).view f5 (ReadAs.same.apply ((iSl L).view.read (Elt F) (fI d))) Finset.univ = idx5 fI d L := by
  show (View.whole (cc0_scratch0 : Ref sig .scVector)).write (Elt F) f5 _ Finset.univ = _
  rw [View.write_whole_univ]
  funext y
  show (iSl L).view.read (Elt F) (fI d) y = _
  rw [View.read_apply, emb_iSl]
  rfl

/-! ## A sixteen-lane load from the index scratch -/

omit fC fI in
theorem load16_lt (off : Fin 1 → Nat) (inb : ∀ a, off a + S16.size a ≤ S10240.size a) (i : S16.Idx) : off 0 + (i 0).val < 10240 := by
  have h := inb 0
  have hi : (i 0).val < 16 := (i 0).isLt
  have h16 : S16.size 0 = 16 := rfl
  have hs : S10240.size 0 = 10240 := rfl
  omega

omit fC fI in
/-- A sixteen-lane load from the index scratch at offset `off`: lane i is the scratch's entry off + i. -/
theorem load16_apply (g : Buf (Elt F) ((V d (cV L) (jV L)).loc cc0_scratch0)) (off : Fin 1 → Nat)
    (inb : ∀ a, off a + S16.size a ≤ S10240.size a) (i : S16.Idx) :
    View.readAt (Elt F) (a5).view (Rect.unit (s := S10240) off S16.size inb).toLoadRect g i
      = g (ix1 (⟨off 0 + (i 0).val, load16_lt off inb i⟩ : Fin 10240)) := by
  rw [View.readAt_apply, View.read_apply]
  show g ((Rect.unit (s := S10240) off S16.size inb).toLoadRect.idx i) = _
  congr 1
  funext a
  match a with
  | ⟨0, _⟩ => exact Fin.ext (by show off 0 + 1 * (i 0).val = off 0 + (i 0).val; omega)

omit fC fI in
/-- The two shape casts of a sixteen-lane vector to its own shape change nothing. -/
theorem cast16 (v : S16.Idx → BitVec 32) (h h' : S16.ShapeCasts S16) : shapeCast S16 (shapeCast S16 v h) h' = v := by
  funext i
  show v (Shape.reshapeEquiv h (Shape.reshapeEquiv h' i)) = v i
  rw [Shape.reshapeEquiv_self, Shape.reshapeEquiv_self]

omit fC fI in
/-- The loaded vector as the program spells it (the load, cast twice to its own shape), read at a lane. -/
theorem v_load (g : Buf (Elt F) ((V d (cV L) (jV L)).loc cc0_scratch0)) (off : Fin 1 → Nat)
    (inb : ∀ a, off a + S16.size a ≤ S10240.size a) (h h' : S16.ShapeCasts S16) (W : S16.Idx → BitVec 32)
    (hW : W = shapeCast S16 (shapeCast S16 (View.readAt (Elt F) (a5).view (Rect.unit (s := S10240) off S16.size inb).toLoadRect g) h) h')
    (i : S16.Idx) : W i = g (ix1 (⟨off 0 + (i 0).val, load16_lt off inb i⟩ : Fin 10240)) := by
  subst hW
  rw [cast16]
  exact load16_apply d L g off inb i

/-- The same with the scratch at the landed indices: lane i is the flat index at position 10240 w + off + i. -/
theorem v_load_idx5 (g : Buf (Elt F) ((V d (cV L) (jV L)).loc cc0_scratch0)) (hg : g = idx5 fI d L) (off : Fin 1 → Nat)
    (inb : ∀ a, off a + S16.size a ≤ S10240.size a) (h h' : S16.ShapeCasts S16) (W : S16.Idx → BitVec 32)
    (hW : W = shapeCast S16 (shapeCast S16 (View.readAt (Elt F) (a5).view (Rect.unit (s := S10240) off S16.size inb).toLoadRect g) h) h')
    (i : S16.Idx) : W i = idx5 fI d L (ix1 (⟨off 0 + (i 0).val, load16_lt off inb i⟩ : Fin 10240)) := by
  rw [v_load d L g off inb h h' W hW i, hg]

/-! ## The index list read back -/

omit fC fI in
theorem mod16_lt (x : S80.Idx) : (x 0).val % 16 < 16 := Nat.mod_lt _ (by decide)

omit fC fI in
/-- One sixteen-lane store into an eighty-entry list: entry x reads the payload's lane x mod 16 when x lies in the stored group of
    sixteen, and what it read before otherwise. -/
theorem read_store16 {sp : Space} (v : View sig .scVector sp S80 .i32) (k : ℕ) (off : Fin 1 → Nat) (hoff : off 0 = 16 * k)
    (inb : ∀ a, off a + S16.size a ≤ S80.size a) (g : v.ty.Contents (Elt F)) (p : S16.Idx → BitVec 32) (x : S80.Idx) :
    v.read (Elt F) ((v.slice (Rect.unit (s := S80) off S16.size inb)).write (Elt F) g p Finset.univ) x
      = if (x 0).val / 16 = k then p (ix1 (⟨(x 0).val % 16, mod16_lt x⟩ : Fin 16)) else v.read (Elt F) g x := by
  split
  · next hk =>
    have hx : x = (Rect.unit (s := S80) off S16.size inb).emb (ix1 (⟨(x 0).val % 16, mod16_lt x⟩ : Fin 16)) := by
      funext a
      match a with
      | ⟨0, _⟩ =>
        apply Fin.ext
        rw [Rect.emb_apply, Rect.off_unit, Rect.stride_unit]
        show (x 0).val = off 0 + 1 * ((x 0).val % 16)
        omega
    conv_lhs => rw [hx]
    exact View.read_slice_write_emb (Rect.unit (s := S80) off S16.size inb) g p (Finset.mem_univ _)
  · next hk =>
    refine View.read_slice_write_of_not_mem (Rect.unit (s := S80) off S16.size inb) g p Finset.univ ?_
    intro hm
    obtain ⟨j, -, hj⟩ := Finset.mem_map.mp hm
    have h0 : ((Rect.unit (s := S80) off S16.size inb).emb j 0).val = (x 0).val := by rw [hj]
    rw [Rect.emb_apply, Rect.off_unit, Rect.stride_unit] at h0
    have hj16 : (j 0).val < 16 := (j 0).isLt
    omega

omit fC fI in
/-- An index list after the five sixteen-lane stores that fill it, as the program spells it (five nested writes through the list's
    accesses at offsets 0, 16, 32, 48, 64 over any prior contents): entry x is lane x mod 16 of payload x / 16. -/
theorem lst_read5 (m : Memref sig .scVector .vmem S80 .i32) (g : m.view.ty.Contents (Elt F)) (p0 p1 p2 p3 p4 : S16.Idx → BitVec 32)
    (i0 : ∀ a, (![0] : Fin 1 → Nat) a + S16.size a ≤ S80.size a) (i1 : ∀ a, (![16] : Fin 1 → Nat) a + S16.size a ≤ S80.size a)
    (i2 : ∀ a, (![32] : Fin 1 → Nat) a + S16.size a ≤ S80.size a) (i3 : ∀ a, (![48] : Fin 1 → Nat) a + S16.size a ≤ S80.size a)
    (i4 : ∀ a, (![64] : Fin 1 → Nat) a + S16.size a ≤ S80.size a) (x : S80.Idx) :
    m.view.read (Elt F)
        (View.write (Elt F) (m.access (Rect.unit (s := S80) ![64] S16.size i4))
          (View.write (Elt F) (m.access (Rect.unit (s := S80) ![48] S16.size i3))
            (View.write (Elt F) (m.access (Rect.unit (s := S80) ![32] S16.size i2))
              (View.write (Elt F) (m.access (Rect.unit (s := S80) ![16] S16.size i1))
                (View.write (Elt F) (m.access (Rect.unit (s := S80) ![0] S16.size i0)) g p0 Finset.univ)
                p1 Finset.univ) p2 Finset.univ) p3 Finset.univ) p4 Finset.univ) x
      = if (x 0).val / 16 = 0 then p0 (ix1 (⟨(x 0).val % 16, mod16_lt x⟩ : Fin 16))
        else if (x 0).val / 16 = 1 then p1 (ix1 (⟨(x 0).val % 16, mod16_lt x⟩ : Fin 16))
        else if (x 0).val / 16 = 2 then p2 (ix1 (⟨(x 0).val % 16, mod16_lt x⟩ : Fin 16))
        else if (x 0).val / 16 = 3 then p3 (ix1 (⟨(x 0).val % 16, mod16_lt x⟩ : Fin 16))
        else p4 (ix1 (⟨(x 0).val % 16, mod16_lt x⟩ : Fin 16)) := by
  have hx : (x 0).val < 80 := (x 0).isLt
  have e4 := read_store16 (F := F) m.view 4 ![64] rfl i4
  have e3 := read_store16 (F := F) m.view 3 ![48] rfl i3
  have e2 := read_store16 (F := F) m.view 2 ![32] rfl i2
  have e1 := read_store16 (F := F) m.view 1 ![16] rfl i1
  have e0 := read_store16 (F := F) m.view 0 ![0] rfl i0
  rw [e4, e3, e2, e1, e0]
  split_ifs <;> first | rfl | (exfalso; omega)

/-! ## The index list at the landed indices -/

/-- The five nested writes that fill an index list, as the program spells them. -/
abbrev wr5 (m : Memref sig .scVector .vmem S80 .i32) (g : m.view.ty.Contents (Elt F)) (p0 p1 p2 p3 p4 : S16.Idx → BitVec 32)
    (i0 : ∀ a, (![0] : Fin 1 → Nat) a + S16.size a ≤ S80.size a) (i1 : ∀ a, (![16] : Fin 1 → Nat) a + S16.size a ≤ S80.size a)
    (i2 : ∀ a, (![32] : Fin 1 → Nat) a + S16.size a ≤ S80.size a) (i3 : ∀ a, (![48] : Fin 1 → Nat) a + S16.size a ≤ S80.size a)
    (i4 : ∀ a, (![64] : Fin 1 → Nat) a + S16.size a ≤ S80.size a) : m.view.ty.Contents (Elt F) :=
  View.write (Elt F) (m.access (Rect.unit (s := S80) ![64] S16.size i4))
    (View.write (Elt F) (m.access (Rect.unit (s := S80) ![48] S16.size i3))
      (View.write (Elt F) (m.access (Rect.unit (s := S80) ![32] S16.size i2))
        (View.write (Elt F) (m.access (Rect.unit (s := S80) ![16] S16.size i1))
          (View.write (Elt F) (m.access (Rect.unit (s := S80) ![0] S16.size i0)) g p0 Finset.univ)
          p1 Finset.univ) p2 Finset.univ) p3 Finset.univ) p4 Finset.univ

/-- A sixteen-lane load from the index scratch, as the program spells it: the load, cast twice to its own shape. -/
abbrev ld (g5 : Buf (Elt F) ((V d (cV L) (jV L)).loc cc0_scratch0)) (o : Fin 1 → Nat) (b : ∀ a, o a + S16.size a ≤ S10240.size a)
    (c c' : S16.ShapeCasts S16) : S16.Idx → BitVec 32 :=
  shapeCast S16 (shapeCast S16 (View.readAt (Elt F) (a5).view (Rect.unit (s := S10240) o S16.size b).toLoadRect g5) c) c'

omit fC fI in
theorem ld_apply (g5 : Buf (Elt F) ((V d (cV L) (jV L)).loc cc0_scratch0)) (o : Fin 1 → Nat) (b : ∀ a, o a + S16.size a ≤ S10240.size a)
    (c c' : S16.ShapeCasts S16) (i : S16.Idx) : ld d L g5 o b c c' i = g5 (ix1 (⟨o 0 + (i 0).val, load16_lt o b i⟩ : Fin 10240)) :=
  v_load d L g5 o b c c' _ rfl i

omit fC fI in
theorem scratch_congr (g5 : Buf (Elt F) ((V d (cV L) (jV L)).loc cc0_scratch0)) (a b : ℕ) (ha : a < 10240) (hb : b < 10240) (h : a = b) :
    g5 (ix1 (⟨a, ha⟩ : Fin 10240)) = g5 (ix1 (⟨b, hb⟩ : Fin 10240)) := by subst h; rfl

omit fC fI in
/-- The list filled from five loads at offsets off, off + 16, …, off + 64 of the scratch: entry x is the scratch's entry off + x. -/
theorem lst_read5_loads (m : Memref sig .scVector .vmem S80 .i32) (g : m.view.ty.Contents (Elt F))
    (g5 : Buf (Elt F) ((V d (cV L) (jV L)).loc cc0_scratch0)) (off : ℕ) (o0 o1 o2 o3 o4 : Fin 1 → Nat)
    (ho0 : o0 0 = off) (ho1 : o1 0 = off + 16) (ho2 : o2 0 = off + 32) (ho3 : o3 0 = off + 48) (ho4 : o4 0 = off + 64)
    (b0 : ∀ a, o0 a + S16.size a ≤ S10240.size a) (b1 : ∀ a, o1 a + S16.size a ≤ S10240.size a) (b2 : ∀ a, o2 a + S16.size a ≤ S10240.size a)
    (b3 : ∀ a, o3 a + S16.size a ≤ S10240.size a) (b4 : ∀ a, o4 a + S16.size a ≤ S10240.size a)
    (c0 c0' c1 c1' c2 c2' c3 c3' c4 c4' : S16.ShapeCasts S16)
    (i0 : ∀ a, (![0] : Fin 1 → Nat) a + S16.size a ≤ S80.size a) (i1 : ∀ a, (![16] : Fin 1 → Nat) a + S16.size a ≤ S80.size a)
    (i2 : ∀ a, (![32] : Fin 1 → Nat) a + S16.size a ≤ S80.size a) (i3 : ∀ a, (![48] : Fin 1 → Nat) a + S16.size a ≤ S80.size a)
    (i4 : ∀ a, (![64] : Fin 1 → Nat) a + S16.size a ≤ S80.size a) (x : S80.Idx) (hx : off + (x 0).val < 10240) :
    m.view.read (Elt F) (wr5 m g (ld d L g5 o0 b0 c0 c0') (ld d L g5 o1 b1 c1 c1') (ld d L g5 o2 b2 c2 c2') (ld d L g5 o3 b3 c3 c3')
        (ld d L g5 o4 b4 c4 c4') i0 i1 i2 i3 i4) x
      = g5 (ix1 (⟨off + (x 0).val, hx⟩ : Fin 10240)) := by
  have hx80 : (x 0).val < 80 := (x 0).isLt
  rw [lst_read5]
  split_ifs with h0 h1 h2 h3
  · rw [ld_apply]; exact scratch_congr d L g5 _ _ _ _ (by show o0 0 + (x 0).val % 16 = off + (x 0).val; omega)
  · rw [ld_apply]; exact scratch_congr d L g5 _ _ _ _ (by show o1 0 + (x 0).val % 16 = off + (x 0).val; omega)
  · rw [ld_apply]; exact scratch_congr d L g5 _ _ _ _ (by show o2 0 + (x 0).val % 16 = off + (x 0).val; omega)
  · rw [ld_apply]; exact scratch_congr d L g5 _ _ _ _ (by show o3 0 + (x 0).val % 16 = off + (x 0).val; omega)
  · rw [ld_apply]; exact scratch_congr d L g5 _ _ _ _ (by show o4 0 + (x 0).val % 16 = off + (x 0).val; omega)

omit fC in
theorem listPos_lt (off : ℕ) (x : S80.Idx) (hx : off + (x 0).val < 10240) : 10240 * (wL L).val + off + (x 0).val < 327680 := by
  have := (wL L).isLt; omega

/-- The same with the scratch at the landed indices: entry x of the list is the flat index at position 10240 w + off + x. -/
theorem lst_read5_idx (m : Memref sig .scVector .vmem S80 .i32) (g : m.view.ty.Contents (Elt F))
    (g5 : Buf (Elt F) ((V d (cV L) (jV L)).loc cc0_scratch0)) (hg5 : g5 = idx5 fI d L) (off : ℕ) (o0 o1 o2 o3 o4 : Fin 1 → Nat)
    (ho0 : o0 0 = off) (ho1 : o1 0 = off + 16) (ho2 : o2 0 = off + 32) (ho3 : o3 0 = off + 48) (ho4 : o4 0 = off + 64)
    (b0 : ∀ a, o0 a + S16.size a ≤ S10240.size a) (b1 : ∀ a, o1 a + S16.size a ≤ S10240.size a) (b2 : ∀ a, o2 a + S16.size a ≤ S10240.size a)
    (b3 : ∀ a, o3 a + S16.size a ≤ S10240.size a) (b4 : ∀ a, o4 a + S16.size a ≤ S10240.size a)
    (c0 c0' c1 c1' c2 c2' c3 c3' c4 c4' : S16.ShapeCasts S16)
    (i0 : ∀ a, (![0] : Fin 1 → Nat) a + S16.size a ≤ S80.size a) (i1 : ∀ a, (![16] : Fin 1 → Nat) a + S16.size a ≤ S80.size a)
    (i2 : ∀ a, (![32] : Fin 1 → Nat) a + S16.size a ≤ S80.size a) (i3 : ∀ a, (![48] : Fin 1 → Nat) a + S16.size a ≤ S80.size a)
    (i4 : ∀ a, (![64] : Fin 1 → Nat) a + S16.size a ≤ S80.size a) (x : S80.Idx) (hx : off + (x 0).val < 10240) :
    m.view.read (Elt F) (wr5 m g (ld d L g5 o0 b0 c0 c0') (ld d L g5 o1 b1 c1 c1') (ld d L g5 o2 b2 c2 c2') (ld d L g5 o3 b3 c3 c3')
        (ld d L g5 o4 b4 c4 c4') i0 i1 i2 i3 i4) x
      = (fI d : IVec S327680 32) (ix1 (⟨10240 * (wL L).val + off + (x 0).val, listPos_lt L off x hx⟩ : Fin 327680)) := by
  rw [lst_read5_loads d L m g g5 off o0 o1 o2 o3 o4 ho0 ho1 ho2 ho3 ho4 b0 b1 b2 b3 b4 c0 c0' c1 c1' c2 c2' c3 c3' c4 c4' i0 i1 i2 i3 i4 x hx, hg5,
    idx5_apply]
  exact congrArg (fI d : IVec S327680 32) (congrArg ix1 (Fin.ext (by show 10240 * (wL L).val + (off + (x 0).val) = 10240 * (wL L).val + off + (x 0).val; omega)))

/-- The gather's offsets are in range: every entry of a filled index list is one of the flat indices, all below 192. -/
theorem lst_inb (hI : ∀ y, ((fI d : IVec S327680 32) y).toNat < 192) (m : Memref sig .scVector .vmem S80 .i32) (g : m.view.ty.Contents (Elt F))
    (g5 : Buf (Elt F) ((V d (cV L) (jV L)).loc cc0_scratch0)) (hg5 : g5 = idx5 fI d L) (o0 o1 o2 o3 o4 : Fin 1 → Nat)
    (b0 : ∀ a, o0 a + S16.size a ≤ S10240.size a) (b1 : ∀ a, o1 a + S16.size a ≤ S10240.size a) (b2 : ∀ a, o2 a + S16.size a ≤ S10240.size a)
    (b3 : ∀ a, o3 a + S16.size a ≤ S10240.size a) (b4 : ∀ a, o4 a + S16.size a ≤ S10240.size a)
    (c0 c0' c1 c1' c2 c2' c3 c3' c4 c4' : S16.ShapeCasts S16)
    (i0 : ∀ a, (![0] : Fin 1 → Nat) a + S16.size a ≤ S80.size a) (i1 : ∀ a, (![16] : Fin 1 → Nat) a + S16.size a ≤ S80.size a)
    (i2 : ∀ a, (![32] : Fin 1 → Nat) a + S16.size a ≤ S80.size a) (i3 : ∀ a, (![48] : Fin 1 → Nat) a + S16.size a ≤ S80.size a)
    (i4 : ∀ a, (![64] : Fin 1 → Nat) a + S16.size a ≤ S80.size a) :
    ∀ x : S80.Idx, (m.view.read (Elt F) (wr5 m g (ld d L g5 o0 b0 c0 c0') (ld d L g5 o1 b1 c1 c1') (ld d L g5 o2 b2 c2 c2') (ld d L g5 o3 b3 c3 c3')
        (ld d L g5 o4 b4 c4 c4') i0 i1 i2 i3 i4) x).toNat < 192 := by
  intro x
  subst hg5
  rw [lst_read5]
  split_ifs <;> (rw [ld_apply, idx5_apply]; exact hI _)

/-! ## The gathered rows -/

omit fC fI in
theorem rowMajor_symm_S80 (k : Fin S80.numel) (hk : k.val < 80) : S80.rowMajor.symm k = ix1 (⟨k.val, hk⟩ : Fin 80) := by
  rw [Equiv.symm_apply_eq]
  apply Fin.ext
  rw [Shape.rowMajor_val_one]

omit fC fI in
/-- What a gather of eighty rows of the shared table brings: row k of the payload is the table's row named by entry k of the offset list. -/
theorem gather_apply (hg : S192x128.Gathers 0 S80x128) (hn : S80.numel = S80x128.size hg.axis')
    (inbT : ∀ a, (![0, 0] : Fin 2 → Nat) a + S192x128.size a ≤ S192x128.size a)
    (hst : ∀ a, (Rect.unit (s := S192x128) ![0, 0] S192x128.size inbT).stride a = 1)
    (T : FVec F S192x128 .f32) (idx : S80.Idx → BitVec 32) (hin : ∀ x, (idx x).toNat < S192x128.size hg.axis) (i : S80x128.Idx) :
    SparseCore.gatherPayload hg (View.read (Elt F) ((shV).slice (Rect.unit (s := S192x128) ![0, 0] S192x128.size inbT) hst).view T)
        (SparseCore.rows (F := F) idx hn hin) i
      = T (ix2 (⟨(idx (ix1 (i 0))).toNat, hin _⟩ : Fin 192) (i 1)) := by
  show View.read (Elt F) ((shV).slice (Rect.unit (s := S192x128) ![0, 0] S192x128.size inbT) hst).view T (hg.idx (SparseCore.rows (F := F) idx hn hin) i) = _
  rw [View.read_apply]
  show T ((Rect.unit (s := S192x128) ![0, 0] S192x128.size inbT).emb (hg.idx (SparseCore.rows (F := F) idx hn hin) i)) = _
  congr 1
  funext b
  apply Fin.ext
  rw [Rect.emb_apply, Rect.off_unit, Rect.stride_unit]
  match b with
  | ⟨0, h0⟩ =>
    have e := congrArg Fin.val (Shape.Gathers.idx_axis hg (SparseCore.rows (F := F) idx hn hin) i)
    show 0 + 1 * (hg.idx (SparseCore.rows (F := F) idx hn hin) i hg.axis).val = (idx (ix1 (i 0))).toNat
    rw [e, Nat.zero_add, Nat.one_mul]
    show (idx (S80.rowMajor.symm ((i hg.axis').cast hn.symm))).toNat = _
    have hk : ((i hg.axis').cast hn.symm).val < 80 := (i 0).isLt
    rw [rowMajor_symm_S80 _ hk]
    rfl
  | ⟨1, h1⟩ =>
    have e := Shape.Gathers.idx_of_ne hg (SparseCore.rows (F := F) idx hn hin) i ⟨1, h1⟩ Nat.one_ne_zero
    show 0 + 1 * (hg.idx (SparseCore.rows (F := F) idx hn hin) i ⟨1, h1⟩).val = (i 1).val
    rw [e, Nat.zero_add, Nat.one_mul]
    rfl

/-! ## A landed result row -/

/-- A row of the result, as the task addresses it: the one-row slice of the result at offsets `off`, its unit axis dropped. -/
abbrev oRow (off : Fin 3 → Nat) (inb : ∀ a, off a + S1x20x128.size a ≤ S16384x20x128.size a) : Memref sig .scVector .hbm S20x128 .f32 :=
  ((oV).slice (Rect.unit (s := S16384x20x128) off S1x20x128.size inb) (fun _ => rfl)).squeeze S20x128 squeezes_S1x20x128_S20x128

/-- A slot of the row buffer, as the task addresses it: the one-slot slice of the buffer at offsets `boff`, its unit axis dropped. -/
abbrev rowsG (boff : Fin 3 → Nat) (binb : ∀ a, boff a + S1x80x128.size a ≤ S2x80x128.size a) : Memref sig .scVector .vmem S80x128 .f32 :=
  ((a7).slice (Rect.unit (s := S2x80x128) boff S1x80x128.size binb) (fun _ => rfl)).squeeze S80x128 squeezes_S1x80x128_S80x128

/-- Window `t` (twenty rows) of a slot. -/
abbrev srcG (boff : Fin 3 → Nat) (binb : ∀ a, boff a + S1x80x128.size a ≤ S2x80x128.size a) (t : Fin 4) : Memref sig .scVector .vmem S20x128 .f32 :=
  (rowsG boff binb).slice (Rect.unit (s := S80x128) ![20 * t.val, 0] S20x128.size (inb_src t)) (fun _ => rfl)

omit fC fI in
/-- A view written whole with what another view reads, read back: what the other reads. -/
theorem landed_read {κ : Kind} {sp sp' : Space} (dst : View sig κ sp S20x128 .f32) (src : View sig κ sp' S20x128 .f32)
    (fd : dst.ty.Contents (Elt F)) (FS : src.ty.Contents (Elt F)) :
    dst.read (Elt F) (dst.writes (Elt F) fd [⟨Rect.whole S20x128, ReadAs.same.apply (src.read (Elt F) FS)⟩]) = src.read (Elt F) FS :=
  View.read_writes_whole dst fd _

omit fC fI in
/-- A result row written whole from a window of a slot: its entry i is the row buffer's element under the window's index i. -/
theorem landed_at (off : Fin 3 → Nat) (inb : ∀ a, off a + S1x20x128.size a ≤ S16384x20x128.size a)
    (boff : Fin 3 → Nat) (binb : ∀ a, boff a + S1x80x128.size a ≤ S2x80x128.size a) (t : Fin 4)
    (fd : Buf (Elt F) (outLoc d)) (FS : Buf (Elt F) ((V d (cV L) (jV L)).loc cc0_scratch2)) (i : S20x128.Idx) :
    ((oRow off inb).view.writes (Elt F) fd [⟨Rect.whole S20x128, ReadAs.same.apply ((srcG boff binb t).view.read (Elt F) FS)⟩]) ((oRow off inb).view.emb i)
      = FS ((srcG boff binb t).view.emb i) :=
  congrFun (landed_read (oRow off inb).view (srcG boff binb t).view fd FS) i

/-! ## The chain closed: from the flat indices to the result -/

omit fC in
theorem tabPos_lt (c : ℕ) (hc : c < 128) (i : S80x128.Idx) : 10240 * (wL L).val + 80 * c + (i 0).val < 327680 := by
  have := (wL L).isLt; have h : (i 0).val < 80 := (i 0).isLt; omega

/-- What chunk c's gather brings to a slot of the row buffer: row k is the table's row named by the flat index at position
    10240 w + 80 c + k (reduced modulo the table's height, as the result's final contents are). -/
def tab (c : ℕ) (hc : c < 128) : S80x128.Idx → F .f32 := fun i =>
  (fC d : FVec F S192x128 .f32) (ix2 (⟨((fI d : IVec S327680 32) (ix1 (⟨10240 * (wL L).val + 80 * c + (i 0).val, tabPos_lt L c hc i⟩ : Fin 327680))).toNat % 192,
    Nat.mod_lt _ (by decide)⟩ : Fin 192) (i 1))

omit fC in
theorem flat_congr (a b : ℕ) (ha : a < 327680) (hb : b < 327680) (h : a = b) :
    (fI d : IVec S327680 32) (ix1 (⟨a, ha⟩ : Fin 327680)) = (fI d : IVec S327680 32) (ix1 (⟨b, hb⟩ : Fin 327680)) := by subst h; rfl

/-- The gather's payload for chunk c, its offset list read back as the flat indices at positions 10240 w + off + x with off = 80 c. -/
theorem gathered_tab (c : ℕ) (hc : c < 128) (off : ℕ) (hoff : off = 80 * c)
    (hg : S192x128.Gathers 0 S80x128) (hn : S80.numel = S80x128.size hg.axis')
    (inbT : ∀ a, (![0, 0] : Fin 2 → Nat) a + S192x128.size a ≤ S192x128.size a)
    (hst : ∀ a, (Rect.unit (s := S192x128) ![0, 0] S192x128.size inbT).stride a = 1)
    (idx : S80.Idx → BitVec 32) (hin : ∀ x, (idx x).toNat < S192x128.size hg.axis)
    (hidx : ∀ (x : S80.Idx) (hx : 10240 * (wL L).val + off + (x 0).val < 327680),
      idx x = (fI d : IVec S327680 32) (ix1 (⟨10240 * (wL L).val + off + (x 0).val, hx⟩ : Fin 327680))) (i : S80x128.Idx) :
    SparseCore.gatherPayload hg (View.read (Elt F) ((shV).slice (Rect.unit (s := S192x128) ![0, 0] S192x128.size inbT) hst).view (fC d))
        (SparseCore.rows (F := F) idx hn hin) i
      = tab fC fI d L c hc i := by
  subst hoff
  refine (gather_apply hg hn inbT hst (fC d : FVec F S192x128 .f32) idx hin i).trans ?_
  have hlt : (idx (ix1 (i 0))).toNat < 192 := hin _
  have e : idx (ix1 (i 0)) = (fI d : IVec S327680 32) (ix1 (⟨10240 * (wL L).val + 80 * c + (i 0).val, tabPos_lt L c hc i⟩ : Fin 327680)) :=
    hidx (ix1 (i 0)) (tabPos_lt L c hc i)
  show (fC d : FVec F S192x128 .f32) (ix2 (⟨(idx (ix1 (i 0))).toNat, hlt⟩ : Fin 192) (i 1)) = _
  unfold tab
  exact congrArg (fC d : FVec F S192x128 .f32) (congrArg (fun r : Fin 192 => (ix2 r (i 1) : S192x128.Idx))
    (Fin.ext (by show (idx (ix1 (i 0))).toNat = _ % 192; rw [← e, Nat.mod_eq_of_lt hlt])))

/-- A slot after chunk c's gather has been written through it (the write spelt as one unmasked write): the slot's element under
    index i is `tab c i`. -/
theorem slot_write (boff : Fin 3 → Nat) (binb : ∀ a, boff a + S1x80x128.size a ≤ S2x80x128.size a)
    (FSold : Buf (Elt F) ((V d (cV L) (jV L)).loc cc0_scratch2)) (w : S80x128.Idx → F .f32) (i : S80x128.Idx) :
    View.write (Elt F) (rowsG boff binb).view FSold w Finset.univ ((rowsG boff binb).view.emb i) = w i :=
  View.write_emb_of_mem (v := (rowsG boff binb).view) FSold w (Finset.mem_univ i)

omit fC fI in
/-- The same with the write spelt as one listed whole piece. -/
theorem slot_writes (boff : Fin 3 → Nat) (binb : ∀ a, boff a + S1x80x128.size a ≤ S2x80x128.size a)
    (FSold : Buf (Elt F) ((V d (cV L) (jV L)).loc cc0_scratch2)) (w : S80x128.Idx → F .f32) (i : S80x128.Idx) :
    (rowsG boff binb).view.writes (Elt F) FSold [⟨Rect.whole S80x128, w⟩] ((rowsG boff binb).view.emb i) = w i :=
  congrFun (View.read_writes_whole (rowsG boff binb).view FSold w) i

omit fC in
theorem rowOut_flat (c : ℕ) (t : Fin 4) (i : S20x128.Idx) (r : ℕ) (hrc : r = 512 * (wL L).val + 4 * c + t.val) :
    10240 * (wL L).val + 80 * c + (20 * t.val + (i 0).val) = r * 20 + (i 0).val := by omega

/-- A result row written whole from window t of a slot that holds chunk c's gathered rows is at the result's final contents: it is row
    512 w + 4 c + t of the result, whose entry (l, k) is lane k of the table row named by the flat index at position
    20 (512 w + 4 c + t) + l = 10240 w + 80 c + 20 t + l. -/
theorem landed_row (boff : Fin 3 → Nat) (binb : ∀ a, boff a + S1x80x128.size a ≤ S2x80x128.size a) (c : ℕ) (hc : c < 128) (t : Fin 4)
    (FS : Buf (Elt F) ((V d (cV L) (jV L)).loc cc0_scratch2)) (hFS : ∀ i, FS ((rowsG boff binb).view.emb i) = tab fC fI d L c hc i)
    (off : Fin 3 → Nat) (inb : ∀ a, off a + S1x20x128.size a ≤ S16384x20x128.size a)
    (r : ℕ) (hr : r < 16384) (hrc : r = 512 * (wL L).val + 4 * c + t.val)
    (hdst : ∀ i : S20x128.Idx, (oRow off inb).view.emb i = (ix3 (⟨r, hr⟩ : Fin 16384) (i 0) (i 1) : S16384x20x128.Idx))
    (fd : Buf (Elt F) (outLoc d)) (i : S20x128.Idx) :
    ((oRow off inb).view.writes (Elt F) fd [⟨Rect.whole S20x128, ReadAs.same.apply ((srcG boff binb t).view.read (Elt F) FS)⟩]) ((oRow off inb).view.emb i)
      = outF fC fI d ((oRow off inb).view.emb i) := by
  rw [landed_at d L off inb boff binb t fd FS i]
  have e1 : (srcG boff binb t).view.emb i = (rowsG boff binb).view.emb (ix2 (⟨20 * t.val + (i 0).val, srcRow_lt t i⟩ : Fin 80) (i 1) : S80x128.Idx) := by
    have e : (srcG boff binb t).view.emb i
        = (rowsG boff binb).view.emb ((Rect.unit (s := S80x128) ![20 * t.val, 0] S20x128.size (inb_src t)).emb i) := rfl
    rw [e, emb_win]
  rw [e1, hFS, hdst]
  have hv := flat_congr fI d _ _ (tabPos_lt L c hc (ix2 (⟨20 * t.val + (i 0).val, srcRow_lt t i⟩ : Fin 80) (i 1) : S80x128.Idx))
    (flat_lt (⟨r, hr⟩ : Fin 16384) (i 0)) (rowOut_flat L c t i r hrc)
  unfold tab outF
  exact congrArg (fC d : FVec F S192x128 .f32) (congrArg (fun r : Fin 192 => (ix2 r (i 1) : S192x128.Idx))
    (Fin.ext (congrArg (fun v : BitVec 32 => v.toNat % 192) hv)))

end Tile

end Cert.Proof.KI

end
-- ==== Proof.KIVal2.lean ====
/-
  The value lemmas restated over the tile invariant's definitions: a slot of the row buffer after a chunk's gather holds that chunk's
  table rows, the gather's payload is those rows, and a result row written from a window of such a slot is at the result's final contents.
-/
import proofs.«206824_g72705206386957_cont_9to1_m_461_20_alg».proof.Proof.KIInv
import proofs.«206824_g72705206386957_cont_9to1_m_461_20_alg».proof.Proof.KIVal

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

local notation "iV" => (Memref.whole Cert.KernelIdeal.main_v9_scv : Memref Cert.KernelIdeal.sig Kind.scVector Space.hbm Cert.KernelIdeal.S327680 EltTy.i32)
local notation "tV" => (Memref.whole Cert.KernelIdeal.main_v5_scv : Memref Cert.KernelIdeal.sig Kind.scVector Space.hbm Cert.KernelIdeal.S192x128 EltTy.f32)
local notation "oV" => (Memref.whole Cert.KernelIdeal.main_v10_scv : Memref Cert.KernelIdeal.sig Kind.scVector Space.hbm Cert.KernelIdeal.S16384x20x128 EltTy.f32)
local notation "shV" => (Memref.whole Cert.KernelIdeal.cc0_scratch3 : Memref Cert.KernelIdeal.sig Kind.scVector Space.shared Cert.KernelIdeal.S192x128 EltTy.f32)
local notation "a5" => (Memref.whole Cert.KernelIdeal.cc0_scratch0 : Memref Cert.KernelIdeal.sig Kind.scVector Space.vmem Cert.KernelIdeal.S10240 EltTy.i32)
local notation "a6" => (Memref.whole Cert.KernelIdeal.cc0_scratch1 : Memref Cert.KernelIdeal.sig Kind.scVector Space.vmem Cert.KernelIdeal.S2x1x80 EltTy.i32)
local notation "a7" => (Memref.whole Cert.KernelIdeal.cc0_scratch2 : Memref Cert.KernelIdeal.sig Kind.scVector Space.vmem Cert.KernelIdeal.S2x80x128 EltTy.f32)

variable [FloatOps F]
variable (fC : (d : Dev nD) → Buf (Elt F) (combLoc d)) (fI : (d : Dev nD) → Buf (Elt F) (idxLoc d))
variable (m : (ℓ : Loc nD τ sig) → Buf (Elt F) ℓ)

section Tile

variable (d : Dev nD) (L : grid0.Coords)

/-! ## The total table function agrees with the bounded one -/

omit [FloatOps F] in
theorem tabN_eq_tab (c : ℕ) (hc : c < 128) : tabN fC fI d L c = tab fC fI d L c hc := by
  funext i
  unfold tabN tab
  have hlt := tabPos_lt L c hc i
  have hv := flat_congr fI d _ _ (Nat.mod_lt _ (by decide) : (10240 * (wL L).val + 80 * c + (i 0).val) % 327680 < 327680) hlt (Nat.mod_eq_of_lt hlt)
  exact congrArg (fC d : FVec F S192x128 .f32) (congrArg (fun r : Fin 192 => (ix2 r (i 1) : S192x128.Idx))
    (Fin.ext (congrArg (fun v : BitVec 32 => v.toNat % 192) hv)))

/-! ## A slot after a chunk's gather -/

omit [FloatOps F] in
theorem good_gather0 (c : ℕ) (FSold : Buf (Elt F) ((a7).view.loc (V d (cV L) (jV L)))) (G : S80x128.Idx → F .f32)
    (hG : ∀ i, G i = tabN fC fI d L c i) : good0 fC fI d L c ((rows0).view.writes (Elt F) FSold [⟨Rect.whole S80x128, G⟩]) := by
  unfold good0
  intro i
  exact (slot_writes d L ![0, 0, 0] inb_S2x80x128_S1x80x128_0_0_0 FSold G i).trans (hG i)

omit [FloatOps F] in
theorem good_gather1 (c : ℕ) (FSold : Buf (Elt F) ((a7).view.loc (V d (cV L) (jV L)))) (G : S80x128.Idx → F .f32)
    (hG : ∀ i, G i = tabN fC fI d L c i) : good1 fC fI d L c ((rows1).view.writes (Elt F) FSold [⟨Rect.whole S80x128, G⟩]) := by
  unfold good1
  intro i
  exact (slot_writes d L ![1, 0, 0] inb_S2x80x128_S1x80x128_1_0_0 FSold G i).trans (hG i)

/-! ## The gather's payload -/

omit [FloatOps F] in
/-- Chunk c's gather, its offset list read back as the flat indices at positions 10240 w + off + x with off = 80 c, brings chunk c's table rows. -/
theorem gather_tab (c : ℕ) (hc : c < 128) (off : ℕ) (hoff : off = 80 * c) (T : FVec F S192x128 .f32) (hT : T = fC d)
    (hg : S192x128.Gathers 0 S80x128) (hn : S80.numel = S80x128.size hg.axis')
    (inbT : ∀ a, (![0, 0] : Fin 2 → Nat) a + S192x128.size a ≤ S192x128.size a)
    (hst : ∀ a, (Rect.unit (s := S192x128) ![0, 0] S192x128.size inbT).stride a = 1)
    (idx : S80.Idx → BitVec 32) (hin : ∀ x, (idx x).toNat < S192x128.size hg.axis)
    (hidx : ∀ (x : S80.Idx) (hx : 10240 * (wL L).val + off + (x 0).val < 327680),
      idx x = (fI d : IVec S327680 32) (ix1 (⟨10240 * (wL L).val + off + (x 0).val, hx⟩ : Fin 327680))) :
    ∀ i, SparseCore.gatherPayload hg (View.read (Elt F) ((shV).slice (Rect.unit (s := S192x128) ![0, 0] S192x128.size inbT) hst).view T)
        (SparseCore.rows (F := F) idx hn hin) i
      = tabN fC fI d L c i := by
  intro i
  subst hT
  rw [tabN_eq_tab fC fI d L c hc]
  exact gathered_tab fC fI d L c hc off hoff hg hn inbT hst idx hin hidx i

/-! ## A landed row is done -/

theorem landed0 (k : ℕ) (hk : k < 64) (t : Fin 4) (FS : Buf (Elt F) ((a7).view.loc (V d (cV L) (jV L)))) (h : good0 fC fI d L (2 * k) FS) :
    (((dRow (512 * (wL L).val + 8 * k + t.val)).view.loc (V d (cV L) (jV L)) ↦[(dRow (512 * (wL L).val + 8 * k + t.val)).view.set]{fullShare}
        land0 m d L (dRow (512 * (wL L).val + 8 * k + t.val)) FS t) : sProp 𝕄) = rowDone fC fI d L (8 * k + t.val) := by
  have hw := (wL L).isLt
  have ht := t.isLt
  have hr : 512 * (wL L).val + 8 * k + t.val < 16384 := by omega
  have hc : 2 * k < 128 := by omega
  rw [pts_dRow d L _ hr]
  show (_ : sProp 𝕄) = (outLoc d ↦[orowN (512 * (wL L).val + (8 * k + t.val))]{fullShare} outF fC fI d)
  rw [show 512 * (wL L).val + (8 * k + t.val) = 512 * (wL L).val + 8 * k + t.val from (Nat.add_assoc _ _ _).symm]
  refine pointsTo_congr fun j hj => ?_
  rw [← set_dRow _ hr] at hj
  obtain ⟨i, -, rfl⟩ := Finset.mem_map.mp hj
  exact landed_row fC fI d L ![0, 0, 0] inb_S2x80x128_S1x80x128_0_0_0 (2 * k) hc t FS
    (fun i => (h i).trans (congrFun (tabN_eq_tab fC fI d L (2 * k) hc) i)) _ _ _ hr (by omega) (emb_dRow _ hr) (m (outLoc d)) i

theorem landed1 (k : ℕ) (hk : k < 64) (t : Fin 4) (FS : Buf (Elt F) ((a7).view.loc (V d (cV L) (jV L)))) (h : good1 fC fI d L (2 * k + 1) FS) :
    (((dRow (512 * (wL L).val + 8 * k + 4 + t.val)).view.loc (V d (cV L) (jV L)) ↦[(dRow (512 * (wL L).val + 8 * k + 4 + t.val)).view.set]{fullShare}
        land1 m d L (dRow (512 * (wL L).val + 8 * k + 4 + t.val)) FS t) : sProp 𝕄) = rowDone fC fI d L (8 * k + 4 + t.val) := by
  have hw := (wL L).isLt
  have ht := t.isLt
  have hr : 512 * (wL L).val + 8 * k + 4 + t.val < 16384 := by omega
  have hc : 2 * k + 1 < 128 := by omega
  rw [pts_dRow d L _ hr]
  show (_ : sProp 𝕄) = (outLoc d ↦[orowN (512 * (wL L).val + (8 * k + 4 + t.val))]{fullShare} outF fC fI d)
  rw [show 512 * (wL L).val + (8 * k + 4 + t.val) = 512 * (wL L).val + 8 * k + 4 + t.val by omega]
  refine pointsTo_congr fun j hj => ?_
  rw [← set_dRow _ hr] at hj
  obtain ⟨i, -, rfl⟩ := Finset.mem_map.mp hj
  exact landed_row fC fI d L ![1, 0, 0] inb_S2x80x128_S1x80x128_1_0_0 (2 * k + 1) hc t FS
    (fun i => (h i).trans (congrFun (tabN_eq_tab fC fI d L (2 * k + 1) hc) i)) _ _ _ hr (by omega) (emb_dRow _ hr) (m (outLoc d)) i

/-! ## The loop's load offsets in closed form -/

omit [FloatOps F] fC fI m in
/-- The loop body's load offset for trip t, slot r₁, group r₂: 160 t + 80 r₁ + 160, plus 16 r₂. -/
theorem off3_val (t : Fin k0_t1_loop.trips) (r₁ : Fin 2) (r₂ : Fin 5) :
    k0_off3 t (BitVec.ofNat 32 r₁.val) (BitVec.ofNat 32 (16 * r₂.val)) 0 = (160 * t.val + 80 * r₁.val + 160) + 16 * r₂.val := by
  rw [k0_off3_eq]
  show 160 * t.val + 80 * r₁.val + 16 * r₂.val + 160 = _
  omega

omit [FloatOps F] fC fI m in
/-- That offset is 80 c for the chunk c = 2 (t + 1) + r₁ the trip's slot r₁ works on. -/
theorem off3_chunk (t : Fin k0_t1_loop.trips) (r₁ : Fin 2) : 160 * t.val + 80 * r₁.val + 160 = 80 * (2 * (t.val + 1) + r₁.val) := by omega

omit [FloatOps F] fC fI m in
/-- The same offset written from the chunk: 80 c + 16 r₂ for c = 2 (t + 1) + r₁. -/
theorem off3 (tr : Fin k0_t1_loop.trips) (r₁ : Fin 2) (r₂ : Fin 5) :
    k0_off3 tr (BitVec.ofNat 32 r₁.val) (BitVec.ofNat 32 (16 * r₂.val)) 0 = 80 * (2 * (tr.val + 1) + r₁.val) + 16 * r₂.val := by
  rw [off3_val]; omega

/-! ## A chunk's gather, from the index list as the program fills it -/

omit [FloatOps F] in
/-- The gather of chunk c, its offset list the five-store list filled from five loads at offsets 80 c, 80 c + 16, …, 80 c + 64 of the index
    scratch at the landed indices, brings chunk c's table rows. -/
theorem gv (c : ℕ) (hc : c < 128) (lst : Memref sig .scVector .vmem S80 .i32) (g : lst.view.ty.Contents (Elt F))
    (g5 : Buf (Elt F) ((V d (cV L) (jV L)).loc cc0_scratch0)) (hg5 : g5 = idx5 fI d L) (o0 o1 o2 o3 o4 : Fin 1 → Nat)
    (ho0 : o0 0 = 80 * c) (ho1 : o1 0 = 80 * c + 16) (ho2 : o2 0 = 80 * c + 32) (ho3 : o3 0 = 80 * c + 48) (ho4 : o4 0 = 80 * c + 64)
    (b0 : ∀ a, o0 a + S16.size a ≤ S10240.size a) (b1 : ∀ a, o1 a + S16.size a ≤ S10240.size a) (b2 : ∀ a, o2 a + S16.size a ≤ S10240.size a)
    (b3 : ∀ a, o3 a + S16.size a ≤ S10240.size a) (b4 : ∀ a, o4 a + S16.size a ≤ S10240.size a)
    (c0 c0' c1 c1' c2 c2' c3 c3' c4 c4' : S16.ShapeCasts S16)
    (i0 : ∀ a, (![0] : Fin 1 → Nat) a + S16.size a ≤ S80.size a) (i1 : ∀ a, (![16] : Fin 1 → Nat) a + S16.size a ≤ S80.size a)
    (i2 : ∀ a, (![32] : Fin 1 → Nat) a + S16.size a ≤ S80.size a) (i3 : ∀ a, (![48] : Fin 1 → Nat) a + S16.size a ≤ S80.size a)
    (i4 : ∀ a, (![64] : Fin 1 → Nat) a + S16.size a ≤ S80.size a)
    (T : FVec F S192x128 .f32) (hT : T = fC d)
    (hg : S192x128.Gathers 0 S80x128) (hn : S80.numel = S80x128.size hg.axis')
    (inbT : ∀ a, (![0, 0] : Fin 2 → Nat) a + S192x128.size a ≤ S192x128.size a)
    (hst : ∀ a, (Rect.unit (s := S192x128) ![0, 0] S192x128.size inbT).stride a = 1)
    (hin : ∀ x, (View.read (Elt F) lst.view (wr5 lst g (ld d L g5 o0 b0 c0 c0') (ld d L g5 o1 b1 c1 c1') (ld d L g5 o2 b2 c2 c2')
        (ld d L g5 o3 b3 c3 c3') (ld d L g5 o4 b4 c4 c4') i0 i1 i2 i3 i4) x).toNat < 192) :
    ∀ i, SparseCore.gatherPayload hg (View.read (Elt F) ((shV).slice (Rect.unit (s := S192x128) ![0, 0] S192x128.size inbT) hst).view T)
        (SparseCore.rows (F := F) (o := S80x128.size hg.axis') (z := S192x128.size hg.axis) (View.read (Elt F) lst.view (wr5 lst g (ld d L g5 o0 b0 c0 c0') (ld d L g5 o1 b1 c1 c1') (ld d L g5 o2 b2 c2 c2')
          (ld d L g5 o3 b3 c3 c3') (ld d L g5 o4 b4 c4 c4') i0 i1 i2 i3 i4)) hn hin) i
      = tabN fC fI d L c i :=
  gather_tab fC fI d L c hc (80 * c) rfl T hT hg hn inbT hst _ hin (fun x _ =>
    lst_read5_idx fI d L lst g g5 hg5 (80 * c) o0 o1 o2 o3 o4 ho0 ho1 ho2 ho3 ho4 b0 b1 b2 b3 b4 c0 c0' c1 c1' c2 c2' c3 c3' c4 c4' i0 i1 i2 i3 i4 x
      (by have h : (x 0).val < 80 := (x 0).isLt; omega))

end Tile

end Cert.Proof.KI

end
-- ==== Proof.KIBody.lean ====
/-
  One tile's task, proved once at a symbolic tile, and the launch theorem's obligation for it.
  A tile copies its 10240 flat indices into its index scratch (tile 0 of each core first copies the 192-row combined table into the core's
  shared memory), meets the other fifteen tiles of its core at the barrier — tile 0's arrival at tile j's barrier cell hands tile j a read
  share of the filled table, so after the barrier every tile holds a share of the table at its known contents —, and then works through its
  128 chunks with two slots: chunk c's 80 indices are copied to the slot's list, the 80 table rows they name are gathered into the slot of
  the row buffer, and the slot is written out as rows 4c … 4c + 3 of the tile's part of the result, four copies on one semaphore.
  The two slots alternate: a slot's four write-backs are waited for (all four, with nothing touching the slot in between) before the
  slot's next gather. The loop's invariant at trip k says: chunks 2k and 2k + 1 are in flight on the two slots, each slot's contents being
  the chunk's gathered table rows; every row of an earlier chunk holds the result's final contents; every row of a later chunk is untouched.
  A landed row holds the slot's window as it stood at the issue, which is the table row of the flat index at 20·row + l: the final contents.
-/
import proofs.«206824_g72705206386957_cont_9to1_m_461_20_alg».proof.Proof.KIInvL
import proofs.«206824_g72705206386957_cont_9to1_m_461_20_alg».proof.Proof.KIVal2

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

local notation "iV" => (Memref.whole Cert.KernelIdeal.main_v9_scv : Memref Cert.KernelIdeal.sig Kind.scVector Space.hbm Cert.KernelIdeal.S327680 EltTy.i32)
local notation "tV" => (Memref.whole Cert.KernelIdeal.main_v5_scv : Memref Cert.KernelIdeal.sig Kind.scVector Space.hbm Cert.KernelIdeal.S192x128 EltTy.f32)
local notation "oV" => (Memref.whole Cert.KernelIdeal.main_v10_scv : Memref Cert.KernelIdeal.sig Kind.scVector Space.hbm Cert.KernelIdeal.S16384x20x128 EltTy.f32)
local notation "shV" => (Memref.whole Cert.KernelIdeal.cc0_scratch3 : Memref Cert.KernelIdeal.sig Kind.scVector Space.shared Cert.KernelIdeal.S192x128 EltTy.f32)
local notation "a5" => (Memref.whole Cert.KernelIdeal.cc0_scratch0 : Memref Cert.KernelIdeal.sig Kind.scVector Space.vmem Cert.KernelIdeal.S10240 EltTy.i32)
local notation "a6" => (Memref.whole Cert.KernelIdeal.cc0_scratch1 : Memref Cert.KernelIdeal.sig Kind.scVector Space.vmem Cert.KernelIdeal.S2x1x80 EltTy.i32)
local notation "a7" => (Memref.whole Cert.KernelIdeal.cc0_scratch2 : Memref Cert.KernelIdeal.sig Kind.scVector Space.vmem Cert.KernelIdeal.S2x80x128 EltTy.f32)

variable [FloatOps F]
variable (fC : (d : Dev nD) → Buf (Elt F) (combLoc d)) (fI : (d : Dev nD) → Buf (Elt F) (idxLoc d))
variable (m : (ℓ : Loc nD τ sig) → Buf (Elt F) ℓ)

section Tile

variable (d : Dev nD) (L : grid0.Coords)

omit [FloatOps F] in
theorem semVal_cast {g g' : GSem nD τ sig} (h : g = g') (n : ℕ) : (semVal g n : sProp 𝕄) ⊢ semVal g' n := by subst h; exact BI.Entails.refl _

omit [FloatOps F] in
theorem ins_ok {P : SemLoc sig × HIx 1 → Prop} {a : SemLoc sig × HIx 1} {S : Waits sig (HIx 1)} (ha : P a) (hS : ∀ p ∈ S, P p) : ∀ p ∈ insert a S, P p := by
  intro p hp; rcases Finset.mem_insert.mp hp with rfl | h
  · exact ha
  · exact hS p h

/-- Tile 0's arrivals hand every tile of its core its read share of the filled table. -/
theorem pays_intro0 (h0 : (L 1).val = 0) : (bigSep Finset.univ fun i : Fin 16 => shTok fC d (cV L) i)
    ⊢ (bigSep Finset.univ fun j : Fin (grid0.bound 1) => (bRd (F := F) fC).payload (bcell d (cV L) (j.castLE hsub0)) 0 (jV L).val : sProp 𝕄) := by
  refine Entails.of_eq (bigSep_congr fun j _ => ?_)
  show shTok fC d (cV L) j = bPay fC (bcell d (cV L) (j.castLE hsub0)) (jV L).val
  unfold bPay; dsimp only
  rw [if_pos (show (jV L).val = 0 from h0)]
  exact congrArg (shTok fC d (cV L)) (Fin.ext rfl)

/-- The other tiles' arrivals hand over nothing. -/
theorem pays_intro1 (h0 : (L 1).val ≠ 0) : (iprop(emp) : sProp 𝕄)
    ⊢ (bigSep Finset.univ fun j : Fin (grid0.bound 1) => (bRd (F := F) fC).payload (bcell d (cV L) (j.castLE hsub0)) 0 (jV L).val : sProp 𝕄) := by
  rw [show (bigSep Finset.univ fun j : Fin (grid0.bound 1) => (bRd (F := F) fC).payload (bcell d (cV L) (j.castLE hsub0)) 0 (jV L).val)
      = bigSep Finset.univ fun _ : Fin (grid0.bound 1) => (iprop(emp) : sProp 𝕄) from
      bigSep_congr fun j _ => if_neg (show ¬ (jV L).val = 0 from h0), bigSep_emp']

/-- What a tile's own round collected holds its read share of the filled table: tile 0's duty brought it. -/
theorem pays_elim : (bigSep ((bRd (F := F) fC).duties (bcell d (cV L) (jV L)) 0 \ ∅) fun n => (bRd (F := F) fC).payload (bcell d (cV L) (jV L)) 0 n)
    ⊢ (shTok fC d (cV L) (jF L) : sProp 𝕄) := by
  rw [Finset.sdiff_empty, bRd_duties₀]
  refine (bigSep_elim (i := (0 : ℕ)) (Finset.mem_image.mpr ⟨(⟨0, by decide⟩ : Fin τ.nSub), Finset.mem_univ _, rfl⟩)).trans ?_
  show bPay fC (bcell d (cV L) (jV L)) 0 ⊢ _
  unfold bPay; dsimp only
  rw [if_pos rfl]
  exact Entails.of_eq (congrArg (shTok fC d (cV L)) (Fin.ext rfl))

set_option maxHeartbeats 16000000 in
/-- The task on tile `(L 0, L 1)`, the core's tile 0, which fills the shared table first: the tile's 10240 indices fetched, the barrier (its sixteen arrivals carry the filled table's read shares), then the 128 chunks: 80 indices to
    a slot's list, 80 table rows gathered into the slot, the slot written out as four rows of the result, two slots alternating, each slot's four write-backs collected before the slot is
    gathered into again; in the end every row of the tile holds the result's final contents. -/
theorem tile_body0 (hF : (K (F := F)).Facts) (O : CellTallies nD τ sig (HIx 1)) (W : Waits sig (HIx 1)) (hO : ∀ g, O g none = 0)
    (hOlev : ∀ g ι, 0 < O g ι → 8 * (0 : Fin 1).val + 6 ≤ (K (F := F)).lev g ι) (h0 : (L 1).val = 0)
    (hI : ∀ d y, ((fI d : IVec S327680 32) y).toNat < 192) :
    iprop(levAts (K (F := F)).L (K (F := F)).lev ∗ bkit fC d (cV L) (jV L)
        ∗ (idxPts fI d (wL L) ∗ outPts d (wL L) (m (outLoc d)) ∗ (combTok fC d (cF L) ∗ ∃ f, shLoc d (cV L) ↦{fullShare} f))
        ∗ scopedBufs (V d (cV L) (jV L)) ∗ scopedSems0 (V d (cV L) (jV L)) ∗ owes (V d (cV L) (jV L)) (O + oxV d (cV L)) W)
      ⊢ wp frame (wpE (defs₀ (F := F)) 𝒱₀ (V d (cV L) (jV L)) none) Set.univ
          (cc0__emb_kernel L iV (Memref.isWhole_whole _) tV (Memref.isWhole_whole _) oV (Memref.isWhole_whole _) a5 (Memref.isWhole_whole _)
            a6 (Memref.isWhole_whole _) a7 (Memref.isWhole_whole _) shV (Memref.isWhole_whole _)
            cc0_scratch4 cc0_scratch5 cc0_scratch6 cc0_scratch7 cc0_scoped0 cc0_scoped1)
          fun _ => iprop((idxPts fI d (wL L) ∗ outPts d (wL L) (outF fC fI d) ∗ shTok fC d (cV L) (jF L) ∗ (combTok fC d (cF L) ∗ shRem fC d (cV L)))
            ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  have hC : Scalar.cmpi .ne (Scalar.extui (Scalar.cmpi .eq (BitVec.ofNat 32 (L 1).val) 0#32)) 0#32 = 1#1 := by rw [h0]; decide
  have htr : k0_t1_loop.trips = 63 := trips_eq
  simp only [cc0__emb_kernel_eq_skeleton]; unfold cc0__emb_kernel_skel
  rw [(K (F := F)).scopedBufs_V hF d (cV L) (jV L), SparseCore.Cfg.scopedSems0_V (Val := Elt F) d (cV L) (jV L), ownSems0_V, ownBufs_V]
  unfold bkit
  iintro ⟨#Hlv, ⟨⟨%κ, #Hinv⟩, Htoks, #Hrch, Hat, Hcred⟩, ⟨Hi, Ho, Hct, %fsh, Hsh⟩, ⟨⟨%f5, H5⟩, ⟨%f6, H6⟩, ⟨%f7, H7⟩, Hbufs⟩, ⟨Hs4, Hs5, Hs6, Hs7, HsA, HsB, Hsems⟩, HO⟩
  have hO' : ∀ g, (O + oxV d (cV L)) g none = 0 := fun g => by rw [Pi.add_apply, Finsupp.add_apply, hO g, oxV_none]
  ihave Hmw1 := (show levAts (K (F := F)).L (K (F := F)).lev ⊢ Transfers.MayWaits (V d (cV L) (jV L)) (default : HIx 1) (O + oxV d (cV L)) from
    (K (F := F)).mayWaits_none (thr := V d (cV L) (jV L)) hO') $$ Hlv
  ihave Hmw2 := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (pts_iSl (F := F) d L _).symm) $$ Hi
  ihave Hct' := (Entails.of_eq (pts_tV (F := F) d L _ _).symm) $$ Hct
  ihave Hsh' := (Entails.of_eq (pts_shV (F := F) d L _ _).symm) $$ Hsh
  ihave H5' := (Entails.of_eq (pts_a5 (F := F) d L _).symm) $$ H5
  ihave H6' := (Entails.of_eq (pts_a6 (F := F) d L _).symm) $$ H6
  ihave H7' := (Entails.of_eq (pts_a7 (F := F) d L _).symm) $$ H7
  -- the shared table filled, the tile's indices fetched
  sl_exec
  -- the filled table at its known contents, dealt as sixteen read shares: tile 0's payloads
  have hW : View.write (Elt F) (shV).view fsh (tile_body0.sl.dma0 fC d) Finset.univ = shC fC d (cV L) := by
    show (View.whole (cc0_scratch3 : Ref sig .scVector)).write (Elt F) fsh _ Finset.univ = _
    rw [View.write_whole_univ]; rfl
  ihave Hsh2 := (Entails.of_eq (show ((shV).view.loc (V d (cV L) (jV L)) ↦{fullShare} View.write (Elt F) (shV).view fsh (tile_body0.sl.dma0 fC d) Finset.univ : sProp 𝕄)
      = shLoc d (cV L) ↦{fullShare} shC fC d (cV L) by rw [hW]; rfl)) $$ Hsh'
  ihave Hsp := (Transfers.pointsTo_toks_split (ℓ := shLoc d (cV L)) (S := Finset.univ) (f := shC fC d (cV L)) fullShare 16) $$ Hsh2
  icases Hsp with ⟨Hrem, Htk⟩
  ihave Hpays := (pays_intro0 (F := F) fC d L h0) $$ Htk
  -- the barrier

  iapply (SparseCore.wp_subcoreBarrier 𝒱₀ none EB (bRd (F := F) fC) d (sc := cV L) (i := jV L) sc_bar0 (grid0.bound 1) hsub0 (L 1) rfl κ (fun _ => 0) (jV L).val
      (fun j => bRd_mem₀ fC d _ _ _) (fun _ => rfl) (bRd_expect fC d _ _) (some 0) O _) $$ [HO Htoks Hpays Hcred Hat]
  · isplitr; · iexact Hinv
    isplitl [HO]; · iexact HO
    isplitl [Htoks Hpays]
    · rw [bigSep_sep', bigSep_sep']
      isplitl [Htoks]; · iexact Htoks
      isplitl [Hpays]; · iexact Hpays
      iexact Hrch
    isplitl [Hcred]; · iexact Hcred
    isplitl [Hat]; · iexact Hat
    iapply ((K (F := F)).mayOwe_of_bound (thr := V d (cV L) (jV L)) 3 (fun p hp => by
        rw [Finset.mem_singleton] at hp; subst hp
        show (K (F := F)).lev (bcell d (cV L) (jV L)) (some 0) ≤ 3
        rw [(K (F := F)).lev_V_reg d _ _ (show (sc_bar0 : Sem sig) ≠ (K (F := F)).go from sc_bar0_ne_go)]; exact le_rfl)
      (fun g ι hg => lt_of_lt_of_le (by decide) (hOlev g ι hg)))
    iexact Hlv
  iintro ⟨HO, Hat, -, Hgot⟩
  ihave Hmy := (pays_elim (F := F) fC d L) $$ Hgot
  ihave Hmy' := (Entails.of_eq (pts_shV (F := F) d L _ _).symm) $$ Hmy

  -- chunk 0's indices to slot 0's list
  sl_exec

  -- (the last run copied the first chunk's indices to slot 0's list and stopped at the gather)
  have hin0 : ∀ x, ((lst0).view.read (Elt F) (tile_body0.sl.H6'_w5 fI d L f5 f6) x).toNat < 192 := lst_inb (F := F) fI d L (hI d) lst0 _ _ (a5_landed (F := F) fI d L f5) _ _ _ _ _ _ _ _ _ _ _ _ _ _ _ _ _ _ _ _ _ _ _ _ _
  ihave H7s := (Entails.of_eq (a7_slots (F := F) d L f7)) $$ H7'
  icases H7s with ⟨H70, H71⟩
  ihave Hrows := (Entails.of_eq (out_rowsN (F := F) d L (m (outLoc d)))) $$ Ho
  ihave Hr8 := (Entails.of_eq (Ico_take8 (F := F) (rowTodo m d L) 0 512 (by decide))) $$ Hrows
  icases Hr8 with ⟨Hn0, Hn1, Hn2, Hn3, Hn4, Hn5, Hn6, Hn7, Htodo⟩
  -- chunk 0: gathered into slot 0
  sl_exec
  -- its four rows out, in one batch on slot 0's write cell
  ihave Hn0' := (Entails.of_eq (rowP_own (F := F) d L 0 0 _ (by decide) _)) $$ Hn0
  ihave Hn1' := (Entails.of_eq (rowP_own (F := F) d L 0 1 _ (by decide) _)) $$ Hn1
  ihave Hn2' := (Entails.of_eq (rowP_own (F := F) d L 0 2 _ (by decide) _)) $$ Hn2
  ihave Hn3' := (Entails.of_eq (rowP_own (F := F) d L 0 3 _ (by decide) _)) $$ Hn3
  imod (Transfers.batch_alloc' (countersEmb : UEmb Counters 𝕄) (V d (cV L) (jV L)) (default : HIx 1) (NW L)
      (DW0 m d L (fun t => dstP L 0 t) ((rows0).view.writes (Elt F) f7 [⟨Rect.whole S80x128, tile_body0.sl.gather0 fC fI d L f5 f6 hin0⟩]))
      (sm := .dma cc0_scratch6.sem) (E := Set.univ)) $$ Hs6 with HB6
  sl_exec

  -- chunk 1: gathered into slot 1, its four rows out on slot 1's write cell
  have hin1 : ∀ x, ((lst1).view.read (Elt F) (tile_body0.sl.H6'_w5_1 fI d L f5 f6) x).toNat < 192 := lst_inb (F := F) fI d L (hI d) lst1 _ _ (a5_landed (F := F) fI d L f5) _ _ _ _ _ _ _ _ _ _ _ _ _ _ _ _ _ _ _ _ _ _ _ _ _
  sl_exec
  ihave Hn4' := (Entails.of_eq (rowP_own (F := F) d L 1 0 _ (by decide) _)) $$ Hn4
  ihave Hn5' := (Entails.of_eq (rowP_own (F := F) d L 1 1 _ (by decide) _)) $$ Hn5
  ihave Hn6' := (Entails.of_eq (rowP_own (F := F) d L 1 2 _ (by decide) _)) $$ Hn6
  ihave Hn7' := (Entails.of_eq (rowP_own (F := F) d L 1 3 _ (by decide) _)) $$ Hn7
  imod (Transfers.batch_alloc' (countersEmb : UEmb Counters 𝕄) (V d (cV L) (jV L)) (default : HIx 1) (NW L)
      (DW1 m d L (fun t => dstP L 1 t) ((rows1).view.writes (Elt F) f7 [⟨Rect.whole S80x128, tile_body0.sl.gather0_1 fC fI d L f5 f6 hin1⟩]))
      (sm := .dma cc0_scratch7.sem) (E := Set.univ)) $$ Hs7 with HB7
  sl_exec
  -- what the two slots hold: the chunks' gathered table rows
  have hgP0 : ∀ i, tile_body0.sl.gather0 fC fI d L f5 f6 hin0 i = tabN fC fI d L (2 * 0) i := (gv (F := F) fC fI d L 0 (by decide) lst0 _ _ (a5_landed (F := F) fI d L f5) _ _ _ _ _ rfl rfl rfl rfl rfl _ _ _ _ _ _ _ _ _ _ _ _ _ _ _ _ _ _ _ _ (fC d) rfl _ _ _ _ hin0)
  have hgP1 : ∀ i, tile_body0.sl.gather0_1 fC fI d L f5 f6 hin1 i = tabN fC fI d L (2 * 0 + 1) i := (gv (F := F) fC fI d L 1 (by decide) lst1 _ _ (a5_landed (F := F) fI d L f5) _ _ _ _ _ rfl rfl rfl rfl rfl _ _ _ _ _ _ _ _ _ _ _ _ _ _ _ _ _ _ _ _ (fC d) rfl _ _ _ _ hin1)
  -- the loop, by its invariant
  ihave HB6c := (Entails.of_eq (canonP0 (F := F) m d L _)) $$ HB6
  ihave HB7c := (Entails.of_eq (canonP1 (F := F) m d L _)) $$ HB7
  ihave Hdone := (Entails.of_eq (Ico_self (F := F) (rowDone fC fI d L) 0).symm) $$ []
  · iempintro
  sl_for (inv fC fI m d L (View.write (Elt F) (a5).view f5 (tile_body0.sl.dma0_1 fI d L) Finset.univ) O
      (insert (SemLoc.dma cc0_scratch5.sem, (default : HIx 1)) (insert (SemLoc.dma cc0_scratch4.sem, (default : HIx 1)) (insert (SemLoc.reg sc_bar0, some 0)
        (insert (SemLoc.dma cc0_scoped1.sem, default) (insert (SemLoc.dma cc0_scoped0.sem, default) W)))))) $$ [Hmw2 H5' H6' Hmy' Hs4 Hs5 HB6c HB7c Hdone Htodo HO]

  case region =>
    intro k _
    have hk63 : k.val < 63 := (trips_eq) ▸ k.isLt
    unfold inv
    iintro ⟨#Hmw, H5, ⟨%W6, H6⟩, Hmy, Hs4, Hs5, ⟨%FS0, %hFS0, HB6⟩, ⟨%FS1, %hFS1, HB7⟩, Hdone, Htodo, %W', %hW', HO⟩
    ihave Ht8 := (Entails.of_eq (Ico_take8 (F := F) (rowTodo m d L) (8 * k.val + 8) 512 (by omega))) $$ Htodo
    icases Ht8 with ⟨Hn0, Hn1, Hn2, Hn3, Hn4, Hn5, Hn6, Hn7, Htodo⟩
    -- slot 0: the chunk's indices to its list; the write-back of the chunk before it collected
    sl_exec
    ihave H70 := (Entails.of_eq (slot0_windows (F := F) d L FS0).symm) $$ [HB6_src0 HB6_src1 HB6_src2 HB6_src3]
    · isplitl [HB6_src0]; · iexact HB6_src0
      isplitl [HB6_src1]; · iexact HB6_src1
      isplitl [HB6_src2]; · iexact HB6_src2
      iexact HB6_src3
    ihave Hd0 := (Entails.of_eq (landed0 (F := F) fC fI m d L k.val (by omega) 0 FS0 hFS0)) $$ HB6_dst0
    ihave Hd1 := (Entails.of_eq (landed0 (F := F) fC fI m d L k.val (by omega) 1 FS0 hFS0)) $$ HB6_dst1
    ihave Hd2 := (Entails.of_eq (landed0 (F := F) fC fI m d L k.val (by omega) 2 FS0 hFS0)) $$ HB6_dst2
    ihave Hd3 := (Entails.of_eq (landed0 (F := F) fC fI m d L k.val (by omega) 3 FS0 hFS0)) $$ HB6_dst3
    have hinT0 : ∀ x, ((lst0).view.read (Elt F) (tile_body0.sl.H6_w5 fI d L f5 k W6) x).toNat < 192 := lst_inb (F := F) fI d L (hI d) lst0 _ _ (a5_landed (F := F) fI d L f5) _ _ _ _ _ _ _ _ _ _ _ _ _ _ _ _ _ _ _ _ _ _ _ _ _
    -- the gather into slot 0, then its four rows out
    sl_exec
    ihave Hn0' := (Entails.of_eq (rowT_own (F := F) d L k 0 0 _ rfl _)) $$ Hn0
    ihave Hn1' := (Entails.of_eq (rowT_own (F := F) d L k 0 1 _ rfl _)) $$ Hn1
    ihave Hn2' := (Entails.of_eq (rowT_own (F := F) d L k 0 2 _ rfl _)) $$ Hn2
    ihave Hn3' := (Entails.of_eq (rowT_own (F := F) d L k 0 3 _ rfl _)) $$ Hn3
    ihave HB6z := (semVal_cast (F := F) (g := ((V d (cV L) (jV L), SemLoc.dma (⟨2, _⟩ : DmaSem sig)) : GSem nD τ sig)) (g' := c6 d (cV L) (jV L)) rfl 0) $$ HB6
    imod (Transfers.batch_alloc' (countersEmb : UEmb Counters 𝕄) (V d (cV L) (jV L)) (default : HIx 1) (NW L)
        (DW0 m d L (fun t => dstT L k 0 t) ((rows0).view.writes (Elt F) FS0 [⟨Rect.whole S80x128, tile_body0.sl.gather0_2 fC fI d L f5 k W6 hinT0⟩]))
        (sm := .dma cc0_scratch6.sem) (E := Set.univ)) $$ HB6z with HC6
    -- slot 1: the same
    sl_exec
    ihave H71 := (Entails.of_eq (slot1_windows (F := F) d L FS1).symm) $$ [HB7_src0 HB7_src1 HB7_src2 HB7_src3]
    · isplitl [HB7_src0]; · iexact HB7_src0
      isplitl [HB7_src1]; · iexact HB7_src1
      isplitl [HB7_src2]; · iexact HB7_src2
      iexact HB7_src3
    ihave He0 := (Entails.of_eq (landed1 (F := F) fC fI m d L k.val (by omega) 0 FS1 hFS1)) $$ HB7_dst0
    ihave He1 := (Entails.of_eq (landed1 (F := F) fC fI m d L k.val (by omega) 1 FS1 hFS1)) $$ HB7_dst1
    ihave He2 := (Entails.of_eq (landed1 (F := F) fC fI m d L k.val (by omega) 2 FS1 hFS1)) $$ HB7_dst2
    ihave He3 := (Entails.of_eq (landed1 (F := F) fC fI m d L k.val (by omega) 3 FS1 hFS1)) $$ HB7_dst3
    have hinT1 : ∀ x, ((lst1).view.read (Elt F) (tile_body0.sl.H6_w5_1 fI d L f5 k W6) x).toNat < 192 := lst_inb (F := F) fI d L (hI d) lst1 _ _ (a5_landed (F := F) fI d L f5) _ _ _ _ _ _ _ _ _ _ _ _ _ _ _ _ _ _ _ _ _ _ _ _ _
    sl_exec
    ihave Hn4' := (Entails.of_eq (rowT_own (F := F) d L k 1 0 _ rfl _)) $$ Hn4
    ihave Hn5' := (Entails.of_eq (rowT_own (F := F) d L k 1 1 _ rfl _)) $$ Hn5
    ihave Hn6' := (Entails.of_eq (rowT_own (F := F) d L k 1 2 _ rfl _)) $$ Hn6
    ihave Hn7' := (Entails.of_eq (rowT_own (F := F) d L k 1 3 _ rfl _)) $$ Hn7
    ihave HB7z := (semVal_cast (F := F) (g := ((V d (cV L) (jV L), SemLoc.dma (⟨3, _⟩ : DmaSem sig)) : GSem nD τ sig)) (g' := c7 d (cV L) (jV L)) rfl 0) $$ HB7
    imod (Transfers.batch_alloc' (countersEmb : UEmb Counters 𝕄) (V d (cV L) (jV L)) (default : HIx 1) (NW L)
        (DW1 m d L (fun t => dstT L k 1 t) ((rows1).view.writes (Elt F) FS1 [⟨Rect.whole S80x128, tile_body0.sl.gather0_3 fC fI d L f5 k W6 hinT1⟩]))
        (sm := .dma cc0_scratch7.sem) (E := Set.univ)) $$ HB7z with HC7
    sl_exec
    sl_step
    have hgT0 : ∀ i, tile_body0.sl.gather0_2 fC fI d L f5 k W6 hinT0 i = tabN fC fI d L (2 * (k.val + 1)) i := (gv (F := F) fC fI d L (2 * (k.val + 1) + 0) (by omega) lst0 _ _ (a5_landed (F := F) fI d L f5) _ _ _ _ _ (off3 k 0 0) (off3 k 0 1) (off3 k 0 2) (off3 k 0 3) (off3 k 0 4) _ _ _ _ _ _ _ _ _ _ _ _ _ _ _ _ _ _ _ _ (fC d) rfl _ _ _ _ hinT0)
    have hgT1 : ∀ i, tile_body0.sl.gather0_3 fC fI d L f5 k W6 hinT1 i = tabN fC fI d L (2 * (k.val + 1) + 1) i := (gv (F := F) fC fI d L (2 * (k.val + 1) + 1) (by omega) lst1 _ _ (a5_landed (F := F) fI d L f5) _ _ _ _ _ (off3 k 1 0) (off3 k 1 1) (off3 k 1 2) (off3 k 1 3) (off3 k 1 4) _ _ _ _ _ _ _ _ _ _ _ _ _ _ _ _ _ _ _ _ (fC d) rfl _ _ _ _ hinT1)
    isplitr; · iexact Hmw
    isplitl [H5]; · iexact H5
    isplitl [H6]; · iexists _; iexact H6
    isplitl [Hmy]; · iexact Hmy
    isplitl [Hs4]; · iapply (semVal_cast (F := F) (g := ((V d (cV L) (jV L), SemLoc.dma (⟨0, (by decide : (0 : ℕ) < 6)⟩ : DmaSem sig)) : GSem nD τ sig)) (g' := c4 d (cV L) (jV L)) rfl 0); iexact Hs4
    isplitl [Hs5]; · iapply (semVal_cast (F := F) (g := ((V d (cV L) (jV L), SemLoc.dma (⟨1, (by decide : (1 : ℕ) < 6)⟩ : DmaSem sig)) : GSem nD τ sig)) (g' := c5 d (cV L) (jV L)) rfl 0); iexact Hs5
    isplitl [HC6]
    · iexists ((rows0).view.writes (Elt F) FS0 [⟨Rect.whole S80x128, tile_body0.sl.gather0_2 fC fI d L f5 k W6 hinT0⟩]); isplitr
      · ipureintro; exact good_gather0 (F := F) fC fI d L (2 * (k.val + 1)) FS0 _ hgT0
      · iapply (Entails.of_eq (canonT0 (F := F) m d L k _)); iexact HC6
    isplitl [HC7]
    · iexists ((rows1).view.writes (Elt F) FS1 [⟨Rect.whole S80x128, tile_body0.sl.gather0_3 fC fI d L f5 k W6 hinT1⟩]); isplitr
      · ipureintro; exact good_gather1 (F := F) fC fI d L (2 * (k.val + 1) + 1) FS1 _ hgT1
      · iapply (Entails.of_eq (canonT1 (F := F) m d L k _)); iexact HC7
    isplitl [Hdone Hd0 Hd1 Hd2 Hd3 He0 He1 He2 He3]
    · iapply (Entails.of_eq (Ico_congr (F := F) (rowDone fC fI d L) rfl (show 8 * k.val + 4 + 4 = 8 * (k.val + 1) by omega)))
      iapply (Ico_put4 (F := F) (rowDone fC fI d L) 0 (8 * k.val + 4) (by omega))
      isplitl [Hdone Hd0 Hd1 Hd2 Hd3]
      · iapply (Ico_put4 (F := F) (rowDone fC fI d L) 0 (8 * k.val) (by omega))
        isplitl [Hdone]; · iexact Hdone
        isplitl [Hd0]; · iexact Hd0
        isplitl [Hd1]; · iexact Hd1
        isplitl [Hd2]; · iexact Hd2
        iexact Hd3
      isplitl [He0]; · iexact He0
      isplitl [He1]; · iexact He1
      isplitl [He2]; · iexact He2
      iexact He3
    isplitl [Htodo]
    · iapply (Entails.of_eq (Ico_congr (F := F) (rowTodo m d L) (show 8 * k.val + 8 + 8 = 8 * (k.val + 1) + 8 by omega) rfl)); iexact Htodo
    iexists _; isplitr
    swap; · iexact HO
    ipureintro; repeat (first | exact hW' | refine ins_ok (Or.inr (Or.inl rfl)) ?_)
  · unfold inv
    isplitr; · iexact Hmw2
    isplitl [H5']; · iexact H5'
    isplitl [H6']; · iexists _; iexact H6'
    isplitl [Hmy']; · iexact Hmy'
    isplitl [Hs4]; · iapply (semVal_cast (F := F) (g := ((V d (cV L) (jV L), SemLoc.dma (⟨0, (by decide : (0 : ℕ) < 6)⟩ : DmaSem sig)) : GSem nD τ sig)) (g' := c4 d (cV L) (jV L)) rfl 0); iexact Hs4
    isplitl [Hs5]; · iapply (semVal_cast (F := F) (g := ((V d (cV L) (jV L), SemLoc.dma (⟨1, (by decide : (1 : ℕ) < 6)⟩ : DmaSem sig)) : GSem nD τ sig)) (g' := c5 d (cV L) (jV L)) rfl 0); iexact Hs5
    isplitl [HB6c]
    · iexists ((rows0).view.writes (Elt F) f7 [⟨Rect.whole S80x128, tile_body0.sl.gather0 fC fI d L f5 f6 hin0⟩]); isplitr
      · ipureintro; exact good_gather0 (F := F) fC fI d L (2 * 0) f7 _ hgP0
      · iexact HB6c
    isplitl [HB7c]
    · iexists ((rows1).view.writes (Elt F) f7 [⟨Rect.whole S80x128, tile_body0.sl.gather0_1 fC fI d L f5 f6 hin1⟩]); isplitr
      · ipureintro; exact good_gather1 (F := F) fC fI d L (2 * 0 + 1) f7 _ hgP1
      · iexact HB7c
    isplitl [Hdone]; · iexact Hdone
    isplitl [Htodo]; · iexact Htodo
    iexists _; isplitr
    swap; · iexact HO
    ipureintro; exact fun p hp => .inl hp
  iintro %_ HI
  unfold inv
  icases HI with ⟨-, H5, ⟨%W6, H6⟩, Hmy, Hs4, Hs5, ⟨%FS0, %hFS0, HB6⟩, ⟨%FS1, %hFS1, HB7⟩, Hdone, -, %W', %hW', HO⟩
  -- the last two chunks' write-backs collected
  sl_exec
  sl_step
  ihave Hd0 := (Entails.of_eq (landed0 (F := F) fC fI m d L k0_t1_loop.trips (by omega) 0 FS0 hFS0)) $$ HB6_dst0
  ihave Hd1 := (Entails.of_eq (landed0 (F := F) fC fI m d L k0_t1_loop.trips (by omega) 1 FS0 hFS0)) $$ HB6_dst1
  ihave Hd2 := (Entails.of_eq (landed0 (F := F) fC fI m d L k0_t1_loop.trips (by omega) 2 FS0 hFS0)) $$ HB6_dst2
  ihave Hd3 := (Entails.of_eq (landed0 (F := F) fC fI m d L k0_t1_loop.trips (by omega) 3 FS0 hFS0)) $$ HB6_dst3
  ihave He0 := (Entails.of_eq (landed1 (F := F) fC fI m d L k0_t1_loop.trips (by omega) 0 FS1 hFS1)) $$ HB7_dst0
  ihave He1 := (Entails.of_eq (landed1 (F := F) fC fI m d L k0_t1_loop.trips (by omega) 1 FS1 hFS1)) $$ HB7_dst1
  ihave He2 := (Entails.of_eq (landed1 (F := F) fC fI m d L k0_t1_loop.trips (by omega) 2 FS1 hFS1)) $$ HB7_dst2
  ihave He3 := (Entails.of_eq (landed1 (F := F) fC fI m d L k0_t1_loop.trips (by omega) 3 FS1 hFS1)) $$ HB7_dst3
  isplitl [Hi' Hdone Hd0 Hd1 Hd2 Hd3 He0 He1 He2 He3 Hmy Hct' Hrem]
  · isplitl [Hi']; · iapply (Entails.of_eq (pts_iSl (F := F) d L _)); iexact Hi'
    isplitl [Hdone Hd0 Hd1 Hd2 Hd3 He0 He1 He2 He3]
    · iapply (Entails.of_eq (out_rowsN (F := F) d L (outF fC fI d)).symm)
      iapply (Entails.of_eq (Ico_congr (F := F) (rowDone fC fI d L) rfl (show 8 * k0_t1_loop.trips + 4 + 4 = 512 by omega)))
      iapply (Ico_put4 (F := F) (rowDone fC fI d L) 0 (8 * k0_t1_loop.trips + 4) (by omega))
      isplitl [Hdone Hd0 Hd1 Hd2 Hd3]
      · iapply (Ico_put4 (F := F) (rowDone fC fI d L) 0 (8 * k0_t1_loop.trips) (by omega))
        isplitl [Hdone]; · iexact Hdone
        isplitl [Hd0]; · iexact Hd0
        isplitl [Hd1]; · iexact Hd1
        isplitl [Hd2]; · iexact Hd2
        iexact Hd3
      isplitl [He0]; · iexact He0
      isplitl [He1]; · iexact He1
      isplitl [He2]; · iexact He2
      iexact He3
    isplitl [Hmy]; · iapply (Entails.of_eq (pts_shV (F := F) d L _ _)); iexact Hmy
    isplitl [Hct']; · iapply (Entails.of_eq (pts_tV (F := F) d L _ _)); iexact Hct'
    iexact Hrem
  isplitl [H5 H6 HB6_src0 HB6_src1 HB6_src2 HB6_src3 HB7_src0 HB7_src1 HB7_src2 HB7_src3 Hbufs]
  · isplitl [H5]; · iexists _; iapply (Entails.of_eq (pts_a5 (F := F) d L _)); iexact H5
    isplitl [H6]; · iexists _; iapply (Entails.of_eq (pts_a6 (F := F) d L _)); iexact H6
    isplitl [HB6_src0 HB6_src1 HB6_src2 HB6_src3 HB7_src0 HB7_src1 HB7_src2 HB7_src3]
    · iapply (a7_join (F := F) d L FS0 FS1)
      isplitl [HB6_src0 HB6_src1 HB6_src2 HB6_src3]
      · iapply (Entails.of_eq (slot0_windows (F := F) d L FS0).symm)
        isplitl [HB6_src0]; · iexact HB6_src0
        isplitl [HB6_src1]; · iexact HB6_src1
        isplitl [HB6_src2]; · iexact HB6_src2
        iexact HB6_src3
      · iapply (Entails.of_eq (slot1_windows (F := F) d L FS1).symm)
        isplitl [HB7_src0]; · iexact HB7_src0
        isplitl [HB7_src1]; · iexact HB7_src1
        isplitl [HB7_src2]; · iexact HB7_src2
        iexact HB7_src3
    iexact Hbufs
  isplitl [Hs4 Hs5 HB6 HB7 HsA HsB Hsems]
  · isplitl [Hs4]; · iexact Hs4
    isplitl [Hs5]; · iexact Hs5
    isplitl [HB6]; · iapply (semVal_cast (F := F) (g := ((V d (cV L) (jV L), SemLoc.dma (⟨2, (by decide : (2 : ℕ) < 6)⟩ : DmaSem sig)) : GSem nD τ sig)) (g' := c6 d (cV L) (jV L)) rfl 0); iexact HB6
    isplitl [HB7]; · iapply (semVal_cast (F := F) (g := ((V d (cV L) (jV L), SemLoc.dma (⟨3, (by decide : (3 : ℕ) < 6)⟩ : DmaSem sig)) : GSem nD τ sig)) (g' := c7 d (cV L) (jV L)) rfl 0); iexact HB7
    isplitl [HsA]; · iapply (semVal_cast (F := F) (g := ((V d (cV L) (jV L), SemLoc.dma (⟨4, (by decide : (4 : ℕ) < 6)⟩ : DmaSem sig)) : GSem nD τ sig)) (g' := cA d (cV L) (jV L)) rfl 0); iexact HsA
    isplitl [HsB]; · iapply (semVal_cast (F := F) (g := ((V d (cV L) (jV L), SemLoc.dma (⟨5, (by decide : (5 : ℕ) < 6)⟩ : DmaSem sig)) : GSem nD τ sig)) (g' := cB d (cV L) (jV L)) rfl 0); iexact HsB
    iexact Hsems
  iexists _; isplitr
  swap; · iexact HO
  ipureintro
  have hpro : ∀ p ∈ ((insert (SemLoc.dma cc0_scratch5.sem, (default : HIx 1)) (insert (SemLoc.dma cc0_scratch4.sem, (default : HIx 1)) (insert (SemLoc.reg sc_bar0, some 0)
        (insert (SemLoc.dma cc0_scoped1.sem, default) (insert (SemLoc.dma cc0_scoped0.sem, default) W))))) : Waits sig (HIx 1)), p ∈ W ∨ p.2 = none ∨ p.2 = some (0 : Fin 1) :=
    ins_ok (Or.inr (Or.inl rfl)) (ins_ok (Or.inr (Or.inl rfl)) (ins_ok (Or.inr (Or.inr rfl)) (ins_ok (Or.inr (Or.inl rfl)) (ins_ok (Or.inr (Or.inl rfl)) (fun p hp => Or.inl hp)))))
  have hW'' : ∀ p ∈ W', p ∈ W ∨ p.2 = none ∨ p.2 = some (0 : Fin 1) := fun p hp => by
    rcases hW' p hp with h | h | h
    · exact hpro p h
    · exact Or.inr (Or.inl h)
    · exact Or.inr (Or.inr h)
  repeat (first | exact hW'' | refine ins_ok (Or.inr (Or.inl rfl)) ?_)

set_option maxHeartbeats 16000000 in
/-- The task on tile `(L 0, L 1)`, a tile other than the core's tile 0: the tile's 10240 indices fetched, the barrier (its arrivals carry nothing; tile 0's arrival brings this tile its read share of the filled table), then the 128 chunks: 80 indices to
    a slot's list, 80 table rows gathered into the slot, the slot written out as four rows of the result, two slots alternating, each slot's four write-backs collected before the slot is
    gathered into again; in the end every row of the tile holds the result's final contents. -/
theorem tile_body1 (hF : (K (F := F)).Facts) (O : CellTallies nD τ sig (HIx 1)) (W : Waits sig (HIx 1)) (hO : ∀ g, O g none = 0)
    (hOlev : ∀ g ι, 0 < O g ι → 8 * (0 : Fin 1).val + 6 ≤ (K (F := F)).lev g ι) (h0 : (L 1).val ≠ 0)
    (hI : ∀ d y, ((fI d : IVec S327680 32) y).toNat < 192) :
    iprop(levAts (K (F := F)).L (K (F := F)).lev ∗ bkit fC d (cV L) (jV L)
        ∗ (idxPts fI d (wL L) ∗ outPts d (wL L) (m (outLoc d)) ∗ emp)
        ∗ scopedBufs (V d (cV L) (jV L)) ∗ scopedSems0 (V d (cV L) (jV L)) ∗ owes (V d (cV L) (jV L)) (O + oxV d (cV L)) W)
      ⊢ wp frame (wpE (defs₀ (F := F)) 𝒱₀ (V d (cV L) (jV L)) none) Set.univ
          (cc0__emb_kernel L iV (Memref.isWhole_whole _) tV (Memref.isWhole_whole _) oV (Memref.isWhole_whole _) a5 (Memref.isWhole_whole _)
            a6 (Memref.isWhole_whole _) a7 (Memref.isWhole_whole _) shV (Memref.isWhole_whole _)
            cc0_scratch4 cc0_scratch5 cc0_scratch6 cc0_scratch7 cc0_scoped0 cc0_scoped1)
          fun _ => iprop((idxPts fI d (wL L) ∗ outPts d (wL L) (outF fC fI d) ∗ shTok fC d (cV L) (jF L) ∗ emp)
            ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  have hC : ¬ (Scalar.cmpi .ne (Scalar.extui (Scalar.cmpi .eq (BitVec.ofNat 32 (L 1).val) 0#32)) 0#32 = 1#1) := by
    have hall : ∀ s : Fin 16, s.val ≠ 0 → ¬ (Scalar.cmpi .ne (Scalar.extui (Scalar.cmpi .eq (BitVec.ofNat 32 s.val) 0#32)) 0#32 = 1#1) := by decide
    exact hall (L 1) h0
  have htr : k0_t1_loop.trips = 63 := trips_eq
  simp only [cc0__emb_kernel_eq_skeleton]; unfold cc0__emb_kernel_skel
  rw [(K (F := F)).scopedBufs_V hF d (cV L) (jV L), SparseCore.Cfg.scopedSems0_V (Val := Elt F) d (cV L) (jV L), ownSems0_V, ownBufs_V]
  unfold bkit
  iintro ⟨#Hlv, ⟨⟨%κ, #Hinv⟩, Htoks, #Hrch, Hat, Hcred⟩, ⟨Hi, Ho, -⟩, ⟨⟨%f5, H5⟩, ⟨%f6, H6⟩, ⟨%f7, H7⟩, Hbufs⟩, ⟨Hs4, Hs5, Hs6, Hs7, HsA, HsB, Hsems⟩, HO⟩
  have hO' : ∀ g, (O + oxV d (cV L)) g none = 0 := fun g => by rw [Pi.add_apply, Finsupp.add_apply, hO g, oxV_none]
  ihave Hmw1 := (show levAts (K (F := F)).L (K (F := F)).lev ⊢ Transfers.MayWaits (V d (cV L) (jV L)) (default : HIx 1) (O + oxV d (cV L)) from
    (K (F := F)).mayWaits_none (thr := V d (cV L) (jV L)) hO') $$ Hlv
  ihave Hmw2 := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (pts_iSl (F := F) d L _).symm) $$ Hi
  ihave H5' := (Entails.of_eq (pts_a5 (F := F) d L _).symm) $$ H5
  ihave H6' := (Entails.of_eq (pts_a6 (F := F) d L _).symm) $$ H6
  ihave H7' := (Entails.of_eq (pts_a7 (F := F) d L _).symm) $$ H7
  -- the tile's indices fetched
  sl_exec
  ihave Hpays := (pays_intro1 (F := F) fC d L h0) $$ []
  · iempintro
  -- the barrier

  iapply (SparseCore.wp_subcoreBarrier 𝒱₀ none EB (bRd (F := F) fC) d (sc := cV L) (i := jV L) sc_bar0 (grid0.bound 1) hsub0 (L 1) rfl κ (fun _ => 0) (jV L).val
      (fun j => bRd_mem₀ fC d _ _ _) (fun _ => rfl) (bRd_expect fC d _ _) (some 0) O _) $$ [HO Htoks Hpays Hcred Hat]
  · isplitr; · iexact Hinv
    isplitl [HO]; · iexact HO
    isplitl [Htoks Hpays]
    · rw [bigSep_sep', bigSep_sep']
      isplitl [Htoks]; · iexact Htoks
      isplitl [Hpays]; · iexact Hpays
      iexact Hrch
    isplitl [Hcred]; · iexact Hcred
    isplitl [Hat]; · iexact Hat
    iapply ((K (F := F)).mayOwe_of_bound (thr := V d (cV L) (jV L)) 3 (fun p hp => by
        rw [Finset.mem_singleton] at hp; subst hp
        show (K (F := F)).lev (bcell d (cV L) (jV L)) (some 0) ≤ 3
        rw [(K (F := F)).lev_V_reg d _ _ (show (sc_bar0 : Sem sig) ≠ (K (F := F)).go from sc_bar0_ne_go)]; exact le_rfl)
      (fun g ι hg => lt_of_lt_of_le (by decide) (hOlev g ι hg)))
    iexact Hlv
  iintro ⟨HO, Hat, -, Hgot⟩
  ihave Hmy := (pays_elim (F := F) fC d L) $$ Hgot
  ihave Hmy' := (Entails.of_eq (pts_shV (F := F) d L _ _).symm) $$ Hmy

  -- chunk 0's indices to slot 0's list
  sl_exec

  -- (the last run copied the first chunk's indices to slot 0's list and stopped at the gather)
  have hin0 : ∀ x, ((lst0).view.read (Elt F) (tile_body1.sl.H6'_w5 fI d L f5 f6) x).toNat < 192 := lst_inb (F := F) fI d L (hI d) lst0 _ _ (a5_landed (F := F) fI d L f5) _ _ _ _ _ _ _ _ _ _ _ _ _ _ _ _ _ _ _ _ _ _ _ _ _
  ihave H7s := (Entails.of_eq (a7_slots (F := F) d L f7)) $$ H7'
  icases H7s with ⟨H70, H71⟩
  ihave Hrows := (Entails.of_eq (out_rowsN (F := F) d L (m (outLoc d)))) $$ Ho
  ihave Hr8 := (Entails.of_eq (Ico_take8 (F := F) (rowTodo m d L) 0 512 (by decide))) $$ Hrows
  icases Hr8 with ⟨Hn0, Hn1, Hn2, Hn3, Hn4, Hn5, Hn6, Hn7, Htodo⟩
  -- chunk 0: gathered into slot 0
  sl_exec
  -- its four rows out, in one batch on slot 0's write cell
  ihave Hn0' := (Entails.of_eq (rowP_own (F := F) d L 0 0 _ (by decide) _)) $$ Hn0
  ihave Hn1' := (Entails.of_eq (rowP_own (F := F) d L 0 1 _ (by decide) _)) $$ Hn1
  ihave Hn2' := (Entails.of_eq (rowP_own (F := F) d L 0 2 _ (by decide) _)) $$ Hn2
  ihave Hn3' := (Entails.of_eq (rowP_own (F := F) d L 0 3 _ (by decide) _)) $$ Hn3
  imod (Transfers.batch_alloc' (countersEmb : UEmb Counters 𝕄) (V d (cV L) (jV L)) (default : HIx 1) (NW L)
      (DW0 m d L (fun t => dstP L 0 t) ((rows0).view.writes (Elt F) f7 [⟨Rect.whole S80x128, tile_body1.sl.gather0 fC fI d L f5 f6 hin0⟩]))
      (sm := .dma cc0_scratch6.sem) (E := Set.univ)) $$ Hs6 with HB6
  sl_exec

  -- chunk 1: gathered into slot 1, its four rows out on slot 1's write cell
  have hin1 : ∀ x, ((lst1).view.read (Elt F) (tile_body1.sl.H6'_w5_1 fI d L f5 f6) x).toNat < 192 := lst_inb (F := F) fI d L (hI d) lst1 _ _ (a5_landed (F := F) fI d L f5) _ _ _ _ _ _ _ _ _ _ _ _ _ _ _ _ _ _ _ _ _ _ _ _ _
  sl_exec
  ihave Hn4' := (Entails.of_eq (rowP_own (F := F) d L 1 0 _ (by decide) _)) $$ Hn4
  ihave Hn5' := (Entails.of_eq (rowP_own (F := F) d L 1 1 _ (by decide) _)) $$ Hn5
  ihave Hn6' := (Entails.of_eq (rowP_own (F := F) d L 1 2 _ (by decide) _)) $$ Hn6
  ihave Hn7' := (Entails.of_eq (rowP_own (F := F) d L 1 3 _ (by decide) _)) $$ Hn7
  imod (Transfers.batch_alloc' (countersEmb : UEmb Counters 𝕄) (V d (cV L) (jV L)) (default : HIx 1) (NW L)
      (DW1 m d L (fun t => dstP L 1 t) ((rows1).view.writes (Elt F) f7 [⟨Rect.whole S80x128, tile_body1.sl.gather0_1 fC fI d L f5 f6 hin1⟩]))
      (sm := .dma cc0_scratch7.sem) (E := Set.univ)) $$ Hs7 with HB7
  sl_exec
  -- what the two slots hold: the chunks' gathered table rows
  have hgP0 : ∀ i, tile_body1.sl.gather0 fC fI d L f5 f6 hin0 i = tabN fC fI d L (2 * 0) i := (gv (F := F) fC fI d L 0 (by decide) lst0 _ _ (a5_landed (F := F) fI d L f5) _ _ _ _ _ rfl rfl rfl rfl rfl _ _ _ _ _ _ _ _ _ _ _ _ _ _ _ _ _ _ _ _ (fC d) rfl _ _ _ _ hin0)
  have hgP1 : ∀ i, tile_body1.sl.gather0_1 fC fI d L f5 f6 hin1 i = tabN fC fI d L (2 * 0 + 1) i := (gv (F := F) fC fI d L 1 (by decide) lst1 _ _ (a5_landed (F := F) fI d L f5) _ _ _ _ _ rfl rfl rfl rfl rfl _ _ _ _ _ _ _ _ _ _ _ _ _ _ _ _ _ _ _ _ (fC d) rfl _ _ _ _ hin1)
  -- the loop, by its invariant
  ihave HB6c := (Entails.of_eq (canonP0 (F := F) m d L _)) $$ HB6
  ihave HB7c := (Entails.of_eq (canonP1 (F := F) m d L _)) $$ HB7
  ihave Hdone := (Entails.of_eq (Ico_self (F := F) (rowDone fC fI d L) 0).symm) $$ []
  · iempintro
  sl_for (inv fC fI m d L (View.write (Elt F) (a5).view f5 (tile_body1.sl.dma0 fI d L) Finset.univ) O
      (insert (SemLoc.dma cc0_scratch5.sem, (default : HIx 1)) (insert (SemLoc.dma cc0_scratch4.sem, (default : HIx 1)) (insert (SemLoc.reg sc_bar0, some 0)
        (insert (SemLoc.dma cc0_scoped1.sem, default) W))))) $$ [Hmw2 H5' H6' Hmy' Hs4 Hs5 HB6c HB7c Hdone Htodo HO]

  case region =>
    intro k _
    have hk63 : k.val < 63 := (trips_eq) ▸ k.isLt
    unfold inv
    iintro ⟨#Hmw, H5, ⟨%W6, H6⟩, Hmy, Hs4, Hs5, ⟨%FS0, %hFS0, HB6⟩, ⟨%FS1, %hFS1, HB7⟩, Hdone, Htodo, %W', %hW', HO⟩
    ihave Ht8 := (Entails.of_eq (Ico_take8 (F := F) (rowTodo m d L) (8 * k.val + 8) 512 (by omega))) $$ Htodo
    icases Ht8 with ⟨Hn0, Hn1, Hn2, Hn3, Hn4, Hn5, Hn6, Hn7, Htodo⟩
    -- slot 0: the chunk's indices to its list; the write-back of the chunk before it collected
    sl_exec
    ihave H70 := (Entails.of_eq (slot0_windows (F := F) d L FS0).symm) $$ [HB6_src0 HB6_src1 HB6_src2 HB6_src3]
    · isplitl [HB6_src0]; · iexact HB6_src0
      isplitl [HB6_src1]; · iexact HB6_src1
      isplitl [HB6_src2]; · iexact HB6_src2
      iexact HB6_src3
    ihave Hd0 := (Entails.of_eq (landed0 (F := F) fC fI m d L k.val (by omega) 0 FS0 hFS0)) $$ HB6_dst0
    ihave Hd1 := (Entails.of_eq (landed0 (F := F) fC fI m d L k.val (by omega) 1 FS0 hFS0)) $$ HB6_dst1
    ihave Hd2 := (Entails.of_eq (landed0 (F := F) fC fI m d L k.val (by omega) 2 FS0 hFS0)) $$ HB6_dst2
    ihave Hd3 := (Entails.of_eq (landed0 (F := F) fC fI m d L k.val (by omega) 3 FS0 hFS0)) $$ HB6_dst3
    have hinT0 : ∀ x, ((lst0).view.read (Elt F) (tile_body1.sl.H6_w5 fI d L f5 k W6) x).toNat < 192 := lst_inb (F := F) fI d L (hI d) lst0 _ _ (a5_landed (F := F) fI d L f5) _ _ _ _ _ _ _ _ _ _ _ _ _ _ _ _ _ _ _ _ _ _ _ _ _
    -- the gather into slot 0, then its four rows out
    sl_exec
    ihave Hn0' := (Entails.of_eq (rowT_own (F := F) d L k 0 0 _ rfl _)) $$ Hn0
    ihave Hn1' := (Entails.of_eq (rowT_own (F := F) d L k 0 1 _ rfl _)) $$ Hn1
    ihave Hn2' := (Entails.of_eq (rowT_own (F := F) d L k 0 2 _ rfl _)) $$ Hn2
    ihave Hn3' := (Entails.of_eq (rowT_own (F := F) d L k 0 3 _ rfl _)) $$ Hn3
    ihave HB6z := (semVal_cast (F := F) (g := ((V d (cV L) (jV L), SemLoc.dma (⟨2, _⟩ : DmaSem sig)) : GSem nD τ sig)) (g' := c6 d (cV L) (jV L)) rfl 0) $$ HB6
    imod (Transfers.batch_alloc' (countersEmb : UEmb Counters 𝕄) (V d (cV L) (jV L)) (default : HIx 1) (NW L)
        (DW0 m d L (fun t => dstT L k 0 t) ((rows0).view.writes (Elt F) FS0 [⟨Rect.whole S80x128, tile_body1.sl.gather0_2 fC fI d L f5 k W6 hinT0⟩]))
        (sm := .dma cc0_scratch6.sem) (E := Set.univ)) $$ HB6z with HC6
    -- slot 1: the same
    sl_exec
    ihave H71 := (Entails.of_eq (slot1_windows (F := F) d L FS1).symm) $$ [HB7_src0 HB7_src1 HB7_src2 HB7_src3]
    · isplitl [HB7_src0]; · iexact HB7_src0
      isplitl [HB7_src1]; · iexact HB7_src1
      isplitl [HB7_src2]; · iexact HB7_src2
      iexact HB7_src3
    ihave He0 := (Entails.of_eq (landed1 (F := F) fC fI m d L k.val (by omega) 0 FS1 hFS1)) $$ HB7_dst0
    ihave He1 := (Entails.of_eq (landed1 (F := F) fC fI m d L k.val (by omega) 1 FS1 hFS1)) $$ HB7_dst1
    ihave He2 := (Entails.of_eq (landed1 (F := F) fC fI m d L k.val (by omega) 2 FS1 hFS1)) $$ HB7_dst2
    ihave He3 := (Entails.of_eq (landed1 (F := F) fC fI m d L k.val (by omega) 3 FS1 hFS1)) $$ HB7_dst3
    have hinT1 : ∀ x, ((lst1).view.read (Elt F) (tile_body1.sl.H6_w5_1 fI d L f5 k W6) x).toNat < 192 := lst_inb (F := F) fI d L (hI d) lst1 _ _ (a5_landed (F := F) fI d L f5) _ _ _ _ _ _ _ _ _ _ _ _ _ _ _ _ _ _ _ _ _ _ _ _ _
    sl_exec
    ihave Hn4' := (Entails.of_eq (rowT_own (F := F) d L k 1 0 _ rfl _)) $$ Hn4
    ihave Hn5' := (Entails.of_eq (rowT_own (F := F) d L k 1 1 _ rfl _)) $$ Hn5
    ihave Hn6' := (Entails.of_eq (rowT_own (F := F) d L k 1 2 _ rfl _)) $$ Hn6
    ihave Hn7' := (Entails.of_eq (rowT_own (F := F) d L k 1 3 _ rfl _)) $$ Hn7
    ihave HB7z := (semVal_cast (F := F) (g := ((V d (cV L) (jV L), SemLoc.dma (⟨3, _⟩ : DmaSem sig)) : GSem nD τ sig)) (g' := c7 d (cV L) (jV L)) rfl 0) $$ HB7
    imod (Transfers.batch_alloc' (countersEmb : UEmb Counters 𝕄) (V d (cV L) (jV L)) (default : HIx 1) (NW L)
        (DW1 m d L (fun t => dstT L k 1 t) ((rows1).view.writes (Elt F) FS1 [⟨Rect.whole S80x128, tile_body1.sl.gather0_3 fC fI d L f5 k W6 hinT1⟩]))
        (sm := .dma cc0_scratch7.sem) (E := Set.univ)) $$ HB7z with HC7
    sl_exec
    sl_step
    have hgT0 : ∀ i, tile_body1.sl.gather0_2 fC fI d L f5 k W6 hinT0 i = tabN fC fI d L (2 * (k.val + 1)) i := (gv (F := F) fC fI d L (2 * (k.val + 1) + 0) (by omega) lst0 _ _ (a5_landed (F := F) fI d L f5) _ _ _ _ _ (off3 k 0 0) (off3 k 0 1) (off3 k 0 2) (off3 k 0 3) (off3 k 0 4) _ _ _ _ _ _ _ _ _ _ _ _ _ _ _ _ _ _ _ _ (fC d) rfl _ _ _ _ hinT0)
    have hgT1 : ∀ i, tile_body1.sl.gather0_3 fC fI d L f5 k W6 hinT1 i = tabN fC fI d L (2 * (k.val + 1) + 1) i := (gv (F := F) fC fI d L (2 * (k.val + 1) + 1) (by omega) lst1 _ _ (a5_landed (F := F) fI d L f5) _ _ _ _ _ (off3 k 1 0) (off3 k 1 1) (off3 k 1 2) (off3 k 1 3) (off3 k 1 4) _ _ _ _ _ _ _ _ _ _ _ _ _ _ _ _ _ _ _ _ (fC d) rfl _ _ _ _ hinT1)
    isplitr; · iexact Hmw
    isplitl [H5]; · iexact H5
    isplitl [H6]; · iexists _; iexact H6
    isplitl [Hmy]; · iexact Hmy
    isplitl [Hs4]; · iapply (semVal_cast (F := F) (g := ((V d (cV L) (jV L), SemLoc.dma (⟨0, (by decide : (0 : ℕ) < 6)⟩ : DmaSem sig)) : GSem nD τ sig)) (g' := c4 d (cV L) (jV L)) rfl 0); iexact Hs4
    isplitl [Hs5]; · iapply (semVal_cast (F := F) (g := ((V d (cV L) (jV L), SemLoc.dma (⟨1, (by decide : (1 : ℕ) < 6)⟩ : DmaSem sig)) : GSem nD τ sig)) (g' := c5 d (cV L) (jV L)) rfl 0); iexact Hs5
    isplitl [HC6]
    · iexists ((rows0).view.writes (Elt F) FS0 [⟨Rect.whole S80x128, tile_body1.sl.gather0_2 fC fI d L f5 k W6 hinT0⟩]); isplitr
      · ipureintro; exact good_gather0 (F := F) fC fI d L (2 * (k.val + 1)) FS0 _ hgT0
      · iapply (Entails.of_eq (canonT0 (F := F) m d L k _)); iexact HC6
    isplitl [HC7]
    · iexists ((rows1).view.writes (Elt F) FS1 [⟨Rect.whole S80x128, tile_body1.sl.gather0_3 fC fI d L f5 k W6 hinT1⟩]); isplitr
      · ipureintro; exact good_gather1 (F := F) fC fI d L (2 * (k.val + 1) + 1) FS1 _ hgT1
      · iapply (Entails.of_eq (canonT1 (F := F) m d L k _)); iexact HC7
    isplitl [Hdone Hd0 Hd1 Hd2 Hd3 He0 He1 He2 He3]
    · iapply (Entails.of_eq (Ico_congr (F := F) (rowDone fC fI d L) rfl (show 8 * k.val + 4 + 4 = 8 * (k.val + 1) by omega)))
      iapply (Ico_put4 (F := F) (rowDone fC fI d L) 0 (8 * k.val + 4) (by omega))
      isplitl [Hdone Hd0 Hd1 Hd2 Hd3]
      · iapply (Ico_put4 (F := F) (rowDone fC fI d L) 0 (8 * k.val) (by omega))
        isplitl [Hdone]; · iexact Hdone
        isplitl [Hd0]; · iexact Hd0
        isplitl [Hd1]; · iexact Hd1
        isplitl [Hd2]; · iexact Hd2
        iexact Hd3
      isplitl [He0]; · iexact He0
      isplitl [He1]; · iexact He1
      isplitl [He2]; · iexact He2
      iexact He3
    isplitl [Htodo]
    · iapply (Entails.of_eq (Ico_congr (F := F) (rowTodo m d L) (show 8 * k.val + 8 + 8 = 8 * (k.val + 1) + 8 by omega) rfl)); iexact Htodo
    iexists _; isplitr
    swap; · iexact HO
    ipureintro; repeat (first | exact hW' | refine ins_ok (Or.inr (Or.inl rfl)) ?_)
  · unfold inv
    isplitr; · iexact Hmw2
    isplitl [H5']; · iexact H5'
    isplitl [H6']; · iexists _; iexact H6'
    isplitl [Hmy']; · iexact Hmy'
    isplitl [Hs4]; · iapply (semVal_cast (F := F) (g := ((V d (cV L) (jV L), SemLoc.dma (⟨0, (by decide : (0 : ℕ) < 6)⟩ : DmaSem sig)) : GSem nD τ sig)) (g' := c4 d (cV L) (jV L)) rfl 0); iexact Hs4
    isplitl [Hs5]; · iapply (semVal_cast (F := F) (g := ((V d (cV L) (jV L), SemLoc.dma (⟨1, (by decide : (1 : ℕ) < 6)⟩ : DmaSem sig)) : GSem nD τ sig)) (g' := c5 d (cV L) (jV L)) rfl 0); iexact Hs5
    isplitl [HB6c]
    · iexists ((rows0).view.writes (Elt F) f7 [⟨Rect.whole S80x128, tile_body1.sl.gather0 fC fI d L f5 f6 hin0⟩]); isplitr
      · ipureintro; exact good_gather0 (F := F) fC fI d L (2 * 0) f7 _ hgP0
      · iexact HB6c
    isplitl [HB7c]
    · iexists ((rows1).view.writes (Elt F) f7 [⟨Rect.whole S80x128, tile_body1.sl.gather0_1 fC fI d L f5 f6 hin1⟩]); isplitr
      · ipureintro; exact good_gather1 (F := F) fC fI d L (2 * 0 + 1) f7 _ hgP1
      · iexact HB7c
    isplitl [Hdone]; · iexact Hdone
    isplitl [Htodo]; · iexact Htodo
    iexists _; isplitr
    swap; · iexact HO
    ipureintro; exact fun p hp => .inl hp
  iintro %_ HI
  unfold inv
  icases HI with ⟨-, H5, ⟨%W6, H6⟩, Hmy, Hs4, Hs5, ⟨%FS0, %hFS0, HB6⟩, ⟨%FS1, %hFS1, HB7⟩, Hdone, -, %W', %hW', HO⟩
  -- the last two chunks' write-backs collected
  sl_exec
  sl_step
  ihave Hd0 := (Entails.of_eq (landed0 (F := F) fC fI m d L k0_t1_loop.trips (by omega) 0 FS0 hFS0)) $$ HB6_dst0
  ihave Hd1 := (Entails.of_eq (landed0 (F := F) fC fI m d L k0_t1_loop.trips (by omega) 1 FS0 hFS0)) $$ HB6_dst1
  ihave Hd2 := (Entails.of_eq (landed0 (F := F) fC fI m d L k0_t1_loop.trips (by omega) 2 FS0 hFS0)) $$ HB6_dst2
  ihave Hd3 := (Entails.of_eq (landed0 (F := F) fC fI m d L k0_t1_loop.trips (by omega) 3 FS0 hFS0)) $$ HB6_dst3
  ihave He0 := (Entails.of_eq (landed1 (F := F) fC fI m d L k0_t1_loop.trips (by omega) 0 FS1 hFS1)) $$ HB7_dst0
  ihave He1 := (Entails.of_eq (landed1 (F := F) fC fI m d L k0_t1_loop.trips (by omega) 1 FS1 hFS1)) $$ HB7_dst1
  ihave He2 := (Entails.of_eq (landed1 (F := F) fC fI m d L k0_t1_loop.trips (by omega) 2 FS1 hFS1)) $$ HB7_dst2
  ihave He3 := (Entails.of_eq (landed1 (F := F) fC fI m d L k0_t1_loop.trips (by omega) 3 FS1 hFS1)) $$ HB7_dst3
  isplitl [Hi' Hdone Hd0 Hd1 Hd2 Hd3 He0 He1 He2 He3 Hmy]
  · isplitl [Hi']; · iapply (Entails.of_eq (pts_iSl (F := F) d L _)); iexact Hi'
    isplitl [Hdone Hd0 Hd1 Hd2 Hd3 He0 He1 He2 He3]
    · iapply (Entails.of_eq (out_rowsN (F := F) d L (outF fC fI d)).symm)
      iapply (Entails.of_eq (Ico_congr (F := F) (rowDone fC fI d L) rfl (show 8 * k0_t1_loop.trips + 4 + 4 = 512 by omega)))
      iapply (Ico_put4 (F := F) (rowDone fC fI d L) 0 (8 * k0_t1_loop.trips + 4) (by omega))
      isplitl [Hdone Hd0 Hd1 Hd2 Hd3]
      · iapply (Ico_put4 (F := F) (rowDone fC fI d L) 0 (8 * k0_t1_loop.trips) (by omega))
        isplitl [Hdone]; · iexact Hdone
        isplitl [Hd0]; · iexact Hd0
        isplitl [Hd1]; · iexact Hd1
        isplitl [Hd2]; · iexact Hd2
        iexact Hd3
      isplitl [He0]; · iexact He0
      isplitl [He1]; · iexact He1
      isplitl [He2]; · iexact He2
      iexact He3
    isplitl [Hmy]; · iapply (Entails.of_eq (pts_shV (F := F) d L _ _)); iexact Hmy
    iempintro
  isplitl [H5 H6 HB6_src0 HB6_src1 HB6_src2 HB6_src3 HB7_src0 HB7_src1 HB7_src2 HB7_src3 Hbufs]
  · isplitl [H5]; · iexists _; iapply (Entails.of_eq (pts_a5 (F := F) d L _)); iexact H5
    isplitl [H6]; · iexists _; iapply (Entails.of_eq (pts_a6 (F := F) d L _)); iexact H6
    isplitl [HB6_src0 HB6_src1 HB6_src2 HB6_src3 HB7_src0 HB7_src1 HB7_src2 HB7_src3]
    · iapply (a7_join (F := F) d L FS0 FS1)
      isplitl [HB6_src0 HB6_src1 HB6_src2 HB6_src3]
      · iapply (Entails.of_eq (slot0_windows (F := F) d L FS0).symm)
        isplitl [HB6_src0]; · iexact HB6_src0
        isplitl [HB6_src1]; · iexact HB6_src1
        isplitl [HB6_src2]; · iexact HB6_src2
        iexact HB6_src3
      · iapply (Entails.of_eq (slot1_windows (F := F) d L FS1).symm)
        isplitl [HB7_src0]; · iexact HB7_src0
        isplitl [HB7_src1]; · iexact HB7_src1
        isplitl [HB7_src2]; · iexact HB7_src2
        iexact HB7_src3
    iexact Hbufs
  isplitl [Hs4 Hs5 HB6 HB7 HsA HsB Hsems]
  · isplitl [Hs4]; · iexact Hs4
    isplitl [Hs5]; · iexact Hs5
    isplitl [HB6]; · iapply (semVal_cast (F := F) (g := ((V d (cV L) (jV L), SemLoc.dma (⟨2, (by decide : (2 : ℕ) < 6)⟩ : DmaSem sig)) : GSem nD τ sig)) (g' := c6 d (cV L) (jV L)) rfl 0); iexact HB6
    isplitl [HB7]; · iapply (semVal_cast (F := F) (g := ((V d (cV L) (jV L), SemLoc.dma (⟨3, (by decide : (3 : ℕ) < 6)⟩ : DmaSem sig)) : GSem nD τ sig)) (g' := c7 d (cV L) (jV L)) rfl 0); iexact HB7
    isplitl [HsA]; · iapply (semVal_cast (F := F) (g := ((V d (cV L) (jV L), SemLoc.dma (⟨4, (by decide : (4 : ℕ) < 6)⟩ : DmaSem sig)) : GSem nD τ sig)) (g' := cA d (cV L) (jV L)) rfl 0); iexact HsA
    isplitl [HsB]; · iapply (semVal_cast (F := F) (g := ((V d (cV L) (jV L), SemLoc.dma (⟨5, (by decide : (5 : ℕ) < 6)⟩ : DmaSem sig)) : GSem nD τ sig)) (g' := cB d (cV L) (jV L)) rfl 0); iexact HsB
    iexact Hsems
  iexists _; isplitr
  swap; · iexact HO
  ipureintro
  have hpro : ∀ p ∈ ((insert (SemLoc.dma cc0_scratch5.sem, (default : HIx 1)) (insert (SemLoc.dma cc0_scratch4.sem, (default : HIx 1)) (insert (SemLoc.reg sc_bar0, some 0)
        (insert (SemLoc.dma cc0_scoped1.sem, default) W)))) : Waits sig (HIx 1)), p ∈ W ∨ p.2 = none ∨ p.2 = some (0 : Fin 1) :=
    ins_ok (Or.inr (Or.inl rfl)) (ins_ok (Or.inr (Or.inl rfl)) (ins_ok (Or.inr (Or.inr rfl)) (ins_ok (Or.inr (Or.inl rfl)) (fun p hp => Or.inl hp))))
  have hW'' : ∀ p ∈ W', p ∈ W ∨ p.2 = none ∨ p.2 = some (0 : Fin 1) := fun p hp => by
    rcases hW' p hp with h | h | h
    · exact hpro p h
    · exact Or.inr (Or.inl h)
    · exact Or.inr (Or.inr h)
  repeat (first | exact hW'' | refine ins_ok (Or.inr (Or.inl rfl)) ?_)

end Tile

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__emb_kernel (coordsV c s)
          iV (Memref.isWhole_whole _) tV (Memref.isWhole_whole _) oV (Memref.isWhole_whole _) a5 (Memref.isWhole_whole _)
          a6 (Memref.isWhole_whole _) a7 (Memref.isWhole_whole _) shV (Memref.isWhole_whole _)
          cc0_scratch4 cc0_scratch5 cc0_scratch6 cc0_scratch7 cc0_scoped0 cc0_scoped1) ⟨⟩ c s := rfl

theorem P_go' (d : Dev nD) (c : Fin ((K (F := F)).nCore 0)) (i : Fin ((K (F := F)).nSub 0)) : (P fC fI m).go 0 d c i
    = iprop(idxPts fI d (wid (cL c) (Fin.cast nSub_zero i)) ∗ outPts d (wid (cL c) (Fin.cast nSub_zero i)) (m (outLoc d))
        ∗ (if (Fin.cast nSub_zero i).val = 0 then iprop(combTok fC d (cL c) ∗ ∃ f, shLoc d (coreOf c) ↦{fullShare} f) else iprop(emp))) := rfl
theorem P_td' (d : Dev nD) (c : Fin ((K (F := F)).nCore 0)) (i : Fin ((K (F := F)).nSub 0)) : (P fC fI m).td 0 d c i
    = iprop(idxPts fI d (wid (cL c) (Fin.cast nSub_zero i)) ∗ outPts d (wid (cL c) (Fin.cast nSub_zero i)) (outF fC fI d) ∗ shTok fC d (coreOf c) (Fin.cast nSub_zero i)
        ∗ (if (Fin.cast nSub_zero i).val = 0 then iprop(combTok fC d (cL c) ∗ shRem fC d (coreOf c)) else iprop(emp))) := rfl

set_option maxRecDepth 16384 in
/-- Every tile's task meets the launch theorem's obligation: tile 0 of a core by the first form of the body, the others by the second. -/
theorem tileObl (hF : (K (F := F)).Facts) (hI : ∀ d y, ((fI d : IVec S327680 32) y).toNat < 192) : (K (F := F)).TileObl (D (F := F)) 𝒱 (P fC fI m) v₀ 0 := by
  intro d c i O W hO hOlev _
  have hc : ((K (F := F)).core 0 c).val < 2 := c.isLt
  have hci : ((K (F := F)).core 0 c).val < grid0.bound 0 ∧ ((K (F := F)).sub 0 i).val < grid0.bound 1 := ⟨c.isLt, i.isLt⟩
  rw [show (P fC fI m).ox 0 (V d ((K (F := F)).core 0 c) ((K (F := F)).sub 0 i)) = oxV d ((K (F := F)).core 0 c) from if_pos hc,
    show (P fC fI m).x 0 (V d ((K (F := F)).core 0 c) ((K (F := F)).sub 0 i)) = bkit fC d ((K (F := F)).core 0 c) ((K (F := F)).sub 0 i) from if_pos hc]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  rw [P_go', P_td']
  by_cases h0 : i.val = 0
  · rw [if_pos (show (Fin.cast nSub_zero i).val = 0 from h0), if_pos (show (Fin.cast nSub_zero i).val = 0 from h0)]
    exact tile_body0 fC fI m d (coordsV ⟨_, hci.1⟩ ⟨_, hci.2⟩) hF O W hO hOlev h0 hI
  · rw [if_neg (show ¬ (Fin.cast nSub_zero i).val = 0 from h0), if_neg (show ¬ (Fin.cast nSub_zero i).val = 0 from h0)]
    exact tile_body1 fC fI m d (coordsV ⟨_, hci.1⟩ ⟨_, hci.2⟩) hF O W hO hOlev h0 hI

end Cert.Proof.KI

end
-- ==== Proof.KBMem.lean ====
import proofs.«206824_g72705206386957_cont_9to1_m_461_20_alg».proof.Proof.KBSetup

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

local notation "iV" => (Memref.whole Cert.Kernel.main_v9_scv : Memref Cert.Kernel.sig Kind.scVector Space.hbm Cert.Kernel.S327680 EltTy.i32)
local notation "tV" => (Memref.whole Cert.Kernel.main_v5_scv : Memref Cert.Kernel.sig Kind.scVector Space.hbm Cert.Kernel.S192x128 EltTy.f32)
local notation "oV" => (Memref.whole Cert.Kernel.main_v10_scv : Memref Cert.Kernel.sig Kind.scVector Space.hbm Cert.Kernel.S16384x20x128 EltTy.f32)
local notation "shV" => (Memref.whole Cert.Kernel.cc0_scratch3 : Memref Cert.Kernel.sig Kind.scVector Space.shared Cert.Kernel.S192x128 EltTy.f32)
local notation "a5" => (Memref.whole Cert.Kernel.cc0_scratch0 : Memref Cert.Kernel.sig Kind.scVector Space.vmem Cert.Kernel.S10240 EltTy.i32)
local notation "a6" => (Memref.whole Cert.Kernel.cc0_scratch1 : Memref Cert.Kernel.sig Kind.scVector Space.vmem Cert.Kernel.S2x1x80 EltTy.i32)
local notation "a7" => (Memref.whole Cert.Kernel.cc0_scratch2 : Memref Cert.Kernel.sig Kind.scVector Space.vmem Cert.Kernel.S2x80x128 EltTy.f32)

variable [FloatOps F]
variable (fC : (d : Dev nD) → Buf (Elt F) (combLoc d)) (fI : (d : Dev nD) → Buf (Elt F) (idxLoc d))
variable (m : (ℓ : Loc nD τ sig) → Buf (Elt F) ℓ)

section Tile

variable (d : Dev nD) (L : grid0.Coords)

abbrev cV (L : grid0.Coords) : Fin τ.nSC := (L 0).castLE hcore0
abbrev jV (L : grid0.Coords) : Fin τ.nSub := (L 1).castLE hsub0
omit [FloatOps F] in
theorem bound_zero : grid0.bound 0 = 2 := rfl
omit [FloatOps F] in
theorem bound_one : grid0.bound 1 = 16 := rfl
abbrev cF (L : grid0.Coords) : Fin 2 := Fin.cast bound_zero (L 0)
abbrev jF (L : grid0.Coords) : Fin 16 := Fin.cast bound_one (L 1)
abbrev wL (L : grid0.Coords) : Fin 32 := wid (cF L) (jF L)

/-- The tile's slice of the flat indices, as the task addresses it. -/
abbrev iSl (L : grid0.Coords) : Memref sig .scVector .hbm S10240 .i32 := (iV).slice (Rect.unit (s := S327680) (k0_off1 L) S10240.size (k0_off1_inb L)) (fun _ => rfl)
abbrev c4 (d : Dev nD) (c : Fin τ.nSC) (i : Fin τ.nSub) : GSem nD τ sig := (V d c i, .dma cc0_scratch4.sem)
abbrev c5 (d : Dev nD) (c : Fin τ.nSC) (i : Fin τ.nSub) : GSem nD τ sig := (V d c i, .dma cc0_scratch5.sem)
abbrev c6 (d : Dev nD) (c : Fin τ.nSC) (i : Fin τ.nSub) : GSem nD τ sig := (V d c i, .dma cc0_scratch6.sem)
abbrev c7 (d : Dev nD) (c : Fin τ.nSC) (i : Fin τ.nSub) : GSem nD τ sig := (V d c i, .dma cc0_scratch7.sem)
abbrev cA (d : Dev nD) (c : Fin τ.nSC) (i : Fin τ.nSub) : GSem nD τ sig := (V d c i, .dma cc0_scoped0.sem)
abbrev cB (d : Dev nD) (c : Fin τ.nSC) (i : Fin τ.nSub) : GSem nD τ sig := (V d c i, .dma cc0_scoped1.sem)

omit [FloatOps F] in
theorem cell_ne (x y : DmaSem sig) (h : x ≠ y) : ((V d (cV L) (jV L), SemLoc.dma x) : GSem nD τ sig) ≠ (V d (cV L) (jV L), SemLoc.dma y) :=
  fun e => h (SemLoc.dma.inj (Prod.mk.inj e).2)

omit [FloatOps F] in
theorem ownSems0_V :
    (ownSems0 (V d (cV L) (jV L)) : sProp 𝕄)
      = iprop(semVal (c4 d (cV L) (jV L)) 0 ∗ semVal (c5 d (cV L) (jV L)) 0 ∗ semVal (c6 d (cV L) (jV L)) 0 ∗ semVal (c7 d (cV L) (jV L)) 0 ∗ semVal (cA d (cV L) (jV L)) 0 ∗ semVal (cB d (cV L) (jV L)) 0
          ∗ bigSep (((((((ownCells (V d (cV L) (jV L))).erase (c4 d (cV L) (jV L))).erase (c5 d (cV L) (jV L))).erase (c6 d (cV L) (jV L))).erase (c7 d (cV L) (jV L))).erase (cA d (cV L) (jV L))).erase (cB d (cV L) (jV L))) fun g => semVal g 0) := by
  unfold SparseCore.Cfg.ownSems0
  rw [SparseCore.bigSep_erase' ((mem_ownCells (g := (c4 d (cV L) (jV L)))).mpr ⟨rfl, by show (SemLoc.dma cc0_scratch4.sem : SemLoc sig).isScoped .scVector = true; decide⟩),
    SparseCore.bigSep_erase' (Finset.mem_erase.mpr ⟨cell_ne d L cc0_scratch5.sem cc0_scratch4.sem (by decide), (mem_ownCells (g := (c5 d (cV L) (jV L)))).mpr ⟨rfl, by show (SemLoc.dma cc0_scratch5.sem : SemLoc sig).isScoped .scVector = true; decide⟩⟩),
    SparseCore.bigSep_erase' (Finset.mem_erase.mpr ⟨cell_ne d L cc0_scratch6.sem cc0_scratch5.sem (by decide), Finset.mem_erase.mpr ⟨cell_ne d L cc0_scratch6.sem cc0_scratch4.sem (by decide), (mem_ownCells (g := (c6 d (cV L) (jV L)))).mpr ⟨rfl, by show (SemLoc.dma cc0_scratch6.sem : SemLoc sig).isScoped .scVector = true; decide⟩⟩⟩),
    SparseCore.bigSep_erase' (Finset.mem_erase.mpr ⟨cell_ne d L cc0_scratch7.sem cc0_scratch6.sem (by decide), Finset.mem_erase.mpr ⟨cell_ne d L cc0_scratch7.sem cc0_scratch5.sem (by decide), Finset.mem_erase.mpr ⟨cell_ne d L cc0_scratch7.sem cc0_scratch4.sem (by decide), (mem_ownCells (g := (c7 d (cV L) (jV L)))).mpr ⟨rfl, by show (SemLoc.dma cc0_scratch7.sem : SemLoc sig).isScoped .scVector = true; decide⟩⟩⟩⟩),
    SparseCore.bigSep_erase' (Finset.mem_erase.mpr ⟨cell_ne d L cc0_scoped0.sem cc0_scratch7.sem (by decide), Finset.mem_erase.mpr ⟨cell_ne d L cc0_scoped0.sem cc0_scratch6.sem (by decide), Finset.mem_erase.mpr ⟨cell_ne d L cc0_scoped0.sem cc0_scratch5.sem (by decide), Finset.mem_erase.mpr ⟨cell_ne d L cc0_scoped0.sem cc0_scratch4.sem (by decide), (mem_ownCells (g := (cA d (cV L) (jV L)))).mpr ⟨rfl, by show (SemLoc.dma cc0_scoped0.sem : SemLoc sig).isScoped .scVector = true; decide⟩⟩⟩⟩⟩),
    SparseCore.bigSep_erase' (Finset.mem_erase.mpr ⟨cell_ne d L cc0_scoped1.sem cc0_scoped0.sem (by decide), Finset.mem_erase.mpr ⟨cell_ne d L cc0_scoped1.sem cc0_scratch7.sem (by decide), Finset.mem_erase.mpr ⟨cell_ne d L cc0_scoped1.sem cc0_scratch6.sem (by decide), Finset.mem_erase.mpr ⟨cell_ne d L cc0_scoped1.sem cc0_scratch5.sem (by decide), Finset.mem_erase.mpr ⟨cell_ne d L cc0_scoped1.sem cc0_scratch4.sem (by decide), (mem_ownCells (g := (cB d (cV L) (jV L)))).mpr ⟨rfl, by show (SemLoc.dma cc0_scoped1.sem : SemLoc sig).isScoped .scVector = true; decide⟩⟩⟩⟩⟩⟩)]

abbrev r0 (L : grid0.Coords) : DevRef τ sig := (Proc.scVector (cV L) (jV L)).devRef cc0_scratch0
abbrev r1 (L : grid0.Coords) : DevRef τ sig := (Proc.scVector (cV L) (jV L)).devRef cc0_scratch1
abbrev r2 (L : grid0.Coords) : DevRef τ sig := (Proc.scVector (cV L) (jV L)).devRef cc0_scratch2

omit [FloatOps F] in
/-- The tile's three scratch buffers are among its own: each at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f)
          ∗ bigSep ((((ownRefs (τ := τ) (.scVector (cV L) (jV L))).erase (r0 L)).erase (r1 L)).erase (r2 L))
              fun b => iprop(∃ f, ((d, b) : Loc nD τ sig) ↦{fullShare} f)) := by
  unfold SparseCore.Cfg.ownBufs
  rw [SparseCore.bigSep_erase' (SparseCore.Cfg.mem_ownRefs_of_owner (p := Proc.scVector (cV L) (jV L)) (b := r0 L) rfl),
    SparseCore.bigSep_erase' (Finset.mem_erase.mpr ⟨(by intro h; cases h), SparseCore.Cfg.mem_ownRefs_of_owner (p := Proc.scVector (cV L) (jV L)) (b := r1 L) rfl⟩),
    SparseCore.bigSep_erase' (Finset.mem_erase.mpr ⟨(by intro h; cases h), Finset.mem_erase.mpr ⟨(by intro h; cases h),
      SparseCore.Cfg.mem_ownRefs_of_owner (p := Proc.scVector (cV L) (jV L)) (b := r2 L) rfl⟩⟩)]

omit [FloatOps F] in
theorem set_iSl : (iSl L).view.set = idxSet (wL L) := by
  show ((View.whole (main_v9_scv : Ref sig .scVector)).slice (Rect.unit (s := S327680) (k0_off1 L) S10240.size (k0_off1_inb L))).set = _
  rw [View.set_slice_whole]
  ext j
  rw [Rect.mem_set_unit]
  simp only [idxSet, Finset.mem_filter, Finset.mem_univ, true_and]
  rw [k0_off1_eq]
  have h1 : (L 1).val < 16 := (L 1).isLt
  have h0 : (L 0).val < 2 := (L 0).isLt
  constructor
  · intro h
    have := h 0
    simp only [Matrix.cons_val_zero] at this
    show (j 0).val / 10240 = 2 * (L 1).val + (L 0).val
    omega
  · intro h a
    have h' : (j 0).val / 10240 = 2 * (L 1).val + (L 0).val := h
    match a with
    | 0 =>
      simp only [Matrix.cons_val_zero]
      have hj : (j 0).val < 327680 := (j 0).isLt
      omega

omit [FloatOps F] in
theorem pts_iSl (f : Buf (Elt F) (idxLoc d)) :
    ((iSl L).view.loc (V d (cV L) (jV L)) ↦[(iSl L).view.set]{fullShare} f : sProp 𝕄) = idxLoc d ↦[idxSet (wL L)]{fullShare} f := by
  rw [set_iSl]
omit [FloatOps F] in
theorem pts_tV (q : PosShare TreeShare) (f : Buf (Elt F) (combLoc d)) :
    ((tV).view.loc (V d (cV L) (jV L)) ↦{q} f : sProp 𝕄) = combLoc d ↦{q} f := rfl
omit [FloatOps F] in
theorem pts_shV (q : PosShare TreeShare) (f : Buf (Elt F) (shLoc d (cV L))) :
    ((shV).view.loc (V d (cV L) (jV L)) ↦{q} f : sProp 𝕄) = shLoc d (cV L) ↦{q} f := rfl
omit [FloatOps F] in
theorem pts_a5 (f : Buf (Elt F) ((V d (cV L) (jV L)).loc cc0_scratch0)) :
    ((a5).view.loc (V d (cV L) (jV L)) ↦{fullShare} f : sProp 𝕄) = (V d (cV L) (jV L)).loc cc0_scratch0 ↦{fullShare} f := rfl
omit [FloatOps F] in
theorem pts_a6 (f : Buf (Elt F) ((V d (cV L) (jV L)).loc cc0_scratch1)) :
    ((a6).view.loc (V d (cV L) (jV L)) ↦{fullShare} f : sProp 𝕄) = (V d (cV L) (jV L)).loc cc0_scratch1 ↦{fullShare} f := rfl
omit [FloatOps F] in
theorem pts_a7 (f : Buf (Elt F) ((V d (cV L) (jV L)).loc cc0_scratch2)) :
    ((a7).view.loc (V d (cV L) (jV L)) ↦{fullShare} f : sProp 𝕄) = (V d (cV L) (jV L)).loc cc0_scratch2 ↦{fullShare} f := rfl

/-- The index list of slot 0 and of slot 1, and the row buffer's two slots, as the task addresses them. -/
abbrev lst0 : Memref sig .scVector .vmem S80 .i32 :=
  ((((a6).slice (Rect.unit (s := S2x1x80) ![0, 0, 0] S1x1x80.size inb_S2x1x80_S1x1x80_0_0_0) (fun _ => rfl)).squeeze S1x80 squeezes_S1x1x80_S1x80).slice
    (Rect.unit (s := S1x80) ![0, 0] S1x80.size inb_S1x80_S1x80_0_0) (fun _ => rfl)).squeeze S80 squeezes_S1x80_S80
abbrev lst1 : Memref sig .scVector .vmem S80 .i32 :=
  ((((a6).slice (Rect.unit (s := S2x1x80) ![1, 0, 0] S1x1x80.size inb_S2x1x80_S1x1x80_1_0_0) (fun _ => rfl)).squeeze S1x80 squeezes_S1x1x80_S1x80).slice
    (Rect.unit (s := S1x80) ![0, 0] S1x80.size inb_S1x80_S1x80_0_0) (fun _ => rfl)).squeeze S80 squeezes_S1x80_S80
abbrev rows0 : Memref sig .scVector .vmem S80x128 .f32 :=
  ((a7).slice (Rect.unit (s := S2x80x128) ![0, 0, 0] S1x80x128.size inb_S2x80x128_S1x80x128_0_0_0) (fun _ => rfl)).squeeze S80x128 squeezes_S1x80x128_S80x128
abbrev rows1 : Memref sig .scVector .vmem S80x128 .f32 :=
  ((a7).slice (Rect.unit (s := S2x80x128) ![1, 0, 0] S1x80x128.size inb_S2x80x128_S1x80x128_1_0_0) (fun _ => rfl)).squeeze S80x128 squeezes_S1x80x128_S80x128

omit [FloatOps F] in
theorem inb_src (t : Fin 4) : ∀ a, (![20 * t.val, 0] : Fin 2 → Nat) a + S20x128.size a ≤ S80x128.size a := by
  revert t; decide

/-- Window `t` (twenty rows) of a slot of the row buffer: the source of the slot's `t`-th write-back. -/
abbrev srcW0 (t : Fin 4) : Memref sig .scVector .vmem S20x128 .f32 := (rows0).slice (Rect.unit (s := S80x128) ![20 * t.val, 0] S20x128.size (inb_src t)) (fun _ => rfl)
abbrev srcW1 (t : Fin 4) : Memref sig .scVector .vmem S20x128 .f32 := (rows1).slice (Rect.unit (s := S80x128) ![20 * t.val, 0] S20x128.size (inb_src t)) (fun _ => rfl)

/-- The result's row that write-back `r₂` of the prologue's chunk `r₁` lands in, as the task addresses it. -/
abbrev dstP (L : grid0.Coords) (r₁ : Fin 2) (r₂ : Fin 4) : Memref sig .scVector .hbm S20x128 .f32 :=
  ((oV).slice (Rect.unit (s := S16384x20x128) (k0_off2 L (BitVec.ofNat 32 (4 * r₁.val)) (BitVec.ofNat 32 r₂.val)) S1x20x128.size (k0_off2_inb L r₁ r₂)) (fun _ => rfl)).squeeze S20x128 squeezes_S1x20x128_S20x128
/-- The result's row that write-back `r₂` of slot `r₁` lands in at the loop's trip `t`. -/
abbrev dstT (L : grid0.Coords) (t : Fin k0_t1_loop.trips) (r₁ : Fin 2) (r₂ : Fin 4) : Memref sig .scVector .hbm S20x128 .f32 :=
  ((oV).slice (Rect.unit (s := S16384x20x128) (k0_off5 L t (BitVec.ofNat 32 r₁.val) (BitVec.ofNat 32 r₂.val)) S1x20x128.size (k0_off5_inb L t r₁ r₂)) (fun _ => rfl)).squeeze S20x128 squeezes_S1x20x128_S20x128

/-- Row `r` of the result: its twenty by 128 entries. -/
def orow (r : Fin 16384) : Finset S16384x20x128.Idx := Finset.univ.filter fun j => (j 0).val = r.val

end Tile

end Cert.Proof.KB

end
-- ==== Proof.KBGeom.lean ====
/-
  The geometry of a tile's memory accesses: which elements of the result, of the row buffer, of the index lists and of the flat index
  array each of the task's views covers, and where each of a view's indices sits in its array. Finite sets and index embeddings only;
  nothing here speaks of the program's steps.
-/
import proofs.«206824_g72705206386957_cont_9to1_m_461_20_alg».proof.Proof.KBMem
import Idealize.ShloMosaic.Lib.Exec.Geometry

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

local notation "iV" => (Memref.whole Cert.Kernel.main_v9_scv : Memref Cert.Kernel.sig Kind.scVector Space.hbm Cert.Kernel.S327680 EltTy.i32)
local notation "tV" => (Memref.whole Cert.Kernel.main_v5_scv : Memref Cert.Kernel.sig Kind.scVector Space.hbm Cert.Kernel.S192x128 EltTy.f32)
local notation "oV" => (Memref.whole Cert.Kernel.main_v10_scv : Memref Cert.Kernel.sig Kind.scVector Space.hbm Cert.Kernel.S16384x20x128 EltTy.f32)
local notation "shV" => (Memref.whole Cert.Kernel.cc0_scratch3 : Memref Cert.Kernel.sig Kind.scVector Space.shared Cert.Kernel.S192x128 EltTy.f32)
local notation "a5" => (Memref.whole Cert.Kernel.cc0_scratch0 : Memref Cert.Kernel.sig Kind.scVector Space.vmem Cert.Kernel.S10240 EltTy.i32)
local notation "a6" => (Memref.whole Cert.Kernel.cc0_scratch1 : Memref Cert.Kernel.sig Kind.scVector Space.vmem Cert.Kernel.S2x1x80 EltTy.i32)
local notation "a7" => (Memref.whole Cert.Kernel.cc0_scratch2 : Memref Cert.Kernel.sig Kind.scVector Space.vmem Cert.Kernel.S2x80x128 EltTy.f32)

variable [FloatOps F]
variable (fC : (d : Dev nD) → Buf (Elt F) (combLoc d)) (fI : (d : Dev nD) → Buf (Elt F) (idxLoc d))
variable (m : (ℓ : Loc nD τ sig) → Buf (Elt F) ℓ)

section Tile

variable (d : Dev nD) (L : grid0.Coords)

/-! ## Where a squeezed view's indices sit -/

omit [FloatOps F] in
/-- Dropping a leading unit axis: index (a, b) of the squeezed shape is index (0, a, b). -/
theorem squeeze3_idx {n1 n2 : Nat} (h : (⟨2, ![n1, n2]⟩ : Shape).numel = (⟨3, ![1, n1, n2]⟩ : Shape).numel)
    (i : (⟨2, ![n1, n2]⟩ : Shape).Idx) :
    Shape.reshapeEquiv h i = (ix3 (0 : Fin 1) (i 0) (i 1) : (⟨3, ![1, n1, n2]⟩ : Shape).Idx) :=
  Shape.reshapeEquiv_eq_of_rowMajor h (by
    rw [Shape.rowMajor_val_three, Shape.rowMajor_val_two]
    show (0 * n1 + (i 0).val) * n2 + (i 1).val = (i 0).val * n2 + (i 1).val
    rw [Nat.zero_mul, Nat.zero_add])

omit [FloatOps F] in
/-- Dropping the leading unit axis of a rank-2 shape: index a is index (0, a). -/
theorem squeeze2_idx {n1 : Nat} (h : (⟨1, ![n1]⟩ : Shape).numel = (⟨2, ![1, n1]⟩ : Shape).numel)
    (i : (⟨1, ![n1]⟩ : Shape).Idx) :
    Shape.reshapeEquiv h i = (ix2 (0 : Fin 1) (i 0) : (⟨2, ![1, n1]⟩ : Shape).Idx) :=
  Shape.reshapeEquiv_eq_of_rowMajor h (by
    rw [Shape.rowMajor_val_two, Shape.rowMajor_val_one]
    show 0 * n1 + (i 0).val = (i 0).val
    rw [Nat.zero_mul, Nat.zero_add])

omit [FloatOps F] in
theorem wL_val : (wL L).val = 2 * (L 1).val + (L 0).val := rfl

omit [FloatOps F] in
theorem rowP_lt (r₁ : Fin 2) (r₂ : Fin 4) : 512 * (wL L).val + 4 * r₁.val + r₂.val < 16384 := by
  have := (wL L).isLt; have := r₁.isLt; have := r₂.isLt; omega
omit [FloatOps F] in
theorem rowT_lt (t : Fin k0_t1_loop.trips) (r₁ : Fin 2) (r₂ : Fin 4) : 512 * (wL L).val + 8 * t.val + 4 * r₁.val + r₂.val + 8 < 16384 := by
  have := (wL L).isLt; have := r₁.isLt; have := r₂.isLt; have := t.isLt; have := k0_t1_abs.2.1; omega

/-! ## A row of the result, in one spelling -/

omit [FloatOps F] in
theorem inb_row (r : ℕ) (hr : r < 16384) : ∀ a, (![r, 0, 0] : Fin 3 → Nat) a + S1x20x128.size a ≤ S16384x20x128.size a := by
  intro a; match a with
  | 0 => show r + 1 ≤ 16384; omega
  | 1 => show 0 + 20 ≤ 20; omega
  | 2 => show 0 + 128 ≤ 128; omega

/-- Row `r` of the result as a memref, in the one spelling the loop's invariant uses. -/
abbrev dstRow (r : ℕ) (hr : r < 16384) : Memref sig .scVector .hbm S20x128 .f32 :=
  ((oV).slice (Rect.unit (s := S16384x20x128) ![r, 0, 0] S1x20x128.size (inb_row r hr)) (fun _ => rfl)).squeeze S20x128 squeezes_S1x20x128_S20x128

/-- A row sliced at any offsets that equal `![r, 0, 0]` is that row. -/
abbrev dstO (off : Fin 3 → ℕ) (h : ∀ a, off a + S1x20x128.size a ≤ S16384x20x128.size a) : Memref sig .scVector .hbm S20x128 .f32 :=
  ((oV).slice (Rect.unit (s := S16384x20x128) off S1x20x128.size h) (fun _ => rfl)).squeeze S20x128 squeezes_S1x20x128_S20x128

omit [FloatOps F] in
theorem dstO_eq (off : Fin 3 → ℕ) (h) (r : ℕ) (hr : r < 16384) (e : off = ![r, 0, 0]) : dstO off h = dstRow r hr := by
  subst e; rfl

omit [FloatOps F] in
theorem emb_dstRow (r : ℕ) (hr : r < 16384) (i : S20x128.Idx) :
    (dstRow r hr).view.emb i = (ix3 (⟨r, hr⟩ : Fin 16384) (i 0) (i 1) : S16384x20x128.Idx) := by
  have e : (dstRow r hr).view.emb i
      = (Rect.unit (s := S16384x20x128) ![r, 0, 0] S1x20x128.size (inb_row r hr)).emb
          (Shape.reshapeEquiv (squeezes_S1x20x128_S20x128).numel_eq i) := rfl
  rw [e, squeeze3_idx]
  funext a
  apply Fin.ext
  rw [Rect.emb_apply, Rect.off_unit, Rect.stride_unit]
  match a with
  | ⟨0, _⟩ => show r + 1 * 0 = r; omega
  | ⟨1, _⟩ => show 0 + 1 * (i 0).val = (i 0).val; omega
  | ⟨2, _⟩ => show 0 + 1 * (i 1).val = (i 1).val; omega

omit [FloatOps F] in
theorem set_dstRow (r : ℕ) (hr : r < 16384) : (dstRow r hr).view.set = orow ⟨r, hr⟩ := by
  ext j
  simp only [View.set, Finset.mem_map, Finset.mem_univ, true_and, orow, Finset.mem_filter]
  constructor
  · rintro ⟨i, rfl⟩
    exact congrArg (fun k : S16384x20x128.Idx => (k 0).val) (emb_dstRow r hr i)
  · intro h
    refine ⟨(ix2 (n0 := 20) (n1 := 128) (j 1) (j 2) : S20x128.Idx), ?_⟩
    refine (emb_dstRow r hr _).trans ?_
    funext a
    match a with
    | ⟨0, _⟩ => exact Fin.ext h.symm
    | ⟨1, _⟩ => rfl
    | ⟨2, _⟩ => rfl

omit [FloatOps F] in
/-- The prologue's write-back offsets name the tile's row 4 r₁ + r₂, -/
theorem off2_row (r₁ : Fin 2) (r₂ : Fin 4) :
    k0_off2 L (BitVec.ofNat 32 (4 * r₁.val)) (BitVec.ofNat 32 r₂.val) = ![512 * (wL L).val + 4 * r₁.val + r₂.val, 0, 0] := by
  rw [k0_off2_eq]
  have e : 1024 * (L 1).val + 512 * (L 0).val + 4 * r₁.val + r₂.val = 512 * (wL L).val + 4 * r₁.val + r₂.val := by
    show _ = 512 * (2 * (L 1).val + (L 0).val) + 4 * r₁.val + r₂.val; omega
  rw [e]
omit [FloatOps F] in
/-- and the loop's, at trip t, its row 8 t + 4 r₁ + r₂ + 8. -/
theorem off5_row (t : Fin k0_t1_loop.trips) (r₁ : Fin 2) (r₂ : Fin 4) :
    k0_off5 L t (BitVec.ofNat 32 r₁.val) (BitVec.ofNat 32 r₂.val) = ![512 * (wL L).val + 8 * t.val + 4 * r₁.val + r₂.val + 8, 0, 0] := by
  rw [k0_off5_eq]
  have e : 1024 * (L 1).val + 512 * (L 0).val + 8 * t.val + 4 * r₁.val + r₂.val + 8 = 512 * (wL L).val + 8 * t.val + 4 * r₁.val + r₂.val + 8 := by
    show _ = 512 * (2 * (L 1).val + (L 0).val) + 8 * t.val + 4 * r₁.val + r₂.val + 8; omega
  rw [e]

/-! ## Rows of the result numbered by a natural number -/

/-- Row `r` of the result (empty past the last row). -/
def orowN (r : ℕ) : Finset S16384x20x128.Idx := Finset.univ.filter fun j => (j 0).val = r

omit [FloatOps F] in
theorem inb_rowN (r : ℕ) : ∀ a, (![r % 16384, 0, 0] : Fin 3 → Nat) a + S1x20x128.size a ≤ S16384x20x128.size a := by
  intro a
  have h : r % 16384 < 16384 := Nat.mod_lt _ (by decide)
  match a with
  | 0 => show r % 16384 + 1 ≤ 16384; omega
  | 1 => show 0 + 20 ≤ 20; omega
  | 2 => show 0 + 128 ≤ 128; omega

/-- Row `r` of the result as a memref, for any natural number (reduced modulo the row count, so that the memref always exists). -/
abbrev dRow (r : ℕ) : Memref sig .scVector .hbm S20x128 .f32 :=
  ((oV).slice (Rect.unit (s := S16384x20x128) ![r % 16384, 0, 0] S1x20x128.size (inb_rowN r)) (fun _ => rfl)).squeeze S20x128 squeezes_S1x20x128_S20x128

omit [FloatOps F] in
theorem dstO_congr (off off' : Fin 3 → ℕ) (h) (h') (e : off = off') : dstO off h = dstO off' h' := by
  subst e; rfl

omit [FloatOps F] in
/-- A row sliced at offsets that equal `![r, 0, 0]`, r in range, is row r. -/
theorem dstO_dRow (off : Fin 3 → ℕ) (h) (r : ℕ) (hr : r < 16384) (e : off = ![r, 0, 0]) : dstO off h = dRow r :=
  dstO_congr off ![r % 16384, 0, 0] h (inb_rowN r) (by rw [e, Nat.mod_eq_of_lt hr])

omit [FloatOps F] in
theorem dRow_eq (r : ℕ) (hr : r < 16384) : dRow r = dstRow r hr :=
  dstO_congr ![r % 16384, 0, 0] ![r, 0, 0] (inb_rowN r) (inb_row r hr) (by rw [Nat.mod_eq_of_lt hr])

omit [FloatOps F] in
theorem orowN_eq (r : ℕ) (hr : r < 16384) : orowN r = orow ⟨r, hr⟩ := rfl

omit [FloatOps F] in
theorem emb_dRow (r : ℕ) (hr : r < 16384) (i : S20x128.Idx) :
    (dRow r).view.emb i = (ix3 (⟨r, hr⟩ : Fin 16384) (i 0) (i 1) : S16384x20x128.Idx) := by
  have e : (dRow r).view.emb i
      = (Rect.unit (s := S16384x20x128) ![r % 16384, 0, 0] S1x20x128.size (inb_rowN r)).emb
          (Shape.reshapeEquiv (squeezes_S1x20x128_S20x128).numel_eq i) := rfl
  rw [e, squeeze3_idx]
  funext a
  apply Fin.ext
  rw [Rect.emb_apply, Rect.off_unit, Rect.stride_unit]
  have hm : r % 16384 = r := Nat.mod_eq_of_lt hr
  match a with
  | ⟨0, _⟩ => show r % 16384 + 1 * 0 = r; omega
  | ⟨1, _⟩ => show 0 + 1 * (i 0).val = (i 0).val; omega
  | ⟨2, _⟩ => show 0 + 1 * (i 1).val = (i 1).val; omega
omit [FloatOps F] in
theorem set_dRow (r : ℕ) (hr : r < 16384) : (dRow r).view.set = orowN r := by
  ext j
  simp only [View.set, Finset.mem_map, Finset.mem_univ, true_and, orowN, Finset.mem_filter]
  constructor
  · rintro ⟨i, rfl⟩
    exact congrArg (fun k : S16384x20x128.Idx => (k 0).val) (emb_dRow r hr i)
  · intro h
    refine ⟨(ix2 (n0 := 20) (n1 := 128) (j 1) (j 2) : S20x128.Idx), ?_⟩
    refine (emb_dRow r hr _).trans ?_
    funext a
    match a with
    | ⟨0, _⟩ => exact Fin.ext h.symm
    | ⟨1, _⟩ => rfl
    | ⟨2, _⟩ => rfl
omit [FloatOps F] in
theorem pts_dRow (r : ℕ) (hr : r < 16384) (f : Buf (Elt F) (outLoc d)) :
    ((dRow r).view.loc (V d (cV L) (jV L)) ↦[(dRow r).view.set]{fullShare} f : sProp 𝕄) = outLoc d ↦[orowN r]{fullShare} f := by
  rw [set_dRow r hr]

omit [FloatOps F] in
theorem trips_eq : k0_t1_loop.trips = 63 := by decide

omit [FloatOps F] in
theorem offP (r₁ : Fin 2) (r₂ : Fin 4) :
    k0_off2 L (BitVec.ofNat 32 (4 * r₁.val)) (BitVec.ofNat 32 r₂.val) = ![512 * (wL L).val + 4 * r₁.val + r₂.val, 0, 0] := off2_row L r₁ r₂
omit [FloatOps F] in
theorem offT (t : Fin k0_t1_loop.trips) (r₁ : Fin 2) (r₂ : Fin 4) :
    k0_off5 L t (BitVec.ofNat 32 r₁.val) (BitVec.ofNat 32 r₂.val) = ![512 * (wL L).val + 8 * t.val + 8 + 4 * r₁.val + r₂.val, 0, 0] := by
  rw [off5_row]
  have e : 512 * (wL L).val + 8 * t.val + 4 * r₁.val + r₂.val + 8 = 512 * (wL L).val + 8 * t.val + 8 + 4 * r₁.val + r₂.val := by omega
  rw [e]
omit [FloatOps F] in
theorem rowT_lt' (t : Fin k0_t1_loop.trips) (r₁ : Fin 2) (r₂ : Fin 4) : 512 * (wL L).val + 8 * t.val + 8 + 4 * r₁.val + r₂.val < 16384 := by
  have := rowT_lt L t r₁ r₂; omega

/-! ## The result's rows, as the program spells them -/

omit [FloatOps F] in
theorem emb_dstP (r₁ : Fin 2) (r₂ : Fin 4) (i : S20x128.Idx) :
    (dstP L r₁ r₂).view.emb i
      = (ix3 (⟨512 * (wL L).val + 4 * r₁.val + r₂.val, rowP_lt L r₁ r₂⟩ : Fin 16384) (i 0) (i 1) : S16384x20x128.Idx) := by
  have e : (dstP L r₁ r₂).view.emb i
      = (Rect.unit (s := S16384x20x128) (k0_off2 L (BitVec.ofNat 32 (4 * r₁.val)) (BitVec.ofNat 32 r₂.val)) S1x20x128.size (k0_off2_inb L r₁ r₂)).emb
          (Shape.reshapeEquiv (squeezes_S1x20x128_S20x128).numel_eq i) := rfl
  rw [e, squeeze3_idx]
  funext a
  apply Fin.ext
  rw [Rect.emb_apply, Rect.off_unit, Rect.stride_unit]
  have ho := k0_off2_eq L r₁ r₂
  match a with
  | ⟨0, h0⟩ =>
    have h' : k0_off2 L (BitVec.ofNat 32 (4 * r₁.val)) (BitVec.ofNat 32 r₂.val) ⟨0, h0⟩ = 1024 * (L 1).val + 512 * (L 0).val + 4 * r₁.val + r₂.val := congrFun ho _
    show k0_off2 L (BitVec.ofNat 32 (4 * r₁.val)) (BitVec.ofNat 32 r₂.val) ⟨0, h0⟩ + 1 * 0 = 512 * (2 * (L 1).val + (L 0).val) + 4 * r₁.val + r₂.val
    omega
  | ⟨1, h1⟩ =>
    have h' : k0_off2 L (BitVec.ofNat 32 (4 * r₁.val)) (BitVec.ofNat 32 r₂.val) ⟨1, h1⟩ = 0 := congrFun ho _
    show k0_off2 L (BitVec.ofNat 32 (4 * r₁.val)) (BitVec.ofNat 32 r₂.val) ⟨1, h1⟩ + 1 * (i 0).val = (i 0).val
    omega
  | ⟨2, h2⟩ =>
    have h' : k0_off2 L (BitVec.ofNat 32 (4 * r₁.val)) (BitVec.ofNat 32 r₂.val) ⟨2, h2⟩ = 0 := congrFun ho _
    show k0_off2 L (BitVec.ofNat 32 (4 * r₁.val)) (BitVec.ofNat 32 r₂.val) ⟨2, h2⟩ + 1 * (i 1).val = (i 1).val
    omega

omit [FloatOps F] in
theorem emb_dstT (t : Fin k0_t1_loop.trips) (r₁ : Fin 2) (r₂ : Fin 4) (i : S20x128.Idx) :
    (dstT L t r₁ r₂).view.emb i
      = (ix3 (⟨512 * (wL L).val + 8 * t.val + 4 * r₁.val + r₂.val + 8, rowT_lt L t r₁ r₂⟩ : Fin 16384) (i 0) (i 1) : S16384x20x128.Idx) := by
  have e : (dstT L t r₁ r₂).view.emb i
      = (Rect.unit (s := S16384x20x128) (k0_off5 L t (BitVec.ofNat 32 r₁.val) (BitVec.ofNat 32 r₂.val)) S1x20x128.size (k0_off5_inb L t r₁ r₂)).emb
          (Shape.reshapeEquiv (squeezes_S1x20x128_S20x128).numel_eq i) := rfl
  rw [e, squeeze3_idx]
  funext a
  apply Fin.ext
  rw [Rect.emb_apply, Rect.off_unit, Rect.stride_unit]
  have ho := k0_off5_eq L t r₁ r₂
  match a with
  | ⟨0, h0⟩ =>
    have h' : k0_off5 L t (BitVec.ofNat 32 r₁.val) (BitVec.ofNat 32 r₂.val) ⟨0, h0⟩ = 1024 * (L 1).val + 512 * (L 0).val + 8 * t.val + 4 * r₁.val + r₂.val + 8 := congrFun ho _
    show k0_off5 L t (BitVec.ofNat 32 r₁.val) (BitVec.ofNat 32 r₂.val) ⟨0, h0⟩ + 1 * 0 = 512 * (2 * (L 1).val + (L 0).val) + 8 * t.val + 4 * r₁.val + r₂.val + 8
    omega
  | ⟨1, h1⟩ =>
    have h' : k0_off5 L t (BitVec.ofNat 32 r₁.val) (BitVec.ofNat 32 r₂.val) ⟨1, h1⟩ = 0 := congrFun ho _
    show k0_off5 L t (BitVec.ofNat 32 r₁.val) (BitVec.ofNat 32 r₂.val) ⟨1, h1⟩ + 1 * (i 0).val = (i 0).val
    omega
  | ⟨2, h2⟩ =>
    have h' : k0_off5 L t (BitVec.ofNat 32 r₁.val) (BitVec.ofNat 32 r₂.val) ⟨2, h2⟩ = 0 := congrFun ho _
    show k0_off5 L t (BitVec.ofNat 32 r₁.val) (BitVec.ofNat 32 r₂.val) ⟨2, h2⟩ + 1 * (i 1).val = (i 1).val
    omega

omit [FloatOps F] in
theorem set_dstP (r₁ : Fin 2) (r₂ : Fin 4) :
    (dstP L r₁ r₂).view.set = orow ⟨512 * (wL L).val + 4 * r₁.val + r₂.val, rowP_lt L r₁ r₂⟩ := by
  ext j
  simp only [View.set, Finset.mem_map, Finset.mem_univ, true_and, orow, Finset.mem_filter]
  constructor
  · rintro ⟨i, rfl⟩
    rw [emb_dstP]
  · intro h
    refine ⟨(ix2 (n0 := 20) (n1 := 128) (j 1) (j 2) : S20x128.Idx), ?_⟩
    rw [emb_dstP]
    funext a
    match a with
    | ⟨0, _⟩ => exact Fin.ext h.symm
    | ⟨1, _⟩ => rfl
    | ⟨2, _⟩ => rfl

omit [FloatOps F] in
theorem set_dstT (t : Fin k0_t1_loop.trips) (r₁ : Fin 2) (r₂ : Fin 4) :
    (dstT L t r₁ r₂).view.set = orow ⟨512 * (wL L).val + 8 * t.val + 4 * r₁.val + r₂.val + 8, rowT_lt L t r₁ r₂⟩ := by
  ext j
  simp only [View.set, Finset.mem_map, Finset.mem_univ, true_and, orow, Finset.mem_filter]
  constructor
  · rintro ⟨i, rfl⟩
    rw [emb_dstT]
  · intro h
    refine ⟨(ix2 (n0 := 20) (n1 := 128) (j 1) (j 2) : S20x128.Idx), ?_⟩
    rw [emb_dstT]
    funext a
    match a with
    | ⟨0, _⟩ => exact Fin.ext h.symm
    | ⟨1, _⟩ => rfl
    | ⟨2, _⟩ => rfl

/-! ## The row buffer's slots and their windows -/

omit [FloatOps F] in
theorem emb_rows0 (i : S80x128.Idx) : (rows0).view.emb i = (ix3 (0 : Fin 2) (i 0) (i 1) : S2x80x128.Idx) := by
  have e : (rows0).view.emb i
      = (Rect.unit (s := S2x80x128) ![0, 0, 0] S1x80x128.size inb_S2x80x128_S1x80x128_0_0_0).emb
          (Shape.reshapeEquiv (squeezes_S1x80x128_S80x128).numel_eq i) := rfl
  rw [e, squeeze3_idx]
  funext a
  apply Fin.ext
  rw [Rect.emb_apply, Rect.off_unit, Rect.stride_unit]
  match a with
  | ⟨0, _⟩ => show 0 + 1 * 0 = 0; omega
  | ⟨1, _⟩ => show 0 + 1 * (i 0).val = (i 0).val; omega
  | ⟨2, _⟩ => show 0 + 1 * (i 1).val = (i 1).val; omega
omit [FloatOps F] in
theorem emb_rows1 (i : S80x128.Idx) : (rows1).view.emb i = (ix3 (1 : Fin 2) (i 0) (i 1) : S2x80x128.Idx) := by
  have e : (rows1).view.emb i
      = (Rect.unit (s := S2x80x128) ![1, 0, 0] S1x80x128.size inb_S2x80x128_S1x80x128_1_0_0).emb
          (Shape.reshapeEquiv (squeezes_S1x80x128_S80x128).numel_eq i) := rfl
  rw [e, squeeze3_idx]
  funext a
  apply Fin.ext
  rw [Rect.emb_apply, Rect.off_unit, Rect.stride_unit]
  match a with
  | ⟨0, _⟩ => show 1 + 1 * 0 = 1; omega
  | ⟨1, _⟩ => show 0 + 1 * (i 0).val = (i 0).val; omega
  | ⟨2, _⟩ => show 0 + 1 * (i 1).val = (i 1).val; omega

omit [FloatOps F] in
theorem srcRow_lt (t : Fin 4) (i : S20x128.Idx) : 20 * t.val + (i 0).val < 80 := by
  have := t.isLt; have h : (i 0).val < 20 := (i 0).isLt; omega

omit [FloatOps F] in
/-- Where window `t`'s indices sit in its slot. -/
theorem emb_win (t : Fin 4) (i : S20x128.Idx) :
    (Rect.unit (s := S80x128) ![20 * t.val, 0] S20x128.size (inb_src t)).emb i
      = (ix2 (⟨20 * t.val + (i 0).val, srcRow_lt t i⟩ : Fin 80) (i 1) : S80x128.Idx) := by
  funext a
  apply Fin.ext
  rw [Rect.emb_apply, Rect.off_unit, Rect.stride_unit]
  match a with
  | ⟨0, _⟩ => show 20 * t.val + 1 * (i 0).val = 20 * t.val + (i 0).val; omega
  | ⟨1, _⟩ => show 0 + 1 * (i 1).val = (i 1).val; omega

omit [FloatOps F] in
theorem emb_srcW0 (t : Fin 4) (i : S20x128.Idx) :
    (srcW0 t).view.emb i = (ix3 (0 : Fin 2) (⟨20 * t.val + (i 0).val, srcRow_lt t i⟩ : Fin 80) (i 1) : S2x80x128.Idx) := by
  have e : (srcW0 t).view.emb i = (rows0).view.emb ((Rect.unit (s := S80x128) ![20 * t.val, 0] S20x128.size (inb_src t)).emb i) := rfl
  rw [e, emb_win, emb_rows0]
omit [FloatOps F] in
theorem emb_srcW1 (t : Fin 4) (i : S20x128.Idx) :
    (srcW1 t).view.emb i = (ix3 (1 : Fin 2) (⟨20 * t.val + (i 0).val, srcRow_lt t i⟩ : Fin 80) (i 1) : S2x80x128.Idx) := by
  have e : (srcW1 t).view.emb i = (rows1).view.emb ((Rect.unit (s := S80x128) ![20 * t.val, 0] S20x128.size (inb_src t)).emb i) := rfl
  rw [e, emb_win, emb_rows1]

/-! ## The index lists and the tile's slice of the flat indices -/

omit [FloatOps F] in
theorem emb_lst0 (x : S80.Idx) : (lst0).view.emb x = (ix3 (0 : Fin 2) (0 : Fin 1) (x 0) : S2x1x80.Idx) := by
  have e : (lst0).view.emb x
      = (Rect.unit (s := S2x1x80) ![0, 0, 0] S1x1x80.size inb_S2x1x80_S1x1x80_0_0_0).emb
          (Shape.reshapeEquiv (squeezes_S1x1x80_S1x80).numel_eq
            ((Rect.unit (s := S1x80) ![0, 0] S1x80.size inb_S1x80_S1x80_0_0).emb (Shape.reshapeEquiv (squeezes_S1x80_S80).numel_eq x))) := rfl
  rw [e, squeeze2_idx, squeeze3_idx]
  funext a
  apply Fin.ext
  rw [Rect.emb_apply, Rect.off_unit, Rect.stride_unit]
  match a with
  | ⟨0, _⟩ => show 0 + 1 * 0 = 0; omega
  | ⟨1, _⟩ => show 0 + 1 * (0 + 1 * 0) = 0; omega
  | ⟨2, _⟩ => show 0 + 1 * (0 + 1 * (x 0).val) = (x 0).val; omega
omit [FloatOps F] in
theorem emb_lst1 (x : S80.Idx) : (lst1).view.emb x = (ix3 (1 : Fin 2) (0 : Fin 1) (x 0) : S2x1x80.Idx) := by
  have e : (lst1).view.emb x
      = (Rect.unit (s := S2x1x80) ![1, 0, 0] S1x1x80.size inb_S2x1x80_S1x1x80_1_0_0).emb
          (Shape.reshapeEquiv (squeezes_S1x1x80_S1x80).numel_eq
            ((Rect.unit (s := S1x80) ![0, 0] S1x80.size inb_S1x80_S1x80_0_0).emb (Shape.reshapeEquiv (squeezes_S1x80_S80).numel_eq x))) := rfl
  rw [e, squeeze2_idx, squeeze3_idx]
  funext a
  apply Fin.ext
  rw [Rect.emb_apply, Rect.off_unit, Rect.stride_unit]
  match a with
  | ⟨0, _⟩ => show 1 + 1 * 0 = 1; omega
  | ⟨1, _⟩ => show 0 + 1 * (0 + 1 * 0) = 0; omega
  | ⟨2, _⟩ => show 0 + 1 * (0 + 1 * (x 0).val) = (x 0).val; omega

omit [FloatOps F] in
theorem flatPos_lt (y : S10240.Idx) : 10240 * (wL L).val + (y 0).val < 327680 := by
  have := (wL L).isLt; have h : (y 0).val < 10240 := (y 0).isLt; omega

omit [FloatOps F] in
theorem emb_iSl (y : S10240.Idx) :
    (iSl L).view.emb y = (ix1 (⟨10240 * (wL L).val + (y 0).val, flatPos_lt L y⟩ : Fin 327680) : S327680.Idx) := by
  have e : (iSl L).view.emb y = (Rect.unit (s := S327680) (k0_off1 L) S10240.size (k0_off1_inb L)).emb y := rfl
  rw [e]
  funext a
  apply Fin.ext
  rw [Rect.emb_apply, Rect.off_unit, Rect.stride_unit]
  have ho := k0_off1_eq L
  match a with
  | ⟨0, h0⟩ =>
    have h' : k0_off1 L ⟨0, h0⟩ = 20480 * (L 1).val + 10240 * (L 0).val := congrFun ho _
    show k0_off1 L ⟨0, h0⟩ + 1 * (y 0).val = 10240 * (2 * (L 1).val + (L 0).val) + (y 0).val
    omega

/-! ## A slot is its four windows; the two slots, and the two lists, part their buffers -/

omit [FloatOps F] in
theorem mem_rows0 (j : S2x80x128.Idx) : j ∈ (rows0).view.set ↔ (j 0).val = 0 := by
  simp only [View.set, Finset.mem_map, Finset.mem_univ, true_and]
  constructor
  · rintro ⟨i, rfl⟩
    rw [emb_rows0]
    rfl
  · intro h
    refine ⟨(ix2 (n0 := 80) (n1 := 128) (j 1) (j 2) : S80x128.Idx), ?_⟩
    rw [emb_rows0]
    funext a
    match a with
    | ⟨0, _⟩ => exact Fin.ext h.symm
    | ⟨1, _⟩ => rfl
    | ⟨2, _⟩ => rfl
omit [FloatOps F] in
theorem mem_rows1 (j : S2x80x128.Idx) : j ∈ (rows1).view.set ↔ (j 0).val = 1 := by
  simp only [View.set, Finset.mem_map, Finset.mem_univ, true_and]
  constructor
  · rintro ⟨i, rfl⟩
    rw [emb_rows1]
    rfl
  · intro h
    refine ⟨(ix2 (n0 := 80) (n1 := 128) (j 1) (j 2) : S80x128.Idx), ?_⟩
    rw [emb_rows1]
    funext a
    match a with
    | ⟨0, _⟩ => exact Fin.ext h.symm
    | ⟨1, _⟩ => rfl
    | ⟨2, _⟩ => rfl

omit [FloatOps F] in
theorem mem_srcW0 (t : Fin 4) (j : S2x80x128.Idx) :
    j ∈ (srcW0 t).view.set ↔ (j 0).val = 0 ∧ 20 * t.val ≤ (j 1).val ∧ (j 1).val < 20 * t.val + 20 := by
  simp only [View.set, Finset.mem_map, Finset.mem_univ, true_and]
  constructor
  · rintro ⟨i, rfl⟩
    rw [emb_srcW0]
    have h : (i 0).val < 20 := (i 0).isLt
    exact ⟨rfl, by show 20 * t.val ≤ 20 * t.val + (i 0).val; omega, by show 20 * t.val + (i 0).val < 20 * t.val + 20; omega⟩
  · rintro ⟨h0, h1, h2⟩
    refine ⟨(ix2 (n0 := 20) (n1 := 128) (⟨(j 1).val - 20 * t.val, by omega⟩ : Fin 20) (j 2) : S20x128.Idx), ?_⟩
    rw [emb_srcW0]
    funext a
    match a with
    | ⟨0, _⟩ => exact Fin.ext h0.symm
    | ⟨1, _⟩ => exact Fin.ext (by show 20 * t.val + ((j 1).val - 20 * t.val) = (j 1).val; omega)
    | ⟨2, _⟩ => rfl
omit [FloatOps F] in
theorem mem_srcW1 (t : Fin 4) (j : S2x80x128.Idx) :
    j ∈ (srcW1 t).view.set ↔ (j 0).val = 1 ∧ 20 * t.val ≤ (j 1).val ∧ (j 1).val < 20 * t.val + 20 := by
  simp only [View.set, Finset.mem_map, Finset.mem_univ, true_and]
  constructor
  · rintro ⟨i, rfl⟩
    rw [emb_srcW1]
    have h : (i 0).val < 20 := (i 0).isLt
    exact ⟨rfl, by show 20 * t.val ≤ 20 * t.val + (i 0).val; omega, by show 20 * t.val + (i 0).val < 20 * t.val + 20; omega⟩
  · rintro ⟨h0, h1, h2⟩
    refine ⟨(ix2 (n0 := 20) (n1 := 128) (⟨(j 1).val - 20 * t.val, by omega⟩ : Fin 20) (j 2) : S20x128.Idx), ?_⟩
    rw [emb_srcW1]
    funext a
    match a with
    | ⟨0, _⟩ => exact Fin.ext h0.symm
    | ⟨1, _⟩ => exact Fin.ext (by show 20 * t.val + ((j 1).val - 20 * t.val) = (j 1).val; omega)
    | ⟨2, _⟩ => rfl

omit [FloatOps F] in
theorem rows0_windows : (rows0).view.set = Finset.univ.biUnion fun t : Fin 4 => (srcW0 t).view.set := by
  ext j
  simp only [Finset.mem_biUnion, Finset.mem_univ, true_and]
  rw [mem_rows0]
  have hj : (j 1).val < 80 := (j 1).isLt
  constructor
  · intro h
    have ht : (j 1).val / 20 < 4 := by omega
    refine ⟨(⟨(j 1).val / 20, ht⟩ : Fin 4), ?_⟩
    refine (mem_srcW0 (⟨(j 1).val / 20, ht⟩ : Fin 4) j).mpr ⟨h, ?_, ?_⟩
    · show 20 * ((j 1).val / 20) ≤ (j 1).val; omega
    · show (j 1).val < 20 * ((j 1).val / 20) + 20; omega
  · rintro ⟨t, ht⟩
    exact ((mem_srcW0 t j).mp ht).1
omit [FloatOps F] in
theorem rows1_windows : (rows1).view.set = Finset.univ.biUnion fun t : Fin 4 => (srcW1 t).view.set := by
  ext j
  simp only [Finset.mem_biUnion, Finset.mem_univ, true_and]
  rw [mem_rows1]
  have hj : (j 1).val < 80 := (j 1).isLt
  constructor
  · intro h
    have ht : (j 1).val / 20 < 4 := by omega
    refine ⟨(⟨(j 1).val / 20, ht⟩ : Fin 4), ?_⟩
    refine (mem_srcW1 (⟨(j 1).val / 20, ht⟩ : Fin 4) j).mpr ⟨h, ?_, ?_⟩
    · show 20 * ((j 1).val / 20) ≤ (j 1).val; omega
    · show (j 1).val < 20 * ((j 1).val / 20) + 20; omega
  · rintro ⟨t, ht⟩
    exact ((mem_srcW1 t j).mp ht).1

omit [FloatOps F] in
theorem windows0_disjoint : ∀ t ∈ (Finset.univ : Finset (Fin 4)), ∀ t' ∈ (Finset.univ : Finset (Fin 4)), t ≠ t' →
    Disjoint (srcW0 t).view.set (srcW0 t').view.set := by
  intro t _ t' _ h
  rw [Finset.disjoint_left]
  intro j hj hj'
  have h1 := (mem_srcW0 t j).mp hj
  have h2 := (mem_srcW0 t' j).mp hj'
  exact h (Fin.ext (by omega))
omit [FloatOps F] in
theorem windows1_disjoint : ∀ t ∈ (Finset.univ : Finset (Fin 4)), ∀ t' ∈ (Finset.univ : Finset (Fin 4)), t ≠ t' →
    Disjoint (srcW1 t).view.set (srcW1 t').view.set := by
  intro t _ t' _ h
  rw [Finset.disjoint_left]
  intro j hj hj'
  have h1 := (mem_srcW1 t j).mp hj
  have h2 := (mem_srcW1 t' j).mp hj'
  exact h (Fin.ext (by omega))

omit [FloatOps F] in
theorem rows_disjoint : Disjoint (rows0).view.set (rows1).view.set := by
  rw [Finset.disjoint_left]
  intro j hj hj'
  have h1 := (mem_rows0 j).mp hj
  have h2 := (mem_rows1 j).mp hj'
  omega
omit [FloatOps F] in
theorem rows_union : (rows0).view.set ∪ (rows1).view.set = Finset.univ := by
  ext j
  simp only [Finset.mem_union, Finset.mem_univ, iff_true]
  have hj : (j 0).val < 2 := (j 0).isLt
  rcases Nat.lt_or_ge (j 0).val 1 with h | h
  · exact Or.inl ((mem_rows0 j).mpr (by omega))
  · exact Or.inr ((mem_rows1 j).mpr (by omega))

omit [FloatOps F] in
theorem mem_lst0 (j : S2x1x80.Idx) : j ∈ (lst0).view.set ↔ (j 0).val = 0 := by
  simp only [View.set, Finset.mem_map, Finset.mem_univ, true_and]
  constructor
  · rintro ⟨x, rfl⟩
    rw [emb_lst0]
    rfl
  · intro h
    refine ⟨(ix1 (n := 80) (j 2) : S80.Idx), ?_⟩
    rw [emb_lst0]
    funext a
    match a with
    | ⟨0, _⟩ => exact Fin.ext h.symm
    | ⟨1, _⟩ => exact Fin.ext (by have : (j 1).val < 1 := (j 1).isLt; show 0 = (j 1).val; omega)
    | ⟨2, _⟩ => rfl
omit [FloatOps F] in
theorem mem_lst1 (j : S2x1x80.Idx) : j ∈ (lst1).view.set ↔ (j 0).val = 1 := by
  simp only [View.set, Finset.mem_map, Finset.mem_univ, true_and]
  constructor
  · rintro ⟨x, rfl⟩
    rw [emb_lst1]
    rfl
  · intro h
    refine ⟨(ix1 (n := 80) (j 2) : S80.Idx), ?_⟩
    rw [emb_lst1]
    funext a
    match a with
    | ⟨0, _⟩ => exact Fin.ext h.symm
    | ⟨1, _⟩ => exact Fin.ext (by have : (j 1).val < 1 := (j 1).isLt; show 0 = (j 1).val; omega)
    | ⟨2, _⟩ => rfl
omit [FloatOps F] in
theorem lsts_disjoint : Disjoint (lst0).view.set (lst1).view.set := by
  rw [Finset.disjoint_left]
  intro j hj hj'
  have h1 := (mem_lst0 j).mp hj
  have h2 := (mem_lst1 j).mp hj'
  omega
omit [FloatOps F] in
theorem lsts_union : (lst0).view.set ∪ (lst1).view.set = Finset.univ := by
  ext j
  simp only [Finset.mem_union, Finset.mem_univ, iff_true]
  have hj : (j 0).val < 2 := (j 0).isLt
  rcases Nat.lt_or_ge (j 0).val 1 with h | h
  · exact Or.inl ((mem_lst0 j).mpr (by omega))
  · exact Or.inr ((mem_lst1 j).mpr (by omega))

/-! ## The tile's rows of the result -/

omit [FloatOps F] in
theorem tileRow_lt (ρ : Fin 512) : 512 * (wL L).val + ρ.val < 16384 := by
  have := (wL L).isLt; have := ρ.isLt; omega

omit [FloatOps F] in
theorem mem_orow (r : Fin 16384) (j : S16384x20x128.Idx) : j ∈ orow r ↔ (j 0).val = r.val := by
  simp only [orow, Finset.mem_filter, Finset.mem_univ, true_and]

omit [FloatOps F] in
theorem outSet_rows : outSet (wL L) = Finset.univ.biUnion fun ρ : Fin 512 => orow ⟨512 * (wL L).val + ρ.val, tileRow_lt L ρ⟩ := by
  ext j
  simp only [Finset.mem_biUnion, Finset.mem_univ, true_and, mem_orow, outSet, Finset.mem_filter]
  constructor
  · intro h
    exact ⟨⟨(j 0).val % 512, Nat.mod_lt _ (by decide)⟩, by show (j 0).val = 512 * (wL L).val + (j 0).val % 512; omega⟩
  · rintro ⟨ρ, h⟩
    have hρ := ρ.isLt
    have h' : (j 0).val = 512 * (wL L).val + ρ.val := h
    omega

omit [FloatOps F] in
theorem orows_disjoint : ∀ ρ ∈ (Finset.univ : Finset (Fin 512)), ∀ ρ' ∈ (Finset.univ : Finset (Fin 512)), ρ ≠ ρ' →
    Disjoint (orow ⟨512 * (wL L).val + ρ.val, tileRow_lt L ρ⟩) (orow ⟨512 * (wL L).val + ρ'.val, tileRow_lt L ρ'⟩) := by
  intro ρ _ ρ' _ h
  rw [Finset.disjoint_left]
  intro j hj hj'
  have h1 : (j 0).val = 512 * (wL L).val + ρ.val := (mem_orow _ j).mp hj
  have h2 : (j 0).val = 512 * (wL L).val + ρ'.val := (mem_orow _ j).mp hj'
  exact h (Fin.ext (by omega))

omit [FloatOps F] in
/-- The tile's share of the result is its 512 rows. -/
theorem outPts_rows (f : Buf (Elt F) (outLoc d)) :
    (outLoc d ↦[outSet (wL L)]{fullShare} f : sProp 𝕄)
      = bigSep Finset.univ fun ρ : Fin 512 => outLoc d ↦[orow ⟨512 * (wL L).val + ρ.val, tileRow_lt L ρ⟩]{fullShare} f := by
  rw [outSet_rows, pointsTo_biUnion Finset.univ (ℓ := outLoc d) (fun ρ : Fin 512 => orow ⟨512 * (wL L).val + ρ.val, tileRow_lt L ρ⟩) (orows_disjoint L)]

/-! ## Stepping through a family of rows -/

omit [FloatOps F] in
/-- The rows still to do, one taken off the front. -/
theorem todo_step (Φ : Fin 512 → sProp 𝕄) (a : ℕ) (ha : a < 512) :
    bigSep (Finset.univ.filter fun ρ : Fin 512 => a ≤ ρ.val) Φ
      = iprop(Φ ⟨a, ha⟩ ∗ bigSep (Finset.univ.filter fun ρ : Fin 512 => a + 1 ≤ ρ.val) Φ) := by
  have e : (Finset.univ.filter fun ρ : Fin 512 => a ≤ ρ.val) = insert (⟨a, ha⟩ : Fin 512) (Finset.univ.filter fun ρ : Fin 512 => a + 1 ≤ ρ.val) := by
    ext ρ
    simp only [Finset.mem_filter, Finset.mem_univ, true_and, Finset.mem_insert]
    constructor
    · intro h
      by_cases e : ρ.val = a
      · exact Or.inl (Fin.ext e)
      · exact Or.inr (by omega)
    · rintro (rfl | h)
      · exact le_rfl
      · omega
  rw [e, SparseCore.bigSep_insert' (by simp only [Finset.mem_filter, Finset.mem_univ, true_and]; omega)]
omit [FloatOps F] in
/-- The rows done, one more put on the end. -/
theorem done_step (Φ : Fin 512 → sProp 𝕄) (a : ℕ) (ha : a < 512) :
    bigSep (Finset.univ.filter fun ρ : Fin 512 => ρ.val < a + 1) Φ
      = iprop(Φ ⟨a, ha⟩ ∗ bigSep (Finset.univ.filter fun ρ : Fin 512 => ρ.val < a) Φ) := by
  have e : (Finset.univ.filter fun ρ : Fin 512 => ρ.val < a + 1) = insert (⟨a, ha⟩ : Fin 512) (Finset.univ.filter fun ρ : Fin 512 => ρ.val < a) := by
    ext ρ
    simp only [Finset.mem_filter, Finset.mem_univ, true_and, Finset.mem_insert]
    constructor
    · intro h
      by_cases e : ρ.val = a
      · exact Or.inl (Fin.ext e)
      · exact Or.inr (by omega)
    · rintro (rfl | h)
      · exact Nat.lt_succ_self _
      · omega
  rw [e, SparseCore.bigSep_insert' (by simp only [Finset.mem_filter, Finset.mem_univ, true_and]; omega)]

omit [FloatOps F] in
theorem todo_all (Φ : Fin 512 → sProp 𝕄) : bigSep (Finset.univ.filter fun ρ : Fin 512 => 0 ≤ ρ.val) Φ = bigSep Finset.univ Φ := by
  rw [Finset.filter_true_of_mem fun ρ _ => Nat.zero_le _]
omit [FloatOps F] in
theorem todo_none (Φ : Fin 512 → sProp 𝕄) : bigSep (Finset.univ.filter fun ρ : Fin 512 => 512 ≤ ρ.val) Φ = iprop(emp) := by
  rw [Finset.filter_false_of_mem fun ρ _ => by have := ρ.isLt; omega, bigSep_empty]; rfl
omit [FloatOps F] in
theorem done_none (Φ : Fin 512 → sProp 𝕄) : bigSep (Finset.univ.filter fun ρ : Fin 512 => ρ.val < 0) Φ = iprop(emp) := by
  rw [Finset.filter_false_of_mem fun ρ _ => Nat.not_lt_zero _, bigSep_empty]; rfl
omit [FloatOps F] in
theorem done_all (Φ : Fin 512 → sProp 𝕄) : bigSep (Finset.univ.filter fun ρ : Fin 512 => ρ.val < 512) Φ = bigSep Finset.univ Φ := by
  rw [Finset.filter_true_of_mem fun ρ _ => ρ.isLt]

/-! ## The tile's rows as an interval of natural numbers -/

omit [FloatOps F] in
theorem mem_orowN (r : ℕ) (j : S16384x20x128.Idx) : j ∈ orowN r ↔ (j 0).val = r := by
  simp only [orowN, Finset.mem_filter, Finset.mem_univ, true_and]

omit [FloatOps F] in
theorem outSet_rowsN : outSet (wL L) = (Finset.Ico 0 512).biUnion fun ρ : ℕ => orowN (512 * (wL L).val + ρ) := by
  ext j
  simp only [Finset.mem_biUnion, Finset.mem_Ico, mem_orowN, outSet, Finset.mem_filter, Finset.mem_univ, true_and]
  constructor
  · intro h
    exact ⟨(j 0).val % 512, ⟨Nat.zero_le _, Nat.mod_lt _ (by decide)⟩, by omega⟩
  · rintro ⟨ρ, ⟨-, hρ⟩, h⟩
    omega

omit [FloatOps F] in
theorem orowsN_disjoint : ∀ ρ ∈ Finset.Ico 0 512, ∀ ρ' ∈ Finset.Ico 0 512, ρ ≠ ρ' →
    Disjoint (orowN (512 * (wL L).val + ρ)) (orowN (512 * (wL L).val + ρ')) := by
  intro ρ _ ρ' _ h
  rw [Finset.disjoint_left]
  intro j hj hj'
  have h1 := (mem_orowN _ j).mp hj
  have h2 := (mem_orowN _ j).mp hj'
  exact h (by omega)

omit [FloatOps F] in
/-- The tile's share of the result is its 512 rows. -/
theorem out_rowsN (f : Buf (Elt F) (outLoc d)) :
    (outLoc d ↦[outSet (wL L)]{fullShare} f : sProp 𝕄)
      = bigSep (Finset.Ico 0 512) fun ρ => outLoc d ↦[orowN (512 * (wL L).val + ρ)]{fullShare} f := by
  rw [outSet_rowsN, pointsTo_biUnion (Finset.Ico 0 512) (ℓ := outLoc d) (fun ρ : ℕ => orowN (512 * (wL L).val + ρ)) (orowsN_disjoint L)]

omit [FloatOps F] in
/-- Eight taken off the front of an interval. -/
theorem Ico_take8 (Φ : ℕ → sProp 𝕄) (a b : ℕ) (h : a + 8 ≤ b) :
    bigSep (Finset.Ico a b) Φ
      = iprop(Φ a ∗ Φ (a + 1) ∗ Φ (a + 2) ∗ Φ (a + 3) ∗ Φ (a + 4) ∗ Φ (a + 5) ∗ Φ (a + 6) ∗ Φ (a + 7) ∗ bigSep (Finset.Ico (a + 8) b) Φ) := by
  have e : Finset.Ico a b = insert a (insert (a + 1) (insert (a + 2) (insert (a + 3) (insert (a + 4) (insert (a + 5) (insert (a + 6)
      (insert (a + 7) (Finset.Ico (a + 8) b)))))))) := by
    ext x
    simp only [Finset.mem_Ico, Finset.mem_insert]
    omega
  rw [e, SparseCore.bigSep_insert' (by simp only [Finset.mem_insert, Finset.mem_Ico]; omega),
    SparseCore.bigSep_insert' (by simp only [Finset.mem_insert, Finset.mem_Ico]; omega),
    SparseCore.bigSep_insert' (by simp only [Finset.mem_insert, Finset.mem_Ico]; omega),
    SparseCore.bigSep_insert' (by simp only [Finset.mem_insert, Finset.mem_Ico]; omega),
    SparseCore.bigSep_insert' (by simp only [Finset.mem_insert, Finset.mem_Ico]; omega),
    SparseCore.bigSep_insert' (by simp only [Finset.mem_insert, Finset.mem_Ico]; omega),
    SparseCore.bigSep_insert' (by simp only [Finset.mem_insert, Finset.mem_Ico]; omega),
    SparseCore.bigSep_insert' (by simp only [Finset.mem_Ico]; omega)]

omit [FloatOps F] in
/-- Four put on the end of an interval, the new ones first. -/
theorem Ico_put4_eq (Φ : ℕ → sProp 𝕄) (a b : ℕ) (h : a ≤ b) :
    bigSep (Finset.Ico a (b + 4)) Φ = iprop(Φ b ∗ Φ (b + 1) ∗ Φ (b + 2) ∗ Φ (b + 3) ∗ bigSep (Finset.Ico a b) Φ) := by
  have e : Finset.Ico a (b + 4) = insert b (insert (b + 1) (insert (b + 2) (insert (b + 3) (Finset.Ico a b)))) := by
    ext x
    simp only [Finset.mem_Ico, Finset.mem_insert]
    omega
  rw [e, SparseCore.bigSep_insert' (by simp only [Finset.mem_insert, Finset.mem_Ico]; omega),
    SparseCore.bigSep_insert' (by simp only [Finset.mem_insert, Finset.mem_Ico]; omega),
    SparseCore.bigSep_insert' (by simp only [Finset.mem_insert, Finset.mem_Ico]; omega),
    SparseCore.bigSep_insert' (by simp only [Finset.mem_Ico]; omega)]

omit [FloatOps F] in
/-- The same, the interval first. -/
theorem Ico_put4 (Φ : ℕ → sProp 𝕄) (a b : ℕ) (h : a ≤ b) :
    iprop(bigSep (Finset.Ico a b) Φ ∗ Φ b ∗ Φ (b + 1) ∗ Φ (b + 2) ∗ Φ (b + 3)) ⊢ bigSep (Finset.Ico a (b + 4)) Φ := by
  rw [Ico_put4_eq Φ a b h]
  iintro ⟨H, H0, H1, H2, H3⟩
  isplitl [H0]; · iexact H0
  isplitl [H1]; · iexact H1
  isplitl [H2]; · iexact H2
  isplitl [H3]; · iexact H3
  iexact H

omit [FloatOps F] in
theorem Ico_self (Φ : ℕ → sProp 𝕄) (a : ℕ) : bigSep (Finset.Ico a a) Φ = iprop(emp) := by
  rw [Finset.Ico_self, bigSep_empty]; rfl

/-! ## The row buffer as its slots, a slot as its windows, as points-to equations -/

omit [FloatOps F] in
theorem a7_slots (f : Buf (Elt F) ((V d (cV L) (jV L)).loc cc0_scratch2)) :
    ((a7).view.loc (V d (cV L) (jV L)) ↦{fullShare} f : sProp 𝕄)
      = iprop(((rows0).view.loc (V d (cV L) (jV L)) ↦[(rows0).view.set]{fullShare} f) ∗ ((rows1).view.loc (V d (cV L) (jV L)) ↦[(rows1).view.set]{fullShare} f)) := by
  have hu : ((V d (cV L) (jV L)).loc cc0_scratch2 ↦[(rows0).view.set ∪ (rows1).view.set]{fullShare} f : sProp 𝕄)
      ⊣⊢ iprop(((V d (cV L) (jV L)).loc cc0_scratch2 ↦[(rows0).view.set]{fullShare} f) ∗ ((V d (cV L) (jV L)).loc cc0_scratch2 ↦[(rows1).view.set]{fullShare} f)) :=
    pointsTo_union rows_disjoint
  have hq := BI.equiv_iff.mp ⟨hu.1, hu.2⟩
  rw [rows_union] at hq
  exact hq

omit [FloatOps F] in
theorem bigSep_fin4 (Φ : Fin 4 → sProp 𝕄) : bigSep Finset.univ Φ = iprop(Φ 0 ∗ Φ 1 ∗ Φ 2 ∗ Φ 3) := by
  rw [show (Finset.univ : Finset (Fin 4)) = {0, 1, 2, 3} by decide, SparseCore.bigSep_insert' (by decide), SparseCore.bigSep_insert' (by decide),
    SparseCore.bigSep_insert' (by decide), bigSep_singleton]

omit [FloatOps F] in
theorem slot0_windows (f : Buf (Elt F) ((V d (cV L) (jV L)).loc cc0_scratch2)) :
    ((rows0).view.loc (V d (cV L) (jV L)) ↦[(rows0).view.set]{fullShare} f : sProp 𝕄)
      = iprop(((srcW0 0).view.loc (V d (cV L) (jV L)) ↦[(srcW0 0).view.set]{fullShare} f) ∗ ((srcW0 1).view.loc (V d (cV L) (jV L)) ↦[(srcW0 1).view.set]{fullShare} f)
          ∗ ((srcW0 2).view.loc (V d (cV L) (jV L)) ↦[(srcW0 2).view.set]{fullShare} f) ∗ ((srcW0 3).view.loc (V d (cV L) (jV L)) ↦[(srcW0 3).view.set]{fullShare} f)) := by
  rw [rows0_windows, pointsTo_biUnion Finset.univ (ℓ := (V d (cV L) (jV L)).loc cc0_scratch2) (fun t : Fin 4 => (srcW0 t).view.set) windows0_disjoint,
    bigSep_fin4]
omit [FloatOps F] in
theorem slot1_windows (f : Buf (Elt F) ((V d (cV L) (jV L)).loc cc0_scratch2)) :
    ((rows1).view.loc (V d (cV L) (jV L)) ↦[(rows1).view.set]{fullShare} f : sProp 𝕄)
      = iprop(((srcW1 0).view.loc (V d (cV L) (jV L)) ↦[(srcW1 0).view.set]{fullShare} f) ∗ ((srcW1 1).view.loc (V d (cV L) (jV L)) ↦[(srcW1 1).view.set]{fullShare} f)
          ∗ ((srcW1 2).view.loc (V d (cV L) (jV L)) ↦[(srcW1 2).view.set]{fullShare} f) ∗ ((srcW1 3).view.loc (V d (cV L) (jV L)) ↦[(srcW1 3).view.set]{fullShare} f)) := by
  rw [rows1_windows, pointsTo_biUnion Finset.univ (ℓ := (V d (cV L) (jV L)).loc cc0_scratch2) (fun t : Fin 4 => (srcW1 t).view.set) windows1_disjoint,
    bigSep_fin4]

end Tile

end Cert.Proof.KB

end
-- ==== Proof.KBInv.lean ====
import proofs.«206824_g72705206386957_cont_9to1_m_461_20_alg».proof.Proof.KBGeom

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

local notation "iV" => (Memref.whole Cert.Kernel.main_v9_scv : Memref Cert.Kernel.sig Kind.scVector Space.hbm Cert.Kernel.S327680 EltTy.i32)
local notation "tV" => (Memref.whole Cert.Kernel.main_v5_scv : Memref Cert.Kernel.sig Kind.scVector Space.hbm Cert.Kernel.S192x128 EltTy.f32)
local notation "oV" => (Memref.whole Cert.Kernel.main_v10_scv : Memref Cert.Kernel.sig Kind.scVector Space.hbm Cert.Kernel.S16384x20x128 EltTy.f32)
local notation "shV" => (Memref.whole Cert.Kernel.cc0_scratch3 : Memref Cert.Kernel.sig Kind.scVector Space.shared Cert.Kernel.S192x128 EltTy.f32)
local notation "a5" => (Memref.whole Cert.Kernel.cc0_scratch0 : Memref Cert.Kernel.sig Kind.scVector Space.vmem Cert.Kernel.S10240 EltTy.i32)
local notation "a6" => (Memref.whole Cert.Kernel.cc0_scratch1 : Memref Cert.Kernel.sig Kind.scVector Space.vmem Cert.Kernel.S2x1x80 EltTy.i32)
local notation "a7" => (Memref.whole Cert.Kernel.cc0_scratch2 : Memref Cert.Kernel.sig Kind.scVector Space.vmem Cert.Kernel.S2x80x128 EltTy.f32)

variable [FloatOps F]
variable (fC : (d : Dev nD) → Buf (Elt F) (combLoc d)) (fI : (d : Dev nD) → Buf (Elt F) (idxLoc d))
variable (m : (ℓ : Loc nD τ sig) → Buf (Elt F) ℓ)

section Tile

variable (d : Dev nD) (L : grid0.Coords)

/-- One write-back's credit. -/
abbrev NW (L : grid0.Coords) : ℕ := (dstP L 0 0).view.amount (SemLoc.dma (sig := sig) cc0_scratch6.sem)

/-- A result row landed: the slot's window `t`, as it stood at the issue, written over the row's earlier contents. -/
abbrev land0 (dst : Memref sig .scVector .hbm S20x128 .f32) (FS : Buf (Elt F) ((a7).view.loc (V d (cV L) (jV L)))) (t : Fin 4) :
    Buf (Elt F) (dst.view.loc (V d (cV L) (jV L))) :=
  dst.view.writes (Elt F) (m (dst.view.loc (V d (cV L) (jV L)))) [⟨Rect.whole S20x128, ReadAs.same.apply ((srcW0 t).view.read (Elt F) FS)⟩]
abbrev land1 (dst : Memref sig .scVector .hbm S20x128 .f32) (FS : Buf (Elt F) ((a7).view.loc (V d (cV L) (jV L)))) (t : Fin 4) :
    Buf (Elt F) (dst.view.loc (V d (cV L) (jV L))) :=
  dst.view.writes (Elt F) (m (dst.view.loc (V d (cV L) (jV L)))) [⟨Rect.whole S20x128, ReadAs.same.apply ((srcW1 t).view.read (Elt F) FS)⟩]

/-- The deliveries of a slot's four write-backs into the rows `dst t`: row `t` of the chunk landed in its row of the result, the slot's
    window `t` back. -/
abbrev DW0 (dst : Fin 4 → Memref sig .scVector .hbm S20x128 .f32) (FS : Buf (Elt F) ((a7).view.loc (V d (cV L) (jV L)))) (t : Fin 4) : sProp 𝕄 :=
  iprop(((dst t).view.loc (V d (cV L) (jV L)) ↦[(dst t).view.set]{fullShare} land0 m d L (dst t) FS t)
     ∗ ((srcW0 t).view.loc (V d (cV L) (jV L)) ↦[(srcW0 t).view.set]{fullShare} FS))
abbrev DW1 (dst : Fin 4 → Memref sig .scVector .hbm S20x128 .f32) (FS : Buf (Elt F) ((a7).view.loc (V d (cV L) (jV L)))) (t : Fin 4) : sProp 𝕄 :=
  iprop(((dst t).view.loc (V d (cV L) (jV L)) ↦[(dst t).view.set]{fullShare} land1 m d L (dst t) FS t)
     ∗ ((srcW1 t).view.loc (V d (cV L) (jV L)) ↦[(srcW1 t).view.set]{fullShare} FS))

/-- Row ρ of the tile's part of the result, before and after its write-back. -/
abbrev rowTodo (ρ : ℕ) : sProp 𝕄 := outLoc d ↦[orowN (512 * (wL L).val + ρ)]{fullShare} m (outLoc d)
abbrev rowDone (ρ : ℕ) : sProp 𝕄 := outLoc d ↦[orowN (512 * (wL L).val + ρ)]{fullShare} outF fC fI d

/-- What a slot of the row buffer holds after chunk `c`'s gather: entry (x, k) is lane k of the table row the chunk's x-th index names. -/
def tabN (c : ℕ) : S80x128.Idx → F .f32 := fun i =>
  (fC d : FVec F S192x128 .f32) (ix2 (⟨((fI d : IVec S327680 32) (ix1 (⟨(10240 * (wL L).val + 80 * c + (i 0).val) % 327680, Nat.mod_lt _ (by decide)⟩ : Fin 327680))).toNat % 192,
    Nat.mod_lt _ (by decide)⟩ : Fin 192) (i 1))
def good0 (c : ℕ) (FS : Buf (Elt F) ((a7).view.loc (V d (cV L) (jV L)))) : Prop := ∀ i : S80x128.Idx, FS ((rows0).view.emb i) = tabN fC fI d L c i
def good1 (c : ℕ) (FS : Buf (Elt F) ((a7).view.loc (V d (cV L) (jV L)))) : Prop := ∀ i : S80x128.Idx, FS ((rows1).view.emb i) = tabN fC fI d L c i

/-- Slot 0's (slot 1's) four write-backs of chunk `2 k` (`2 k + 1`) in flight: issued, none waited for. -/
abbrev flight0 (k : ℕ) : sProp 𝕄 :=
  iprop(∃ FS, ⌜good0 fC fI d L (2 * k) FS⌝ ∗ Transfers.Batch (countersEmb : UEmb Counters 𝕄) (V d (cV L) (jV L)) (SemLoc.dma cc0_scratch6.sem) (default : HIx 1) (NW L)
    (DW0 m d L (fun t => dRow (512 * (wL L).val + 8 * k + t.val)) FS) 4 0)
abbrev flight1 (k : ℕ) : sProp 𝕄 :=
  iprop(∃ FS, ⌜good1 fC fI d L (2 * k + 1) FS⌝ ∗ Transfers.Batch (countersEmb : UEmb Counters 𝕄) (V d (cV L) (jV L)) (SemLoc.dma cc0_scratch7.sem) (default : HIx 1) (NW L)
    (DW1 m d L (fun t => dRow (512 * (wL L).val + 8 * k + 4 + t.val)) FS) 4 0)

/-- The loop's invariant before trip `k` (chunks `2 k + 2` and `2 k + 3`): the index scratch and the table share held, the two gather cells at zero,
    chunks `2 k` and `2 k + 1` in flight, the rows of the chunks before them done, those of the chunks after them untouched. -/
def inv (A5 : Buf (Elt F) ((a5).view.loc (V d (cV L) (jV L)))) (O : CellTallies nD τ sig (HIx 1)) (W : Waits sig (HIx 1)) (k : ℕ) (_ : PUnit) : sProp 𝕄 :=
  iprop(Transfers.MayWaits (V d (cV L) (jV L)) (default : HIx 1) O
    ∗ ((a5).view.loc (V d (cV L) (jV L)) ↦{fullShare} A5)
    ∗ (∃ W6, (a6).view.loc (V d (cV L) (jV L)) ↦{fullShare} W6)
    ∗ ((shV).view.loc (V d (cV L) (jV L)) ↦{Transfers.shareTok fullShare 16 (jF L)} fC d)
    ∗ semVal (c4 d (cV L) (jV L)) 0 ∗ semVal (c5 d (cV L) (jV L)) 0
    ∗ flight0 fC fI m d L k ∗ flight1 fC fI m d L k
    ∗ bigSep (Finset.Ico 0 (8 * k)) (rowDone fC fI d L) ∗ bigSep (Finset.Ico (8 * k + 8) 512) (rowTodo m d L)
    ∗ ∃ W', ⌜∀ p ∈ W', p ∈ W ∨ p.2 = none ∨ p.2 = some (0 : Fin 1)⌝ ∗ owes (V d (cV L) (jV L)) O W')

end Tile

end Cert.Proof.KB

end
-- ==== Proof.KBInvL.lean ====
/-
  The loop invariant's rows and batches in their canonical spelling: a row of the tile's part of the result, held at any contents, is the
  points-to of the view the program writes that row through (the prologue's and the loop's, whose printed offsets name the same row), and a
  batch of four write-backs stated over the program's views is the batch over the rows numbered by natural numbers. Also: intervals with
  equal ends, and the row buffer's two slots, each at contents of its own, joined to the buffer at some contents.
-/
import proofs.«206824_g72705206386957_cont_9to1_m_461_20_alg».proof.Proof.KBInv

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

local notation "iV" => (Memref.whole Cert.Kernel.main_v9_scv : Memref Cert.Kernel.sig Kind.scVector Space.hbm Cert.Kernel.S327680 EltTy.i32)
local notation "tV" => (Memref.whole Cert.Kernel.main_v5_scv : Memref Cert.Kernel.sig Kind.scVector Space.hbm Cert.Kernel.S192x128 EltTy.f32)
local notation "oV" => (Memref.whole Cert.Kernel.main_v10_scv : Memref Cert.Kernel.sig Kind.scVector Space.hbm Cert.Kernel.S16384x20x128 EltTy.f32)
local notation "shV" => (Memref.whole Cert.Kernel.cc0_scratch3 : Memref Cert.Kernel.sig Kind.scVector Space.shared Cert.Kernel.S192x128 EltTy.f32)
local notation "a5" => (Memref.whole Cert.Kernel.cc0_scratch0 : Memref Cert.Kernel.sig Kind.scVector Space.vmem Cert.Kernel.S10240 EltTy.i32)
local notation "a6" => (Memref.whole Cert.Kernel.cc0_scratch1 : Memref Cert.Kernel.sig Kind.scVector Space.vmem Cert.Kernel.S2x1x80 EltTy.i32)
local notation "a7" => (Memref.whole Cert.Kernel.cc0_scratch2 : Memref Cert.Kernel.sig Kind.scVector Space.vmem Cert.Kernel.S2x80x128 EltTy.f32)

variable [FloatOps F]
variable (fC : (d : Dev nD) → Buf (Elt F) (combLoc d)) (fI : (d : Dev nD) → Buf (Elt F) (idxLoc d))
variable (m : (ℓ : Loc nD τ sig) → Buf (Elt F) ℓ)

section Tile

variable (d : Dev nD) (L : grid0.Coords)

/-! ## The program's row views are the numbered rows -/

omit [FloatOps F] in
theorem dstP_dRow (r₁ : Fin 2) (t : Fin 4) (ρ : ℕ) (hρ : ρ = 512 * (wL L).val + 4 * r₁.val + t.val) : dstP L r₁ t = dRow ρ := by
  subst hρ
  exact dstO_dRow _ (k0_off2_inb L r₁ t) _ (rowP_lt L r₁ t) (offP L r₁ t)
omit [FloatOps F] in
theorem dstT_dRow (tr : Fin k0_t1_loop.trips) (r₁ : Fin 2) (t : Fin 4) (ρ : ℕ) (hρ : ρ = 512 * (wL L).val + 8 * tr.val + 8 + 4 * r₁.val + t.val) :
    dstT L tr r₁ t = dRow ρ := by
  subst hρ
  exact dstO_dRow _ (k0_off5_inb L tr r₁ t) _ (rowT_lt' L tr r₁ t) (offT L tr r₁ t)

omit [FloatOps F] in
/-- Row ρ = 4 r₁ + t of the tile's part, at any contents, is what the prologue's write-back t of chunk r₁ writes through. -/
theorem rowP_own (r₁ : Fin 2) (t : Fin 4) (ρ : ℕ) (hρ : ρ = 4 * r₁.val + t.val) (f : Buf (Elt F) (outLoc d)) :
    (outLoc d ↦[orowN (512 * (wL L).val + ρ)]{fullShare} f : sProp 𝕄)
      = ((dstP L r₁ t).view.loc (V d (cV L) (jV L)) ↦[(dstP L r₁ t).view.set]{fullShare} f) := by
  subst hρ
  have e : 512 * (wL L).val + (4 * r₁.val + t.val) = 512 * (wL L).val + 4 * r₁.val + t.val := by omega
  rw [set_dstP L r₁ t, e]
  rfl
omit [FloatOps F] in
/-- Row ρ = 8 tr + 8 + 4 r₁ + t of the tile's part is what the loop's write-back t of slot r₁ writes through at trip tr. -/
theorem rowT_own (tr : Fin k0_t1_loop.trips) (r₁ : Fin 2) (t : Fin 4) (ρ : ℕ) (hρ : ρ = 8 * tr.val + 8 + 4 * r₁.val + t.val) (f : Buf (Elt F) (outLoc d)) :
    (outLoc d ↦[orowN (512 * (wL L).val + ρ)]{fullShare} f : sProp 𝕄)
      = ((dstT L tr r₁ t).view.loc (V d (cV L) (jV L)) ↦[(dstT L tr r₁ t).view.set]{fullShare} f) := by
  subst hρ
  have e : 512 * (wL L).val + (8 * tr.val + 8 + 4 * r₁.val + t.val) = 512 * (wL L).val + 8 * tr.val + 4 * r₁.val + t.val + 8 := by omega
  rw [set_dstT L tr r₁ t, e]
  rfl

/-! ## The batches over the numbered rows -/

omit [FloatOps F] in
theorem famP0 : (fun t : Fin 4 => dstP L 0 t) = fun t : Fin 4 => dRow (512 * (wL L).val + 8 * 0 + t.val) :=
  funext fun t => dstP_dRow L 0 t _ (by show 512 * (wL L).val + 8 * 0 + t.val = 512 * (wL L).val + 4 * 0 + t.val; omega)
omit [FloatOps F] in
theorem famP1 : (fun t : Fin 4 => dstP L 1 t) = fun t : Fin 4 => dRow (512 * (wL L).val + 8 * 0 + 4 + t.val) :=
  funext fun t => dstP_dRow L 1 t _ (by show 512 * (wL L).val + 8 * 0 + 4 + t.val = 512 * (wL L).val + 4 * 1 + t.val; omega)
omit [FloatOps F] in
theorem famT0 (tr : Fin k0_t1_loop.trips) : (fun t : Fin 4 => dstT L tr 0 t) = fun t : Fin 4 => dRow (512 * (wL L).val + 8 * (tr.val + 1) + t.val) :=
  funext fun t => dstT_dRow L tr 0 t _ (by show 512 * (wL L).val + 8 * (tr.val + 1) + t.val = 512 * (wL L).val + 8 * tr.val + 8 + 4 * 0 + t.val; omega)
omit [FloatOps F] in
theorem famT1 (tr : Fin k0_t1_loop.trips) : (fun t : Fin 4 => dstT L tr 1 t) = fun t : Fin 4 => dRow (512 * (wL L).val + 8 * (tr.val + 1) + 4 + t.val) :=
  funext fun t => dstT_dRow L tr 1 t _ (by show 512 * (wL L).val + 8 * (tr.val + 1) + 4 + t.val = 512 * (wL L).val + 8 * tr.val + 8 + 4 * 1 + t.val; omega)

theorem canonP0 (FS : Buf (Elt F) ((a7).view.loc (V d (cV L) (jV L)))) :
    (Transfers.Batch (countersEmb : UEmb Counters 𝕄) (V d (cV L) (jV L)) (SemLoc.dma cc0_scratch6.sem) (default : HIx 1) (NW L)
        (DW0 m d L (fun t => dstP L 0 t) FS) 4 0 : sProp 𝕄)
      = Transfers.Batch (countersEmb : UEmb Counters 𝕄) (V d (cV L) (jV L)) (SemLoc.dma cc0_scratch6.sem) (default : HIx 1) (NW L)
        (DW0 m d L (fun t => dRow (512 * (wL L).val + 8 * 0 + t.val)) FS) 4 0 :=
  congrArg (fun dst : Fin 4 → Memref sig .scVector .hbm S20x128 .f32 =>
    (Transfers.Batch (countersEmb : UEmb Counters 𝕄) (V d (cV L) (jV L)) (SemLoc.dma cc0_scratch6.sem) (default : HIx 1) (NW L) (DW0 m d L dst FS) 4 0 : sProp 𝕄)) (famP0 L)
theorem canonP1 (FS : Buf (Elt F) ((a7).view.loc (V d (cV L) (jV L)))) :
    (Transfers.Batch (countersEmb : UEmb Counters 𝕄) (V d (cV L) (jV L)) (SemLoc.dma cc0_scratch7.sem) (default : HIx 1) (NW L)
        (DW1 m d L (fun t => dstP L 1 t) FS) 4 0 : sProp 𝕄)
      = Transfers.Batch (countersEmb : UEmb Counters 𝕄) (V d (cV L) (jV L)) (SemLoc.dma cc0_scratch7.sem) (default : HIx 1) (NW L)
        (DW1 m d L (fun t => dRow (512 * (wL L).val + 8 * 0 + 4 + t.val)) FS) 4 0 :=
  congrArg (fun dst : Fin 4 → Memref sig .scVector .hbm S20x128 .f32 =>
    (Transfers.Batch (countersEmb : UEmb Counters 𝕄) (V d (cV L) (jV L)) (SemLoc.dma cc0_scratch7.sem) (default : HIx 1) (NW L) (DW1 m d L dst FS) 4 0 : sProp 𝕄)) (famP1 L)
theorem canonT0 (tr : Fin k0_t1_loop.trips) (FS : Buf (Elt F) ((a7).view.loc (V d (cV L) (jV L)))) :
    (Transfers.Batch (countersEmb : UEmb Counters 𝕄) (V d (cV L) (jV L)) (SemLoc.dma cc0_scratch6.sem) (default : HIx 1) (NW L)
        (DW0 m d L (fun t => dstT L tr 0 t) FS) 4 0 : sProp 𝕄)
      = Transfers.Batch (countersEmb : UEmb Counters 𝕄) (V d (cV L) (jV L)) (SemLoc.dma cc0_scratch6.sem) (default : HIx 1) (NW L)
        (DW0 m d L (fun t => dRow (512 * (wL L).val + 8 * (tr.val + 1) + t.val)) FS) 4 0 :=
  congrArg (fun dst : Fin 4 → Memref sig .scVector .hbm S20x128 .f32 =>
    (Transfers.Batch (countersEmb : UEmb Counters 𝕄) (V d (cV L) (jV L)) (SemLoc.dma cc0_scratch6.sem) (default : HIx 1) (NW L) (DW0 m d L dst FS) 4 0 : sProp 𝕄)) (famT0 L tr)
theorem canonT1 (tr : Fin k0_t1_loop.trips) (FS : Buf (Elt F) ((a7).view.loc (V d (cV L) (jV L)))) :
    (Transfers.Batch (countersEmb : UEmb Counters 𝕄) (V d (cV L) (jV L)) (SemLoc.dma cc0_scratch7.sem) (default : HIx 1) (NW L)
        (DW1 m d L (fun t => dstT L tr 1 t) FS) 4 0 : sProp 𝕄)
      = Transfers.Batch (countersEmb : UEmb Counters 𝕄) (V d (cV L) (jV L)) (SemLoc.dma cc0_scratch7.sem) (default : HIx 1) (NW L)
        (DW1 m d L (fun t => dRow (512 * (wL L).val + 8 * (tr.val + 1) + 4 + t.val)) FS) 4 0 :=
  congrArg (fun dst : Fin 4 → Memref sig .scVector .hbm S20x128 .f32 =>
    (Transfers.Batch (countersEmb : UEmb Counters 𝕄) (V d (cV L) (jV L)) (SemLoc.dma cc0_scratch7.sem) (default : HIx 1) (NW L) (DW1 m d L dst FS) 4 0 : sProp 𝕄)) (famT1 L tr)

/-! ## Intervals with equal ends; the row buffer's slots joined -/

omit [FloatOps F] in
theorem Ico_congr (Φ : ℕ → sProp 𝕄) {a a' b b' : ℕ} (ha : a = a') (hb : b = b') : bigSep (Finset.Ico a b) Φ = bigSep (Finset.Ico a' b') Φ := by
  subst ha; subst hb; rfl

omit [FloatOps F] in
/-- The two slots, each at contents of its own, are the row buffer at some contents. -/
theorem a7_join (f g : Buf (Elt F) ((V d (cV L) (jV L)).loc cc0_scratch2)) :
    iprop(((rows0).view.loc (V d (cV L) (jV L)) ↦[(rows0).view.set]{fullShare} f) ∗ ((rows1).view.loc (V d (cV L) (jV L)) ↦[(rows1).view.set]{fullShare} g))
      ⊢ (iprop(∃ h, (a7).view.loc (V d (cV L) (jV L)) ↦{fullShare} h) : sProp 𝕄) := by
  classical
  let h : Buf (Elt F) ((V d (cV L) (jV L)).loc cc0_scratch2) := fun i => if i ∈ (rows0).view.set then f i else g i
  have e0 : ((rows0).view.loc (V d (cV L) (jV L)) ↦[(rows0).view.set]{fullShare} f : sProp 𝕄)
      = ((rows0).view.loc (V d (cV L) (jV L)) ↦[(rows0).view.set]{fullShare} h) :=
    pointsTo_congr fun i hi => by show f i = if i ∈ (rows0).view.set then f i else g i; rw [if_pos hi]
  have e1 : ((rows1).view.loc (V d (cV L) (jV L)) ↦[(rows1).view.set]{fullShare} g : sProp 𝕄)
      = ((rows1).view.loc (V d (cV L) (jV L)) ↦[(rows1).view.set]{fullShare} h) :=
    pointsTo_congr fun i hi => by
      have hn : i ∉ (rows0).view.set := fun h0 => Finset.disjoint_left.mp rows_disjoint h0 hi
      show g i = if i ∈ (rows0).view.set then f i else g i
      rw [if_neg hn]
  rw [e0, e1, ← a7_slots d L h]
  iintro H
  iexists h
  iexact H

end Tile

end Cert.Proof.KB

end
-- ==== Proof.KBVal.lean ====
/-
  What the tile's buffers hold, read at an index: the index scratch once the tile's slice of the flat indices has landed, a sixteen-lane
  load from it, an index list after the five sixteen-lane stores that fill it, the rows a gather brings from the shared table, and a
  result row once a window of the row buffer has been written to it. Equalities between contents functions only; nothing here speaks of
  the program's steps.
-/
import proofs.«206824_g72705206386957_cont_9to1_m_461_20_alg».proof.Proof.KBGeom
import Idealize.ShloMosaic.Lib.Writes

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

local notation "iV" => (Memref.whole Cert.Kernel.main_v9_scv : Memref Cert.Kernel.sig Kind.scVector Space.hbm Cert.Kernel.S327680 EltTy.i32)
local notation "tV" => (Memref.whole Cert.Kernel.main_v5_scv : Memref Cert.Kernel.sig Kind.scVector Space.hbm Cert.Kernel.S192x128 EltTy.f32)
local notation "oV" => (Memref.whole Cert.Kernel.main_v10_scv : Memref Cert.Kernel.sig Kind.scVector Space.hbm Cert.Kernel.S16384x20x128 EltTy.f32)
local notation "shV" => (Memref.whole Cert.Kernel.cc0_scratch3 : Memref Cert.Kernel.sig Kind.scVector Space.shared Cert.Kernel.S192x128 EltTy.f32)
local notation "a5" => (Memref.whole Cert.Kernel.cc0_scratch0 : Memref Cert.Kernel.sig Kind.scVector Space.vmem Cert.Kernel.S10240 EltTy.i32)
local notation "a6" => (Memref.whole Cert.Kernel.cc0_scratch1 : Memref Cert.Kernel.sig Kind.scVector Space.vmem Cert.Kernel.S2x1x80 EltTy.i32)
local notation "a7" => (Memref.whole Cert.Kernel.cc0_scratch2 : Memref Cert.Kernel.sig Kind.scVector Space.vmem Cert.Kernel.S2x80x128 EltTy.f32)

variable (fC : (d : Dev nD) → Buf (Elt F) (combLoc d)) (fI : (d : Dev nD) → Buf (Elt F) (idxLoc d))

section Tile

variable (d : Dev nD) (L : grid0.Coords)

/-! ## The index scratch -/

/-- The tile's index scratch once its slice of the flat indices has landed: entry y is the flat index at position 10240 w + y. -/
def idx5 : Buf (Elt F) ((V d (cV L) (jV L)).loc cc0_scratch0) :=
  fun y : S10240.Idx => (fI d : IVec S327680 32) (ix1 (⟨10240 * (wL L).val + (y 0).val, flatPos_lt L y⟩ : Fin 327680))

theorem idx5_apply (y : S10240.Idx) :
    idx5 fI d L y = (fI d : IVec S327680 32) (ix1 (⟨10240 * (wL L).val + (y 0).val, flatPos_lt L y⟩ : Fin 327680)) := rfl

/-- The slice's copy into the scratch leaves it at `idx5`, whatever it held before. -/
theorem a5_landed (f5 : Buf (Elt F) ((V d (cV L) (jV L)).loc cc0_scratch0)) :
    View.write (Elt F) (a5).view f5 (ReadAs.same.apply ((iSl L).view.read (Elt F) (fI d))) Finset.univ = idx5 fI d L := by
  show (View.whole (cc0_scratch0 : Ref sig .scVector)).write (Elt F) f5 _ Finset.univ = _
  rw [View.write_whole_univ]
  funext y
  show (iSl L).view.read (Elt F) (fI d) y = _
  rw [View.read_apply, emb_iSl]
  rfl

/-! ## A sixteen-lane load from the index scratch -/

omit fC fI in
theorem load16_lt (off : Fin 1 → Nat) (inb : ∀ a, off a + S16.size a ≤ S10240.size a) (i : S16.Idx) : off 0 + (i 0).val < 10240 := by
  have h := inb 0
  have hi : (i 0).val < 16 := (i 0).isLt
  have h16 : S16.size 0 = 16 := rfl
  have hs : S10240.size 0 = 10240 := rfl
  omega

omit fC fI in
/-- A sixteen-lane load from the index scratch at offset `off`: lane i is the scratch's entry off + i. -/
theorem load16_apply (g : Buf (Elt F) ((V d (cV L) (jV L)).loc cc0_scratch0)) (off : Fin 1 → Nat)
    (inb : ∀ a, off a + S16.size a ≤ S10240.size a) (i : S16.Idx) :
    View.readAt (Elt F) (a5).view (Rect.unit (s := S10240) off S16.size inb).toLoadRect g i
      = g (ix1 (⟨off 0 + (i 0).val, load16_lt off inb i⟩ : Fin 10240)) := by
  rw [View.readAt_apply, View.read_apply]
  show g ((Rect.unit (s := S10240) off S16.size inb).toLoadRect.idx i) = _
  congr 1
  funext a
  match a with
  | ⟨0, _⟩ => exact Fin.ext (by show off 0 + 1 * (i 0).val = off 0 + (i 0).val; omega)

omit fC fI in
/-- The two shape casts of a sixteen-lane vector to its own shape change nothing. -/
theorem cast16 (v : S16.Idx → BitVec 32) (h h' : S16.ShapeCasts S16) : shapeCast S16 (shapeCast S16 v h) h' = v := by
  funext i
  show v (Shape.reshapeEquiv h (Shape.reshapeEquiv h' i)) = v i
  rw [Shape.reshapeEquiv_self, Shape.reshapeEquiv_self]

omit fC fI in
/-- The loaded vector as the program spells it (the load, cast twice to its own shape), read at a lane. -/
theorem v_load (g : Buf (Elt F) ((V d (cV L) (jV L)).loc cc0_scratch0)) (off : Fin 1 → Nat)
    (inb : ∀ a, off a + S16.size a ≤ S10240.size a) (h h' : S16.ShapeCasts S16) (W : S16.Idx → BitVec 32)
    (hW : W = shapeCast S16 (shapeCast S16 (View.readAt (Elt F) (a5).view (Rect.unit (s := S10240) off S16.size inb).toLoadRect g) h) h')
    (i : S16.Idx) : W i = g (ix1 (⟨off 0 + (i 0).val, load16_lt off inb i⟩ : Fin 10240)) := by
  subst hW
  rw [cast16]
  exact load16_apply d L g off inb i

/-- The same with the scratch at the landed indices: lane i is the flat index at position 10240 w + off + i. -/
theorem v_load_idx5 (g : Buf (Elt F) ((V d (cV L) (jV L)).loc cc0_scratch0)) (hg : g = idx5 fI d L) (off : Fin 1 → Nat)
    (inb : ∀ a, off a + S16.size a ≤ S10240.size a) (h h' : S16.ShapeCasts S16) (W : S16.Idx → BitVec 32)
    (hW : W = shapeCast S16 (shapeCast S16 (View.readAt (Elt F) (a5).view (Rect.unit (s := S10240) off S16.size inb).toLoadRect g) h) h')
    (i : S16.Idx) : W i = idx5 fI d L (ix1 (⟨off 0 + (i 0).val, load16_lt off inb i⟩ : Fin 10240)) := by
  rw [v_load d L g off inb h h' W hW i, hg]

/-! ## The index list read back -/

omit fC fI in
theorem mod16_lt (x : S80.Idx) : (x 0).val % 16 < 16 := Nat.mod_lt _ (by decide)

omit fC fI in
/-- One sixteen-lane store into an eighty-entry list: entry x reads the payload's lane x mod 16 when x lies in the stored group of
    sixteen, and what it read before otherwise. -/
theorem read_store16 {sp : Space} (v : View sig .scVector sp S80 .i32) (k : ℕ) (off : Fin 1 → Nat) (hoff : off 0 = 16 * k)
    (inb : ∀ a, off a + S16.size a ≤ S80.size a) (g : v.ty.Contents (Elt F)) (p : S16.Idx → BitVec 32) (x : S80.Idx) :
    v.read (Elt F) ((v.slice (Rect.unit (s := S80) off S16.size inb)).write (Elt F) g p Finset.univ) x
      = if (x 0).val / 16 = k then p (ix1 (⟨(x 0).val % 16, mod16_lt x⟩ : Fin 16)) else v.read (Elt F) g x := by
  split
  · next hk =>
    have hx : x = (Rect.unit (s := S80) off S16.size inb).emb (ix1 (⟨(x 0).val % 16, mod16_lt x⟩ : Fin 16)) := by
      funext a
      match a with
      | ⟨0, _⟩ =>
        apply Fin.ext
        rw [Rect.emb_apply, Rect.off_unit, Rect.stride_unit]
        show (x 0).val = off 0 + 1 * ((x 0).val % 16)
        omega
    conv_lhs => rw [hx]
    exact View.read_slice_write_emb (Rect.unit (s := S80) off S16.size inb) g p (Finset.mem_univ _)
  · next hk =>
    refine View.read_slice_write_of_not_mem (Rect.unit (s := S80) off S16.size inb) g p Finset.univ ?_
    intro hm
    obtain ⟨j, -, hj⟩ := Finset.mem_map.mp hm
    have h0 : ((Rect.unit (s := S80) off S16.size inb).emb j 0).val = (x 0).val := by rw [hj]
    rw [Rect.emb_apply, Rect.off_unit, Rect.stride_unit] at h0
    have hj16 : (j 0).val < 16 := (j 0).isLt
    omega

omit fC fI in
/-- An index list after the five sixteen-lane stores that fill it, as the program spells it (five nested writes through the list's
    accesses at offsets 0, 16, 32, 48, 64 over any prior contents): entry x is lane x mod 16 of payload x / 16. -/
theorem lst_read5 (m : Memref sig .scVector .vmem S80 .i32) (g : m.view.ty.Contents (Elt F)) (p0 p1 p2 p3 p4 : S16.Idx → BitVec 32)
    (i0 : ∀ a, (![0] : Fin 1 → Nat) a + S16.size a ≤ S80.size a) (i1 : ∀ a, (![16] : Fin 1 → Nat) a + S16.size a ≤ S80.size a)
    (i2 : ∀ a, (![32] : Fin 1 → Nat) a + S16.size a ≤ S80.size a) (i3 : ∀ a, (![48] : Fin 1 → Nat) a + S16.size a ≤ S80.size a)
    (i4 : ∀ a, (![64] : Fin 1 → Nat) a + S16.size a ≤ S80.size a) (x : S80.Idx) :
    m.view.read (Elt F)
        (View.write (Elt F) (m.access (Rect.unit (s := S80) ![64] S16.size i4))
          (View.write (Elt F) (m.access (Rect.unit (s := S80) ![48] S16.size i3))
            (View.write (Elt F) (m.access (Rect.unit (s := S80) ![32] S16.size i2))
              (View.write (Elt F) (m.access (Rect.unit (s := S80) ![16] S16.size i1))
                (View.write (Elt F) (m.access (Rect.unit (s := S80) ![0] S16.size i0)) g p0 Finset.univ)
                p1 Finset.univ) p2 Finset.univ) p3 Finset.univ) p4 Finset.univ) x
      = if (x 0).val / 16 = 0 then p0 (ix1 (⟨(x 0).val % 16, mod16_lt x⟩ : Fin 16))
        else if (x 0).val / 16 = 1 then p1 (ix1 (⟨(x 0).val % 16, mod16_lt x⟩ : Fin 16))
        else if (x 0).val / 16 = 2 then p2 (ix1 (⟨(x 0).val % 16, mod16_lt x⟩ : Fin 16))
        else if (x 0).val / 16 = 3 then p3 (ix1 (⟨(x 0).val % 16, mod16_lt x⟩ : Fin 16))
        else p4 (ix1 (⟨(x 0).val % 16, mod16_lt x⟩ : Fin 16)) := by
  have hx : (x 0).val < 80 := (x 0).isLt
  have e4 := read_store16 (F := F) m.view 4 ![64] rfl i4
  have e3 := read_store16 (F := F) m.view 3 ![48] rfl i3
  have e2 := read_store16 (F := F) m.view 2 ![32] rfl i2
  have e1 := read_store16 (F := F) m.view 1 ![16] rfl i1
  have e0 := read_store16 (F := F) m.view 0 ![0] rfl i0
  rw [e4, e3, e2, e1, e0]
  split_ifs <;> first | rfl | (exfalso; omega)

/-! ## The index list at the landed indices -/

/-- The five nested writes that fill an index list, as the program spells them. -/
abbrev wr5 (m : Memref sig .scVector .vmem S80 .i32) (g : m.view.ty.Contents (Elt F)) (p0 p1 p2 p3 p4 : S16.Idx → BitVec 32)
    (i0 : ∀ a, (![0] : Fin 1 → Nat) a + S16.size a ≤ S80.size a) (i1 : ∀ a, (![16] : Fin 1 → Nat) a + S16.size a ≤ S80.size a)
    (i2 : ∀ a, (![32] : Fin 1 → Nat) a + S16.size a ≤ S80.size a) (i3 : ∀ a, (![48] : Fin 1 → Nat) a + S16.size a ≤ S80.size a)
    (i4 : ∀ a, (![64] : Fin 1 → Nat) a + S16.size a ≤ S80.size a) : m.view.ty.Contents (Elt F) :=
  View.write (Elt F) (m.access (Rect.unit (s := S80) ![64] S16.size i4))
    (View.write (Elt F) (m.access (Rect.unit (s := S80) ![48] S16.size i3))
      (View.write (Elt F) (m.access (Rect.unit (s := S80) ![32] S16.size i2))
        (View.write (Elt F) (m.access (Rect.unit (s := S80) ![16] S16.size i1))
          (View.write (Elt F) (m.access (Rect.unit (s := S80) ![0] S16.size i0)) g p0 Finset.univ)
          p1 Finset.univ) p2 Finset.univ) p3 Finset.univ) p4 Finset.univ

/-- A sixteen-lane load from the index scratch, as the program spells it: the load, cast twice to its own shape. -/
abbrev ld (g5 : Buf (Elt F) ((V d (cV L) (jV L)).loc cc0_scratch0)) (o : Fin 1 → Nat) (b : ∀ a, o a + S16.size a ≤ S10240.size a)
    (c c' : S16.ShapeCasts S16) : S16.Idx → BitVec 32 :=
  shapeCast S16 (shapeCast S16 (View.readAt (Elt F) (a5).view (Rect.unit (s := S10240) o S16.size b).toLoadRect g5) c) c'

omit fC fI in
theorem ld_apply (g5 : Buf (Elt F) ((V d (cV L) (jV L)).loc cc0_scratch0)) (o : Fin 1 → Nat) (b : ∀ a, o a + S16.size a ≤ S10240.size a)
    (c c' : S16.ShapeCasts S16) (i : S16.Idx) : ld d L g5 o b c c' i = g5 (ix1 (⟨o 0 + (i 0).val, load16_lt o b i⟩ : Fin 10240)) :=
  v_load d L g5 o b c c' _ rfl i

omit fC fI in
theorem scratch_congr (g5 : Buf (Elt F) ((V d (cV L) (jV L)).loc cc0_scratch0)) (a b : ℕ) (ha : a < 10240) (hb : b < 10240) (h : a = b) :
    g5 (ix1 (⟨a, ha⟩ : Fin 10240)) = g5 (ix1 (⟨b, hb⟩ : Fin 10240)) := by subst h; rfl

omit fC fI in
/-- The list filled from five loads at offsets off, off + 16, …, off + 64 of the scratch: entry x is the scratch's entry off + x. -/
theorem lst_read5_loads (m : Memref sig .scVector .vmem S80 .i32) (g : m.view.ty.Contents (Elt F))
    (g5 : Buf (Elt F) ((V d (cV L) (jV L)).loc cc0_scratch0)) (off : ℕ) (o0 o1 o2 o3 o4 : Fin 1 → Nat)
    (ho0 : o0 0 = off) (ho1 : o1 0 = off + 16) (ho2 : o2 0 = off + 32) (ho3 : o3 0 = off + 48) (ho4 : o4 0 = off + 64)
    (b0 : ∀ a, o0 a + S16.size a ≤ S10240.size a) (b1 : ∀ a, o1 a + S16.size a ≤ S10240.size a) (b2 : ∀ a, o2 a + S16.size a ≤ S10240.size a)
    (b3 : ∀ a, o3 a + S16.size a ≤ S10240.size a) (b4 : ∀ a, o4 a + S16.size a ≤ S10240.size a)
    (c0 c0' c1 c1' c2 c2' c3 c3' c4 c4' : S16.ShapeCasts S16)
    (i0 : ∀ a, (![0] : Fin 1 → Nat) a + S16.size a ≤ S80.size a) (i1 : ∀ a, (![16] : Fin 1 → Nat) a + S16.size a ≤ S80.size a)
    (i2 : ∀ a, (![32] : Fin 1 → Nat) a + S16.size a ≤ S80.size a) (i3 : ∀ a, (![48] : Fin 1 → Nat) a + S16.size a ≤ S80.size a)
    (i4 : ∀ a, (![64] : Fin 1 → Nat) a + S16.size a ≤ S80.size a) (x : S80.Idx) (hx : off + (x 0).val < 10240) :
    m.view.read (Elt F) (wr5 m g (ld d L g5 o0 b0 c0 c0') (ld d L g5 o1 b1 c1 c1') (ld d L g5 o2 b2 c2 c2') (ld d L g5 o3 b3 c3 c3')
        (ld d L g5 o4 b4 c4 c4') i0 i1 i2 i3 i4) x
      = g5 (ix1 (⟨off + (x 0).val, hx⟩ : Fin 10240)) := by
  have hx80 : (x 0).val < 80 := (x 0).isLt
  rw [lst_read5]
  split_ifs with h0 h1 h2 h3
  · rw [ld_apply]; exact scratch_congr d L g5 _ _ _ _ (by show o0 0 + (x 0).val % 16 = off + (x 0).val; omega)
  · rw [ld_apply]; exact scratch_congr d L g5 _ _ _ _ (by show o1 0 + (x 0).val % 16 = off + (x 0).val; omega)
  · rw [ld_apply]; exact scratch_congr d L g5 _ _ _ _ (by show o2 0 + (x 0).val % 16 = off + (x 0).val; omega)
  · rw [ld_apply]; exact scratch_congr d L g5 _ _ _ _ (by show o3 0 + (x 0).val % 16 = off + (x 0).val; omega)
  · rw [ld_apply]; exact scratch_congr d L g5 _ _ _ _ (by show o4 0 + (x 0).val % 16 = off + (x 0).val; omega)

omit fC in
theorem listPos_lt (off : ℕ) (x : S80.Idx) (hx : off + (x 0).val < 10240) : 10240 * (wL L).val + off + (x 0).val < 327680 := by
  have := (wL L).isLt; omega

/-- The same with the scratch at the landed indices: entry x of the list is the flat index at position 10240 w + off + x. -/
theorem lst_read5_idx (m : Memref sig .scVector .vmem S80 .i32) (g : m.view.ty.Contents (Elt F))
    (g5 : Buf (Elt F) ((V d (cV L) (jV L)).loc cc0_scratch0)) (hg5 : g5 = idx5 fI d L) (off : ℕ) (o0 o1 o2 o3 o4 : Fin 1 → Nat)
    (ho0 : o0 0 = off) (ho1 : o1 0 = off + 16) (ho2 : o2 0 = off + 32) (ho3 : o3 0 = off + 48) (ho4 : o4 0 = off + 64)
    (b0 : ∀ a, o0 a + S16.size a ≤ S10240.size a) (b1 : ∀ a, o1 a + S16.size a ≤ S10240.size a) (b2 : ∀ a, o2 a + S16.size a ≤ S10240.size a)
    (b3 : ∀ a, o3 a + S16.size a ≤ S10240.size a) (b4 : ∀ a, o4 a + S16.size a ≤ S10240.size a)
    (c0 c0' c1 c1' c2 c2' c3 c3' c4 c4' : S16.ShapeCasts S16)
    (i0 : ∀ a, (![0] : Fin 1 → Nat) a + S16.size a ≤ S80.size a) (i1 : ∀ a, (![16] : Fin 1 → Nat) a + S16.size a ≤ S80.size a)
    (i2 : ∀ a, (![32] : Fin 1 → Nat) a + S16.size a ≤ S80.size a) (i3 : ∀ a, (![48] : Fin 1 → Nat) a + S16.size a ≤ S80.size a)
    (i4 : ∀ a, (![64] : Fin 1 → Nat) a + S16.size a ≤ S80.size a) (x : S80.Idx) (hx : off + (x 0).val < 10240) :
    m.view.read (Elt F) (wr5 m g (ld d L g5 o0 b0 c0 c0') (ld d L g5 o1 b1 c1 c1') (ld d L g5 o2 b2 c2 c2') (ld d L g5 o3 b3 c3 c3')
        (ld d L g5 o4 b4 c4 c4') i0 i1 i2 i3 i4) x
      = (fI d : IVec S327680 32) (ix1 (⟨10240 * (wL L).val + off + (x 0).val, listPos_lt L off x hx⟩ : Fin 327680)) := by
  rw [lst_read5_loads d L m g g5 off o0 o1 o2 o3 o4 ho0 ho1 ho2 ho3 ho4 b0 b1 b2 b3 b4 c0 c0' c1 c1' c2 c2' c3 c3' c4 c4' i0 i1 i2 i3 i4 x hx, hg5,
    idx5_apply]
  exact congrArg (fI d : IVec S327680 32) (congrArg ix1 (Fin.ext (by show 10240 * (wL L).val + (off + (x 0).val) = 10240 * (wL L).val + off + (x 0).val; omega)))

/-- The gather's offsets are in range: every entry of a filled index list is one of the flat indices, all below 192. -/
theorem lst_inb (hI : ∀ y, ((fI d : IVec S327680 32) y).toNat < 192) (m : Memref sig .scVector .vmem S80 .i32) (g : m.view.ty.Contents (Elt F))
    (g5 : Buf (Elt F) ((V d (cV L) (jV L)).loc cc0_scratch0)) (hg5 : g5 = idx5 fI d L) (o0 o1 o2 o3 o4 : Fin 1 → Nat)
    (b0 : ∀ a, o0 a + S16.size a ≤ S10240.size a) (b1 : ∀ a, o1 a + S16.size a ≤ S10240.size a) (b2 : ∀ a, o2 a + S16.size a ≤ S10240.size a)
    (b3 : ∀ a, o3 a + S16.size a ≤ S10240.size a) (b4 : ∀ a, o4 a + S16.size a ≤ S10240.size a)
    (c0 c0' c1 c1' c2 c2' c3 c3' c4 c4' : S16.ShapeCasts S16)
    (i0 : ∀ a, (![0] : Fin 1 → Nat) a + S16.size a ≤ S80.size a) (i1 : ∀ a, (![16] : Fin 1 → Nat) a + S16.size a ≤ S80.size a)
    (i2 : ∀ a, (![32] : Fin 1 → Nat) a + S16.size a ≤ S80.size a) (i3 : ∀ a, (![48] : Fin 1 → Nat) a + S16.size a ≤ S80.size a)
    (i4 : ∀ a, (![64] : Fin 1 → Nat) a + S16.size a ≤ S80.size a) :
    ∀ x : S80.Idx, (m.view.read (Elt F) (wr5 m g (ld d L g5 o0 b0 c0 c0') (ld d L g5 o1 b1 c1 c1') (ld d L g5 o2 b2 c2 c2') (ld d L g5 o3 b3 c3 c3')
        (ld d L g5 o4 b4 c4 c4') i0 i1 i2 i3 i4) x).toNat < 192 := by
  intro x
  subst hg5
  rw [lst_read5]
  split_ifs <;> (rw [ld_apply, idx5_apply]; exact hI _)

/-! ## The gathered rows -/

omit fC fI in
theorem rowMajor_symm_S80 (k : Fin S80.numel) (hk : k.val < 80) : S80.rowMajor.symm k = ix1 (⟨k.val, hk⟩ : Fin 80) := by
  rw [Equiv.symm_apply_eq]
  apply Fin.ext
  rw [Shape.rowMajor_val_one]

omit fC fI in
/-- What a gather of eighty rows of the shared table brings: row k of the payload is the table's row named by entry k of the offset list. -/
theorem gather_apply (hg : S192x128.Gathers 0 S80x128) (hn : S80.numel = S80x128.size hg.axis')
    (inbT : ∀ a, (![0, 0] : Fin 2 → Nat) a + S192x128.size a ≤ S192x128.size a)
    (hst : ∀ a, (Rect.unit (s := S192x128) ![0, 0] S192x128.size inbT).stride a = 1)
    (T : FVec F S192x128 .f32) (idx : S80.Idx → BitVec 32) (hin : ∀ x, (idx x).toNat < S192x128.size hg.axis) (i : S80x128.Idx) :
    SparseCore.gatherPayload hg (View.read (Elt F) ((shV).slice (Rect.unit (s := S192x128) ![0, 0] S192x128.size inbT) hst).view T)
        (SparseCore.rows (F := F) idx hn hin) i
      = T (ix2 (⟨(idx (ix1 (i 0))).toNat, hin _⟩ : Fin 192) (i 1)) := by
  show View.read (Elt F) ((shV).slice (Rect.unit (s := S192x128) ![0, 0] S192x128.size inbT) hst).view T (hg.idx (SparseCore.rows (F := F) idx hn hin) i) = _
  rw [View.read_apply]
  show T ((Rect.unit (s := S192x128) ![0, 0] S192x128.size inbT).emb (hg.idx (SparseCore.rows (F := F) idx hn hin) i)) = _
  congr 1
  funext b
  apply Fin.ext
  rw [Rect.emb_apply, Rect.off_unit, Rect.stride_unit]
  match b with
  | ⟨0, h0⟩ =>
    have e := congrArg Fin.val (Shape.Gathers.idx_axis hg (SparseCore.rows (F := F) idx hn hin) i)
    show 0 + 1 * (hg.idx (SparseCore.rows (F := F) idx hn hin) i hg.axis).val = (idx (ix1 (i 0))).toNat
    rw [e, Nat.zero_add, Nat.one_mul]
    show (idx (S80.rowMajor.symm ((i hg.axis').cast hn.symm))).toNat = _
    have hk : ((i hg.axis').cast hn.symm).val < 80 := (i 0).isLt
    rw [rowMajor_symm_S80 _ hk]
    rfl
  | ⟨1, h1⟩ =>
    have e := Shape.Gathers.idx_of_ne hg (SparseCore.rows (F := F) idx hn hin) i ⟨1, h1⟩ Nat.one_ne_zero
    show 0 + 1 * (hg.idx (SparseCore.rows (F := F) idx hn hin) i ⟨1, h1⟩).val = (i 1).val
    rw [e, Nat.zero_add, Nat.one_mul]
    rfl

/-! ## A landed result row -/

/-- A row of the result, as the task addresses it: the one-row slice of the result at offsets `off`, its unit axis dropped. -/
abbrev oRow (off : Fin 3 → Nat) (inb : ∀ a, off a + S1x20x128.size a ≤ S16384x20x128.size a) : Memref sig .scVector .hbm S20x128 .f32 :=
  ((oV).slice (Rect.unit (s := S16384x20x128) off S1x20x128.size inb) (fun _ => rfl)).squeeze S20x128 squeezes_S1x20x128_S20x128

/-- A slot of the row buffer, as the task addresses it: the one-slot slice of the buffer at offsets `boff`, its unit axis dropped. -/
abbrev rowsG (boff : Fin 3 → Nat) (binb : ∀ a, boff a + S1x80x128.size a ≤ S2x80x128.size a) : Memref sig .scVector .vmem S80x128 .f32 :=
  ((a7).slice (Rect.unit (s := S2x80x128) boff S1x80x128.size binb) (fun _ => rfl)).squeeze S80x128 squeezes_S1x80x128_S80x128

/-- Window `t` (twenty rows) of a slot. -/
abbrev srcG (boff : Fin 3 → Nat) (binb : ∀ a, boff a + S1x80x128.size a ≤ S2x80x128.size a) (t : Fin 4) : Memref sig .scVector .vmem S20x128 .f32 :=
  (rowsG boff binb).slice (Rect.unit (s := S80x128) ![20 * t.val, 0] S20x128.size (inb_src t)) (fun _ => rfl)

omit fC fI in
/-- A view written whole with what another view reads, read back: what the other reads. -/
theorem landed_read {κ : Kind} {sp sp' : Space} (dst : View sig κ sp S20x128 .f32) (src : View sig κ sp' S20x128 .f32)
    (fd : dst.ty.Contents (Elt F)) (FS : src.ty.Contents (Elt F)) :
    dst.read (Elt F) (dst.writes (Elt F) fd [⟨Rect.whole S20x128, ReadAs.same.apply (src.read (Elt F) FS)⟩]) = src.read (Elt F) FS :=
  View.read_writes_whole dst fd _

omit fC fI in
/-- A result row written whole from a window of a slot: its entry i is the row buffer's element under the window's index i. -/
theorem landed_at (off : Fin 3 → Nat) (inb : ∀ a, off a + S1x20x128.size a ≤ S16384x20x128.size a)
    (boff : Fin 3 → Nat) (binb : ∀ a, boff a + S1x80x128.size a ≤ S2x80x128.size a) (t : Fin 4)
    (fd : Buf (Elt F) (outLoc d)) (FS : Buf (Elt F) ((V d (cV L) (jV L)).loc cc0_scratch2)) (i : S20x128.Idx) :
    ((oRow off inb).view.writes (Elt F) fd [⟨Rect.whole S20x128, ReadAs.same.apply ((srcG boff binb t).view.read (Elt F) FS)⟩]) ((oRow off inb).view.emb i)
      = FS ((srcG boff binb t).view.emb i) :=
  congrFun (landed_read (oRow off inb).view (srcG boff binb t).view fd FS) i

/-! ## The chain closed: from the flat indices to the result -/

omit fC in
theorem tabPos_lt (c : ℕ) (hc : c < 128) (i : S80x128.Idx) : 10240 * (wL L).val + 80 * c + (i 0).val < 327680 := by
  have := (wL L).isLt; have h : (i 0).val < 80 := (i 0).isLt; omega

/-- What chunk c's gather brings to a slot of the row buffer: row k is the table's row named by the flat index at position
    10240 w + 80 c + k (reduced modulo the table's height, as the result's final contents are). -/
def tab (c : ℕ) (hc : c < 128) : S80x128.Idx → F .f32 := fun i =>
  (fC d : FVec F S192x128 .f32) (ix2 (⟨((fI d : IVec S327680 32) (ix1 (⟨10240 * (wL L).val + 80 * c + (i 0).val, tabPos_lt L c hc i⟩ : Fin 327680))).toNat % 192,
    Nat.mod_lt _ (by decide)⟩ : Fin 192) (i 1))

omit fC in
theorem flat_congr (a b : ℕ) (ha : a < 327680) (hb : b < 327680) (h : a = b) :
    (fI d : IVec S327680 32) (ix1 (⟨a, ha⟩ : Fin 327680)) = (fI d : IVec S327680 32) (ix1 (⟨b, hb⟩ : Fin 327680)) := by subst h; rfl

/-- The gather's payload for chunk c, its offset list read back as the flat indices at positions 10240 w + off + x with off = 80 c. -/
theorem gathered_tab (c : ℕ) (hc : c < 128) (off : ℕ) (hoff : off = 80 * c)
    (hg : S192x128.Gathers 0 S80x128) (hn : S80.numel = S80x128.size hg.axis')
    (inbT : ∀ a, (![0, 0] : Fin 2 → Nat) a + S192x128.size a ≤ S192x128.size a)
    (hst : ∀ a, (Rect.unit (s := S192x128) ![0, 0] S192x128.size inbT).stride a = 1)
    (idx : S80.Idx → BitVec 32) (hin : ∀ x, (idx x).toNat < S192x128.size hg.axis)
    (hidx : ∀ (x : S80.Idx) (hx : 10240 * (wL L).val + off + (x 0).val < 327680),
      idx x = (fI d : IVec S327680 32) (ix1 (⟨10240 * (wL L).val + off + (x 0).val, hx⟩ : Fin 327680))) (i : S80x128.Idx) :
    SparseCore.gatherPayload hg (View.read (Elt F) ((shV).slice (Rect.unit (s := S192x128) ![0, 0] S192x128.size inbT) hst).view (fC d))
        (SparseCore.rows (F := F) idx hn hin) i
      = tab fC fI d L c hc i := by
  subst hoff
  refine (gather_apply hg hn inbT hst (fC d : FVec F S192x128 .f32) idx hin i).trans ?_
  have hlt : (idx (ix1 (i 0))).toNat < 192 := hin _
  have e : idx (ix1 (i 0)) = (fI d : IVec S327680 32) (ix1 (⟨10240 * (wL L).val + 80 * c + (i 0).val, tabPos_lt L c hc i⟩ : Fin 327680)) :=
    hidx (ix1 (i 0)) (tabPos_lt L c hc i)
  show (fC d : FVec F S192x128 .f32) (ix2 (⟨(idx (ix1 (i 0))).toNat, hlt⟩ : Fin 192) (i 1)) = _
  unfold tab
  exact congrArg (fC d : FVec F S192x128 .f32) (congrArg (fun r : Fin 192 => (ix2 r (i 1) : S192x128.Idx))
    (Fin.ext (by show (idx (ix1 (i 0))).toNat = _ % 192; rw [← e, Nat.mod_eq_of_lt hlt])))

/-- A slot after chunk c's gather has been written through it (the write spelt as one unmasked write): the slot's element under
    index i is `tab c i`. -/
theorem slot_write (boff : Fin 3 → Nat) (binb : ∀ a, boff a + S1x80x128.size a ≤ S2x80x128.size a)
    (FSold : Buf (Elt F) ((V d (cV L) (jV L)).loc cc0_scratch2)) (w : S80x128.Idx → F .f32) (i : S80x128.Idx) :
    View.write (Elt F) (rowsG boff binb).view FSold w Finset.univ ((rowsG boff binb).view.emb i) = w i :=
  View.write_emb_of_mem (v := (rowsG boff binb).view) FSold w (Finset.mem_univ i)

omit fC fI in
/-- The same with the write spelt as one listed whole piece. -/
theorem slot_writes (boff : Fin 3 → Nat) (binb : ∀ a, boff a + S1x80x128.size a ≤ S2x80x128.size a)
    (FSold : Buf (Elt F) ((V d (cV L) (jV L)).loc cc0_scratch2)) (w : S80x128.Idx → F .f32) (i : S80x128.Idx) :
    (rowsG boff binb).view.writes (Elt F) FSold [⟨Rect.whole S80x128, w⟩] ((rowsG boff binb).view.emb i) = w i :=
  congrFun (View.read_writes_whole (rowsG boff binb).view FSold w) i

omit fC in
theorem rowOut_flat (c : ℕ) (t : Fin 4) (i : S20x128.Idx) (r : ℕ) (hrc : r = 512 * (wL L).val + 4 * c + t.val) :
    10240 * (wL L).val + 80 * c + (20 * t.val + (i 0).val) = r * 20 + (i 0).val := by omega

/-- A result row written whole from window t of a slot that holds chunk c's gathered rows is at the result's final contents: it is row
    512 w + 4 c + t of the result, whose entry (l, k) is lane k of the table row named by the flat index at position
    20 (512 w + 4 c + t) + l = 10240 w + 80 c + 20 t + l. -/
theorem landed_row (boff : Fin 3 → Nat) (binb : ∀ a, boff a + S1x80x128.size a ≤ S2x80x128.size a) (c : ℕ) (hc : c < 128) (t : Fin 4)
    (FS : Buf (Elt F) ((V d (cV L) (jV L)).loc cc0_scratch2)) (hFS : ∀ i, FS ((rowsG boff binb).view.emb i) = tab fC fI d L c hc i)
    (off : Fin 3 → Nat) (inb : ∀ a, off a + S1x20x128.size a ≤ S16384x20x128.size a)
    (r : ℕ) (hr : r < 16384) (hrc : r = 512 * (wL L).val + 4 * c + t.val)
    (hdst : ∀ i : S20x128.Idx, (oRow off inb).view.emb i = (ix3 (⟨r, hr⟩ : Fin 16384) (i 0) (i 1) : S16384x20x128.Idx))
    (fd : Buf (Elt F) (outLoc d)) (i : S20x128.Idx) :
    ((oRow off inb).view.writes (Elt F) fd [⟨Rect.whole S20x128, ReadAs.same.apply ((srcG boff binb t).view.read (Elt F) FS)⟩]) ((oRow off inb).view.emb i)
      = outF fC fI d ((oRow off inb).view.emb i) := by
  rw [landed_at d L off inb boff binb t fd FS i]
  have e1 : (srcG boff binb t).view.emb i = (rowsG boff binb).view.emb (ix2 (⟨20 * t.val + (i 0).val, srcRow_lt t i⟩ : Fin 80) (i 1) : S80x128.Idx) := by
    have e : (srcG boff binb t).view.emb i
        = (rowsG boff binb).view.emb ((Rect.unit (s := S80x128) ![20 * t.val, 0] S20x128.size (inb_src t)).emb i) := rfl
    rw [e, emb_win]
  rw [e1, hFS, hdst]
  have hv := flat_congr fI d _ _ (tabPos_lt L c hc (ix2 (⟨20 * t.val + (i 0).val, srcRow_lt t i⟩ : Fin 80) (i 1) : S80x128.Idx))
    (flat_lt (⟨r, hr⟩ : Fin 16384) (i 0)) (rowOut_flat L c t i r hrc)
  unfold tab outF
  exact congrArg (fC d : FVec F S192x128 .f32) (congrArg (fun r : Fin 192 => (ix2 r (i 1) : S192x128.Idx))
    (Fin.ext (congrArg (fun v : BitVec 32 => v.toNat % 192) hv)))

end Tile

end Cert.Proof.KB

end
-- ==== Proof.KBVal2.lean ====
/-
  The value lemmas restated over the tile invariant's definitions: a slot of the row buffer after a chunk's gather holds that chunk's
  table rows, the gather's payload is those rows, and a result row written from a window of such a slot is at the result's final contents.
-/
import proofs.«206824_g72705206386957_cont_9to1_m_461_20_alg».proof.Proof.KBInv
import proofs.«206824_g72705206386957_cont_9to1_m_461_20_alg».proof.Proof.KBVal

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

local notation "iV" => (Memref.whole Cert.Kernel.main_v9_scv : Memref Cert.Kernel.sig Kind.scVector Space.hbm Cert.Kernel.S327680 EltTy.i32)
local notation "tV" => (Memref.whole Cert.Kernel.main_v5_scv : Memref Cert.Kernel.sig Kind.scVector Space.hbm Cert.Kernel.S192x128 EltTy.f32)
local notation "oV" => (Memref.whole Cert.Kernel.main_v10_scv : Memref Cert.Kernel.sig Kind.scVector Space.hbm Cert.Kernel.S16384x20x128 EltTy.f32)
local notation "shV" => (Memref.whole Cert.Kernel.cc0_scratch3 : Memref Cert.Kernel.sig Kind.scVector Space.shared Cert.Kernel.S192x128 EltTy.f32)
local notation "a5" => (Memref.whole Cert.Kernel.cc0_scratch0 : Memref Cert.Kernel.sig Kind.scVector Space.vmem Cert.Kernel.S10240 EltTy.i32)
local notation "a6" => (Memref.whole Cert.Kernel.cc0_scratch1 : Memref Cert.Kernel.sig Kind.scVector Space.vmem Cert.Kernel.S2x1x80 EltTy.i32)
local notation "a7" => (Memref.whole Cert.Kernel.cc0_scratch2 : Memref Cert.Kernel.sig Kind.scVector Space.vmem Cert.Kernel.S2x80x128 EltTy.f32)

variable [FloatOps F]
variable (fC : (d : Dev nD) → Buf (Elt F) (combLoc d)) (fI : (d : Dev nD) → Buf (Elt F) (idxLoc d))
variable (m : (ℓ : Loc nD τ sig) → Buf (Elt F) ℓ)

section Tile

variable (d : Dev nD) (L : grid0.Coords)

/-! ## The total table function agrees with the bounded one -/

omit [FloatOps F] in
theorem tabN_eq_tab (c : ℕ) (hc : c < 128) : tabN fC fI d L c = tab fC fI d L c hc := by
  funext i
  unfold tabN tab
  have hlt := tabPos_lt L c hc i
  have hv := flat_congr fI d _ _ (Nat.mod_lt _ (by decide) : (10240 * (wL L).val + 80 * c + (i 0).val) % 327680 < 327680) hlt (Nat.mod_eq_of_lt hlt)
  exact congrArg (fC d : FVec F S192x128 .f32) (congrArg (fun r : Fin 192 => (ix2 r (i 1) : S192x128.Idx))
    (Fin.ext (congrArg (fun v : BitVec 32 => v.toNat % 192) hv)))

/-! ## A slot after a chunk's gather -/

omit [FloatOps F] in
theorem good_gather0 (c : ℕ) (FSold : Buf (Elt F) ((a7).view.loc (V d (cV L) (jV L)))) (G : S80x128.Idx → F .f32)
    (hG : ∀ i, G i = tabN fC fI d L c i) : good0 fC fI d L c ((rows0).view.writes (Elt F) FSold [⟨Rect.whole S80x128, G⟩]) := by
  unfold good0
  intro i
  exact (slot_writes d L ![0, 0, 0] inb_S2x80x128_S1x80x128_0_0_0 FSold G i).trans (hG i)

omit [FloatOps F] in
theorem good_gather1 (c : ℕ) (FSold : Buf (Elt F) ((a7).view.loc (V d (cV L) (jV L)))) (G : S80x128.Idx → F .f32)
    (hG : ∀ i, G i = tabN fC fI d L c i) : good1 fC fI d L c ((rows1).view.writes (Elt F) FSold [⟨Rect.whole S80x128, G⟩]) := by
  unfold good1
  intro i
  exact (slot_writes d L ![1, 0, 0] inb_S2x80x128_S1x80x128_1_0_0 FSold G i).trans (hG i)

/-! ## The gather's payload -/

omit [FloatOps F] in
/-- Chunk c's gather, its offset list read back as the flat indices at positions 10240 w + off + x with off = 80 c, brings chunk c's table rows. -/
theorem gather_tab (c : ℕ) (hc : c < 128) (off : ℕ) (hoff : off = 80 * c) (T : FVec F S192x128 .f32) (hT : T = fC d)
    (hg : S192x128.Gathers 0 S80x128) (hn : S80.numel = S80x128.size hg.axis')
    (inbT : ∀ a, (![0, 0] : Fin 2 → Nat) a + S192x128.size a ≤ S192x128.size a)
    (hst : ∀ a, (Rect.unit (s := S192x128) ![0, 0] S192x128.size inbT).stride a = 1)
    (idx : S80.Idx → BitVec 32) (hin : ∀ x, (idx x).toNat < S192x128.size hg.axis)
    (hidx : ∀ (x : S80.Idx) (hx : 10240 * (wL L).val + off + (x 0).val < 327680),
      idx x = (fI d : IVec S327680 32) (ix1 (⟨10240 * (wL L).val + off + (x 0).val, hx⟩ : Fin 327680))) :
    ∀ i, SparseCore.gatherPayload hg (View.read (Elt F) ((shV).slice (Rect.unit (s := S192x128) ![0, 0] S192x128.size inbT) hst).view T)
        (SparseCore.rows (F := F) idx hn hin) i
      = tabN fC fI d L c i := by
  intro i
  subst hT
  rw [tabN_eq_tab fC fI d L c hc]
  exact gathered_tab fC fI d L c hc off hoff hg hn inbT hst idx hin hidx i

/-! ## A landed row is done -/

theorem landed0 (k : ℕ) (hk : k < 64) (t : Fin 4) (FS : Buf (Elt F) ((a7).view.loc (V d (cV L) (jV L)))) (h : good0 fC fI d L (2 * k) FS) :
    (((dRow (512 * (wL L).val + 8 * k + t.val)).view.loc (V d (cV L) (jV L)) ↦[(dRow (512 * (wL L).val + 8 * k + t.val)).view.set]{fullShare}
        land0 m d L (dRow (512 * (wL L).val + 8 * k + t.val)) FS t) : sProp 𝕄) = rowDone fC fI d L (8 * k + t.val) := by
  have hw := (wL L).isLt
  have ht := t.isLt
  have hr : 512 * (wL L).val + 8 * k + t.val < 16384 := by omega
  have hc : 2 * k < 128 := by omega
  rw [pts_dRow d L _ hr]
  show (_ : sProp 𝕄) = (outLoc d ↦[orowN (512 * (wL L).val + (8 * k + t.val))]{fullShare} outF fC fI d)
  rw [show 512 * (wL L).val + (8 * k + t.val) = 512 * (wL L).val + 8 * k + t.val from (Nat.add_assoc _ _ _).symm]
  refine pointsTo_congr fun j hj => ?_
  rw [← set_dRow _ hr] at hj
  obtain ⟨i, -, rfl⟩ := Finset.mem_map.mp hj
  exact landed_row fC fI d L ![0, 0, 0] inb_S2x80x128_S1x80x128_0_0_0 (2 * k) hc t FS
    (fun i => (h i).trans (congrFun (tabN_eq_tab fC fI d L (2 * k) hc) i)) _ _ _ hr (by omega) (emb_dRow _ hr) (m (outLoc d)) i

theorem landed1 (k : ℕ) (hk : k < 64) (t : Fin 4) (FS : Buf (Elt F) ((a7).view.loc (V d (cV L) (jV L)))) (h : good1 fC fI d L (2 * k + 1) FS) :
    (((dRow (512 * (wL L).val + 8 * k + 4 + t.val)).view.loc (V d (cV L) (jV L)) ↦[(dRow (512 * (wL L).val + 8 * k + 4 + t.val)).view.set]{fullShare}
        land1 m d L (dRow (512 * (wL L).val + 8 * k + 4 + t.val)) FS t) : sProp 𝕄) = rowDone fC fI d L (8 * k + 4 + t.val) := by
  have hw := (wL L).isLt
  have ht := t.isLt
  have hr : 512 * (wL L).val + 8 * k + 4 + t.val < 16384 := by omega
  have hc : 2 * k + 1 < 128 := by omega
  rw [pts_dRow d L _ hr]
  show (_ : sProp 𝕄) = (outLoc d ↦[orowN (512 * (wL L).val + (8 * k + 4 + t.val))]{fullShare} outF fC fI d)
  rw [show 512 * (wL L).val + (8 * k + 4 + t.val) = 512 * (wL L).val + 8 * k + 4 + t.val by omega]
  refine pointsTo_congr fun j hj => ?_
  rw [← set_dRow _ hr] at hj
  obtain ⟨i, -, rfl⟩ := Finset.mem_map.mp hj
  exact landed_row fC fI d L ![1, 0, 0] inb_S2x80x128_S1x80x128_1_0_0 (2 * k + 1) hc t FS
    (fun i => (h i).trans (congrFun (tabN_eq_tab fC fI d L (2 * k + 1) hc) i)) _ _ _ hr (by omega) (emb_dRow _ hr) (m (outLoc d)) i

/-! ## The loop's load offsets in closed form -/

omit [FloatOps F] fC fI m in
/-- The loop body's load offset for trip t, slot r₁, group r₂: 160 t + 80 r₁ + 160, plus 16 r₂. -/
theorem off3_val (t : Fin k0_t1_loop.trips) (r₁ : Fin 2) (r₂ : Fin 5) :
    k0_off3 t (BitVec.ofNat 32 r₁.val) (BitVec.ofNat 32 (16 * r₂.val)) 0 = (160 * t.val + 80 * r₁.val + 160) + 16 * r₂.val := by
  rw [k0_off3_eq]
  show 160 * t.val + 80 * r₁.val + 16 * r₂.val + 160 = _
  omega

omit [FloatOps F] fC fI m in
/-- That offset is 80 c for the chunk c = 2 (t + 1) + r₁ the trip's slot r₁ works on. -/
theorem off3_chunk (t : Fin k0_t1_loop.trips) (r₁ : Fin 2) : 160 * t.val + 80 * r₁.val + 160 = 80 * (2 * (t.val + 1) + r₁.val) := by omega

omit [FloatOps F] fC fI m in
/-- The same offset written from the chunk: 80 c + 16 r₂ for c = 2 (t + 1) + r₁. -/
theorem off3 (tr : Fin k0_t1_loop.trips) (r₁ : Fin 2) (r₂ : Fin 5) :
    k0_off3 tr (BitVec.ofNat 32 r₁.val) (BitVec.ofNat 32 (16 * r₂.val)) 0 = 80 * (2 * (tr.val + 1) + r₁.val) + 16 * r₂.val := by
  rw [off3_val]; omega

/-! ## A chunk's gather, from the index list as the program fills it -/

omit [FloatOps F] in
/-- The gather of chunk c, its offset list the five-store list filled from five loads at offsets 80 c, 80 c + 16, …, 80 c + 64 of the index
    scratch at the landed indices, brings chunk c's table rows. -/
theorem gv (c : ℕ) (hc : c < 128) (lst : Memref sig .scVector .vmem S80 .i32) (g : lst.view.ty.Contents (Elt F))
    (g5 : Buf (Elt F) ((V d (cV L) (jV L)).loc cc0_scratch0)) (hg5 : g5 = idx5 fI d L) (o0 o1 o2 o3 o4 : Fin 1 → Nat)
    (ho0 : o0 0 = 80 * c) (ho1 : o1 0 = 80 * c + 16) (ho2 : o2 0 = 80 * c + 32) (ho3 : o3 0 = 80 * c + 48) (ho4 : o4 0 = 80 * c + 64)
    (b0 : ∀ a, o0 a + S16.size a ≤ S10240.size a) (b1 : ∀ a, o1 a + S16.size a ≤ S10240.size a) (b2 : ∀ a, o2 a + S16.size a ≤ S10240.size a)
    (b3 : ∀ a, o3 a + S16.size a ≤ S10240.size a) (b4 : ∀ a, o4 a + S16.size a ≤ S10240.size a)
    (c0 c0' c1 c1' c2 c2' c3 c3' c4 c4' : S16.ShapeCasts S16)
    (i0 : ∀ a, (![0] : Fin 1 → Nat) a + S16.size a ≤ S80.size a) (i1 : ∀ a, (![16] : Fin 1 → Nat) a + S16.size a ≤ S80.size a)
    (i2 : ∀ a, (![32] : Fin 1 → Nat) a + S16.size a ≤ S80.size a) (i3 : ∀ a, (![48] : Fin 1 → Nat) a + S16.size a ≤ S80.size a)
    (i4 : ∀ a, (![64] : Fin 1 → Nat) a + S16.size a ≤ S80.size a)
    (T : FVec F S192x128 .f32) (hT : T = fC d)
    (hg : S192x128.Gathers 0 S80x128) (hn : S80.numel = S80x128.size hg.axis')
    (inbT : ∀ a, (![0, 0] : Fin 2 → Nat) a + S192x128.size a ≤ S192x128.size a)
    (hst : ∀ a, (Rect.unit (s := S192x128) ![0, 0] S192x128.size inbT).stride a = 1)
    (hin : ∀ x, (View.read (Elt F) lst.view (wr5 lst g (ld d L g5 o0 b0 c0 c0') (ld d L g5 o1 b1 c1 c1') (ld d L g5 o2 b2 c2 c2')
        (ld d L g5 o3 b3 c3 c3') (ld d L g5 o4 b4 c4 c4') i0 i1 i2 i3 i4) x).toNat < 192) :
    ∀ i, SparseCore.gatherPayload hg (View.read (Elt F) ((shV).slice (Rect.unit (s := S192x128) ![0, 0] S192x128.size inbT) hst).view T)
        (SparseCore.rows (F := F) (o := S80x128.size hg.axis') (z := S192x128.size hg.axis) (View.read (Elt F) lst.view (wr5 lst g (ld d L g5 o0 b0 c0 c0') (ld d L g5 o1 b1 c1 c1') (ld d L g5 o2 b2 c2 c2')
          (ld d L g5 o3 b3 c3 c3') (ld d L g5 o4 b4 c4 c4') i0 i1 i2 i3 i4)) hn hin) i
      = tabN fC fI d L c i :=
  gather_tab fC fI d L c hc (80 * c) rfl T hT hg hn inbT hst _ hin (fun x _ =>
    lst_read5_idx fI d L lst g g5 hg5 (80 * c) o0 o1 o2 o3 o4 ho0 ho1 ho2 ho3 ho4 b0 b1 b2 b3 b4 c0 c0' c1 c1' c2 c2' c3 c3' c4 c4' i0 i1 i2 i3 i4 x
      (by have h : (x 0).val < 80 := (x 0).isLt; omega))

end Tile

end Cert.Proof.KB

end
-- ==== Proof.KBBody.lean ====
/-
  One tile's task, proved once at a symbolic tile, and the launch theorem's obligation for it.
  A tile copies its 10240 flat indices into its index scratch (tile 0 of each core first copies the 192-row combined table into the core's
  shared memory), meets the other fifteen tiles of its core at the barrier — tile 0's arrival at tile j's barrier cell hands tile j a read
  share of the filled table, so after the barrier every tile holds a share of the table at its known contents —, and then works through its
  128 chunks with two slots: chunk c's 80 indices are copied to the slot's list, the 80 table rows they name are gathered into the slot of
  the row buffer, and the slot is written out as rows 4c … 4c + 3 of the tile's part of the result, four copies on one semaphore.
  The two slots alternate: a slot's four write-backs are waited for (all four, with nothing touching the slot in between) before the
  slot's next gather. The loop's invariant at trip k says: chunks 2k and 2k + 1 are in flight on the two slots, each slot's contents being
  the chunk's gathered table rows; every row of an earlier chunk holds the result's final contents; every row of a later chunk is untouched.
  A landed row holds the slot's window as it stood at the issue, which is the table row of the flat index at 20·row + l: the final contents.
-/
import proofs.«206824_g72705206386957_cont_9to1_m_461_20_alg».proof.Proof.KBInvL
import proofs.«206824_g72705206386957_cont_9to1_m_461_20_alg».proof.Proof.KBVal2

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

local notation "iV" => (Memref.whole Cert.Kernel.main_v9_scv : Memref Cert.Kernel.sig Kind.scVector Space.hbm Cert.Kernel.S327680 EltTy.i32)
local notation "tV" => (Memref.whole Cert.Kernel.main_v5_scv : Memref Cert.Kernel.sig Kind.scVector Space.hbm Cert.Kernel.S192x128 EltTy.f32)
local notation "oV" => (Memref.whole Cert.Kernel.main_v10_scv : Memref Cert.Kernel.sig Kind.scVector Space.hbm Cert.Kernel.S16384x20x128 EltTy.f32)
local notation "shV" => (Memref.whole Cert.Kernel.cc0_scratch3 : Memref Cert.Kernel.sig Kind.scVector Space.shared Cert.Kernel.S192x128 EltTy.f32)
local notation "a5" => (Memref.whole Cert.Kernel.cc0_scratch0 : Memref Cert.Kernel.sig Kind.scVector Space.vmem Cert.Kernel.S10240 EltTy.i32)
local notation "a6" => (Memref.whole Cert.Kernel.cc0_scratch1 : Memref Cert.Kernel.sig Kind.scVector Space.vmem Cert.Kernel.S2x1x80 EltTy.i32)
local notation "a7" => (Memref.whole Cert.Kernel.cc0_scratch2 : Memref Cert.Kernel.sig Kind.scVector Space.vmem Cert.Kernel.S2x80x128 EltTy.f32)

variable [FloatOps F]
variable (fC : (d : Dev nD) → Buf (Elt F) (combLoc d)) (fI : (d : Dev nD) → Buf (Elt F) (idxLoc d))
variable (m : (ℓ : Loc nD τ sig) → Buf (Elt F) ℓ)

section Tile

variable (d : Dev nD) (L : grid0.Coords)

omit [FloatOps F] in
theorem semVal_cast {g g' : GSem nD τ sig} (h : g = g') (n : ℕ) : (semVal g n : sProp 𝕄) ⊢ semVal g' n := by subst h; exact BI.Entails.refl _

omit [FloatOps F] in
theorem ins_ok {P : SemLoc sig × HIx 1 → Prop} {a : SemLoc sig × HIx 1} {S : Waits sig (HIx 1)} (ha : P a) (hS : ∀ p ∈ S, P p) : ∀ p ∈ insert a S, P p := by
  intro p hp; rcases Finset.mem_insert.mp hp with rfl | h
  · exact ha
  · exact hS p h

/-- Tile 0's arrivals hand every tile of its core its read share of the filled table. -/
theorem pays_intro0 (h0 : (L 1).val = 0) : (bigSep Finset.univ fun i : Fin 16 => shTok fC d (cV L) i)
    ⊢ (bigSep Finset.univ fun j : Fin (grid0.bound 1) => (bRd (F := F) fC).payload (bcell d (cV L) (j.castLE hsub0)) 0 (jV L).val : sProp 𝕄) := by
  refine Entails.of_eq (bigSep_congr fun j _ => ?_)
  show shTok fC d (cV L) j = bPay fC (bcell d (cV L) (j.castLE hsub0)) (jV L).val
  unfold bPay; dsimp only
  rw [if_pos (show (jV L).val = 0 from h0)]
  exact congrArg (shTok fC d (cV L)) (Fin.ext rfl)

/-- The other tiles' arrivals hand over nothing. -/
theorem pays_intro1 (h0 : (L 1).val ≠ 0) : (iprop(emp) : sProp 𝕄)
    ⊢ (bigSep Finset.univ fun j : Fin (grid0.bound 1) => (bRd (F := F) fC).payload (bcell d (cV L) (j.castLE hsub0)) 0 (jV L).val : sProp 𝕄) := by
  rw [show (bigSep Finset.univ fun j : Fin (grid0.bound 1) => (bRd (F := F) fC).payload (bcell d (cV L) (j.castLE hsub0)) 0 (jV L).val)
      = bigSep Finset.univ fun _ : Fin (grid0.bound 1) => (iprop(emp) : sProp 𝕄) from
      bigSep_congr fun j _ => if_neg (show ¬ (jV L).val = 0 from h0), bigSep_emp']

/-- What a tile's own round collected holds its read share of the filled table: tile 0's duty brought it. -/
theorem pays_elim : (bigSep ((bRd (F := F) fC).duties (bcell d (cV L) (jV L)) 0 \ ∅) fun n => (bRd (F := F) fC).payload (bcell d (cV L) (jV L)) 0 n)
    ⊢ (shTok fC d (cV L) (jF L) : sProp 𝕄) := by
  rw [Finset.sdiff_empty, bRd_duties₀]
  refine (bigSep_elim (i := (0 : ℕ)) (Finset.mem_image.mpr ⟨(⟨0, by decide⟩ : Fin τ.nSub), Finset.mem_univ _, rfl⟩)).trans ?_
  show bPay fC (bcell d (cV L) (jV L)) 0 ⊢ _
  unfold bPay; dsimp only
  rw [if_pos rfl]
  exact Entails.of_eq (congrArg (shTok fC d (cV L)) (Fin.ext rfl))

set_option maxHeartbeats 16000000 in
/-- The task on tile `(L 0, L 1)`, the core's tile 0, which fills the shared table first: the tile's 10240 indices fetched, the barrier (its sixteen arrivals carry the filled table's read shares), then the 128 chunks: 80 indices to
    a slot's list, 80 table rows gathered into the slot, the slot written out as four rows of the result, two slots alternating, each slot's four write-backs collected before the slot is
    gathered into again; in the end every row of the tile holds the result's final contents. -/
theorem tile_body0 (hF : (K (F := F)).Facts) (O : CellTallies nD τ sig (HIx 1)) (W : Waits sig (HIx 1)) (hO : ∀ g, O g none = 0)
    (hOlev : ∀ g ι, 0 < O g ι → 8 * (0 : Fin 1).val + 6 ≤ (K (F := F)).lev g ι) (h0 : (L 1).val = 0)
    (hI : ∀ d y, ((fI d : IVec S327680 32) y).toNat < 192) :
    iprop(levAts (K (F := F)).L (K (F := F)).lev ∗ bkit fC d (cV L) (jV L)
        ∗ (idxPts fI d (wL L) ∗ outPts d (wL L) (m (outLoc d)) ∗ (combTok fC d (cF L) ∗ ∃ f, shLoc d (cV L) ↦{fullShare} f))
        ∗ scopedBufs (V d (cV L) (jV L)) ∗ scopedSems0 (V d (cV L) (jV L)) ∗ owes (V d (cV L) (jV L)) (O + oxV d (cV L)) W)
      ⊢ wp frame (wpE (defs₀ (F := F)) 𝒱₀ (V d (cV L) (jV L)) none) Set.univ
          (cc0__emb_kernel L iV (Memref.isWhole_whole _) tV (Memref.isWhole_whole _) oV (Memref.isWhole_whole _) a5 (Memref.isWhole_whole _)
            a6 (Memref.isWhole_whole _) a7 (Memref.isWhole_whole _) shV (Memref.isWhole_whole _)
            cc0_scratch4 cc0_scratch5 cc0_scratch6 cc0_scratch7 cc0_scoped0 cc0_scoped1)
          fun _ => iprop((idxPts fI d (wL L) ∗ outPts d (wL L) (outF fC fI d) ∗ shTok fC d (cV L) (jF L) ∗ (combTok fC d (cF L) ∗ shRem fC d (cV L)))
            ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  have hC : Scalar.cmpi .ne (Scalar.extui (Scalar.cmpi .eq (BitVec.ofNat 32 (L 1).val) 0#32)) 0#32 = 1#1 := by rw [h0]; decide
  have htr : k0_t1_loop.trips = 63 := trips_eq
  simp only [cc0__emb_kernel_eq_skeleton]; unfold cc0__emb_kernel_skel
  rw [(K (F := F)).scopedBufs_V hF d (cV L) (jV L), SparseCore.Cfg.scopedSems0_V (Val := Elt F) d (cV L) (jV L), ownSems0_V, ownBufs_V]
  unfold bkit
  iintro ⟨#Hlv, ⟨⟨%κ, #Hinv⟩, Htoks, #Hrch, Hat, Hcred⟩, ⟨Hi, Ho, Hct, %fsh, Hsh⟩, ⟨⟨%f5, H5⟩, ⟨%f6, H6⟩, ⟨%f7, H7⟩, Hbufs⟩, ⟨Hs4, Hs5, Hs6, Hs7, HsA, HsB, Hsems⟩, HO⟩
  have hO' : ∀ g, (O + oxV d (cV L)) g none = 0 := fun g => by rw [Pi.add_apply, Finsupp.add_apply, hO g, oxV_none]
  ihave Hmw1 := (show levAts (K (F := F)).L (K (F := F)).lev ⊢ Transfers.MayWaits (V d (cV L) (jV L)) (default : HIx 1) (O + oxV d (cV L)) from
    (K (F := F)).mayWaits_none (thr := V d (cV L) (jV L)) hO') $$ Hlv
  ihave Hmw2 := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (pts_iSl (F := F) d L _).symm) $$ Hi
  ihave Hct' := (Entails.of_eq (pts_tV (F := F) d L _ _).symm) $$ Hct
  ihave Hsh' := (Entails.of_eq (pts_shV (F := F) d L _ _).symm) $$ Hsh
  ihave H5' := (Entails.of_eq (pts_a5 (F := F) d L _).symm) $$ H5
  ihave H6' := (Entails.of_eq (pts_a6 (F := F) d L _).symm) $$ H6
  ihave H7' := (Entails.of_eq (pts_a7 (F := F) d L _).symm) $$ H7
  -- the shared table filled, the tile's indices fetched
  sl_exec
  -- the filled table at its known contents, dealt as sixteen read shares: tile 0's payloads
  have hW : View.write (Elt F) (shV).view fsh (tile_body0.sl.dma0 fC d) Finset.univ = shC fC d (cV L) := by
    show (View.whole (cc0_scratch3 : Ref sig .scVector)).write (Elt F) fsh _ Finset.univ = _
    rw [View.write_whole_univ]; rfl
  ihave Hsh2 := (Entails.of_eq (show ((shV).view.loc (V d (cV L) (jV L)) ↦{fullShare} View.write (Elt F) (shV).view fsh (tile_body0.sl.dma0 fC d) Finset.univ : sProp 𝕄)
      = shLoc d (cV L) ↦{fullShare} shC fC d (cV L) by rw [hW]; rfl)) $$ Hsh'
  ihave Hsp := (Transfers.pointsTo_toks_split (ℓ := shLoc d (cV L)) (S := Finset.univ) (f := shC fC d (cV L)) fullShare 16) $$ Hsh2
  icases Hsp with ⟨Hrem, Htk⟩
  ihave Hpays := (pays_intro0 (F := F) fC d L h0) $$ Htk
  -- the barrier

  iapply (SparseCore.wp_subcoreBarrier 𝒱₀ none EB (bRd (F := F) fC) d (sc := cV L) (i := jV L) sc_bar0 (grid0.bound 1) hsub0 (L 1) rfl κ (fun _ => 0) (jV L).val
      (fun j => bRd_mem₀ fC d _ _ _) (fun _ => rfl) (bRd_expect fC d _ _) (some 0) O _) $$ [HO Htoks Hpays Hcred Hat]
  · isplitr; · iexact Hinv
    isplitl [HO]; · iexact HO
    isplitl [Htoks Hpays]
    · rw [bigSep_sep', bigSep_sep']
      isplitl [Htoks]; · iexact Htoks
      isplitl [Hpays]; · iexact Hpays
      iexact Hrch
    isplitl [Hcred]; · iexact Hcred
    isplitl [Hat]; · iexact Hat
    iapply ((K (F := F)).mayOwe_of_bound (thr := V d (cV L) (jV L)) 3 (fun p hp => by
        rw [Finset.mem_singleton] at hp; subst hp
        show (K (F := F)).lev (bcell d (cV L) (jV L)) (some 0) ≤ 3
        rw [(K (F := F)).lev_V_reg d _ _ (show (sc_bar0 : Sem sig) ≠ (K (F := F)).go from sc_bar0_ne_go)]; exact le_rfl)
      (fun g ι hg => lt_of_lt_of_le (by decide) (hOlev g ι hg)))
    iexact Hlv
  iintro ⟨HO, Hat, -, Hgot⟩
  ihave Hmy := (pays_elim (F := F) fC d L) $$ Hgot
  ihave Hmy' := (Entails.of_eq (pts_shV (F := F) d L _ _).symm) $$ Hmy

  -- chunk 0's indices to slot 0's list
  sl_exec

  -- (the last run copied the first chunk's indices to slot 0's list and stopped at the gather)
  have hin0 : ∀ x, ((lst0).view.read (Elt F) (tile_body0.sl.H6'_w5 fI d L f5 f6) x).toNat < 192 := lst_inb (F := F) fI d L (hI d) lst0 _ _ (a5_landed (F := F) fI d L f5) _ _ _ _ _ _ _ _ _ _ _ _ _ _ _ _ _ _ _ _ _ _ _ _ _
  ihave H7s := (Entails.of_eq (a7_slots (F := F) d L f7)) $$ H7'
  icases H7s with ⟨H70, H71⟩
  ihave Hrows := (Entails.of_eq (out_rowsN (F := F) d L (m (outLoc d)))) $$ Ho
  ihave Hr8 := (Entails.of_eq (Ico_take8 (F := F) (rowTodo m d L) 0 512 (by decide))) $$ Hrows
  icases Hr8 with ⟨Hn0, Hn1, Hn2, Hn3, Hn4, Hn5, Hn6, Hn7, Htodo⟩
  -- chunk 0: gathered into slot 0
  sl_exec
  -- its four rows out, in one batch on slot 0's write cell
  ihave Hn0' := (Entails.of_eq (rowP_own (F := F) d L 0 0 _ (by decide) _)) $$ Hn0
  ihave Hn1' := (Entails.of_eq (rowP_own (F := F) d L 0 1 _ (by decide) _)) $$ Hn1
  ihave Hn2' := (Entails.of_eq (rowP_own (F := F) d L 0 2 _ (by decide) _)) $$ Hn2
  ihave Hn3' := (Entails.of_eq (rowP_own (F := F) d L 0 3 _ (by decide) _)) $$ Hn3
  imod (Transfers.batch_alloc' (countersEmb : UEmb Counters 𝕄) (V d (cV L) (jV L)) (default : HIx 1) (NW L)
      (DW0 m d L (fun t => dstP L 0 t) ((rows0).view.writes (Elt F) f7 [⟨Rect.whole S80x128, tile_body0.sl.gather0 fC fI d L f5 f6 hin0⟩]))
      (sm := .dma cc0_scratch6.sem) (E := Set.univ)) $$ Hs6 with HB6
  sl_exec

  -- chunk 1: gathered into slot 1, its four rows out on slot 1's write cell
  have hin1 : ∀ x, ((lst1).view.read (Elt F) (tile_body0.sl.H6'_w5_1 fI d L f5 f6) x).toNat < 192 := lst_inb (F := F) fI d L (hI d) lst1 _ _ (a5_landed (F := F) fI d L f5) _ _ _ _ _ _ _ _ _ _ _ _ _ _ _ _ _ _ _ _ _ _ _ _ _
  sl_exec
  ihave Hn4' := (Entails.of_eq (rowP_own (F := F) d L 1 0 _ (by decide) _)) $$ Hn4
  ihave Hn5' := (Entails.of_eq (rowP_own (F := F) d L 1 1 _ (by decide) _)) $$ Hn5
  ihave Hn6' := (Entails.of_eq (rowP_own (F := F) d L 1 2 _ (by decide) _)) $$ Hn6
  ihave Hn7' := (Entails.of_eq (rowP_own (F := F) d L 1 3 _ (by decide) _)) $$ Hn7
  imod (Transfers.batch_alloc' (countersEmb : UEmb Counters 𝕄) (V d (cV L) (jV L)) (default : HIx 1) (NW L)
      (DW1 m d L (fun t => dstP L 1 t) ((rows1).view.writes (Elt F) f7 [⟨Rect.whole S80x128, tile_body0.sl.gather0_1 fC fI d L f5 f6 hin1⟩]))
      (sm := .dma cc0_scratch7.sem) (E := Set.univ)) $$ Hs7 with HB7
  sl_exec
  -- what the two slots hold: the chunks' gathered table rows
  have hgP0 : ∀ i, tile_body0.sl.gather0 fC fI d L f5 f6 hin0 i = tabN fC fI d L (2 * 0) i := (gv (F := F) fC fI d L 0 (by decide) lst0 _ _ (a5_landed (F := F) fI d L f5) _ _ _ _ _ rfl rfl rfl rfl rfl _ _ _ _ _ _ _ _ _ _ _ _ _ _ _ _ _ _ _ _ (fC d) rfl _ _ _ _ hin0)
  have hgP1 : ∀ i, tile_body0.sl.gather0_1 fC fI d L f5 f6 hin1 i = tabN fC fI d L (2 * 0 + 1) i := (gv (F := F) fC fI d L 1 (by decide) lst1 _ _ (a5_landed (F := F) fI d L f5) _ _ _ _ _ rfl rfl rfl rfl rfl _ _ _ _ _ _ _ _ _ _ _ _ _ _ _ _ _ _ _ _ (fC d) rfl _ _ _ _ hin1)
  -- the loop, by its invariant
  ihave HB6c := (Entails.of_eq (canonP0 (F := F) m d L _)) $$ HB6
  ihave HB7c := (Entails.of_eq (canonP1 (F := F) m d L _)) $$ HB7
  ihave Hdone := (Entails.of_eq (Ico_self (F := F) (rowDone fC fI d L) 0).symm) $$ []
  · iempintro
  sl_for (inv fC fI m d L (View.write (Elt F) (a5).view f5 (tile_body0.sl.dma0_1 fI d L) Finset.univ) O
      (insert (SemLoc.dma cc0_scratch5.sem, (default : HIx 1)) (insert (SemLoc.dma cc0_scratch4.sem, (default : HIx 1)) (insert (SemLoc.reg sc_bar0, some 0)
        (insert (SemLoc.dma cc0_scoped1.sem, default) (insert (SemLoc.dma cc0_scoped0.sem, default) W)))))) $$ [Hmw2 H5' H6' Hmy' Hs4 Hs5 HB6c HB7c Hdone Htodo HO]

  case region =>
    intro k _
    have hk63 : k.val < 63 := (trips_eq) ▸ k.isLt
    unfold inv
    iintro ⟨#Hmw, H5, ⟨%W6, H6⟩, Hmy, Hs4, Hs5, ⟨%FS0, %hFS0, HB6⟩, ⟨%FS1, %hFS1, HB7⟩, Hdone, Htodo, %W', %hW', HO⟩
    ihave Ht8 := (Entails.of_eq (Ico_take8 (F := F) (rowTodo m d L) (8 * k.val + 8) 512 (by omega))) $$ Htodo
    icases Ht8 with ⟨Hn0, Hn1, Hn2, Hn3, Hn4, Hn5, Hn6, Hn7, Htodo⟩
    -- slot 0: the chunk's indices to its list; the write-back of the chunk before it collected
    sl_exec
    ihave H70 := (Entails.of_eq (slot0_windows (F := F) d L FS0).symm) $$ [HB6_src0 HB6_src1 HB6_src2 HB6_src3]
    · isplitl [HB6_src0]; · iexact HB6_src0
      isplitl [HB6_src1]; · iexact HB6_src1
      isplitl [HB6_src2]; · iexact HB6_src2
      iexact HB6_src3
    ihave Hd0 := (Entails.of_eq (landed0 (F := F) fC fI m d L k.val (by omega) 0 FS0 hFS0)) $$ HB6_dst0
    ihave Hd1 := (Entails.of_eq (landed0 (F := F) fC fI m d L k.val (by omega) 1 FS0 hFS0)) $$ HB6_dst1
    ihave Hd2 := (Entails.of_eq (landed0 (F := F) fC fI m d L k.val (by omega) 2 FS0 hFS0)) $$ HB6_dst2
    ihave Hd3 := (Entails.of_eq (landed0 (F := F) fC fI m d L k.val (by omega) 3 FS0 hFS0)) $$ HB6_dst3
    have hinT0 : ∀ x, ((lst0).view.read (Elt F) (tile_body0.sl.H6_w5 fI d L f5 k W6) x).toNat < 192 := lst_inb (F := F) fI d L (hI d) lst0 _ _ (a5_landed (F := F) fI d L f5) _ _ _ _ _ _ _ _ _ _ _ _ _ _ _ _ _ _ _ _ _ _ _ _ _
    -- the gather into slot 0, then its four rows out
    sl_exec
    ihave Hn0' := (Entails.of_eq (rowT_own (F := F) d L k 0 0 _ rfl _)) $$ Hn0
    ihave Hn1' := (Entails.of_eq (rowT_own (F := F) d L k 0 1 _ rfl _)) $$ Hn1
    ihave Hn2' := (Entails.of_eq (rowT_own (F := F) d L k 0 2 _ rfl _)) $$ Hn2
    ihave Hn3' := (Entails.of_eq (rowT_own (F := F) d L k 0 3 _ rfl _)) $$ Hn3
    ihave HB6z := (semVal_cast (F := F) (g := ((V d (cV L) (jV L), SemLoc.dma (⟨2, _⟩ : DmaSem sig)) : GSem nD τ sig)) (g' := c6 d (cV L) (jV L)) rfl 0) $$ HB6
    imod (Transfers.batch_alloc' (countersEmb : UEmb Counters 𝕄) (V d (cV L) (jV L)) (default : HIx 1) (NW L)
        (DW0 m d L (fun t => dstT L k 0 t) ((rows0).view.writes (Elt F) FS0 [⟨Rect.whole S80x128, tile_body0.sl.gather0_2 fC fI d L f5 k W6 hinT0⟩]))
        (sm := .dma cc0_scratch6.sem) (E := Set.univ)) $$ HB6z with HC6
    -- slot 1: the same
    sl_exec
    ihave H71 := (Entails.of_eq (slot1_windows (F := F) d L FS1).symm) $$ [HB7_src0 HB7_src1 HB7_src2 HB7_src3]
    · isplitl [HB7_src0]; · iexact HB7_src0
      isplitl [HB7_src1]; · iexact HB7_src1
      isplitl [HB7_src2]; · iexact HB7_src2
      iexact HB7_src3
    ihave He0 := (Entails.of_eq (landed1 (F := F) fC fI m d L k.val (by omega) 0 FS1 hFS1)) $$ HB7_dst0
    ihave He1 := (Entails.of_eq (landed1 (F := F) fC fI m d L k.val (by omega) 1 FS1 hFS1)) $$ HB7_dst1
    ihave He2 := (Entails.of_eq (landed1 (F := F) fC fI m d L k.val (by omega) 2 FS1 hFS1)) $$ HB7_dst2
    ihave He3 := (Entails.of_eq (landed1 (F := F) fC fI m d L k.val (by omega) 3 FS1 hFS1)) $$ HB7_dst3
    have hinT1 : ∀ x, ((lst1).view.read (Elt F) (tile_body0.sl.H6_w5_1 fI d L f5 k W6) x).toNat < 192 := lst_inb (F := F) fI d L (hI d) lst1 _ _ (a5_landed (F := F) fI d L f5) _ _ _ _ _ _ _ _ _ _ _ _ _ _ _ _ _ _ _ _ _ _ _ _ _
    sl_exec
    ihave Hn4' := (Entails.of_eq (rowT_own (F := F) d L k 1 0 _ rfl _)) $$ Hn4
    ihave Hn5' := (Entails.of_eq (rowT_own (F := F) d L k 1 1 _ rfl _)) $$ Hn5
    ihave Hn6' := (Entails.of_eq (rowT_own (F := F) d L k 1 2 _ rfl _)) $$ Hn6
    ihave Hn7' := (Entails.of_eq (rowT_own (F := F) d L k 1 3 _ rfl _)) $$ Hn7
    ihave HB7z := (semVal_cast (F := F) (g := ((V d (cV L) (jV L), SemLoc.dma (⟨3, _⟩ : DmaSem sig)) : GSem nD τ sig)) (g' := c7 d (cV L) (jV L)) rfl 0) $$ HB7
    imod (Transfers.batch_alloc' (countersEmb : UEmb Counters 𝕄) (V d (cV L) (jV L)) (default : HIx 1) (NW L)
        (DW1 m d L (fun t => dstT L k 1 t) ((rows1).view.writes (Elt F) FS1 [⟨Rect.whole S80x128, tile_body0.sl.gather0_3 fC fI d L f5 k W6 hinT1⟩]))
        (sm := .dma cc0_scratch7.sem) (E := Set.univ)) $$ HB7z with HC7
    sl_exec
    sl_step
    have hgT0 : ∀ i, tile_body0.sl.gather0_2 fC fI d L f5 k W6 hinT0 i = tabN fC fI d L (2 * (k.val + 1)) i := (gv (F := F) fC fI d L (2 * (k.val + 1) + 0) (by omega) lst0 _ _ (a5_landed (F := F) fI d L f5) _ _ _ _ _ (off3 k 0 0) (off3 k 0 1) (off3 k 0 2) (off3 k 0 3) (off3 k 0 4) _ _ _ _ _ _ _ _ _ _ _ _ _ _ _ _ _ _ _ _ (fC d) rfl _ _ _ _ hinT0)
    have hgT1 : ∀ i, tile_body0.sl.gather0_3 fC fI d L f5 k W6 hinT1 i = tabN fC fI d L (2 * (k.val + 1) + 1) i := (gv (F := F) fC fI d L (2 * (k.val + 1) + 1) (by omega) lst1 _ _ (a5_landed (F := F) fI d L f5) _ _ _ _ _ (off3 k 1 0) (off3 k 1 1) (off3 k 1 2) (off3 k 1 3) (off3 k 1 4) _ _ _ _ _ _ _ _ _ _ _ _ _ _ _ _ _ _ _ _ (fC d) rfl _ _ _ _ hinT1)
    isplitr; · iexact Hmw
    isplitl [H5]; · iexact H5
    isplitl [H6]; · iexists _; iexact H6
    isplitl [Hmy]; · iexact Hmy
    isplitl [Hs4]; · iapply (semVal_cast (F := F) (g := ((V d (cV L) (jV L), SemLoc.dma (⟨0, (by decide : (0 : ℕ) < 6)⟩ : DmaSem sig)) : GSem nD τ sig)) (g' := c4 d (cV L) (jV L)) rfl 0); iexact Hs4
    isplitl [Hs5]; · iapply (semVal_cast (F := F) (g := ((V d (cV L) (jV L), SemLoc.dma (⟨1, (by decide : (1 : ℕ) < 6)⟩ : DmaSem sig)) : GSem nD τ sig)) (g' := c5 d (cV L) (jV L)) rfl 0); iexact Hs5
    isplitl [HC6]
    · iexists ((rows0).view.writes (Elt F) FS0 [⟨Rect.whole S80x128, tile_body0.sl.gather0_2 fC fI d L f5 k W6 hinT0⟩]); isplitr
      · ipureintro; exact good_gather0 (F := F) fC fI d L (2 * (k.val + 1)) FS0 _ hgT0
      · iapply (Entails.of_eq (canonT0 (F := F) m d L k _)); iexact HC6
    isplitl [HC7]
    · iexists ((rows1).view.writes (Elt F) FS1 [⟨Rect.whole S80x128, tile_body0.sl.gather0_3 fC fI d L f5 k W6 hinT1⟩]); isplitr
      · ipureintro; exact good_gather1 (F := F) fC fI d L (2 * (k.val + 1) + 1) FS1 _ hgT1
      · iapply (Entails.of_eq (canonT1 (F := F) m d L k _)); iexact HC7
    isplitl [Hdone Hd0 Hd1 Hd2 Hd3 He0 He1 He2 He3]
    · iapply (Entails.of_eq (Ico_congr (F := F) (rowDone fC fI d L) rfl (show 8 * k.val + 4 + 4 = 8 * (k.val + 1) by omega)))
      iapply (Ico_put4 (F := F) (rowDone fC fI d L) 0 (8 * k.val + 4) (by omega))
      isplitl [Hdone Hd0 Hd1 Hd2 Hd3]
      · iapply (Ico_put4 (F := F) (rowDone fC fI d L) 0 (8 * k.val) (by omega))
        isplitl [Hdone]; · iexact Hdone
        isplitl [Hd0]; · iexact Hd0
        isplitl [Hd1]; · iexact Hd1
        isplitl [Hd2]; · iexact Hd2
        iexact Hd3
      isplitl [He0]; · iexact He0
      isplitl [He1]; · iexact He1
      isplitl [He2]; · iexact He2
      iexact He3
    isplitl [Htodo]
    · iapply (Entails.of_eq (Ico_congr (F := F) (rowTodo m d L) (show 8 * k.val + 8 + 8 = 8 * (k.val + 1) + 8 by omega) rfl)); iexact Htodo
    iexists _; isplitr
    swap; · iexact HO
    ipureintro; repeat (first | exact hW' | refine ins_ok (Or.inr (Or.inl rfl)) ?_)
  · unfold inv
    isplitr; · iexact Hmw2
    isplitl [H5']; · iexact H5'
    isplitl [H6']; · iexists _; iexact H6'
    isplitl [Hmy']; · iexact Hmy'
    isplitl [Hs4]; · iapply (semVal_cast (F := F) (g := ((V d (cV L) (jV L), SemLoc.dma (⟨0, (by decide : (0 : ℕ) < 6)⟩ : DmaSem sig)) : GSem nD τ sig)) (g' := c4 d (cV L) (jV L)) rfl 0); iexact Hs4
    isplitl [Hs5]; · iapply (semVal_cast (F := F) (g := ((V d (cV L) (jV L), SemLoc.dma (⟨1, (by decide : (1 : ℕ) < 6)⟩ : DmaSem sig)) : GSem nD τ sig)) (g' := c5 d (cV L) (jV L)) rfl 0); iexact Hs5
    isplitl [HB6c]
    · iexists ((rows0).view.writes (Elt F) f7 [⟨Rect.whole S80x128, tile_body0.sl.gather0 fC fI d L f5 f6 hin0⟩]); isplitr
      · ipureintro; exact good_gather0 (F := F) fC fI d L (2 * 0) f7 _ hgP0
      · iexact HB6c
    isplitl [HB7c]
    · iexists ((rows1).view.writes (Elt F) f7 [⟨Rect.whole S80x128, tile_body0.sl.gather0_1 fC fI d L f5 f6 hin1⟩]); isplitr
      · ipureintro; exact good_gather1 (F := F) fC fI d L (2 * 0 + 1) f7 _ hgP1
      · iexact HB7c
    isplitl [Hdone]; · iexact Hdone
    isplitl [Htodo]; · iexact Htodo
    iexists _; isplitr
    swap; · iexact HO
    ipureintro; exact fun p hp => .inl hp
  iintro %_ HI
  unfold inv
  icases HI with ⟨-, H5, ⟨%W6, H6⟩, Hmy, Hs4, Hs5, ⟨%FS0, %hFS0, HB6⟩, ⟨%FS1, %hFS1, HB7⟩, Hdone, -, %W', %hW', HO⟩
  -- the last two chunks' write-backs collected
  sl_exec
  sl_step
  ihave Hd0 := (Entails.of_eq (landed0 (F := F) fC fI m d L k0_t1_loop.trips (by omega) 0 FS0 hFS0)) $$ HB6_dst0
  ihave Hd1 := (Entails.of_eq (landed0 (F := F) fC fI m d L k0_t1_loop.trips (by omega) 1 FS0 hFS0)) $$ HB6_dst1
  ihave Hd2 := (Entails.of_eq (landed0 (F := F) fC fI m d L k0_t1_loop.trips (by omega) 2 FS0 hFS0)) $$ HB6_dst2
  ihave Hd3 := (Entails.of_eq (landed0 (F := F) fC fI m d L k0_t1_loop.trips (by omega) 3 FS0 hFS0)) $$ HB6_dst3
  ihave He0 := (Entails.of_eq (landed1 (F := F) fC fI m d L k0_t1_loop.trips (by omega) 0 FS1 hFS1)) $$ HB7_dst0
  ihave He1 := (Entails.of_eq (landed1 (F := F) fC fI m d L k0_t1_loop.trips (by omega) 1 FS1 hFS1)) $$ HB7_dst1
  ihave He2 := (Entails.of_eq (landed1 (F := F) fC fI m d L k0_t1_loop.trips (by omega) 2 FS1 hFS1)) $$ HB7_dst2
  ihave He3 := (Entails.of_eq (landed1 (F := F) fC fI m d L k0_t1_loop.trips (by omega) 3 FS1 hFS1)) $$ HB7_dst3
  isplitl [Hi' Hdone Hd0 Hd1 Hd2 Hd3 He0 He1 He2 He3 Hmy Hct' Hrem]
  · isplitl [Hi']; · iapply (Entails.of_eq (pts_iSl (F := F) d L _)); iexact Hi'
    isplitl [Hdone Hd0 Hd1 Hd2 Hd3 He0 He1 He2 He3]
    · iapply (Entails.of_eq (out_rowsN (F := F) d L (outF fC fI d)).symm)
      iapply (Entails.of_eq (Ico_congr (F := F) (rowDone fC fI d L) rfl (show 8 * k0_t1_loop.trips + 4 + 4 = 512 by omega)))
      iapply (Ico_put4 (F := F) (rowDone fC fI d L) 0 (8 * k0_t1_loop.trips + 4) (by omega))
      isplitl [Hdone Hd0 Hd1 Hd2 Hd3]
      · iapply (Ico_put4 (F := F) (rowDone fC fI d L) 0 (8 * k0_t1_loop.trips) (by omega))
        isplitl [Hdone]; · iexact Hdone
        isplitl [Hd0]; · iexact Hd0
        isplitl [Hd1]; · iexact Hd1
        isplitl [Hd2]; · iexact Hd2
        iexact Hd3
      isplitl [He0]; · iexact He0
      isplitl [He1]; · iexact He1
      isplitl [He2]; · iexact He2
      iexact He3
    isplitl [Hmy]; · iapply (Entails.of_eq (pts_shV (F := F) d L _ _)); iexact Hmy
    isplitl [Hct']; · iapply (Entails.of_eq (pts_tV (F := F) d L _ _)); iexact Hct'
    iexact Hrem
  isplitl [H5 H6 HB6_src0 HB6_src1 HB6_src2 HB6_src3 HB7_src0 HB7_src1 HB7_src2 HB7_src3 Hbufs]
  · isplitl [H5]; · iexists _; iapply (Entails.of_eq (pts_a5 (F := F) d L _)); iexact H5
    isplitl [H6]; · iexists _; iapply (Entails.of_eq (pts_a6 (F := F) d L _)); iexact H6
    isplitl [HB6_src0 HB6_src1 HB6_src2 HB6_src3 HB7_src0 HB7_src1 HB7_src2 HB7_src3]
    · iapply (a7_join (F := F) d L FS0 FS1)
      isplitl [HB6_src0 HB6_src1 HB6_src2 HB6_src3]
      · iapply (Entails.of_eq (slot0_windows (F := F) d L FS0).symm)
        isplitl [HB6_src0]; · iexact HB6_src0
        isplitl [HB6_src1]; · iexact HB6_src1
        isplitl [HB6_src2]; · iexact HB6_src2
        iexact HB6_src3
      · iapply (Entails.of_eq (slot1_windows (F := F) d L FS1).symm)
        isplitl [HB7_src0]; · iexact HB7_src0
        isplitl [HB7_src1]; · iexact HB7_src1
        isplitl [HB7_src2]; · iexact HB7_src2
        iexact HB7_src3
    iexact Hbufs
  isplitl [Hs4 Hs5 HB6 HB7 HsA HsB Hsems]
  · isplitl [Hs4]; · iexact Hs4
    isplitl [Hs5]; · iexact Hs5
    isplitl [HB6]; · iapply (semVal_cast (F := F) (g := ((V d (cV L) (jV L), SemLoc.dma (⟨2, (by decide : (2 : ℕ) < 6)⟩ : DmaSem sig)) : GSem nD τ sig)) (g' := c6 d (cV L) (jV L)) rfl 0); iexact HB6
    isplitl [HB7]; · iapply (semVal_cast (F := F) (g := ((V d (cV L) (jV L), SemLoc.dma (⟨3, (by decide : (3 : ℕ) < 6)⟩ : DmaSem sig)) : GSem nD τ sig)) (g' := c7 d (cV L) (jV L)) rfl 0); iexact HB7
    isplitl [HsA]; · iapply (semVal_cast (F := F) (g := ((V d (cV L) (jV L), SemLoc.dma (⟨4, (by decide : (4 : ℕ) < 6)⟩ : DmaSem sig)) : GSem nD τ sig)) (g' := cA d (cV L) (jV L)) rfl 0); iexact HsA
    isplitl [HsB]; · iapply (semVal_cast (F := F) (g := ((V d (cV L) (jV L), SemLoc.dma (⟨5, (by decide : (5 : ℕ) < 6)⟩ : DmaSem sig)) : GSem nD τ sig)) (g' := cB d (cV L) (jV L)) rfl 0); iexact HsB
    iexact Hsems
  iexists _; isplitr
  swap; · iexact HO
  ipureintro
  have hpro : ∀ p ∈ ((insert (SemLoc.dma cc0_scratch5.sem, (default : HIx 1)) (insert (SemLoc.dma cc0_scratch4.sem, (default : HIx 1)) (insert (SemLoc.reg sc_bar0, some 0)
        (insert (SemLoc.dma cc0_scoped1.sem, default) (insert (SemLoc.dma cc0_scoped0.sem, default) W))))) : Waits sig (HIx 1)), p ∈ W ∨ p.2 = none ∨ p.2 = some (0 : Fin 1) :=
    ins_ok (Or.inr (Or.inl rfl)) (ins_ok (Or.inr (Or.inl rfl)) (ins_ok (Or.inr (Or.inr rfl)) (ins_ok (Or.inr (Or.inl rfl)) (ins_ok (Or.inr (Or.inl rfl)) (fun p hp => Or.inl hp)))))
  have hW'' : ∀ p ∈ W', p ∈ W ∨ p.2 = none ∨ p.2 = some (0 : Fin 1) := fun p hp => by
    rcases hW' p hp with h | h | h
    · exact hpro p h
    · exact Or.inr (Or.inl h)
    · exact Or.inr (Or.inr h)
  repeat (first | exact hW'' | refine ins_ok (Or.inr (Or.inl rfl)) ?_)

set_option maxHeartbeats 16000000 in
/-- The task on tile `(L 0, L 1)`, a tile other than the core's tile 0: the tile's 10240 indices fetched, the barrier (its arrivals carry nothing; tile 0's arrival brings this tile its read share of the filled table), then the 128 chunks: 80 indices to
    a slot's list, 80 table rows gathered into the slot, the slot written out as four rows of the result, two slots alternating, each slot's four write-backs collected before the slot is
    gathered into again; in the end every row of the tile holds the result's final contents. -/
theorem tile_body1 (hF : (K (F := F)).Facts) (O : CellTallies nD τ sig (HIx 1)) (W : Waits sig (HIx 1)) (hO : ∀ g, O g none = 0)
    (hOlev : ∀ g ι, 0 < O g ι → 8 * (0 : Fin 1).val + 6 ≤ (K (F := F)).lev g ι) (h0 : (L 1).val ≠ 0)
    (hI : ∀ d y, ((fI d : IVec S327680 32) y).toNat < 192) :
    iprop(levAts (K (F := F)).L (K (F := F)).lev ∗ bkit fC d (cV L) (jV L)
        ∗ (idxPts fI d (wL L) ∗ outPts d (wL L) (m (outLoc d)) ∗ emp)
        ∗ scopedBufs (V d (cV L) (jV L)) ∗ scopedSems0 (V d (cV L) (jV L)) ∗ owes (V d (cV L) (jV L)) (O + oxV d (cV L)) W)
      ⊢ wp frame (wpE (defs₀ (F := F)) 𝒱₀ (V d (cV L) (jV L)) none) Set.univ
          (cc0__emb_kernel L iV (Memref.isWhole_whole _) tV (Memref.isWhole_whole _) oV (Memref.isWhole_whole _) a5 (Memref.isWhole_whole _)
            a6 (Memref.isWhole_whole _) a7 (Memref.isWhole_whole _) shV (Memref.isWhole_whole _)
            cc0_scratch4 cc0_scratch5 cc0_scratch6 cc0_scratch7 cc0_scoped0 cc0_scoped1)
          fun _ => iprop((idxPts fI d (wL L) ∗ outPts d (wL L) (outF fC fI d) ∗ shTok fC d (cV L) (jF L) ∗ emp)
            ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  have hC : ¬ (Scalar.cmpi .ne (Scalar.extui (Scalar.cmpi .eq (BitVec.ofNat 32 (L 1).val) 0#32)) 0#32 = 1#1) := by
    have hall : ∀ s : Fin 16, s.val ≠ 0 → ¬ (Scalar.cmpi .ne (Scalar.extui (Scalar.cmpi .eq (BitVec.ofNat 32 s.val) 0#32)) 0#32 = 1#1) := by decide
    exact hall (L 1) h0
  have htr : k0_t1_loop.trips = 63 := trips_eq
  simp only [cc0__emb_kernel_eq_skeleton]; unfold cc0__emb_kernel_skel
  rw [(K (F := F)).scopedBufs_V hF d (cV L) (jV L), SparseCore.Cfg.scopedSems0_V (Val := Elt F) d (cV L) (jV L), ownSems0_V, ownBufs_V]
  unfold bkit
  iintro ⟨#Hlv, ⟨⟨%κ, #Hinv⟩, Htoks, #Hrch, Hat, Hcred⟩, ⟨Hi, Ho, -⟩, ⟨⟨%f5, H5⟩, ⟨%f6, H6⟩, ⟨%f7, H7⟩, Hbufs⟩, ⟨Hs4, Hs5, Hs6, Hs7, HsA, HsB, Hsems⟩, HO⟩
  have hO' : ∀ g, (O + oxV d (cV L)) g none = 0 := fun g => by rw [Pi.add_apply, Finsupp.add_apply, hO g, oxV_none]
  ihave Hmw1 := (show levAts (K (F := F)).L (K (F := F)).lev ⊢ Transfers.MayWaits (V d (cV L) (jV L)) (default : HIx 1) (O + oxV d (cV L)) from
    (K (F := F)).mayWaits_none (thr := V d (cV L) (jV L)) hO') $$ Hlv
  ihave Hmw2 := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (pts_iSl (F := F) d L _).symm) $$ Hi
  ihave H5' := (Entails.of_eq (pts_a5 (F := F) d L _).symm) $$ H5
  ihave H6' := (Entails.of_eq (pts_a6 (F := F) d L _).symm) $$ H6
  ihave H7' := (Entails.of_eq (pts_a7 (F := F) d L _).symm) $$ H7
  -- the tile's indices fetched
  sl_exec
  ihave Hpays := (pays_intro1 (F := F) fC d L h0) $$ []
  · iempintro
  -- the barrier

  iapply (SparseCore.wp_subcoreBarrier 𝒱₀ none EB (bRd (F := F) fC) d (sc := cV L) (i := jV L) sc_bar0 (grid0.bound 1) hsub0 (L 1) rfl κ (fun _ => 0) (jV L).val
      (fun j => bRd_mem₀ fC d _ _ _) (fun _ => rfl) (bRd_expect fC d _ _) (some 0) O _) $$ [HO Htoks Hpays Hcred Hat]
  · isplitr; · iexact Hinv
    isplitl [HO]; · iexact HO
    isplitl [Htoks Hpays]
    · rw [bigSep_sep', bigSep_sep']
      isplitl [Htoks]; · iexact Htoks
      isplitl [Hpays]; · iexact Hpays
      iexact Hrch
    isplitl [Hcred]; · iexact Hcred
    isplitl [Hat]; · iexact Hat
    iapply ((K (F := F)).mayOwe_of_bound (thr := V d (cV L) (jV L)) 3 (fun p hp => by
        rw [Finset.mem_singleton] at hp; subst hp
        show (K (F := F)).lev (bcell d (cV L) (jV L)) (some 0) ≤ 3
        rw [(K (F := F)).lev_V_reg d _ _ (show (sc_bar0 : Sem sig) ≠ (K (F := F)).go from sc_bar0_ne_go)]; exact le_rfl)
      (fun g ι hg => lt_of_lt_of_le (by decide) (hOlev g ι hg)))
    iexact Hlv
  iintro ⟨HO, Hat, -, Hgot⟩
  ihave Hmy := (pays_elim (F := F) fC d L) $$ Hgot
  ihave Hmy' := (Entails.of_eq (pts_shV (F := F) d L _ _).symm) $$ Hmy

  -- chunk 0's indices to slot 0's list
  sl_exec

  -- (the last run copied the first chunk's indices to slot 0's list and stopped at the gather)
  have hin0 : ∀ x, ((lst0).view.read (Elt F) (tile_body1.sl.H6'_w5 fI d L f5 f6) x).toNat < 192 := lst_inb (F := F) fI d L (hI d) lst0 _ _ (a5_landed (F := F) fI d L f5) _ _ _ _ _ _ _ _ _ _ _ _ _ _ _ _ _ _ _ _ _ _ _ _ _
  ihave H7s := (Entails.of_eq (a7_slots (F := F) d L f7)) $$ H7'
  icases H7s with ⟨H70, H71⟩
  ihave Hrows := (Entails.of_eq (out_rowsN (F := F) d L (m (outLoc d)))) $$ Ho
  ihave Hr8 := (Entails.of_eq (Ico_take8 (F := F) (rowTodo m d L) 0 512 (by decide))) $$ Hrows
  icases Hr8 with ⟨Hn0, Hn1, Hn2, Hn3, Hn4, Hn5, Hn6, Hn7, Htodo⟩
  -- chunk 0: gathered into slot 0
  sl_exec
  -- its four rows out, in one batch on slot 0's write cell
  ihave Hn0' := (Entails.of_eq (rowP_own (F := F) d L 0 0 _ (by decide) _)) $$ Hn0
  ihave Hn1' := (Entails.of_eq (rowP_own (F := F) d L 0 1 _ (by decide) _)) $$ Hn1
  ihave Hn2' := (Entails.of_eq (rowP_own (F := F) d L 0 2 _ (by decide) _)) $$ Hn2
  ihave Hn3' := (Entails.of_eq (rowP_own (F := F) d L 0 3 _ (by decide) _)) $$ Hn3
  imod (Transfers.batch_alloc' (countersEmb : UEmb Counters 𝕄) (V d (cV L) (jV L)) (default : HIx 1) (NW L)
      (DW0 m d L (fun t => dstP L 0 t) ((rows0).view.writes (Elt F) f7 [⟨Rect.whole S80x128, tile_body1.sl.gather0 fC fI d L f5 f6 hin0⟩]))
      (sm := .dma cc0_scratch6.sem) (E := Set.univ)) $$ Hs6 with HB6
  sl_exec

  -- chunk 1: gathered into slot 1, its four rows out on slot 1's write cell
  have hin1 : ∀ x, ((lst1).view.read (Elt F) (tile_body1.sl.H6'_w5_1 fI d L f5 f6) x).toNat < 192 := lst_inb (F := F) fI d L (hI d) lst1 _ _ (a5_landed (F := F) fI d L f5) _ _ _ _ _ _ _ _ _ _ _ _ _ _ _ _ _ _ _ _ _ _ _ _ _
  sl_exec
  ihave Hn4' := (Entails.of_eq (rowP_own (F := F) d L 1 0 _ (by decide) _)) $$ Hn4
  ihave Hn5' := (Entails.of_eq (rowP_own (F := F) d L 1 1 _ (by decide) _)) $$ Hn5
  ihave Hn6' := (Entails.of_eq (rowP_own (F := F) d L 1 2 _ (by decide) _)) $$ Hn6
  ihave Hn7' := (Entails.of_eq (rowP_own (F := F) d L 1 3 _ (by decide) _)) $$ Hn7
  imod (Transfers.batch_alloc' (countersEmb : UEmb Counters 𝕄) (V d (cV L) (jV L)) (default : HIx 1) (NW L)
      (DW1 m d L (fun t => dstP L 1 t) ((rows1).view.writes (Elt F) f7 [⟨Rect.whole S80x128, tile_body1.sl.gather0_1 fC fI d L f5 f6 hin1⟩]))
      (sm := .dma cc0_scratch7.sem) (E := Set.univ)) $$ Hs7 with HB7
  sl_exec
  -- what the two slots hold: the chunks' gathered table rows
  have hgP0 : ∀ i, tile_body1.sl.gather0 fC fI d L f5 f6 hin0 i = tabN fC fI d L (2 * 0) i := (gv (F := F) fC fI d L 0 (by decide) lst0 _ _ (a5_landed (F := F) fI d L f5) _ _ _ _ _ rfl rfl rfl rfl rfl _ _ _ _ _ _ _ _ _ _ _ _ _ _ _ _ _ _ _ _ (fC d) rfl _ _ _ _ hin0)
  have hgP1 : ∀ i, tile_body1.sl.gather0_1 fC fI d L f5 f6 hin1 i = tabN fC fI d L (2 * 0 + 1) i := (gv (F := F) fC fI d L 1 (by decide) lst1 _ _ (a5_landed (F := F) fI d L f5) _ _ _ _ _ rfl rfl rfl rfl rfl _ _ _ _ _ _ _ _ _ _ _ _ _ _ _ _ _ _ _ _ (fC d) rfl _ _ _ _ hin1)
  -- the loop, by its invariant
  ihave HB6c := (Entails.of_eq (canonP0 (F := F) m d L _)) $$ HB6
  ihave HB7c := (Entails.of_eq (canonP1 (F := F) m d L _)) $$ HB7
  ihave Hdone := (Entails.of_eq (Ico_self (F := F) (rowDone fC fI d L) 0).symm) $$ []
  · iempintro
  sl_for (inv fC fI m d L (View.write (Elt F) (a5).view f5 (tile_body1.sl.dma0 fI d L) Finset.univ) O
      (insert (SemLoc.dma cc0_scratch5.sem, (default : HIx 1)) (insert (SemLoc.dma cc0_scratch4.sem, (default : HIx 1)) (insert (SemLoc.reg sc_bar0, some 0)
        (insert (SemLoc.dma cc0_scoped1.sem, default) W))))) $$ [Hmw2 H5' H6' Hmy' Hs4 Hs5 HB6c HB7c Hdone Htodo HO]

  case region =>
    intro k _
    have hk63 : k.val < 63 := (trips_eq) ▸ k.isLt
    unfold inv
    iintro ⟨#Hmw, H5, ⟨%W6, H6⟩, Hmy, Hs4, Hs5, ⟨%FS0, %hFS0, HB6⟩, ⟨%FS1, %hFS1, HB7⟩, Hdone, Htodo, %W', %hW', HO⟩
    ihave Ht8 := (Entails.of_eq (Ico_take8 (F := F) (rowTodo m d L) (8 * k.val + 8) 512 (by omega))) $$ Htodo
    icases Ht8 with ⟨Hn0, Hn1, Hn2, Hn3, Hn4, Hn5, Hn6, Hn7, Htodo⟩
    -- slot 0: the chunk's indices to its list; the write-back of the chunk before it collected
    sl_exec
    ihave H70 := (Entails.of_eq (slot0_windows (F := F) d L FS0).symm) $$ [HB6_src0 HB6_src1 HB6_src2 HB6_src3]
    · isplitl [HB6_src0]; · iexact HB6_src0
      isplitl [HB6_src1]; · iexact HB6_src1
      isplitl [HB6_src2]; · iexact HB6_src2
      iexact HB6_src3
    ihave Hd0 := (Entails.of_eq (landed0 (F := F) fC fI m d L k.val (by omega) 0 FS0 hFS0)) $$ HB6_dst0
    ihave Hd1 := (Entails.of_eq (landed0 (F := F) fC fI m d L k.val (by omega) 1 FS0 hFS0)) $$ HB6_dst1
    ihave Hd2 := (Entails.of_eq (landed0 (F := F) fC fI m d L k.val (by omega) 2 FS0 hFS0)) $$ HB6_dst2
    ihave Hd3 := (Entails.of_eq (landed0 (F := F) fC fI m d L k.val (by omega) 3 FS0 hFS0)) $$ HB6_dst3
    have hinT0 : ∀ x, ((lst0).view.read (Elt F) (tile_body1.sl.H6_w5 fI d L f5 k W6) x).toNat < 192 := lst_inb (F := F) fI d L (hI d) lst0 _ _ (a5_landed (F := F) fI d L f5) _ _ _ _ _ _ _ _ _ _ _ _ _ _ _ _ _ _ _ _ _ _ _ _ _
    -- the gather into slot 0, then its four rows out
    sl_exec
    ihave Hn0' := (Entails.of_eq (rowT_own (F := F) d L k 0 0 _ rfl _)) $$ Hn0
    ihave Hn1' := (Entails.of_eq (rowT_own (F := F) d L k 0 1 _ rfl _)) $$ Hn1
    ihave Hn2' := (Entails.of_eq (rowT_own (F := F) d L k 0 2 _ rfl _)) $$ Hn2
    ihave Hn3' := (Entails.of_eq (rowT_own (F := F) d L k 0 3 _ rfl _)) $$ Hn3
    ihave HB6z := (semVal_cast (F := F) (g := ((V d (cV L) (jV L), SemLoc.dma (⟨2, _⟩ : DmaSem sig)) : GSem nD τ sig)) (g' := c6 d (cV L) (jV L)) rfl 0) $$ HB6
    imod (Transfers.batch_alloc' (countersEmb : UEmb Counters 𝕄) (V d (cV L) (jV L)) (default : HIx 1) (NW L)
        (DW0 m d L (fun t => dstT L k 0 t) ((rows0).view.writes (Elt F) FS0 [⟨Rect.whole S80x128, tile_body1.sl.gather0_2 fC fI d L f5 k W6 hinT0⟩]))
        (sm := .dma cc0_scratch6.sem) (E := Set.univ)) $$ HB6z with HC6
    -- slot 1: the same
    sl_exec
    ihave H71 := (Entails.of_eq (slot1_windows (F := F) d L FS1).symm) $$ [HB7_src0 HB7_src1 HB7_src2 HB7_src3]
    · isplitl [HB7_src0]; · iexact HB7_src0
      isplitl [HB7_src1]; · iexact HB7_src1
      isplitl [HB7_src2]; · iexact HB7_src2
      iexact HB7_src3
    ihave He0 := (Entails.of_eq (landed1 (F := F) fC fI m d L k.val (by omega) 0 FS1 hFS1)) $$ HB7_dst0
    ihave He1 := (Entails.of_eq (landed1 (F := F) fC fI m d L k.val (by omega) 1 FS1 hFS1)) $$ HB7_dst1
    ihave He2 := (Entails.of_eq (landed1 (F := F) fC fI m d L k.val (by omega) 2 FS1 hFS1)) $$ HB7_dst2
    ihave He3 := (Entails.of_eq (landed1 (F := F) fC fI m d L k.val (by omega) 3 FS1 hFS1)) $$ HB7_dst3
    have hinT1 : ∀ x, ((lst1).view.read (Elt F) (tile_body1.sl.H6_w5_1 fI d L f5 k W6) x).toNat < 192 := lst_inb (F := F) fI d L (hI d) lst1 _ _ (a5_landed (F := F) fI d L f5) _ _ _ _ _ _ _ _ _ _ _ _ _ _ _ _ _ _ _ _ _ _ _ _ _
    sl_exec
    ihave Hn4' := (Entails.of_eq (rowT_own (F := F) d L k 1 0 _ rfl _)) $$ Hn4
    ihave Hn5' := (Entails.of_eq (rowT_own (F := F) d L k 1 1 _ rfl _)) $$ Hn5
    ihave Hn6' := (Entails.of_eq (rowT_own (F := F) d L k 1 2 _ rfl _)) $$ Hn6
    ihave Hn7' := (Entails.of_eq (rowT_own (F := F) d L k 1 3 _ rfl _)) $$ Hn7
    ihave HB7z := (semVal_cast (F := F) (g := ((V d (cV L) (jV L), SemLoc.dma (⟨3, _⟩ : DmaSem sig)) : GSem nD τ sig)) (g' := c7 d (cV L) (jV L)) rfl 0) $$ HB7
    imod (Transfers.batch_alloc' (countersEmb : UEmb Counters 𝕄) (V d (cV L) (jV L)) (default : HIx 1) (NW L)
        (DW1 m d L (fun t => dstT L k 1 t) ((rows1).view.writes (Elt F) FS1 [⟨Rect.whole S80x128, tile_body1.sl.gather0_3 fC fI d L f5 k W6 hinT1⟩]))
        (sm := .dma cc0_scratch7.sem) (E := Set.univ)) $$ HB7z with HC7
    sl_exec
    sl_step
    have hgT0 : ∀ i, tile_body1.sl.gather0_2 fC fI d L f5 k W6 hinT0 i = tabN fC fI d L (2 * (k.val + 1)) i := (gv (F := F) fC fI d L (2 * (k.val + 1) + 0) (by omega) lst0 _ _ (a5_landed (F := F) fI d L f5) _ _ _ _ _ (off3 k 0 0) (off3 k 0 1) (off3 k 0 2) (off3 k 0 3) (off3 k 0 4) _ _ _ _ _ _ _ _ _ _ _ _ _ _ _ _ _ _ _ _ (fC d) rfl _ _ _ _ hinT0)
    have hgT1 : ∀ i, tile_body1.sl.gather0_3 fC fI d L f5 k W6 hinT1 i = tabN fC fI d L (2 * (k.val + 1) + 1) i := (gv (F := F) fC fI d L (2 * (k.val + 1) + 1) (by omega) lst1 _ _ (a5_landed (F := F) fI d L f5) _ _ _ _ _ (off3 k 1 0) (off3 k 1 1) (off3 k 1 2) (off3 k 1 3) (off3 k 1 4) _ _ _ _ _ _ _ _ _ _ _ _ _ _ _ _ _ _ _ _ (fC d) rfl _ _ _ _ hinT1)
    isplitr; · iexact Hmw
    isplitl [H5]; · iexact H5
    isplitl [H6]; · iexists _; iexact H6
    isplitl [Hmy]; · iexact Hmy
    isplitl [Hs4]; · iapply (semVal_cast (F := F) (g := ((V d (cV L) (jV L), SemLoc.dma (⟨0, (by decide : (0 : ℕ) < 6)⟩ : DmaSem sig)) : GSem nD τ sig)) (g' := c4 d (cV L) (jV L)) rfl 0); iexact Hs4
    isplitl [Hs5]; · iapply (semVal_cast (F := F) (g := ((V d (cV L) (jV L), SemLoc.dma (⟨1, (by decide : (1 : ℕ) < 6)⟩ : DmaSem sig)) : GSem nD τ sig)) (g' := c5 d (cV L) (jV L)) rfl 0); iexact Hs5
    isplitl [HC6]
    · iexists ((rows0).view.writes (Elt F) FS0 [⟨Rect.whole S80x128, tile_body1.sl.gather0_2 fC fI d L f5 k W6 hinT0⟩]); isplitr
      · ipureintro; exact good_gather0 (F := F) fC fI d L (2 * (k.val + 1)) FS0 _ hgT0
      · iapply (Entails.of_eq (canonT0 (F := F) m d L k _)); iexact HC6
    isplitl [HC7]
    · iexists ((rows1).view.writes (Elt F) FS1 [⟨Rect.whole S80x128, tile_body1.sl.gather0_3 fC fI d L f5 k W6 hinT1⟩]); isplitr
      · ipureintro; exact good_gather1 (F := F) fC fI d L (2 * (k.val + 1) + 1) FS1 _ hgT1
      · iapply (Entails.of_eq (canonT1 (F := F) m d L k _)); iexact HC7
    isplitl [Hdone Hd0 Hd1 Hd2 Hd3 He0 He1 He2 He3]
    · iapply (Entails.of_eq (Ico_congr (F := F) (rowDone fC fI d L) rfl (show 8 * k.val + 4 + 4 = 8 * (k.val + 1) by omega)))
      iapply (Ico_put4 (F := F) (rowDone fC fI d L) 0 (8 * k.val + 4) (by omega))
      isplitl [Hdone Hd0 Hd1 Hd2 Hd3]
      · iapply (Ico_put4 (F := F) (rowDone fC fI d L) 0 (8 * k.val) (by omega))
        isplitl [Hdone]; · iexact Hdone
        isplitl [Hd0]; · iexact Hd0
        isplitl [Hd1]; · iexact Hd1
        isplitl [Hd2]; · iexact Hd2
        iexact Hd3
      isplitl [He0]; · iexact He0
      isplitl [He1]; · iexact He1
      isplitl [He2]; · iexact He2
      iexact He3
    isplitl [Htodo]
    · iapply (Entails.of_eq (Ico_congr (F := F) (rowTodo m d L) (show 8 * k.val + 8 + 8 = 8 * (k.val + 1) + 8 by omega) rfl)); iexact Htodo
    iexists _; isplitr
    swap; · iexact HO
    ipureintro; repeat (first | exact hW' | refine ins_ok (Or.inr (Or.inl rfl)) ?_)
  · unfold inv
    isplitr; · iexact Hmw2
    isplitl [H5']; · iexact H5'
    isplitl [H6']; · iexists _; iexact H6'
    isplitl [Hmy']; · iexact Hmy'
    isplitl [Hs4]; · iapply (semVal_cast (F := F) (g := ((V d (cV L) (jV L), SemLoc.dma (⟨0, (by decide : (0 : ℕ) < 6)⟩ : DmaSem sig)) : GSem nD τ sig)) (g' := c4 d (cV L) (jV L)) rfl 0); iexact Hs4
    isplitl [Hs5]; · iapply (semVal_cast (F := F) (g := ((V d (cV L) (jV L), SemLoc.dma (⟨1, (by decide : (1 : ℕ) < 6)⟩ : DmaSem sig)) : GSem nD τ sig)) (g' := c5 d (cV L) (jV L)) rfl 0); iexact Hs5
    isplitl [HB6c]
    · iexists ((rows0).view.writes (Elt F) f7 [⟨Rect.whole S80x128, tile_body1.sl.gather0 fC fI d L f5 f6 hin0⟩]); isplitr
      · ipureintro; exact good_gather0 (F := F) fC fI d L (2 * 0) f7 _ hgP0
      · iexact HB6c
    isplitl [HB7c]
    · iexists ((rows1).view.writes (Elt F) f7 [⟨Rect.whole S80x128, tile_body1.sl.gather0_1 fC fI d L f5 f6 hin1⟩]); isplitr
      · ipureintro; exact good_gather1 (F := F) fC fI d L (2 * 0 + 1) f7 _ hgP1
      · iexact HB7c
    isplitl [Hdone]; · iexact Hdone
    isplitl [Htodo]; · iexact Htodo
    iexists _; isplitr
    swap; · iexact HO
    ipureintro; exact fun p hp => .inl hp
  iintro %_ HI
  unfold inv
  icases HI with ⟨-, H5, ⟨%W6, H6⟩, Hmy, Hs4, Hs5, ⟨%FS0, %hFS0, HB6⟩, ⟨%FS1, %hFS1, HB7⟩, Hdone, -, %W', %hW', HO⟩
  -- the last two chunks' write-backs collected
  sl_exec
  sl_step
  ihave Hd0 := (Entails.of_eq (landed0 (F := F) fC fI m d L k0_t1_loop.trips (by omega) 0 FS0 hFS0)) $$ HB6_dst0
  ihave Hd1 := (Entails.of_eq (landed0 (F := F) fC fI m d L k0_t1_loop.trips (by omega) 1 FS0 hFS0)) $$ HB6_dst1
  ihave Hd2 := (Entails.of_eq (landed0 (F := F) fC fI m d L k0_t1_loop.trips (by omega) 2 FS0 hFS0)) $$ HB6_dst2
  ihave Hd3 := (Entails.of_eq (landed0 (F := F) fC fI m d L k0_t1_loop.trips (by omega) 3 FS0 hFS0)) $$ HB6_dst3
  ihave He0 := (Entails.of_eq (landed1 (F := F) fC fI m d L k0_t1_loop.trips (by omega) 0 FS1 hFS1)) $$ HB7_dst0
  ihave He1 := (Entails.of_eq (landed1 (F := F) fC fI m d L k0_t1_loop.trips (by omega) 1 FS1 hFS1)) $$ HB7_dst1
  ihave He2 := (Entails.of_eq (landed1 (F := F) fC fI m d L k0_t1_loop.trips (by omega) 2 FS1 hFS1)) $$ HB7_dst2
  ihave He3 := (Entails.of_eq (landed1 (F := F) fC fI m d L k0_t1_loop.trips (by omega) 3 FS1 hFS1)) $$ HB7_dst3
  isplitl [Hi' Hdone Hd0 Hd1 Hd2 Hd3 He0 He1 He2 He3 Hmy]
  · isplitl [Hi']; · iapply (Entails.of_eq (pts_iSl (F := F) d L _)); iexact Hi'
    isplitl [Hdone Hd0 Hd1 Hd2 Hd3 He0 He1 He2 He3]
    · iapply (Entails.of_eq (out_rowsN (F := F) d L (outF fC fI d)).symm)
      iapply (Entails.of_eq (Ico_congr (F := F) (rowDone fC fI d L) rfl (show 8 * k0_t1_loop.trips + 4 + 4 = 512 by omega)))
      iapply (Ico_put4 (F := F) (rowDone fC fI d L) 0 (8 * k0_t1_loop.trips + 4) (by omega))
      isplitl [Hdone Hd0 Hd1 Hd2 Hd3]
      · iapply (Ico_put4 (F := F) (rowDone fC fI d L) 0 (8 * k0_t1_loop.trips) (by omega))
        isplitl [Hdone]; · iexact Hdone
        isplitl [Hd0]; · iexact Hd0
        isplitl [Hd1]; · iexact Hd1
        isplitl [Hd2]; · iexact Hd2
        iexact Hd3
      isplitl [He0]; · iexact He0
      isplitl [He1]; · iexact He1
      isplitl [He2]; · iexact He2
      iexact He3
    isplitl [Hmy]; · iapply (Entails.of_eq (pts_shV (F := F) d L _ _)); iexact Hmy
    iempintro
  isplitl [H5 H6 HB6_src0 HB6_src1 HB6_src2 HB6_src3 HB7_src0 HB7_src1 HB7_src2 HB7_src3 Hbufs]
  · isplitl [H5]; · iexists _; iapply (Entails.of_eq (pts_a5 (F := F) d L _)); iexact H5
    isplitl [H6]; · iexists _; iapply (Entails.of_eq (pts_a6 (F := F) d L _)); iexact H6
    isplitl [HB6_src0 HB6_src1 HB6_src2 HB6_src3 HB7_src0 HB7_src1 HB7_src2 HB7_src3]
    · iapply (a7_join (F := F) d L FS0 FS1)
      isplitl [HB6_src0 HB6_src1 HB6_src2 HB6_src3]
      · iapply (Entails.of_eq (slot0_windows (F := F) d L FS0).symm)
        isplitl [HB6_src0]; · iexact HB6_src0
        isplitl [HB6_src1]; · iexact HB6_src1
        isplitl [HB6_src2]; · iexact HB6_src2
        iexact HB6_src3
      · iapply (Entails.of_eq (slot1_windows (F := F) d L FS1).symm)
        isplitl [HB7_src0]; · iexact HB7_src0
        isplitl [HB7_src1]; · iexact HB7_src1
        isplitl [HB7_src2]; · iexact HB7_src2
        iexact HB7_src3
    iexact Hbufs
  isplitl [Hs4 Hs5 HB6 HB7 HsA HsB Hsems]
  · isplitl [Hs4]; · iexact Hs4
    isplitl [Hs5]; · iexact Hs5
    isplitl [HB6]; · iapply (semVal_cast (F := F) (g := ((V d (cV L) (jV L), SemLoc.dma (⟨2, (by decide : (2 : ℕ) < 6)⟩ : DmaSem sig)) : GSem nD τ sig)) (g' := c6 d (cV L) (jV L)) rfl 0); iexact HB6
    isplitl [HB7]; · iapply (semVal_cast (F := F) (g := ((V d (cV L) (jV L), SemLoc.dma (⟨3, (by decide : (3 : ℕ) < 6)⟩ : DmaSem sig)) : GSem nD τ sig)) (g' := c7 d (cV L) (jV L)) rfl 0); iexact HB7
    isplitl [HsA]; · iapply (semVal_cast (F := F) (g := ((V d (cV L) (jV L), SemLoc.dma (⟨4, (by decide : (4 : ℕ) < 6)⟩ : DmaSem sig)) : GSem nD τ sig)) (g' := cA d (cV L) (jV L)) rfl 0); iexact HsA
    isplitl [HsB]; · iapply (semVal_cast (F := F) (g := ((V d (cV L) (jV L), SemLoc.dma (⟨5, (by decide : (5 : ℕ) < 6)⟩ : DmaSem sig)) : GSem nD τ sig)) (g' := cB d (cV L) (jV L)) rfl 0); iexact HsB
    iexact Hsems
  iexists _; isplitr
  swap; · iexact HO
  ipureintro
  have hpro : ∀ p ∈ ((insert (SemLoc.dma cc0_scratch5.sem, (default : HIx 1)) (insert (SemLoc.dma cc0_scratch4.sem, (default : HIx 1)) (insert (SemLoc.reg sc_bar0, some 0)
        (insert (SemLoc.dma cc0_scoped1.sem, default) W)))) : Waits sig (HIx 1)), p ∈ W ∨ p.2 = none ∨ p.2 = some (0 : Fin 1) :=
    ins_ok (Or.inr (Or.inl rfl)) (ins_ok (Or.inr (Or.inl rfl)) (ins_ok (Or.inr (Or.inr rfl)) (ins_ok (Or.inr (Or.inl rfl)) (fun p hp => Or.inl hp))))
  have hW'' : ∀ p ∈ W', p ∈ W ∨ p.2 = none ∨ p.2 = some (0 : Fin 1) := fun p hp => by
    rcases hW' p hp with h | h | h
    · exact hpro p h
    · exact Or.inr (Or.inl h)
    · exact Or.inr (Or.inr h)
  repeat (first | exact hW'' | refine ins_ok (Or.inr (Or.inl rfl)) ?_)

end Tile

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__emb_kernel (coordsV c s)
          iV (Memref.isWhole_whole _) tV (Memref.isWhole_whole _) oV (Memref.isWhole_whole _) a5 (Memref.isWhole_whole _)
          a6 (Memref.isWhole_whole _) a7 (Memref.isWhole_whole _) shV (Memref.isWhole_whole _)
          cc0_scratch4 cc0_scratch5 cc0_scratch6 cc0_scratch7 cc0_scoped0 cc0_scoped1) ⟨⟩ c s := rfl

theorem P_go' (d : Dev nD) (c : Fin ((K (F := F)).nCore 0)) (i : Fin ((K (F := F)).nSub 0)) : (P fC fI m).go 0 d c i
    = iprop(idxPts fI d (wid (cL c) (Fin.cast nSub_zero i)) ∗ outPts d (wid (cL c) (Fin.cast nSub_zero i)) (m (outLoc d))
        ∗ (if (Fin.cast nSub_zero i).val = 0 then iprop(combTok fC d (cL c) ∗ ∃ f, shLoc d (coreOf c) ↦{fullShare} f) else iprop(emp))) := rfl
theorem P_td' (d : Dev nD) (c : Fin ((K (F := F)).nCore 0)) (i : Fin ((K (F := F)).nSub 0)) : (P fC fI m).td 0 d c i
    = iprop(idxPts fI d (wid (cL c) (Fin.cast nSub_zero i)) ∗ outPts d (wid (cL c) (Fin.cast nSub_zero i)) (outF fC fI d) ∗ shTok fC d (coreOf c) (Fin.cast nSub_zero i)
        ∗ (if (Fin.cast nSub_zero i).val = 0 then iprop(combTok fC d (cL c) ∗ shRem fC d (coreOf c)) else iprop(emp))) := rfl

set_option maxRecDepth 16384 in
/-- Every tile's task meets the launch theorem's obligation: tile 0 of a core by the first form of the body, the others by the second. -/
theorem tileObl (hF : (K (F := F)).Facts) (hI : ∀ d y, ((fI d : IVec S327680 32) y).toNat < 192) : (K (F := F)).TileObl (D (F := F)) 𝒱 (P fC fI m) v₀ 0 := by
  intro d c i O W hO hOlev _
  have hc : ((K (F := F)).core 0 c).val < 2 := c.isLt
  have hci : ((K (F := F)).core 0 c).val < grid0.bound 0 ∧ ((K (F := F)).sub 0 i).val < grid0.bound 1 := ⟨c.isLt, i.isLt⟩
  rw [show (P fC fI m).ox 0 (V d ((K (F := F)).core 0 c) ((K (F := F)).sub 0 i)) = oxV d ((K (F := F)).core 0 c) from if_pos hc,
    show (P fC fI m).x 0 (V d ((K (F := F)).core 0 c) ((K (F := F)).sub 0 i)) = bkit fC d ((K (F := F)).core 0 c) ((K (F := F)).sub 0 i) from if_pos hc]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  rw [P_go', P_td']
  by_cases h0 : i.val = 0
  · rw [if_pos (show (Fin.cast nSub_zero i).val = 0 from h0), if_pos (show (Fin.cast nSub_zero i).val = 0 from h0)]
    exact tile_body0 fC fI m d (coordsV ⟨_, hci.1⟩ ⟨_, hci.2⟩) hF O W hO hOlev h0 hI
  · rw [if_neg (show ¬ (Fin.cast nSub_zero i).val = 0 from h0), if_neg (show ¬ (Fin.cast nSub_zero i).val = 0 from h0)]
    exact tile_body1 fC fI m d (coordsV ⟨_, hci.1⟩ ⟨_, hci.2⟩) hF O W hO hOlev h0 hI

end Cert.Proof.KB

end
-- ==== Proof.lean ====
/-
  The certificate's claims, assembled.

  WHAT IS COMPUTED. Two arrays of row numbers e1, e2 : [16384, 20] and two tables of 64 lanes, A of 12 rows and B of 16 rows; the
  result, [16384, 20, 128], holds at (r, l) row e1[r, l] of A in lanes 0..63 and row e2[r, l] of B in lanes 64..127 (the function
  `Cert.Spec.G`). The precondition says the tables are finite and 0 ≤ e1 ≤ 11, 0 ≤ e2 ≤ 15.

  THE REFERENCE looks each row number up separately: a negative number would be wrapped by the table's height and a number outside
  the table masked to a fill value; in range neither happens, the gather reads row e of its table, and the two results are
  concatenated along the lanes. Its run and this reading are `Cert.RefSide.run`.

  THE KERNEL PROGRAM first builds, with layout operations, one combined table of 192 = 12 · 16 rows of 128 lanes — row 16 a + b is
  row a of A beside row b of B — and the flat vector of the 327680 combined row numbers 16 e1 + e2, which in range are below 192.
  Thirty-two tiles then each take 10240 consecutive numbers and, eighty at a time, gather the rows they name out of a copy of the
  combined table in their core's shared memory and write them to four rows of the result. Every element of the result is written
  once, with row 16 e1 + e2 of the combined table at its lane, which is the two looked-up rows side by side: the same function.
  The run is the launch (the tiles' barrier hands each a read share of the shared copy; their obligation is the tile body's run)
  followed by reading the final memory; it is stated once for any float instance and used twice, over the program as printed at the
  bit-exact instance for the frame claim, and over its idealization at the ideal instance for the frame and the value claims. The
  idealization rewrote no operation, so that there is nothing to preserve.

  THE VALUE CLAIM: from memories agreeing on the four arguments both programs end with the result `Cert.Spec.G` of the arguments,
  the arguments unchanged; the precondition on the reference's memory is the kernel's, moved along the agreement.
-/
import proofs.«206824_g72705206386957_cont_9to1_m_461_20_alg».proof.Defs
import proofs.«206824_g72705206386957_cont_9to1_m_461_20_alg».proof.Proof.Gen.Kernel
import proofs.«206824_g72705206386957_cont_9to1_m_461_20_alg».proof.Proof.Gen.Kernel.Skeleton
import proofs.«206824_g72705206386957_cont_9to1_m_461_20_alg».proof.Proof.Gen.KernelIdeal
import proofs.«206824_g72705206386957_cont_9to1_m_461_20_alg».proof.Proof.Gen.KernelIdeal.Skeleton
import proofs.«206824_g72705206386957_cont_9to1_m_461_20_alg».proof.Proof.Gen.ReferenceIdeal
import proofs.«206824_g72705206386957_cont_9to1_m_461_20_alg».proof.Proof.Gen.Pre_input_domain
import proofs.«206824_g72705206386957_cont_9to1_m_461_20_alg».proof.Proof.PreFacts
import proofs.«206824_g72705206386957_cont_9to1_m_461_20_alg».proof.Proof.RefRun
import proofs.«206824_g72705206386957_cont_9to1_m_461_20_alg».proof.Proof.KILaunchD
import proofs.«206824_g72705206386957_cont_9to1_m_461_20_alg».proof.Proof.KBLaunchD
import proofs.«206824_g72705206386957_cont_9to1_m_461_20_alg».proof.Proof.KIBody
import proofs.«206824_g72705206386957_cont_9to1_m_461_20_alg».proof.Proof.KBBody
import Idealize.ShloMosaic.Adequacy
import Idealize.ShloMosaic.Init

noncomputable section

namespace Cert.Proof

open Idealize.ShloMosaic Idealize.SL.Sem Idealize.ShloMosaic.ValueIdx

/-! ## The kernel program's run, at both instances -/

/-- Under the precondition the flat row numbers the program builds are below 192, the combined table's height. -/
theorem KB_idx_lt (m : (ℓ : Loc Cert.Kernel.nD Cert.Kernel.τ Cert.Kernel.sig) → Buf (Elt Bits) ℓ) (hpre : Cert.Pre_Kernel m) (d : Dev Cert.Kernel.nD)
    (y : Cert.Kernel.S327680.Idx) : ((KB.iT m d : IVec Cert.Kernel.S327680 32) y).toNat < 192 := by
  obtain ⟨r1, r2⟩ := Cert.PreFacts.ranges _ _ _ _ (hpre d)
  rw [eq_ix1 y]
  exact Cert.Glue.idxT_lt _ _ (fun i => (r1 i).2) (fun i => (r2 i).2) (y 0)

/-- The program's run under the precondition: the result at the combined-table lookup, the arguments unchanged. -/
theorem KB_run (m : (ℓ : Loc Cert.Kernel.nD Cert.Kernel.τ Cert.Kernel.sig) → Buf (Elt Bits) ℓ) (ρ : Dev Cert.Kernel.nD → PrngReg) (hpre : Cert.Pre_Kernel m) :
    θ_run (Cert.Kernel.defs (F := Bits)) (Cert.Kernel.threads (F := Bits)) ⟨m, fun _ => 0, ρ⟩
      (fun r => ∀ c : Dev Cert.Kernel.nD, r.2.mem (KB.outLoc c) = KB.outF (KB.cT m) (KB.iT m) c ∧ r.2.mem (KB.a0Loc c) = m (KB.a0Loc c)
        ∧ r.2.mem (KB.a1Loc c) = m (KB.a1Loc c) ∧ r.2.mem (KB.a2Loc c) = m (KB.a2Loc c) ∧ r.2.mem (KB.a3Loc c) = m (KB.a3Loc c)) :=
  KB.run_main m ρ (KB.tileObl (KB.cT m) (KB.iT m) m KB.facts (KB_idx_lt m hpre))

theorem frame_k : Cert.frame_Kernel := fun m ρ hpre =>
  (θ_run _ _ _).mono (fun _ h c => (h c).2) (KB_run m ρ hpre)

/-- Under the precondition the flat row numbers the program builds are below 192, the combined table's height. -/
theorem KI_idx_lt (m : (ℓ : Loc Cert.KernelIdeal.nD Cert.KernelIdeal.τ Cert.KernelIdeal.sig) → Buf (Elt Ideal) ℓ) (hpre : Cert.Pre_KernelIdeal m) (d : Dev Cert.KernelIdeal.nD)
    (y : Cert.KernelIdeal.S327680.Idx) : ((KI.iT m d : IVec Cert.KernelIdeal.S327680 32) y).toNat < 192 := by
  obtain ⟨r1, r2⟩ := Cert.PreFacts.ranges _ _ _ _ (hpre d)
  rw [eq_ix1 y]
  exact Cert.Glue.idxT_lt _ _ (fun i => (r1 i).2) (fun i => (r2 i).2) (y 0)

/-- The program's run under the precondition: the result at the combined-table lookup, the arguments unchanged. -/
theorem KI_run (m : (ℓ : Loc Cert.KernelIdeal.nD Cert.KernelIdeal.τ Cert.KernelIdeal.sig) → Buf (Elt Ideal) ℓ) (ρ : Dev Cert.KernelIdeal.nD → PrngReg) (hpre : Cert.Pre_KernelIdeal m) :
    θ_run (Cert.KernelIdeal.defs (F := Ideal)) (Cert.KernelIdeal.threads (F := Ideal)) ⟨m, fun _ => 0, ρ⟩
      (fun r => ∀ c : Dev Cert.KernelIdeal.nD, r.2.mem (KI.outLoc c) = KI.outF (KI.cT m) (KI.iT m) c ∧ r.2.mem (KI.a0Loc c) = m (KI.a0Loc c)
        ∧ r.2.mem (KI.a1Loc c) = m (KI.a1Loc c) ∧ r.2.mem (KI.a2Loc c) = m (KI.a2Loc c) ∧ r.2.mem (KI.a3Loc c) = m (KI.a3Loc c)) :=
  KI.run_main m ρ (KI.tileObl (KI.cT m) (KI.iT m) m KI.facts (KI_idx_lt m hpre))

theorem frame_ki : Cert.frame_KernelIdeal := fun m ρ hpre =>
  (θ_run _ _ _).mono (fun _ h c => (h c).2) (KI_run m ρ hpre)

/-! ## The reference's run -/

theorem frame_ri : Cert.frame_ReferenceIdeal := fun m ρ hpre =>
  (θ_run _ _ _).mono (fun _ h c => (h c).2) (Cert.RefSide.run m ρ hpre)

/-! ## The two results are equal -/

theorem algebraic : Cert.algebraic_KernelIdeal_ReferenceIdeal := by
  intro m ρ m' ρ' hpre hagree
  have hpre' : Cert.Pre_ReferenceIdeal m' := by
    intro c
    rw [(hagree c).1, (hagree c).2.1, (hagree c).2.2.1, (hagree c).2.2.2]
    exact hpre c
  refine ⟨fun c => Cert.Spec.G (F := Ideal) (m (KI.a0Loc c)) (m (KI.a1Loc c)) (m (KI.a2Loc c)) (m (KI.a3Loc c)), ?_, ?_⟩
  · refine (θ_run _ _ _).mono (fun _ h c => ⟨(h c).1.trans ?_, (h c).2⟩) (KI_run m ρ hpre)
    obtain ⟨r1, r2⟩ := Cert.PreFacts.ranges _ _ _ _ (hpre c)
    exact KI.outF_eq_G m c (fun i => (r1 i).2) (fun i => (r2 i).2)
  · refine (θ_run _ _ _).mono (fun _ h c => ⟨(h c).1.trans ?_, (h c).2⟩) (Cert.RefSide.run m' ρ' hpre')
    rw [(hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_input_domain.Gen.facts,
    frame_k, frame_ki, frame_ri, trivial, algebraic⟩

end Cert.Proof

end
